-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x3 : Shape := ⟨3, ![8, 2048, 3]⟩
abbrev S8x2048 : Shape := ⟨2, ![8, 2048]⟩
abbrev S_ : Shape := ⟨0, ![]⟩

class Facts : Prop where
  bcast_S_S8x2048x3 : S_.BroadcastsInDim S8x2048x3 (![] : Fin 0 → Fin S8x2048x3.rank)
  reducesTo_S8x2048x3_S_d0_1_2 : S8x2048x3.ReducesTo [0, 1, 2] S_
  h_S_ : 0 < S_.numel
  bcast_S_S8x2048 : S_.BroadcastsInDim S8x2048 (![] : Fin 0 → Fin S8x2048.rank)
  reducesTo_S8x2048_S_d0_1 : S8x2048.ReducesTo [0, 1] S_

variable [Facts]

def fn {F : FTy → Type} [FloatOps F] (main_arg0 : FVec F S8x2048x3 .f32) (main_arg1 : FVec F S8x2048x3 .f32) (main_arg2 : FVec F S8x2048 .f32) : IVec S_ 1 :=
  let main_v0 : FVec F S8x2048x3 .f32 := Host.absf main_arg0
  let main_cst : FVec F S_ .f32 := constant S_ .f32 0x7F800000#32
  let main_v1 : FVec F S8x2048x3 .f32 := broadcastInDim S8x2048x3 ![] bcast_S_S8x2048x3 main_cst
  let main_v2 : IVec S8x2048x3 1 := cmpf .olt main_v0 main_v1
  let main_c : IVec S_ 1 := constantI S_ 1 1#1
  let main_v3 : IVec S_ 1 := (fun x v => Host.reduce IntOp.andi x v reducesTo_S8x2048x3_S_d0_1_2 h_S_) main_v2 main_c
  let main_v4 : FVec F S8x2048x3 .f32 := Host.absf main_arg1
  let main_cst_0 : FVec F S_ .f32 := constant S_ .f32 0x7F800000#32
  let main_v5 : FVec F S8x2048x3 .f32 := broadcastInDim S8x2048x3 ![] bcast_S_S8x2048x3 main_cst_0
  let main_v6 : IVec S8x2048x3 1 := cmpf .olt main_v4 main_v5
  let main_c_1 : IVec S_ 1 := constantI S_ 1 1#1
  let main_v7 : IVec S_ 1 := (fun x v => Host.reduce IntOp.andi x v reducesTo_S8x2048x3_S_d0_1_2 h_S_) main_v6 main_c_1
  let main_v8 : IVec S_ 1 := andi main_v3 main_v7
  let main_v9 : FVec F S8x2048 .f32 := Host.absf main_arg2
  let main_cst_2 : FVec F S_ .f32 := constant S_ .f32 0x7F800000#32
  let main_v10 : FVec F S8x2048 .f32 := broadcastInDim S8x2048 ![] bcast_S_S8x2048 main_cst_2
  let main_v11 : IVec S8x2048 1 := cmpf .olt main_v9 main_v10
  let main_c_3 : IVec S_ 1 := constantI S_ 1 1#1
  let main_v12 : IVec S_ 1 := (fun x v => Host.reduce IntOp.andi x v reducesTo_S8x2048_S_d0_1 h_S_) main_v11 main_c_3
  let main_v13 : IVec S_ 1 := andi main_v8 main_v12
  main_v13
-- ==== Kernel.lean ====
abbrev S8x2048x3 : Shape := ⟨3, ![8, 2048, 3]⟩
abbrev S8x2048 : Shape := ⟨2, ![8, 2048]⟩
abbrev S1x1 : Shape := ⟨2, ![1, 1]⟩
abbrev S1x512x3 : Shape := ⟨3, ![1, 512, 3]⟩
abbrev S512x3 : Shape := ⟨2, ![512, 3]⟩
abbrev S512x1 : Shape := ⟨2, ![512, 1]⟩
abbrev S512 : Shape := ⟨1, ![512]⟩
abbrev S1x512 : Shape := ⟨2, ![1, 512]⟩
abbrev S512x512 : Shape := ⟨2, ![512, 512]⟩
abbrev S1 : Shape := ⟨1, ![1]⟩
abbrev S8x1x2048 : Shape := ⟨3, ![8, 1, 2048]⟩
abbrev S1x1x512 : Shape := ⟨3, ![1, 1, 512]⟩
abbrev S1x1x2048 : Shape := ⟨3, ![1, 1, 2048]⟩
abbrev S1x2048 : Shape := ⟨2, ![1, 2048]⟩
abbrev S_ : Shape := ⟨0, ![]⟩

abbrev nBuf : Space → Nat
  | .hbm => 19
  | .vmem => 19
  | .smem => 0
  | _ => 0

abbrev bufTy : (tb : Table) → Fin (tcTables nBuf tb) → BufTy
  | .hbm, ⟨0, _⟩ => ⟨S8x2048x3, .f32⟩
  | .hbm, ⟨1, _⟩ => ⟨S8x2048x3, .f32⟩
  | .hbm, ⟨2, _⟩ => ⟨S8x2048, .f32⟩
  | .hbm, ⟨3, _⟩ => ⟨S1x1, .f32⟩
  | .hbm, ⟨4, _⟩ => ⟨S8x1x2048, .f32⟩
  | .hbm, ⟨5, _⟩ => ⟨S8x1x2048, .f32⟩
  | .hbm, ⟨6, _⟩ => ⟨S8x1x2048, .f32⟩
  | .hbm, ⟨7, _⟩ => ⟨S8x2048, .f32⟩
  | .hbm, ⟨8, _⟩ => ⟨S8x2048, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8x2048, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S1x512x3, .f32⟩
  | .local _ .vmem, ⟨1, _⟩ => ⟨S1x512x3, .f32⟩
  | .local _ .vmem, ⟨2, _⟩ => ⟨S1x512x3, .f32⟩
  | .local _ .vmem, ⟨3, _⟩ => ⟨S1x512x3, .f32⟩
  | .local _ .vmem, ⟨4, _⟩ => ⟨S1x1, .f32⟩
  | .local _ .vmem, ⟨5, _⟩ => ⟨S1x1, .f32⟩
  | .local _ .vmem, ⟨6, _⟩ => ⟨S1x1, .f32⟩
  | .local _ .vmem, ⟨7, _⟩ => ⟨S1x512x3, .f32⟩
  | .local _ .vmem, ⟨8, _⟩ => ⟨S1x512x3, .f32⟩
  | .local _ .vmem, ⟨9, _⟩ => ⟨S1x512x3, .f32⟩
  | .local _ .vmem, ⟨10, _⟩ => ⟨S1x512x3, .f32⟩
  | .local _ .vmem, ⟨11, _⟩ => ⟨S1x1x512, .f32⟩
  | .local _ .vmem, ⟨12, _⟩ => ⟨S1x1x512, .f32⟩
  | .local _ .vmem, ⟨13, _⟩ => ⟨S1x1x512, .f32⟩
  | .local _ .vmem, ⟨14, _⟩ => ⟨S1x1x512, .f32⟩
  | .local _ .vmem, ⟨15, _⟩ => ⟨S1x1x2048, .f32⟩
  | .local _ .vmem, ⟨16, _⟩ => ⟨S1x1x2048, .f32⟩
  | .local _ .vmem, ⟨17, _⟩ => ⟨S1x512, .f32⟩
  | .local _ .vmem, ⟨18, _⟩ => ⟨S1x2048, .f32⟩
  | _, _ => ⟨S8x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_scratch0 : Ref sig .tc := ⟨.vmem, 17, rfl⟩
abbrev cc1_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg0 : BitVec 32 := BitVec.ofNat 32 (i 0).val
  let c7_i32 : BitVec 32 := 7#32
  let v5 : BitVec 1 := Scalar.cmpi .eq arg0 c7_i32
  let arg1 : BitVec 32 := BitVec.ofNat 32 (i 1).val
  let c3_i32 : BitVec 32 := 3#32
  let v6 : BitVec 1 := Scalar.cmpi .eq arg1 c3_i32
  let v7 : BitVec 1 := Scalar.andi v5 v6
  let arg2 : BitVec 32 := BitVec.ofNat 32 (i 2).val
  let c3_i32_2 : BitVec 32 := 3#32
  let v8 : BitVec 1 := Scalar.cmpi .eq arg2 c3_i32_2
  let v9 : BitVec 1 := Scalar.andi v7 v8
  let v51 : BitVec 32 := Scalar.extui v9
  let c0_i32_14 : BitVec 32 := 0#32
  let v52 : BitVec 1 := Scalar.cmpi .ne v51 c0_i32_14
  v52

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev grid1 : Pipeline.Grid := ⟨3, ![8, 4, 4], ![false, false, false]⟩

def k1_mult1 (i : grid1.Coords) : BitVec 32 :=
  let arg2 : BitVec 32 := BitVec.ofNat 32 (i 2).val
  let c512_i32 : BitVec 32 := 512#32
  let v56 : BitVec 32 := Scalar.muli arg2 c512_i32
  v56
def k1_off1 (i : grid1.Coords) : Fin 2 → Nat :=
  let c0_19 : Index := 0#32
  let arg2 : BitVec 32 := BitVec.ofNat 32 (i 2).val
  let c512_i32 : BitVec 32 := 512#32
  let v56 : BitVec 32 := Scalar.muli arg2 c512_i32
  let v57 : BitVec 32 := v56
  let v58 : Index := Scalar.indexCast v57
  ![0, v58.toNat]
def k1_cond3 (i : grid1.Coords) : BitVec 1 :=
  let arg2 : BitVec 32 := BitVec.ofNat 32 (i 2).val
  let c3_i32 : BitVec 32 := 3#32
  let v65 : BitVec 1 := Scalar.cmpi .eq arg2 c3_i32
  let v66 : BitVec 32 := Scalar.extui v65
  let c0_i32_21 : BitVec 32 := 0#32
  let v67 : BitVec 1 := Scalar.cmpi .ne v66 c0_i32_21
  v67

def k1_cond4 (i : grid1.Coords) : BitVec 1 :=
  let arg1 : BitVec 32 := BitVec.ofNat 32 (i 1).val
  let c3_i32_22 : BitVec 32 := 3#32
  let v68 : BitVec 1 := Scalar.cmpi .eq arg1 c3_i32_22
  let arg2 : BitVec 32 := BitVec.ofNat 32 (i 2).val
  let c3_i32_23 : BitVec 32 := 3#32
  let v69 : BitVec 1 := Scalar.cmpi .eq arg2 c3_i32_23
  let v70 : BitVec 1 := Scalar.andi v68 v69
  let v71 : BitVec 32 := Scalar.extui v70
  let c0_i32_24 : BitVec 32 := 0#32
  let v72 : BitVec 1 := Scalar.cmpi .ne v71 c0_i32_24
  v72

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S1x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false, false]

abbrev stage1_1 : Fin 2 → Memref sig .tc .vmem S1x512x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x512x3 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, true]

abbrev stage1_4 : Fin 2 → Memref sig .tc .vmem S1x1x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev stage1_5 : Fin 2 → Memref sig .tc .vmem S1x1x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x512x3_S1x512x3_0_0_0 : ∀ a, (![0, 0, 0] : Fin 3 → Nat) a + S1x512x3.size a ≤ S1x512x3.size a
  h_S1x512x3 : 0 < S1x512x3.numel
  shapeCasts_S1x512x3_S512x3 : S1x512x3.ShapeCasts S512x3
  slices_S512x3_o0_0_S512x1 : S512x3.Slices ![0, 0] S512x1
  shapeCasts_S512x1_S512 : S512x1.ShapeCasts S512
  shapeCasts_S512_S1x512 : S512.ShapeCasts S1x512
  broadcasts_S512x1_S512x512 : S512x1.Broadcasts S512x512
  broadcasts_S1x512_S512x512 : S1x512.Broadcasts S512x512
  slices_S512x3_o0_1_S512x1 : S512x3.Slices ![0, 1] S512x1
  slices_S512x3_o0_2_S512x1 : S512x3.Slices ![0, 2] S512x1
  reduces_S512x512_S512 : S512x512.Reduces [1] S512
  shapeCasts_S512_S512x1 : S512.ShapeCasts S512x1
  reduces_S512x1_S1 : S512x1.Reduces [0] S1
  shapeCasts_S1_S1x1 : S1.ShapeCasts S1x1
  bcast_S8x2048_S8x1x2048_0_2 : S8x2048.BroadcastsInDim S8x1x2048 (![0, 2] : Fin 2 → Fin S8x1x2048.rank)
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inpos_S1x1_p0_0 : ∀ a, (![0, 0] : Fin 2 → Nat) a < S1x1.size a
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  transposes_S512x1_p1_0_S1x512 : S512x1.Transposes [1, 0] S1x512
  reduces_S512x512_S512_2 : S512x512.Reduces [0] S512
  shapeCasts_S1x512_S1x1x512 : S1x512.ShapeCasts S1x1x512
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  shapeCasts_S1x2048_S1x1x2048 : S1x2048.ShapeCasts S1x1x2048
  shapeCasts_S8x1x2048_S8x2048 : S8x1x2048.ShapeCasts S8x2048
  reducesTo_S8x2048_S_d0_1 : S8x2048.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x3.size a ≤ S8x2048x3.size a
  hwx0_0 : ∀ i : grid0.Coords, EltTy.bits .f32 = 32 ∨ (Rect.block (s := S8x2048x3) S1x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x3.size a ≤ S8x2048x3.size a
  hwx0_1 : ∀ i : grid0.Coords, EltTy.bits .f32 = 32 ∨ (Rect.block (s := S8x2048x3) S1x512x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hrank1 : 0 < grid1.rank
  k1_mult1_dvd : ∀ i : grid1.Coords, 512 ∣ (k1_mult1 i).toNat
  k1_off1_inb : ∀ i : grid1.Coords, ∀ a, (k1_off1 i) a + S1x512.size a ≤ S1x2048.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x1.size a ≤ S1x1.size a
  hwx1_0 : ∀ i : grid1.Coords, EltTy.bits .f32 = 32 ∨ (Rect.block (s := S1x1) S1x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x3.size a ≤ S8x2048x3.size a
  hwx1_1 : ∀ i : grid1.Coords, EltTy.bits .f32 = 32 ∨ (Rect.block (s := S8x2048x3) S1x512x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x3.size a ≤ S8x2048x3.size a
  hwx1_2 : ∀ i : grid1.Coords, EltTy.bits .f32 = 32 ∨ (Rect.block (s := S8x2048x3) S1x512x3.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x512.size a ≤ S8x1x2048.size a
  hwx1_3 : ∀ i : grid1.Coords, EltTy.bits .f32 = 32 ∨ (Rect.block (s := S8x1x2048) S1x1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x512.size a ≤ S8x1x2048.size a
  hwx1_4 : ∀ i : grid1.Coords, EltTy.bits .f32 = 32 ∨ (Rect.block (s := S8x1x2048) S1x1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1x2048.size a ≤ S8x1x2048.size a
  hwx1_5 : ∀ i : grid1.Coords, EltTy.bits .f32 = 32 ∨ (Rect.block (s := S8x1x2048) S1x1x2048.size (cc1_transform_5 i) (hinb1_5 i)).WholeWords (EltTy.packing .f32)

variable [Facts₀]

abbrev win0_0 : Pipeline.Window sig grid0 :=
  Pipeline.Window.ofSpec (Memref.whole main_arg0) S1x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v0) S1x1.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1x512x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S1x512x3.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x1x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2_0) S1x1x512.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v2_1) S1x1x2048.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun i => !(k1_cond3 i == 1#1) | 5 => fun i => !(k1_cond4 i == 1#1) | ⟨_ + 6, h⟩ => absurd h (Nat.not_lt.2 (Nat.le_add_left _ _))

class Facts : Prop extends Facts₀ where

variable [Facts]
-- ==== ReferenceIdeal.lean ====
abbrev S8x2048x3 : Shape := ⟨3, ![8, 2048, 3]⟩
abbrev S8x2048 : Shape := ⟨2, ![8, 2048]⟩
abbrev S8x2048x1x3 : Shape := ⟨4, ![8, 2048, 1, 3]⟩
abbrev S8x1x2048x3 : Shape := ⟨4, ![8, 1, 2048, 3]⟩
abbrev S8x2048x2048x3 : Shape := ⟨4, ![8, 2048, 2048, 3]⟩
abbrev S_ : Shape := ⟨0, ![]⟩
abbrev S8x2048x2048 : Shape := ⟨3, ![8, 2048, 2048]⟩
abbrev S8x1x2048 : Shape := ⟨3, ![8, 1, 2048]⟩

abbrev nBuf : Space → Nat
  | .hbm => 34
  | .vmem => 0
  | .smem => 0
  | _ => 0

abbrev bufTy : (tb : Table) → Fin (tcTables nBuf tb) → BufTy
  | .hbm, ⟨0, _⟩ => ⟨S8x2048x3, .f32⟩
  | .hbm, ⟨1, _⟩ => ⟨S8x2048x3, .f32⟩
  | .hbm, ⟨2, _⟩ => ⟨S8x2048, .f32⟩
  | .hbm, ⟨3, _⟩ => ⟨S8x2048x1x3, .f32⟩
  | .hbm, ⟨4, _⟩ => ⟨S8x1x2048x3, .f32⟩
  | .hbm, ⟨5, _⟩ => ⟨S8x2048x2048x3, .f32⟩
  | .hbm, ⟨6, _⟩ => ⟨S8x2048x2048x3, .f32⟩
  | .hbm, ⟨7, _⟩ => ⟨S8x2048x2048x3, .f32⟩
  | .hbm, ⟨8, _⟩ => ⟨S8x2048x2048x3, .f32⟩
  | .hbm, ⟨9, _⟩ => ⟨S_, .f32⟩
  | .hbm, ⟨10, _⟩ => ⟨S8x2048x2048, .f32⟩
  | .hbm, ⟨11, _⟩ => ⟨S_, .f32⟩
  | .hbm, ⟨12, _⟩ => ⟨S_, .f32⟩
  | .hbm, ⟨13, _⟩ => ⟨S8x1x2048, .f32⟩
  | .hbm, ⟨14, _⟩ => ⟨S8x1x2048, .f32⟩
  | .hbm, ⟨15, _⟩ => ⟨S8x1x2048, .f32⟩
  | .hbm, ⟨16, _⟩ => ⟨S8x2048x2048, .f32⟩
  | .hbm, ⟨17, _⟩ => ⟨S8x2048x2048, .f32⟩
  | .hbm, ⟨18, _⟩ => ⟨S_, .f32⟩
  | .hbm, ⟨19, _⟩ => ⟨S8x2048, .f32⟩
  | .hbm, ⟨20, _⟩ => ⟨S8x2048, .f32⟩
  | .hbm, ⟨21, _⟩ => ⟨S8x2048, .f32⟩
  | .hbm, ⟨22, _⟩ => ⟨S_, .f32⟩
  | .hbm, ⟨23, _⟩ => ⟨S8x2048, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S8x2048, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | _, _ => ⟨S8x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]

class Facts₀ : Prop where
  bcast_S8x2048x3_S8x2048x1x3_0_1_3 : S8x2048x3.BroadcastsInDim S8x2048x1x3 (![0, 1, 3] : Fin 3 → Fin S8x2048x1x3.rank)
  bcast_S8x2048x3_S8x1x2048x3_0_2_3 : S8x2048x3.BroadcastsInDim S8x1x2048x3 (![0, 2, 3] : Fin 3 → Fin S8x1x2048x3.rank)
  bcast_S8x2048x1x3_S8x2048x2048x3_0_1_2_3 : S8x2048x1x3.BroadcastsInDim S8x2048x2048x3 (![0, 1, 2, 3] : Fin 4 → Fin S8x2048x2048x3.rank)
  bcast_S8x1x2048x3_S8x2048x2048x3_0_1_2_3 : S8x1x2048x3.BroadcastsInDim S8x2048x2048x3 (![0, 1, 2, 3] : Fin 4 → Fin S8x2048x2048x3.rank)
  reducesTo_S8x2048x2048x3_S8x2048x2048_d3 : S8x2048x2048x3.ReducesTo [3] S8x2048x2048
  h_S_ : 0 < S_.numel
  reducesTo_S8x2048x2048_S_d0_1_2 : S8x2048x2048.ReducesTo [0, 1, 2] S_
  bcast_S8x2048_S8x1x2048_0_2 : S8x2048.BroadcastsInDim S8x1x2048 (![0, 2] : Fin 2 → Fin S8x1x2048.rank)
  bcast_S_S8x1x2048 : S_.BroadcastsInDim S8x1x2048 (![] : Fin 0 → Fin S8x1x2048.rank)
  bcast_S8x1x2048_S8x2048x2048_0_1_2 : S8x1x2048.BroadcastsInDim S8x2048x2048 (![0, 1, 2] : Fin 3 → Fin S8x2048x2048.rank)
  reducesTo_S8x2048x2048_S8x2048_d2 : S8x2048x2048.ReducesTo [2] S8x2048
  bcast_S_S8x2048 : S_.BroadcastsInDim S8x2048 (![] : Fin 0 → Fin S8x2048.rank)
  reducesTo_S8x2048x2048_S8x2048_d1 : S8x2048x2048.ReducesTo [1] S8x2048
  reducesTo_S8x2048_S_d0_1 : S8x2048.ReducesTo [0, 1] S_

variable [Facts₀]

class Facts : Prop extends Facts₀ where

variable [Facts]
-- ==== Proof.K.R0Runs.lean ====
/-
  Region 0 (the running maximum of the L1 distances over all 8·4·4 grid points): the two branch conditions of the
  body as propositions over the grid coordinates, where over the 128 points each holds (the first point; the last
  point), at which points the result window is idle and not written back, and the staging and scratch memrefs the
  body is called with at a point.
-/
import proofs.«161420_j81003083203706_2_alg».proof.Proof.Gen.Kernel.Launch
import proofs.«161420_j81003083203706_2_alg».proof.Proof.Gen.Kernel.Skeleton
import proofs.«161420_j81003083203706_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- "This is the first grid point": the accumulator is reset to -∞ under it. -/
abbrev cond0_0 (i : grid0.Coords) : Prop :=
  (Scalar.cmpi .ne (Scalar.extui (Scalar.andi (Scalar.andi (Scalar.cmpi .eq (BitVec.ofNat 32 (i 0).val) 0#32) (Scalar.cmpi .eq (BitVec.ofNat 32 (i 1).val) 0#32)) (Scalar.cmpi .eq (BitVec.ofNat 32 (i 2).val) 0#32))) 0#32) = 1#1
/-- It holds at point 0 only. -/
theorem hcond0_0 : ∀ t : Fin cfg0.N, cond0_0 (grid0.coords t) ↔ t.val = 0 :=
  (by decide +kernel : ∀ t : Fin grid0.N, cond0_0 (grid0.coords t) ↔ t.val = 0)

/-- "This is the last grid point": the accumulator is copied to the result under it. -/
abbrev cond0_1 (i : grid0.Coords) : Prop := k0_cond2 i = 1#1
/-- It holds at point 127 only. -/
theorem hcond0_1 : ∀ t : Fin cfg0.N, cond0_1 (grid0.coords t) ↔ t.val = 127 :=
  (by decide +kernel : ∀ t : Fin grid0.N, cond0_1 (grid0.coords t) ↔ t.val = 127)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last point the result window is idle (nothing is stored into it) … -/
theorem idleAt0_2 : ∀ t : Fin cfg0.N, ¬cond0_1 (grid0.coords t) → cfg0.idle 2 (grid0.coords t) = true := by decide +kernel
/-- … and is not written back. -/
theorem noFlush0_2 : ∀ t : Fin cfg0.N, ¬cond0_1 (grid0.coords t) → (cfg0.win 2).flush t = false := by decide +kernel
/-- At the last point it is live. -/
theorem liveAt0_2 : ∀ t : Fin cfg0.N, cond0_1 (grid0.coords t) → cfg0.idle 2 (grid0.coords t) = false := by decide +kernel

/-! ## The memrefs the body is called with -/

abbrev ms0_0 (t : Fin cfg0.N) : Memref sig .tc .vmem S1x512x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
/-- The accumulator: a 1×1 scratch buffer of the kernel's own, carried from point to point. -/
abbrev scM0_0 : Memref sig .tc .vmem S1x1 .f32 := Memref.whole cc0_scratch0
abbrev VS0_0 : View sig .tc .vmem S1x1 .f32 := scM0_0.view
/-- One staging buffer of the result window, through which its contents are stated. -/
abbrev VO0_2 : View sig .tc .vmem S1x1 .f32 := (Memref.whole cc0_stg2_0 : Memref sig .tc .vmem S1x1 .f32).view

end Cert.Kernel.Hand

end
-- ==== Proof.K.R0RunA.lean ====
/-
  Region 0, the body at the FIRST grid point: the accumulator is first set to -∞, then to the maximum of that and the
  tile's largest distance; the result window is left untouched. The stores found by running the body are the witness.
-/
import proofs.«161420_j81003083203706_2_alg».proof.Proof.K.R0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_A (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i)
    (x0 : Vec F S1x512x3 .f32) (x1 : Vec F S1x512x3 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__max_kernel i arg3 harg3 arg4 harg4 arg5 harg5 arg6 harg6) K } := by
  refine ⟨[], ?_, fun xi2 E K => ?run⟩
  case run =>
    simp only [cc0__max_kernel_eq_skeleton]; unfold cc0__max_kernel_skel
    simp only [k0_part1_eq_skeleton]
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Hand

end
-- ==== Proof.K.R0RunB.lean ====
/-
  Region 0, the body at a grid point that is neither the first nor the last: the accumulator, holding what the point
  before left, is replaced by the maximum of itself and the tile's largest distance; the result window is untouched.
-/
import proofs.«161420_j81003083203706_2_alg».proof.Proof.K.R0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_B (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i)
    (x0 : Vec F S1x512x3 .f32) (x1 : Vec F S1x512x3 .f32) (xs0 : Vec F S1x1 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__max_kernel i arg3 harg3 arg4 harg4 arg5 harg5 arg6 harg6) K } := by
  refine ⟨[], ?_, fun xi2 E K => ?run⟩
  case run =>
    simp only [cc0__max_kernel_eq_skeleton]; unfold cc0__max_kernel_skel
    simp only [k0_part1_eq_skeleton]
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Hand

end
-- ==== Proof.K.R0RunC.lean ====
/-
  Region 0, the body at the LAST grid point: the accumulator is replaced by the maximum of itself and the tile's
  largest distance, and that value is stored into the result window.
-/
import proofs.«161420_j81003083203706_2_alg».proof.Proof.K.R0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_C (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S1x512x3 .f32) (x1 : Vec F S1x512x3 .f32) (xs0 : Vec F S1x1 .f32) :
    Σ' (L2 : List (View.Piece (Elt F) S1x1 .f32)), { LS0 : List (View.Piece (Elt F) S1x1 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0__max_kernel i arg3 harg3 arg4 harg4 arg5 harg5 arg6 harg6) K } := by
  refine ⟨?_, ?_, fun E K => ?run⟩
  case run =>
    simp only [cc0__max_kernel_eq_skeleton]; unfold cc0__max_kernel_skel
    simp only [k0_part1_eq_skeleton]
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Hand

end
-- ==== Proof.K.R0Frame.lean ====
/-
  Region 0 as a pipeline with proof data: what the result window's staging buffer and the accumulator hold after each
  grid point (by recursion on the point: the first point resets, every later one takes the maximum with what the
  point before left, the last one also copies the accumulator out), the invariant that carries the accumulator from
  point to point, and the body's obligation at every point, by cases on where the point lies.
  Everything is stated at a parameter `V`: the core's buffer contents when the region is entered.
-/
import proofs.«161420_j81003083203706_2_alg».proof.Proof.K.R0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/

/-- The first point stores nothing into the result window: a placeholder nothing consults. -/
def out0_A_2 (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i) (x0 x1 : Vec F S1x512x3 .f32) : Vec F S1x1 .f32 :=
  VO0_2.read (Elt F) (VO0_2.writes (Elt F) VO0_2.junk (kernelRun0_A c i arg3 harg3 arg4 harg4 arg5 harg5 arg6 harg6 hc0 hc1 x0 x1).1)
theorem scover0_A_0 (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i) (x0 x1 : Vec F S1x512x3 .f32) (y : S1x1.Idx) :
    ∃ pc ∈ (kernelRun0_A c i arg3 harg3 arg4 harg4 arg5 harg5 arg6 harg6 hc0 hc1 x0 x1).2.1, y ∈ pc.1.set :=
  View.cover_of_tiledL (kernelRun0_A c i arg3 harg3 arg4 harg4 arg5 harg5 arg6 harg6 hc0 hc1 x0 x1).2.1 S1x1.size (by sl_kernel_rfl) y
/-- The accumulator after the first point. -/
def sout0_A_0 (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i) (x0 x1 : Vec F S1x512x3 .f32) : Vec F S1x1 .f32 :=
  VS0_0.read (Elt F) (VS0_0.writes (Elt F) VS0_0.junk (kernelRun0_A c i arg3 harg3 arg4 harg4 arg5 harg5 arg6 harg6 hc0 hc1 x0 x1).2.1)

def out0_B_2 (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i) (x0 x1 : Vec F S1x512x3 .f32) (xs0 : Vec F S1x1 .f32) : Vec F S1x1 .f32 :=
  VO0_2.read (Elt F) (VO0_2.writes (Elt F) VO0_2.junk (kernelRun0_B c i arg3 harg3 arg4 harg4 arg5 harg5 arg6 harg6 hc0 hc1 x0 x1 xs0).1)
theorem scover0_B_0 (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i) (x0 x1 : Vec F S1x512x3 .f32) (xs0 : Vec F S1x1 .f32) (y : S1x1.Idx) :
    ∃ pc ∈ (kernelRun0_B c i arg3 harg3 arg4 harg4 arg5 harg5 arg6 harg6 hc0 hc1 x0 x1 xs0).2.1, y ∈ pc.1.set :=
  View.cover_of_tiledL (kernelRun0_B c i arg3 harg3 arg4 harg4 arg5 harg5 arg6 harg6 hc0 hc1 x0 x1 xs0).2.1 S1x1.size (by sl_kernel_rfl) y
/-- The accumulator after a middle point. -/
def sout0_B_0 (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i) (x0 x1 : Vec F S1x512x3 .f32) (xs0 : Vec F S1x1 .f32) : Vec F S1x1 .f32 :=
  VS0_0.read (Elt F) (VS0_0.writes (Elt F) VS0_0.junk (kernelRun0_B c i arg3 harg3 arg4 harg4 arg5 harg5 arg6 harg6 hc0 hc1 x0 x1 xs0).2.1)

theorem cover0_C_2 (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i) (x0 x1 : Vec F S1x512x3 .f32) (xs0 : Vec F S1x1 .f32) (y : S1x1.Idx) :
    ∃ pc ∈ (kernelRun0_C c i arg3 harg3 arg4 harg4 arg5 harg5 arg6 harg6 hc0 hc1 x0 x1 xs0).1, y ∈ pc.1.set :=
  View.cover_of_tiledL (kernelRun0_C c i arg3 harg3 arg4 harg4 arg5 harg5 arg6 harg6 hc0 hc1 x0 x1 xs0).1 S1x1.size (by sl_kernel_rfl) y
/-- The result window after the last point. -/
def out0_C_2 (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i) (x0 x1 : Vec F S1x512x3 .f32) (xs0 : Vec F S1x1 .f32) : Vec F S1x1 .f32 :=
  VO0_2.read (Elt F) (VO0_2.writes (Elt F) VO0_2.junk (kernelRun0_C c i arg3 harg3 arg4 harg4 arg5 harg5 arg6 harg6 hc0 hc1 x0 x1 xs0).1)
theorem scover0_C_0 (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i) (x0 x1 : Vec F S1x512x3 .f32) (xs0 : Vec F S1x1 .f32) (y : S1x1.Idx) :
    ∃ pc ∈ (kernelRun0_C c i arg3 harg3 arg4 harg4 arg5 harg5 arg6 harg6 hc0 hc1 x0 x1 xs0).2.1, y ∈ pc.1.set :=
  View.cover_of_tiledL (kernelRun0_C c i arg3 harg3 arg4 harg4 arg5 harg5 arg6 harg6 hc0 hc1 x0 x1 xs0).2.1 S1x1.size (by sl_kernel_rfl) y
/-- The accumulator after the last point. -/
def sout0_C_0 (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i) (x0 x1 : Vec F S1x512x3 .f32) (xs0 : Vec F S1x1 .f32) : Vec F S1x1 .f32 :=
  VS0_0.read (Elt F) (VS0_0.writes (Elt F) VS0_0.junk (kernelRun0_C c i arg3 harg3 arg4 harg4 arg5 harg5 arg6 harg6 hc0 hc1 x0 x1 xs0).2.1)

/-! ## Point by point -/

/-- What the result window's staging buffer and the accumulator hold after the body at position `n`. -/
def outsAt0 (c : Dev nD) : (n : ℕ) → n < cfg0.N → Vec F S1x1 .f32 × Vec F S1x1 .f32
  | 0, hn =>
    have h0 := (hcond0_0 ⟨0, hn⟩).mpr rfl
    have h1 : ¬cond0_1 (grid0.coords ⟨0, hn⟩) := fun h => absurd ((hcond0_1 ⟨0, hn⟩).mp h) (show ¬ (0 : ℕ) = 127 by decide)
    (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) h0 h1 (iblk0 V c 0 ⟨0, hn⟩) (iblk0 V c 1 ⟨0, hn⟩),
     sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) h0 h1 (iblk0 V c 0 ⟨0, hn⟩) (iblk0 V c 1 ⟨0, hn⟩))
  | n + 1, hn =>
    have h0 : ¬cond0_0 (grid0.coords ⟨n + 1, hn⟩) := fun h => absurd ((hcond0_0 ⟨n + 1, hn⟩).mp h) (Nat.succ_ne_zero n)
    if h1 : n + 1 = 127 then
      (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) h0 ((hcond0_1 ⟨n + 1, hn⟩).mpr h1) (iblk0 V c 0 ⟨n + 1, hn⟩) (iblk0 V c 1 ⟨n + 1, hn⟩) (outsAt0 c n (Nat.lt_of_succ_lt hn)).2,
       sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) h0 ((hcond0_1 ⟨n + 1, hn⟩).mpr h1) (iblk0 V c 0 ⟨n + 1, hn⟩) (iblk0 V c 1 ⟨n + 1, hn⟩) (outsAt0 c n (Nat.lt_of_succ_lt hn)).2)
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) h0 (fun h => h1 ((hcond0_1 ⟨n + 1, hn⟩).mp h)) (iblk0 V c 0 ⟨n + 1, hn⟩) (iblk0 V c 1 ⟨n + 1, hn⟩) (outsAt0 c n (Nat.lt_of_succ_lt hn)).2,
       sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) h0 (fun h => h1 ((hcond0_1 ⟨n + 1, hn⟩).mp h)) (iblk0 V c 0 ⟨n + 1, hn⟩) (iblk0 V c 1 ⟨n + 1, hn⟩) (outsAt0 c n (Nat.lt_of_succ_lt hn)).2)

/-- At the first point: the first case's contents. -/
theorem outsAt0_A (c : Dev nD) (t : Fin cfg0.N) (hc0 : cond0_0 (grid0.coords t)) (hc1 : ¬cond0_1 (grid0.coords t)) :
    outsAt0 V c t.val t.isLt = (out0_A_2 c (grid0.coords t) (ms0_0 t) (hs0_0 t) (ms0_1 t) (hs0_1 t) (ms0_2 t) (hs0_2 t) scM0_0 (Memref.isWhole_whole _) hc0 hc1 (iblk0 V c 0 t) (iblk0 V c 1 t), sout0_A_0 c (grid0.coords t) (ms0_0 t) (hs0_0 t) (ms0_1 t) (hs0_1 t) (ms0_2 t) (hs0_2 t) scM0_0 (Memref.isWhole_whole _) hc0 hc1 (iblk0 V c 0 t) (iblk0 V c 1 t)) := by
  obtain ⟨n, hn⟩ := t
  cases n with
  | zero => rfl
  | succ n => exact absurd ((hcond0_0 ⟨n + 1, hn⟩).mp hc0) (Nat.succ_ne_zero n)

/-- At a middle point: the maximum with what the point before left. -/
theorem outsAt0_B (c : Dev nD) (t : Fin cfg0.N) (hc0 : ¬cond0_0 (grid0.coords t)) (hc1 : ¬cond0_1 (grid0.coords t)) :
    outsAt0 V c t.val t.isLt = (out0_B_2 c (grid0.coords t) (ms0_0 t) (hs0_0 t) (ms0_1 t) (hs0_1 t) (ms0_2 t) (hs0_2 t) scM0_0 (Memref.isWhole_whole _) hc0 hc1 (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) hc0 hc1 (iblk0 V c 0 t) (iblk0 V c 1 t) (outsAt0 V c (t.val - 1) (Nat.lt_of_le_of_lt (Nat.sub_le _ _) t.isLt)).2) := by
  obtain ⟨n, hn⟩ := t
  cases n with
  | zero => exact absurd ((hcond0_0 ⟨0, hn⟩).mpr rfl) hc0
  | succ n => exact (dif_neg (fun h => hc1 ((hcond0_1 ⟨n + 1, hn⟩).mpr h))).trans rfl

/-- At the last point: the same, and the accumulator copied out. -/
theorem outsAt0_C (c : Dev nD) (t : Fin cfg0.N) (hc0 : ¬cond0_0 (grid0.coords t)) (hc1 : cond0_1 (grid0.coords t)) :
    outsAt0 V c t.val t.isLt = (out0_C_2 c (grid0.coords t) (ms0_0 t) (hs0_0 t) (ms0_1 t) (hs0_1 t) (ms0_2 t) (hs0_2 t) scM0_0 (Memref.isWhole_whole _) hc0 hc1 (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) hc0 hc1 (iblk0 V c 0 t) (iblk0 V c 1 t) (outsAt0 V c (t.val - 1) (Nat.lt_of_le_of_lt (Nat.sub_le _ _) t.isLt)).2) := by
  obtain ⟨n, hn⟩ := t
  cases n with
  | zero => exact absurd ((hcond0_0 ⟨0, hn⟩).mpr rfl) hc0
  | succ n => exact (dif_pos ((hcond0_1 ⟨n + 1, hn⟩).mp hc1)).trans rfl

/-! ## The invariant -/

/-- The class invariant hands out the accumulator (at some contents) and takes it back at any contents: the other
    scoped buffers and the generator register stay inside the wand, unnamed. -/
theorem PhiA0_split (c : Dev nD) :
    (Pipeline.ΦA spec0 c : sProp 𝕄) ⊢ iprop((∃ d, owns (c : Thread nD τ) scM0_0 fullShare d) ∗ ((∃ d, owns (c : Thread nD τ) scM0_0 fullShare d) -∗ Pipeline.ΦA spec0 c)) := by
  unfold Pipeline.ΦA; rw [scopedRest0_eq]; simp only [scM0_0, owns_whole]
  iintro ⟨⟨HS, Hrest⟩, Hg⟩
  isplitl [HS]; · iexact HS
  iintro HS'
  isplitl [HS' Hrest]
  · isplitl [HS']; · iexact HS'
    iexact Hrest
  iexact Hg

/-- Before position `n`: at the start the class invariant; afterwards the accumulator at what the point before
    left, beside the promise that giving it back (at anything) restores the class invariant. -/
def PhiS0 (c : Dev nD) : (n : ℕ) → n ≤ cfg0.N → sProp 𝕄
  | 0, _ => Pipeline.ΦA spec0 c
  | n + 1, hn => iprop(owns (c : Thread nD τ) scM0_0 fullShare ((outsAt0 V c n hn).2) ∗ ((∃ d, owns (c : Thread nD τ) scM0_0 fullShare d) -∗ Pipeline.ΦA spec0 c))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(owns (c : Thread nD τ) scM0_0 fullShare ((outsAt0 V c n hn).2) ∗ ((∃ d, owns (c : Thread nD τ) scM0_0 fullShare d) -∗ Pipeline.ΦA spec0 c)) := rfl
theorem PhiS0_pos (c : Dev nD) (n : ℕ) (h : n ≤ cfg0.N) (hz : n ≠ 0) :
    PhiS0 V c n h = iprop(owns (c : Thread nD τ) scM0_0 fullShare ((outsAt0 V c (n - 1) (by omega)).2) ∗ ((∃ d, owns (c : Thread nD τ) scM0_0 fullShare d) -∗ Pipeline.ΦA spec0 c)) := by
  cases n with
  | zero => exact absurd rfl hz
  | succ n => rfl

/-! ## The proof data -/

/-- Region 0's proof data on core `c`: the arrays as the region finds them; after the body each input's buffer at
    its block, the result's at the recursion's first component; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' buffers hold their blocks; the point is the first, a middle one or the last;
    the invariant hands the body the accumulator (at anything at the first point, else at what the point before
    left) and takes it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 128 := lt_of_lt_of_eq t.isLt (show cfg0.N = 128 from N_0)
  by_cases h0 : t.val = 0
  · have hc0 : cond0_0 (grid0.coords t) := (hcond0_0 t).mpr h0
    have hc1 : ¬cond0_1 (grid0.coords t) := fun h => by have := (hcond0_1 t).mp h; omega
    rw [Dat.leavesExact_idle (dat0 V c) 2 t (idleAt0_2 t hc1) (noFlush0_2 t hc1)]
    rw [outsAt0_A V c t hc0 hc1]
    unfold sout0_A_0; (try dsimp only)
    rw [PhiS0_castSucc V c t, PhiS0_zero V c _ _ h0]
    iintro ⟨HΦ, Ho, ⟨%d0, H0⟩, ⟨%d1, H1⟩, ⟨%d2, H2⟩⟩
    ihave Hsp := PhiA0_split c $$ HΦ
    icases Hsp with ⟨HS0, Hw⟩
    iapply ((kernelRun0_A c (grid0.coords t) _ _ _ _ _ _ _ _ hc0 hc1 (iblk0 V c 0 t) (iblk0 V c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hw]
    · isplitl [HS0]
      · unfold owns; iexists _; isplitr
        swap; · iexact HS0
        ipureintro; exact View.read_writes_of_cover _ _ _ _ _ (scover0_A_0 c _ _ _ _ _ _ _ _ _ _ _ _ _)
      iexact Hw
    isplitl [Ho]; · iexact Ho
    isplitl [H0]; · iexact H0
    isplitl [H1]; · iexact H1
    iexists _; iexact H2
  · have hc0 : ¬cond0_0 (grid0.coords t) := fun h => h0 ((hcond0_0 t).mp h)
    by_cases h1 : t.val = 127
    · have hc1 : cond0_1 (grid0.coords t) := (hcond0_1 t).mpr h1
      rw [show (dat0 V c).leavesExact 2 t = owns (c : Thread nD τ) (ms0_2 t) fullShare ((dat0 V c).after 2 t) from by
        unfold Dat.leavesExact; rw [liveAt0_2 t hc1], after0_2]
      rw [outsAt0_C V c t hc0 hc1]
      unfold out0_C_2 sout0_C_0; (try dsimp only)
      rw [PhiS0_castSucc V c t, PhiS0_pos V c _ _ h0]
      iintro ⟨⟨HS0, Hw⟩, Ho, ⟨%d0, H0⟩, ⟨%d1, H1⟩, ⟨%d2, H2⟩⟩
      iapply ((kernelRun0_C c (grid0.coords t) _ _ _ _ _ _ _ _ hc0 hc1 (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hw]
      · isplitl [HS0]
        · unfold owns; iexists _; isplitr
          swap; · iexact HS0
          ipureintro; exact View.read_writes_of_cover _ _ _ _ _ (scover0_C_0 c _ _ _ _ _ _ _ _ _ _ _ _ _ _)
        iexact Hw
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · have hc1 : ¬cond0_1 (grid0.coords t) := fun h => h1 ((hcond0_1 t).mp h)
      rw [Dat.leavesExact_idle (dat0 V c) 2 t (idleAt0_2 t hc1) (noFlush0_2 t hc1)]
      rw [outsAt0_B V c t hc0 hc1]
      unfold sout0_B_0; (try dsimp only)
      rw [PhiS0_castSucc V c t, PhiS0_pos V c _ _ h0]
      iintro ⟨⟨HS0, Hw⟩, Ho, ⟨%d0, H0⟩, ⟨%d1, H1⟩, ⟨%d2, H2⟩⟩
      iapply ((kernelRun0_B c (grid0.coords t) _ _ _ _ _ _ _ _ hc0 hc1 (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hw]
      · isplitl [HS0]
        · unfold owns; iexists _; isplitr
          swap; · iexact HS0
          ipureintro; exact View.read_writes_of_cover _ _ _ _ _ (scover0_B_0 c _ _ _ _ _ _ _ _ _ _ _ _ _ _)
        iexact Hw
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class invariant back: the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 128 := N_0; omega)]
  iintro ⟨HS0, Hw⟩
  iapply Hw
  iexists _; iexact HS0

end Cert.Kernel.Hand

end
-- ==== Proof.K.R1Runs.lean ====
/-
  Region 1 (per batch row: for every source point the least masked-shifted distance to a target point, and for every
  target point the least distance to a source point, both as running minima over a 4×4 sweep of 512×512 tiles):
  the four branch conditions of the body over the grid coordinates (b, nb, mb), where over the 128 points each holds,
  at which points each result window is idle and not written back, and the memrefs the body is called with.
-/
import proofs.«161420_j81003083203706_2_alg».proof.Proof.Gen.Kernel.Launch
import proofs.«161420_j81003083203706_2_alg».proof.Proof.Gen.Kernel.Skeleton
import proofs.«161420_j81003083203706_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- "mb = 0": the row minima are reset to +∞ under it. -/
abbrev cond1_0 (i : grid1.Coords) : Prop :=
  (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "nb = 0 and mb = 0": the column minima are reset to +∞ under it. -/
abbrev cond1_1 (i : grid1.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
theorem hcond1_1 : ∀ t : Fin cfg1.N, cond1_1 (grid1.coords t) ↔ t.val % 16 = 0 :=
  (by decide +kernel : ∀ t : Fin grid1.N, cond1_1 (grid1.coords t) ↔ t.val % 16 = 0)

/-- "mb = 3": the row minima, shifted back by the maximum, are stored to the first result under it. -/
abbrev cond1_2 (i : grid1.Coords) : Prop := k1_cond3 i = 1#1
theorem hcond1_2 : ∀ t : Fin cfg1.N, cond1_2 (grid1.coords t) ↔ t.val % 4 = 3 :=
  (by decide +kernel : ∀ t : Fin grid1.N, cond1_2 (grid1.coords t) ↔ t.val % 4 = 3)

/-- "nb = 3 and mb = 3": the column minima are stored to the second result under it. -/
abbrev cond1_3 (i : grid1.Coords) : Prop := k1_cond4 i = 1#1
theorem hcond1_3 : ∀ t : Fin cfg1.N, cond1_3 (grid1.coords t) ↔ t.val % 16 = 15 :=
  (by decide +kernel : ∀ t : Fin grid1.N, cond1_3 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem idleAt1_4 : ∀ t : Fin cfg1.N, ¬cond1_2 (grid1.coords t) → cfg1.idle 4 (grid1.coords t) = true := by decide +kernel
theorem noFlush1_4 : ∀ t : Fin cfg1.N, ¬cond1_2 (grid1.coords t) → (cfg1.win 4).flush t = false := by decide +kernel
theorem liveAt1_4 : ∀ t : Fin cfg1.N, cond1_2 (grid1.coords t) → cfg1.idle 4 (grid1.coords t) = false := by decide +kernel
theorem idleAt1_5 : ∀ t : Fin cfg1.N, ¬cond1_3 (grid1.coords t) → cfg1.idle 5 (grid1.coords t) = true := by decide +kernel
theorem noFlush1_5 : ∀ t : Fin cfg1.N, ¬cond1_3 (grid1.coords t) → (cfg1.win 5).flush t = false := by decide +kernel
theorem liveAt1_5 : ∀ t : Fin cfg1.N, cond1_3 (grid1.coords t) → cfg1.idle 5 (grid1.coords t) = false := by decide +kernel

/-! ## The memrefs the body is called with -/

abbrev ms1_0 (t : Fin cfg1.N) : Memref sig .tc .vmem S1x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x3 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x3 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1x2048 .f32 := win1_5.stage (cfg1.slots t 5)
abbrev hs1_5 (t : Fin cfg1.N) : (ms1_5 t).IsWhole := hstage1_5 ((cfg1.slots t 5).cast nbuf1_5)
/-- The running row minima: a 1×512 scratch of the kernel's own, carried from point to point. -/
abbrev scM1_0 : Memref sig .tc .vmem S1x512 .f32 := Memref.whole cc1_scratch0
/-- The running column minima: a 1×2048 scratch, carried from point to point, one 512-wide slice updated per point. -/
abbrev scM1_1 : Memref sig .tc .vmem S1x2048 .f32 := Memref.whole cc1_scratch1
abbrev VS1_0 : View sig .tc .vmem S1x512 .f32 := scM1_0.view
abbrev VS1_1 : View sig .tc .vmem S1x2048 .f32 := scM1_1.view
abbrev VO1_4 : View sig .tc .vmem S1x1x512 .f32 := (Memref.whole cc1_stg4_0 : Memref sig .tc .vmem S1x1x512 .f32).view
abbrev VO1_5 : View sig .tc .vmem S1x1x2048 .f32 := (Memref.whole cc1_stg5_0 : Memref sig .tc .vmem S1x1x2048 .f32).view

end Cert.Kernel.Hand

end
-- ==== Proof.K.R1RunA.lean ====
/-
  Region 1, the body at the first tile of a batch row (nb = 0, mb = 0): both running minima are reset to +∞ before this tile's minima are folded in; neither result is stored. The stores found by running the body are the witness.
-/
import proofs.«161420_j81003083203706_2_alg».proof.Proof.K.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def kernelRun1_A (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : cond1_0 i) (hc1 : cond1_1 i) (hc2 : ¬cond1_2 i) (hc3 : ¬cond1_3 i)
    (x0 : Vec F S1x1 .f32) (x1 : Vec F S1x512x3 .f32) (x2 : Vec F S1x512x3 .f32) (x3 : Vec F S1x1x512 .f32) :
    Σ' (L4 : List (View.Piece (Elt F) S1x1x512 .f32)) (L5 : List (View.Piece (Elt F) S1x1x2048 .f32)) (LS0 : List (View.Piece (Elt F) S1x512 .f32)), { LS1 : List (View.Piece (Elt F) S1x2048 .f32) //
      ∀ (xi4 : Vec F S1x1x512 .f32) (xi5 : Vec F S1x1x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5 ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__minmax_kernel i arg3 harg3 arg4 harg4 arg5 harg5 arg6 harg6 arg7 harg7 arg8 harg8 arg9 harg9 arg10 harg10) K } := by
  refine ⟨[], [], ?_, ?_, fun xi4 xi5 E K => ?run⟩
  case run =>
    simp only [cc1__minmax_kernel_eq_skeleton]; unfold cc1__minmax_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    iexists _; iexact HS1

end Cert.Kernel.Hand

end
-- ==== Proof.K.R1RunB.lean ====
/-
  Region 1, the body at the first tile of a later row block (nb ≠ 0, mb = 0): the row minima are reset, the column minima carried; neither result is stored. The stores found by running the body are the witness.
-/
import proofs.«161420_j81003083203706_2_alg».proof.Proof.K.R1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def kernelRun1_B (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : cond1_0 i) (hc1 : ¬cond1_1 i) (hc2 : ¬cond1_2 i) (hc3 : ¬cond1_3 i)
    (x0 : Vec F S1x1 .f32) (x1 : Vec F S1x512x3 .f32) (x2 : Vec F S1x512x3 .f32) (x3 : Vec F S1x1x512 .f32) (xs1 : Vec F S1x2048 .f32) :
    Σ' (L4 : List (View.Piece (Elt F) S1x1x512 .f32)) (L5 : List (View.Piece (Elt F) S1x1x2048 .f32)) (LS0 : List (View.Piece (Elt F) S1x512 .f32)), { LS1 : List (View.Piece (Elt F) S1x2048 .f32) //
      ∀ (xi4 : Vec F S1x1x512 .f32) (xi5 : Vec F S1x1x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5 ∗ (∃ d, owns (c : Thread nD τ) arg9 fullShare d) ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5 ∗ (∃ f, arg9.view.loc (c : Thread nD τ) ↦[arg9.view.set]{fullShare} arg9.view.writes (Elt F) f LS0) ∗ (arg10.view.loc (c : Thread nD τ) ↦[arg10.view.set]{fullShare} arg10.view.writes (Elt F) (harg10.unread xs1) LS1)) -∗ K ⟨⟩))
          ⊢ wp frame (wpE (defs₀ (F := F)) Variants.none c none) E (cc1__minmax_kernel i arg3 harg3 arg4 harg4 arg5 harg5 arg6 harg6 arg7 harg7 arg8 harg8 arg9 harg9 arg10 harg10) K } := by
  refine ⟨[], [], ?_, ?_, fun xi4 xi5 E K => ?run⟩
  case run =>
    simp only [cc1__minmax_kernel_eq_skeleton]; unfold cc1__minmax_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hfs1
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    iexact HS1

end Cert.Kernel.Hand

end
-- ==== Proof.K.R1RunC.lean ====
/-
  Region 1, the body at a tile in the middle of a sweep (mb = 1 or 2): both running minima carried; neither result is stored. The stores found by running the body are the witness.
-/
import proofs.«161420_j81003083203706_2_alg».proof.Proof.K.R1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def kernelRun1_C (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : ¬cond1_0 i) (hc1 : ¬cond1_1 i) (hc2 : ¬cond1_2 i) (hc3 : ¬cond1_3 i)
    (x0 : Vec F S1x1 .f32) (x1 : Vec F S1x512x3 .f32) (x2 : Vec F S1x512x3 .f32) (x3 : Vec F S1x1x512 .f32) (xs0 : Vec F S1x512 .f32) (xs1 : Vec F S1x2048 .f32) :
    Σ' (L4 : List (View.Piece (Elt F) S1x1x512 .f32)) (L5 : List (View.Piece (Elt F) S1x1x2048 .f32)) (LS0 : List (View.Piece (Elt F) S1x512 .f32)), { LS1 : List (View.Piece (Elt F) S1x2048 .f32) //
      ∀ (xi4 : Vec F S1x1x512 .f32) (xi5 : Vec F S1x1x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5 ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5 ∗ (∃ f, arg9.view.loc (c : Thread nD τ) ↦[arg9.view.set]{fullShare} arg9.view.writes (Elt F) f LS0) ∗ (arg10.view.loc (c : Thread nD τ) ↦[arg10.view.set]{fullShare} arg10.view.writes (Elt F) (harg10.unread xs1) LS1)) -∗ K ⟨⟩))
          ⊢ wp frame (wpE (defs₀ (F := F)) Variants.none c none) E (cc1__minmax_kernel i arg3 harg3 arg4 harg4 arg5 harg5 arg6 harg6 arg7 harg7 arg8 harg8 arg9 harg9 arg10 harg10) K } := by
  refine ⟨[], [], ?_, ?_, fun xi4 xi5 E K => ?run⟩
  case run =>
    simp only [cc1__minmax_kernel_eq_skeleton]; unfold cc1__minmax_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0; obtain rfl := harg10.eq_unread hfs1
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    iexact HS1

end Cert.Kernel.Hand

end
-- ==== Proof.K.R1RunD.lean ====
/-
  Region 1, the body at the last tile of a row block that is not the batch row's last (mb = 3, nb ≠ 3): the row minima, shifted back by the maximum, are stored to the first result. The stores found by running the body are the witness.
-/
import proofs.«161420_j81003083203706_2_alg».proof.Proof.K.R1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def kernelRun1_D (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : ¬cond1_0 i) (hc1 : ¬cond1_1 i) (hc2 : cond1_2 i) (hc3 : ¬cond1_3 i)
    (x0 : Vec F S1x1 .f32) (x1 : Vec F S1x512x3 .f32) (x2 : Vec F S1x512x3 .f32) (x3 : Vec F S1x1x512 .f32) (xs0 : Vec F S1x512 .f32) (xs1 : Vec F S1x2048 .f32) :
    Σ' (L4 : List (View.Piece (Elt F) S1x1x512 .f32)) (L5 : List (View.Piece (Elt F) S1x1x2048 .f32)) (LS0 : List (View.Piece (Elt F) S1x512 .f32)), { LS1 : List (View.Piece (Elt F) S1x2048 .f32) //
      ∀ (xi5 : Vec F S1x1x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xi5 ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ owns (c : Thread nD τ) arg8 fullShare xi5 ∗ (∃ f, arg9.view.loc (c : Thread nD τ) ↦[arg9.view.set]{fullShare} arg9.view.writes (Elt F) f LS0) ∗ (arg10.view.loc (c : Thread nD τ) ↦[arg10.view.set]{fullShare} arg10.view.writes (Elt F) (harg10.unread xs1) LS1)) -∗ K ⟨⟩))
          ⊢ wp frame (wpE (defs₀ (F := F)) Variants.none c none) E (cc1__minmax_kernel i arg3 harg3 arg4 harg4 arg5 harg5 arg6 harg6 arg7 harg7 arg8 harg8 arg9 harg9 arg10 harg10) K } := by
  refine ⟨?_, [], ?_, ?_, fun xi5 E K => ?run⟩
  case run =>
    simp only [cc1__minmax_kernel_eq_skeleton]; unfold cc1__minmax_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg8.eq_unread hf5; obtain rfl := harg9.eq_unread hfs0; obtain rfl := harg10.eq_unread hfs1
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]
    · iexists _; isplitr; · ipureintro; exact harg8.read_unread _
      iexact H5
    isplitl [HS0]; · iexists _; iexact HS0
    iexact HS1

end Cert.Kernel.Hand

end
-- ==== Proof.K.R1RunE.lean ====
/-
  Region 1, the body at the last tile of a batch row (nb = 3, mb = 3): both results are stored. The stores found by running the body are the witness.
-/
import proofs.«161420_j81003083203706_2_alg».proof.Proof.K.R1RunD

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def kernelRun1_E (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : ¬cond1_0 i) (hc1 : ¬cond1_1 i) (hc2 : cond1_2 i) (hc3 : cond1_3 i)
    (x0 : Vec F S1x1 .f32) (x1 : Vec F S1x512x3 .f32) (x2 : Vec F S1x512x3 .f32) (x3 : Vec F S1x1x512 .f32) (xs0 : Vec F S1x512 .f32) (xs1 : Vec F S1x2048 .f32) :
    Σ' (L4 : List (View.Piece (Elt F) S1x1x512 .f32)) (L5 : List (View.Piece (Elt F) S1x1x2048 .f32)) (LS0 : List (View.Piece (Elt F) S1x512 .f32)), { LS1 : List (View.Piece (Elt F) S1x2048 .f32) //
      ∀  (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0) ∗ (arg10.view.loc (c : Thread nD τ) ↦[arg10.view.set]{fullShare} arg10.view.writes (Elt F) (harg10.unread xs1) LS1)) -∗ K ⟨⟩))
          ⊢ wp frame (wpE (defs₀ (F := F)) Variants.none c none) E (cc1__minmax_kernel i arg3 harg3 arg4 harg4 arg5 harg5 arg6 harg6 arg7 harg7 arg8 harg8 arg9 harg9 arg10 harg10) K } := by
  refine ⟨?_, ?_, ?_, ?_, fun  E K => ?run⟩
  case run =>
    simp only [cc1__minmax_kernel_eq_skeleton]; unfold cc1__minmax_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg9.eq_unread hfs0; obtain rfl := harg10.eq_unread hfs1
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]; · iexists _; iexact H5
    isplitl [HS0]; · iexists _; iexact HS0
    iexact HS1

end Cert.Kernel.Hand

end
-- ==== Proof.K.R1Defs.lean ====
/-
  Region 1: the windows' blocks at a region-entry parameter, and per case of the sweep what the body leaves in the two
  result windows' staging buffers and in the two running minima, with the covers that make these independent of what
  the buffers held before (the column minima, where only one slice is stored, are stated over their prior contents).
-/
import proofs.«161420_j81003083203706_2_alg».proof.Proof.K.R1RunE

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-! ### Case A: the first tile of a batch row (nb = 0, mb = 0): both running minima are reset to +∞ before this tile's minima are folded in; neither result is stored -/
def out1_A_4 (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : cond1_0 i) (hc1 : cond1_1 i) (hc2 : ¬cond1_2 i) (hc3 : ¬cond1_3 i) (x0 : Vec F S1x1 .f32) (x1 : Vec F S1x512x3 .f32) (x2 : Vec F S1x512x3 .f32) (x3 : Vec F S1x1x512 .f32) : Vec F S1x1x512 .f32 :=
  VO1_4.read (Elt F) (VO1_4.writes (Elt F) VO1_4.junk (kernelRun1_A c i arg3 harg3 arg4 harg4 arg5 harg5 arg6 harg6 arg7 harg7 arg8 harg8 arg9 harg9 arg10 harg10 hc0 hc1 hc2 hc3 x0 x1 x2 x3).1)
def out1_A_5 (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : cond1_0 i) (hc1 : cond1_1 i) (hc2 : ¬cond1_2 i) (hc3 : ¬cond1_3 i) (x0 : Vec F S1x1 .f32) (x1 : Vec F S1x512x3 .f32) (x2 : Vec F S1x512x3 .f32) (x3 : Vec F S1x1x512 .f32) : Vec F S1x1x2048 .f32 :=
  VO1_5.read (Elt F) (VO1_5.writes (Elt F) VO1_5.junk (kernelRun1_A c i arg3 harg3 arg4 harg4 arg5 harg5 arg6 harg6 arg7 harg7 arg8 harg8 arg9 harg9 arg10 harg10 hc0 hc1 hc2 hc3 x0 x1 x2 x3).2.1)
theorem scover1_A_0 (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : cond1_0 i) (hc1 : cond1_1 i) (hc2 : ¬cond1_2 i) (hc3 : ¬cond1_3 i) (x0 : Vec F S1x1 .f32) (x1 : Vec F S1x512x3 .f32) (x2 : Vec F S1x512x3 .f32) (x3 : Vec F S1x1x512 .f32) (y : S1x512.Idx) : ∃ pc ∈ (kernelRun1_A c i arg3 harg3 arg4 harg4 arg5 harg5 arg6 harg6 arg7 harg7 arg8 harg8 arg9 harg9 arg10 harg10 hc0 hc1 hc2 hc3 x0 x1 x2 x3).2.2.1, y ∈ pc.1.set :=
  View.cover_of_tiledL (kernelRun1_A c i arg3 harg3 arg4 harg4 arg5 harg5 arg6 harg6 arg7 harg7 arg8 harg8 arg9 harg9 arg10 harg10 hc0 hc1 hc2 hc3 x0 x1 x2 x3).2.2.1 S1x512.size (by sl_kernel_rfl) y
/-- The row minima after the point. -/
def sout1_A_0 (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : cond1_0 i) (hc1 : cond1_1 i) (hc2 : ¬cond1_2 i) (hc3 : ¬cond1_3 i) (x0 : Vec F S1x1 .f32) (x1 : Vec F S1x512x3 .f32) (x2 : Vec F S1x512x3 .f32) (x3 : Vec F S1x1x512 .f32) : Vec F S1x512 .f32 :=
  VS1_0.read (Elt F) (VS1_0.writes (Elt F) VS1_0.junk (kernelRun1_A c i arg3 harg3 arg4 harg4 arg5 harg5 arg6 harg6 arg7 harg7 arg8 harg8 arg9 harg9 arg10 harg10 hc0 hc1 hc2 hc3 x0 x1 x2 x3).2.2.1)
theorem scover1_A_1 (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : cond1_0 i) (hc1 : cond1_1 i) (hc2 : ¬cond1_2 i) (hc3 : ¬cond1_3 i) (x0 : Vec F S1x1 .f32) (x1 : Vec F S1x512x3 .f32) (x2 : Vec F S1x512x3 .f32) (x3 : Vec F S1x1x512 .f32) (y : S1x2048.Idx) : ∃ pc ∈ (kernelRun1_A c i arg3 harg3 arg4 harg4 arg5 harg5 arg6 harg6 arg7 harg7 arg8 harg8 arg9 harg9 arg10 harg10 hc0 hc1 hc2 hc3 x0 x1 x2 x3).2.2.2.1, y ∈ pc.1.set :=
  View.cover_of_tiledL (kernelRun1_A c i arg3 harg3 arg4 harg4 arg5 harg5 arg6 harg6 arg7 harg7 arg8 harg8 arg9 harg9 arg10 harg10 hc0 hc1 hc2 hc3 x0 x1 x2 x3).2.2.2.1 S1x2048.size (by sl_kernel_rfl) y
/-- The column minima after the point: reset, then the point's slice folded in. -/
def sout1_A_1 (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : cond1_0 i) (hc1 : cond1_1 i) (hc2 : ¬cond1_2 i) (hc3 : ¬cond1_3 i) (x0 : Vec F S1x1 .f32) (x1 : Vec F S1x512x3 .f32) (x2 : Vec F S1x512x3 .f32) (x3 : Vec F S1x1x512 .f32) : Vec F S1x2048 .f32 :=
  VS1_1.read (Elt F) (VS1_1.writes (Elt F) VS1_1.junk (kernelRun1_A c i arg3 harg3 arg4 harg4 arg5 harg5 arg6 harg6 arg7 harg7 arg8 harg8 arg9 harg9 arg10 harg10 hc0 hc1 hc2 hc3 x0 x1 x2 x3).2.2.2.1)

/-! ### Case B: the first tile of a later row block (nb ≠ 0, mb = 0): the row minima are reset, the column minima carried; neither result is stored -/
def out1_B_4 (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : cond1_0 i) (hc1 : ¬cond1_1 i) (hc2 : ¬cond1_2 i) (hc3 : ¬cond1_3 i) (x0 : Vec F S1x1 .f32) (x1 : Vec F S1x512x3 .f32) (x2 : Vec F S1x512x3 .f32) (x3 : Vec F S1x1x512 .f32) (xs1 : Vec F S1x2048 .f32) : Vec F S1x1x512 .f32 :=
  VO1_4.read (Elt F) (VO1_4.writes (Elt F) VO1_4.junk (kernelRun1_B c i arg3 harg3 arg4 harg4 arg5 harg5 arg6 harg6 arg7 harg7 arg8 harg8 arg9 harg9 arg10 harg10 hc0 hc1 hc2 hc3 x0 x1 x2 x3 xs1).1)
def out1_B_5 (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : cond1_0 i) (hc1 : ¬cond1_1 i) (hc2 : ¬cond1_2 i) (hc3 : ¬cond1_3 i) (x0 : Vec F S1x1 .f32) (x1 : Vec F S1x512x3 .f32) (x2 : Vec F S1x512x3 .f32) (x3 : Vec F S1x1x512 .f32) (xs1 : Vec F S1x2048 .f32) : Vec F S1x1x2048 .f32 :=
  VO1_5.read (Elt F) (VO1_5.writes (Elt F) VO1_5.junk (kernelRun1_B c i arg3 harg3 arg4 harg4 arg5 harg5 arg6 harg6 arg7 harg7 arg8 harg8 arg9 harg9 arg10 harg10 hc0 hc1 hc2 hc3 x0 x1 x2 x3 xs1).2.1)
theorem scover1_B_0 (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : cond1_0 i) (hc1 : ¬cond1_1 i) (hc2 : ¬cond1_2 i) (hc3 : ¬cond1_3 i) (x0 : Vec F S1x1 .f32) (x1 : Vec F S1x512x3 .f32) (x2 : Vec F S1x512x3 .f32) (x3 : Vec F S1x1x512 .f32) (xs1 : Vec F S1x2048 .f32) (y : S1x512.Idx) : ∃ pc ∈ (kernelRun1_B c i arg3 harg3 arg4 harg4 arg5 harg5 arg6 harg6 arg7 harg7 arg8 harg8 arg9 harg9 arg10 harg10 hc0 hc1 hc2 hc3 x0 x1 x2 x3 xs1).2.2.1, y ∈ pc.1.set :=
  View.cover_of_tiledL (kernelRun1_B c i arg3 harg3 arg4 harg4 arg5 harg5 arg6 harg6 arg7 harg7 arg8 harg8 arg9 harg9 arg10 harg10 hc0 hc1 hc2 hc3 x0 x1 x2 x3 xs1).2.2.1 S1x512.size (by sl_kernel_rfl) y
/-- The row minima after the point. -/
def sout1_B_0 (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : cond1_0 i) (hc1 : ¬cond1_1 i) (hc2 : ¬cond1_2 i) (hc3 : ¬cond1_3 i) (x0 : Vec F S1x1 .f32) (x1 : Vec F S1x512x3 .f32) (x2 : Vec F S1x512x3 .f32) (x3 : Vec F S1x1x512 .f32) (xs1 : Vec F S1x2048 .f32) : Vec F S1x512 .f32 :=
  VS1_0.read (Elt F) (VS1_0.writes (Elt F) VS1_0.junk (kernelRun1_B c i arg3 harg3 arg4 harg4 arg5 harg5 arg6 harg6 arg7 harg7 arg8 harg8 arg9 harg9 arg10 harg10 hc0 hc1 hc2 hc3 x0 x1 x2 x3 xs1).2.2.1)
/-- The column minima after the point: the point's slice written over what the point before left. -/
def sout1_B_1 (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : cond1_0 i) (hc1 : ¬cond1_1 i) (hc2 : ¬cond1_2 i) (hc3 : ¬cond1_3 i) (x0 : Vec F S1x1 .f32) (x1 : Vec F S1x512x3 .f32) (x2 : Vec F S1x512x3 .f32) (x3 : Vec F S1x1x512 .f32) (xs1 : Vec F S1x2048 .f32) : Vec F S1x2048 .f32 :=
  arg10.view.read (Elt F) (arg10.view.writes (Elt F) (harg10.unread xs1) (kernelRun1_B c i arg3 harg3 arg4 harg4 arg5 harg5 arg6 harg6 arg7 harg7 arg8 harg8 arg9 harg9 arg10 harg10 hc0 hc1 hc2 hc3 x0 x1 x2 x3 xs1).2.2.2.1)

/-! ### Case C: a tile in the middle of a sweep (mb = 1 or 2): both running minima carried; neither result is stored -/
def out1_C_4 (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : ¬cond1_0 i) (hc1 : ¬cond1_1 i) (hc2 : ¬cond1_2 i) (hc3 : ¬cond1_3 i) (x0 : Vec F S1x1 .f32) (x1 : Vec F S1x512x3 .f32) (x2 : Vec F S1x512x3 .f32) (x3 : Vec F S1x1x512 .f32) (xs0 : Vec F S1x512 .f32) (xs1 : Vec F S1x2048 .f32) : Vec F S1x1x512 .f32 :=
  VO1_4.read (Elt F) (VO1_4.writes (Elt F) VO1_4.junk (kernelRun1_C c i arg3 harg3 arg4 harg4 arg5 harg5 arg6 harg6 arg7 harg7 arg8 harg8 arg9 harg9 arg10 harg10 hc0 hc1 hc2 hc3 x0 x1 x2 x3 xs0 xs1).1)
def out1_C_5 (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : ¬cond1_0 i) (hc1 : ¬cond1_1 i) (hc2 : ¬cond1_2 i) (hc3 : ¬cond1_3 i) (x0 : Vec F S1x1 .f32) (x1 : Vec F S1x512x3 .f32) (x2 : Vec F S1x512x3 .f32) (x3 : Vec F S1x1x512 .f32) (xs0 : Vec F S1x512 .f32) (xs1 : Vec F S1x2048 .f32) : Vec F S1x1x2048 .f32 :=
  VO1_5.read (Elt F) (VO1_5.writes (Elt F) VO1_5.junk (kernelRun1_C c i arg3 harg3 arg4 harg4 arg5 harg5 arg6 harg6 arg7 harg7 arg8 harg8 arg9 harg9 arg10 harg10 hc0 hc1 hc2 hc3 x0 x1 x2 x3 xs0 xs1).2.1)
theorem scover1_C_0 (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : ¬cond1_0 i) (hc1 : ¬cond1_1 i) (hc2 : ¬cond1_2 i) (hc3 : ¬cond1_3 i) (x0 : Vec F S1x1 .f32) (x1 : Vec F S1x512x3 .f32) (x2 : Vec F S1x512x3 .f32) (x3 : Vec F S1x1x512 .f32) (xs0 : Vec F S1x512 .f32) (xs1 : Vec F S1x2048 .f32) (y : S1x512.Idx) : ∃ pc ∈ (kernelRun1_C c i arg3 harg3 arg4 harg4 arg5 harg5 arg6 harg6 arg7 harg7 arg8 harg8 arg9 harg9 arg10 harg10 hc0 hc1 hc2 hc3 x0 x1 x2 x3 xs0 xs1).2.2.1, y ∈ pc.1.set :=
  View.cover_of_tiledL (kernelRun1_C c i arg3 harg3 arg4 harg4 arg5 harg5 arg6 harg6 arg7 harg7 arg8 harg8 arg9 harg9 arg10 harg10 hc0 hc1 hc2 hc3 x0 x1 x2 x3 xs0 xs1).2.2.1 S1x512.size (by sl_kernel_rfl) y
/-- The row minima after the point. -/
def sout1_C_0 (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : ¬cond1_0 i) (hc1 : ¬cond1_1 i) (hc2 : ¬cond1_2 i) (hc3 : ¬cond1_3 i) (x0 : Vec F S1x1 .f32) (x1 : Vec F S1x512x3 .f32) (x2 : Vec F S1x512x3 .f32) (x3 : Vec F S1x1x512 .f32) (xs0 : Vec F S1x512 .f32) (xs1 : Vec F S1x2048 .f32) : Vec F S1x512 .f32 :=
  VS1_0.read (Elt F) (VS1_0.writes (Elt F) VS1_0.junk (kernelRun1_C c i arg3 harg3 arg4 harg4 arg5 harg5 arg6 harg6 arg7 harg7 arg8 harg8 arg9 harg9 arg10 harg10 hc0 hc1 hc2 hc3 x0 x1 x2 x3 xs0 xs1).2.2.1)
/-- The column minima after the point: the point's slice written over what the point before left. -/
def sout1_C_1 (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : ¬cond1_0 i) (hc1 : ¬cond1_1 i) (hc2 : ¬cond1_2 i) (hc3 : ¬cond1_3 i) (x0 : Vec F S1x1 .f32) (x1 : Vec F S1x512x3 .f32) (x2 : Vec F S1x512x3 .f32) (x3 : Vec F S1x1x512 .f32) (xs0 : Vec F S1x512 .f32) (xs1 : Vec F S1x2048 .f32) : Vec F S1x2048 .f32 :=
  arg10.view.read (Elt F) (arg10.view.writes (Elt F) (harg10.unread xs1) (kernelRun1_C c i arg3 harg3 arg4 harg4 arg5 harg5 arg6 harg6 arg7 harg7 arg8 harg8 arg9 harg9 arg10 harg10 hc0 hc1 hc2 hc3 x0 x1 x2 x3 xs0 xs1).2.2.2.1)

/-! ### Case D: the last tile of a row block that is not the batch row's last (mb = 3, nb ≠ 3): the row minima, shifted back by the maximum, are stored to the first result -/
theorem cover1_D_4 (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : ¬cond1_0 i) (hc1 : ¬cond1_1 i) (hc2 : cond1_2 i) (hc3 : ¬cond1_3 i) (x0 : Vec F S1x1 .f32) (x1 : Vec F S1x512x3 .f32) (x2 : Vec F S1x512x3 .f32) (x3 : Vec F S1x1x512 .f32) (xs0 : Vec F S1x512 .f32) (xs1 : Vec F S1x2048 .f32) (y : S1x1x512.Idx) : ∃ pc ∈ (kernelRun1_D c i arg3 harg3 arg4 harg4 arg5 harg5 arg6 harg6 arg7 harg7 arg8 harg8 arg9 harg9 arg10 harg10 hc0 hc1 hc2 hc3 x0 x1 x2 x3 xs0 xs1).1, y ∈ pc.1.set :=
  View.cover_of_tiledL (kernelRun1_D c i arg3 harg3 arg4 harg4 arg5 harg5 arg6 harg6 arg7 harg7 arg8 harg8 arg9 harg9 arg10 harg10 hc0 hc1 hc2 hc3 x0 x1 x2 x3 xs0 xs1).1 S1x1x512.size (by sl_kernel_rfl) y
def out1_D_4 (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : ¬cond1_0 i) (hc1 : ¬cond1_1 i) (hc2 : cond1_2 i) (hc3 : ¬cond1_3 i) (x0 : Vec F S1x1 .f32) (x1 : Vec F S1x512x3 .f32) (x2 : Vec F S1x512x3 .f32) (x3 : Vec F S1x1x512 .f32) (xs0 : Vec F S1x512 .f32) (xs1 : Vec F S1x2048 .f32) : Vec F S1x1x512 .f32 :=
  VO1_4.read (Elt F) (VO1_4.writes (Elt F) VO1_4.junk (kernelRun1_D c i arg3 harg3 arg4 harg4 arg5 harg5 arg6 harg6 arg7 harg7 arg8 harg8 arg9 harg9 arg10 harg10 hc0 hc1 hc2 hc3 x0 x1 x2 x3 xs0 xs1).1)
def out1_D_5 (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : ¬cond1_0 i) (hc1 : ¬cond1_1 i) (hc2 : cond1_2 i) (hc3 : ¬cond1_3 i) (x0 : Vec F S1x1 .f32) (x1 : Vec F S1x512x3 .f32) (x2 : Vec F S1x512x3 .f32) (x3 : Vec F S1x1x512 .f32) (xs0 : Vec F S1x512 .f32) (xs1 : Vec F S1x2048 .f32) : Vec F S1x1x2048 .f32 :=
  VO1_5.read (Elt F) (VO1_5.writes (Elt F) VO1_5.junk (kernelRun1_D c i arg3 harg3 arg4 harg4 arg5 harg5 arg6 harg6 arg7 harg7 arg8 harg8 arg9 harg9 arg10 harg10 hc0 hc1 hc2 hc3 x0 x1 x2 x3 xs0 xs1).2.1)
theorem scover1_D_0 (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : ¬cond1_0 i) (hc1 : ¬cond1_1 i) (hc2 : cond1_2 i) (hc3 : ¬cond1_3 i) (x0 : Vec F S1x1 .f32) (x1 : Vec F S1x512x3 .f32) (x2 : Vec F S1x512x3 .f32) (x3 : Vec F S1x1x512 .f32) (xs0 : Vec F S1x512 .f32) (xs1 : Vec F S1x2048 .f32) (y : S1x512.Idx) : ∃ pc ∈ (kernelRun1_D c i arg3 harg3 arg4 harg4 arg5 harg5 arg6 harg6 arg7 harg7 arg8 harg8 arg9 harg9 arg10 harg10 hc0 hc1 hc2 hc3 x0 x1 x2 x3 xs0 xs1).2.2.1, y ∈ pc.1.set :=
  View.cover_of_tiledL (kernelRun1_D c i arg3 harg3 arg4 harg4 arg5 harg5 arg6 harg6 arg7 harg7 arg8 harg8 arg9 harg9 arg10 harg10 hc0 hc1 hc2 hc3 x0 x1 x2 x3 xs0 xs1).2.2.1 S1x512.size (by sl_kernel_rfl) y
/-- The row minima after the point. -/
def sout1_D_0 (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : ¬cond1_0 i) (hc1 : ¬cond1_1 i) (hc2 : cond1_2 i) (hc3 : ¬cond1_3 i) (x0 : Vec F S1x1 .f32) (x1 : Vec F S1x512x3 .f32) (x2 : Vec F S1x512x3 .f32) (x3 : Vec F S1x1x512 .f32) (xs0 : Vec F S1x512 .f32) (xs1 : Vec F S1x2048 .f32) : Vec F S1x512 .f32 :=
  VS1_0.read (Elt F) (VS1_0.writes (Elt F) VS1_0.junk (kernelRun1_D c i arg3 harg3 arg4 harg4 arg5 harg5 arg6 harg6 arg7 harg7 arg8 harg8 arg9 harg9 arg10 harg10 hc0 hc1 hc2 hc3 x0 x1 x2 x3 xs0 xs1).2.2.1)
/-- The column minima after the point: the point's slice written over what the point before left. -/
def sout1_D_1 (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : ¬cond1_0 i) (hc1 : ¬cond1_1 i) (hc2 : cond1_2 i) (hc3 : ¬cond1_3 i) (x0 : Vec F S1x1 .f32) (x1 : Vec F S1x512x3 .f32) (x2 : Vec F S1x512x3 .f32) (x3 : Vec F S1x1x512 .f32) (xs0 : Vec F S1x512 .f32) (xs1 : Vec F S1x2048 .f32) : Vec F S1x2048 .f32 :=
  arg10.view.read (Elt F) (arg10.view.writes (Elt F) (harg10.unread xs1) (kernelRun1_D c i arg3 harg3 arg4 harg4 arg5 harg5 arg6 harg6 arg7 harg7 arg8 harg8 arg9 harg9 arg10 harg10 hc0 hc1 hc2 hc3 x0 x1 x2 x3 xs0 xs1).2.2.2.1)

/-! ### Case E: the last tile of a batch row (nb = 3, mb = 3): both results are stored -/
theorem cover1_E_4 (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : ¬cond1_0 i) (hc1 : ¬cond1_1 i) (hc2 : cond1_2 i) (hc3 : cond1_3 i) (x0 : Vec F S1x1 .f32) (x1 : Vec F S1x512x3 .f32) (x2 : Vec F S1x512x3 .f32) (x3 : Vec F S1x1x512 .f32) (xs0 : Vec F S1x512 .f32) (xs1 : Vec F S1x2048 .f32) (y : S1x1x512.Idx) : ∃ pc ∈ (kernelRun1_E c i arg3 harg3 arg4 harg4 arg5 harg5 arg6 harg6 arg7 harg7 arg8 harg8 arg9 harg9 arg10 harg10 hc0 hc1 hc2 hc3 x0 x1 x2 x3 xs0 xs1).1, y ∈ pc.1.set :=
  View.cover_of_tiledL (kernelRun1_E c i arg3 harg3 arg4 harg4 arg5 harg5 arg6 harg6 arg7 harg7 arg8 harg8 arg9 harg9 arg10 harg10 hc0 hc1 hc2 hc3 x0 x1 x2 x3 xs0 xs1).1 S1x1x512.size (by sl_kernel_rfl) y
def out1_E_4 (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : ¬cond1_0 i) (hc1 : ¬cond1_1 i) (hc2 : cond1_2 i) (hc3 : cond1_3 i) (x0 : Vec F S1x1 .f32) (x1 : Vec F S1x512x3 .f32) (x2 : Vec F S1x512x3 .f32) (x3 : Vec F S1x1x512 .f32) (xs0 : Vec F S1x512 .f32) (xs1 : Vec F S1x2048 .f32) : Vec F S1x1x512 .f32 :=
  VO1_4.read (Elt F) (VO1_4.writes (Elt F) VO1_4.junk (kernelRun1_E c i arg3 harg3 arg4 harg4 arg5 harg5 arg6 harg6 arg7 harg7 arg8 harg8 arg9 harg9 arg10 harg10 hc0 hc1 hc2 hc3 x0 x1 x2 x3 xs0 xs1).1)
theorem cover1_E_5 (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : ¬cond1_0 i) (hc1 : ¬cond1_1 i) (hc2 : cond1_2 i) (hc3 : cond1_3 i) (x0 : Vec F S1x1 .f32) (x1 : Vec F S1x512x3 .f32) (x2 : Vec F S1x512x3 .f32) (x3 : Vec F S1x1x512 .f32) (xs0 : Vec F S1x512 .f32) (xs1 : Vec F S1x2048 .f32) (y : S1x1x2048.Idx) : ∃ pc ∈ (kernelRun1_E c i arg3 harg3 arg4 harg4 arg5 harg5 arg6 harg6 arg7 harg7 arg8 harg8 arg9 harg9 arg10 harg10 hc0 hc1 hc2 hc3 x0 x1 x2 x3 xs0 xs1).2.1, y ∈ pc.1.set :=
  View.cover_of_tiledL (kernelRun1_E c i arg3 harg3 arg4 harg4 arg5 harg5 arg6 harg6 arg7 harg7 arg8 harg8 arg9 harg9 arg10 harg10 hc0 hc1 hc2 hc3 x0 x1 x2 x3 xs0 xs1).2.1 S1x1x2048.size (by sl_kernel_rfl) y
def out1_E_5 (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : ¬cond1_0 i) (hc1 : ¬cond1_1 i) (hc2 : cond1_2 i) (hc3 : cond1_3 i) (x0 : Vec F S1x1 .f32) (x1 : Vec F S1x512x3 .f32) (x2 : Vec F S1x512x3 .f32) (x3 : Vec F S1x1x512 .f32) (xs0 : Vec F S1x512 .f32) (xs1 : Vec F S1x2048 .f32) : Vec F S1x1x2048 .f32 :=
  VO1_5.read (Elt F) (VO1_5.writes (Elt F) VO1_5.junk (kernelRun1_E c i arg3 harg3 arg4 harg4 arg5 harg5 arg6 harg6 arg7 harg7 arg8 harg8 arg9 harg9 arg10 harg10 hc0 hc1 hc2 hc3 x0 x1 x2 x3 xs0 xs1).2.1)
theorem scover1_E_0 (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : ¬cond1_0 i) (hc1 : ¬cond1_1 i) (hc2 : cond1_2 i) (hc3 : cond1_3 i) (x0 : Vec F S1x1 .f32) (x1 : Vec F S1x512x3 .f32) (x2 : Vec F S1x512x3 .f32) (x3 : Vec F S1x1x512 .f32) (xs0 : Vec F S1x512 .f32) (xs1 : Vec F S1x2048 .f32) (y : S1x512.Idx) : ∃ pc ∈ (kernelRun1_E c i arg3 harg3 arg4 harg4 arg5 harg5 arg6 harg6 arg7 harg7 arg8 harg8 arg9 harg9 arg10 harg10 hc0 hc1 hc2 hc3 x0 x1 x2 x3 xs0 xs1).2.2.1, y ∈ pc.1.set :=
  View.cover_of_tiledL (kernelRun1_E c i arg3 harg3 arg4 harg4 arg5 harg5 arg6 harg6 arg7 harg7 arg8 harg8 arg9 harg9 arg10 harg10 hc0 hc1 hc2 hc3 x0 x1 x2 x3 xs0 xs1).2.2.1 S1x512.size (by sl_kernel_rfl) y
/-- The row minima after the point. -/
def sout1_E_0 (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : ¬cond1_0 i) (hc1 : ¬cond1_1 i) (hc2 : cond1_2 i) (hc3 : cond1_3 i) (x0 : Vec F S1x1 .f32) (x1 : Vec F S1x512x3 .f32) (x2 : Vec F S1x512x3 .f32) (x3 : Vec F S1x1x512 .f32) (xs0 : Vec F S1x512 .f32) (xs1 : Vec F S1x2048 .f32) : Vec F S1x512 .f32 :=
  VS1_0.read (Elt F) (VS1_0.writes (Elt F) VS1_0.junk (kernelRun1_E c i arg3 harg3 arg4 harg4 arg5 harg5 arg6 harg6 arg7 harg7 arg8 harg8 arg9 harg9 arg10 harg10 hc0 hc1 hc2 hc3 x0 x1 x2 x3 xs0 xs1).2.2.1)
/-- The column minima after the point: the point's slice written over what the point before left. -/
def sout1_E_1 (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : ¬cond1_0 i) (hc1 : ¬cond1_1 i) (hc2 : cond1_2 i) (hc3 : cond1_3 i) (x0 : Vec F S1x1 .f32) (x1 : Vec F S1x512x3 .f32) (x2 : Vec F S1x512x3 .f32) (x3 : Vec F S1x1x512 .f32) (xs0 : Vec F S1x512 .f32) (xs1 : Vec F S1x2048 .f32) : Vec F S1x2048 .f32 :=
  arg10.view.read (Elt F) (arg10.view.writes (Elt F) (harg10.unread xs1) (kernelRun1_E c i arg3 harg3 arg4 harg4 arg5 harg5 arg6 harg6 arg7 harg7 arg8 harg8 arg9 harg9 arg10 harg10 hc0 hc1 hc2 hc3 x0 x1 x2 x3 xs0 xs1).2.2.2.1)

end Cert.Kernel.Hand

end
-- ==== Proof.K.R1Outs.lean ====
/-
  Region 1 point by point: the recursion over grid points through the five cases of the sweep, its case equations,
  the invariant carrying both running minima, the proof data, and the statement of the body's obligation at a point.
-/
import proofs.«161420_j81003083203706_2_alg».proof.Proof.K.R1Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Point by point -/

/-- What the two result windows' staging buffers, the row minima and the column minima hold after the body at
    position `n`: which case the position is in is read off its residues mod 16 and mod 4. -/
def outsAt1 (c : Dev nD) : (n : ℕ) → n < cfg1.N → Vec F S1x1x512 .f32 × Vec F S1x1x2048 .f32 × Vec F S1x512 .f32 × Vec F S1x2048 .f32
  | 0, hn =>
      (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) ((hcond1_0 ⟨0, hn⟩).mpr rfl) ((hcond1_1 ⟨0, hn⟩).mpr rfl) (fun h => absurd ((hcond1_2 ⟨0, hn⟩).mp h) (show ¬ (0 : ℕ) % 4 = 3 by decide)) (fun h => absurd ((hcond1_3 ⟨0, hn⟩).mp h) (show ¬ (0 : ℕ) % 16 = 15 by decide)) (iblk1 V c 0 ⟨0, hn⟩) (iblk1 V c 1 ⟨0, hn⟩) (iblk1 V c 2 ⟨0, hn⟩) (iblk1 V c 3 ⟨0, hn⟩),
       out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) ((hcond1_0 ⟨0, hn⟩).mpr rfl) ((hcond1_1 ⟨0, hn⟩).mpr rfl) (fun h => absurd ((hcond1_2 ⟨0, hn⟩).mp h) (show ¬ (0 : ℕ) % 4 = 3 by decide)) (fun h => absurd ((hcond1_3 ⟨0, hn⟩).mp h) (show ¬ (0 : ℕ) % 16 = 15 by decide)) (iblk1 V c 0 ⟨0, hn⟩) (iblk1 V c 1 ⟨0, hn⟩) (iblk1 V c 2 ⟨0, hn⟩) (iblk1 V c 3 ⟨0, hn⟩),
       sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) ((hcond1_0 ⟨0, hn⟩).mpr rfl) ((hcond1_1 ⟨0, hn⟩).mpr rfl) (fun h => absurd ((hcond1_2 ⟨0, hn⟩).mp h) (show ¬ (0 : ℕ) % 4 = 3 by decide)) (fun h => absurd ((hcond1_3 ⟨0, hn⟩).mp h) (show ¬ (0 : ℕ) % 16 = 15 by decide)) (iblk1 V c 0 ⟨0, hn⟩) (iblk1 V c 1 ⟨0, hn⟩) (iblk1 V c 2 ⟨0, hn⟩) (iblk1 V c 3 ⟨0, hn⟩),
       sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) ((hcond1_0 ⟨0, hn⟩).mpr rfl) ((hcond1_1 ⟨0, hn⟩).mpr rfl) (fun h => absurd ((hcond1_2 ⟨0, hn⟩).mp h) (show ¬ (0 : ℕ) % 4 = 3 by decide)) (fun h => absurd ((hcond1_3 ⟨0, hn⟩).mp h) (show ¬ (0 : ℕ) % 16 = 15 by decide)) (iblk1 V c 0 ⟨0, hn⟩) (iblk1 V c 1 ⟨0, hn⟩) (iblk1 V c 2 ⟨0, hn⟩) (iblk1 V c 3 ⟨0, hn⟩))
  | n + 1, hn =>
    if a16 : (n + 1) % 16 = 0 then
      (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) ((hcond1_0 ⟨n + 1, hn⟩).mpr (by show (n + 1) % 4 = 0; omega)) ((hcond1_1 ⟨n + 1, hn⟩).mpr (by show (n + 1) % 16 = 0; omega)) (fun h => absurd ((hcond1_2 ⟨n + 1, hn⟩).mp h) (by show ¬ (n + 1) % 4 = 3; omega)) (fun h => absurd ((hcond1_3 ⟨n + 1, hn⟩).mp h) (by show ¬ (n + 1) % 16 = 15; omega)) (iblk1 V c 0 ⟨n + 1, hn⟩) (iblk1 V c 1 ⟨n + 1, hn⟩) (iblk1 V c 2 ⟨n + 1, hn⟩) (iblk1 V c 3 ⟨n + 1, hn⟩),
       out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) ((hcond1_0 ⟨n + 1, hn⟩).mpr (by show (n + 1) % 4 = 0; omega)) ((hcond1_1 ⟨n + 1, hn⟩).mpr (by show (n + 1) % 16 = 0; omega)) (fun h => absurd ((hcond1_2 ⟨n + 1, hn⟩).mp h) (by show ¬ (n + 1) % 4 = 3; omega)) (fun h => absurd ((hcond1_3 ⟨n + 1, hn⟩).mp h) (by show ¬ (n + 1) % 16 = 15; omega)) (iblk1 V c 0 ⟨n + 1, hn⟩) (iblk1 V c 1 ⟨n + 1, hn⟩) (iblk1 V c 2 ⟨n + 1, hn⟩) (iblk1 V c 3 ⟨n + 1, hn⟩),
       sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) ((hcond1_0 ⟨n + 1, hn⟩).mpr (by show (n + 1) % 4 = 0; omega)) ((hcond1_1 ⟨n + 1, hn⟩).mpr (by show (n + 1) % 16 = 0; omega)) (fun h => absurd ((hcond1_2 ⟨n + 1, hn⟩).mp h) (by show ¬ (n + 1) % 4 = 3; omega)) (fun h => absurd ((hcond1_3 ⟨n + 1, hn⟩).mp h) (by show ¬ (n + 1) % 16 = 15; omega)) (iblk1 V c 0 ⟨n + 1, hn⟩) (iblk1 V c 1 ⟨n + 1, hn⟩) (iblk1 V c 2 ⟨n + 1, hn⟩) (iblk1 V c 3 ⟨n + 1, hn⟩),
       sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) ((hcond1_0 ⟨n + 1, hn⟩).mpr (by show (n + 1) % 4 = 0; omega)) ((hcond1_1 ⟨n + 1, hn⟩).mpr (by show (n + 1) % 16 = 0; omega)) (fun h => absurd ((hcond1_2 ⟨n + 1, hn⟩).mp h) (by show ¬ (n + 1) % 4 = 3; omega)) (fun h => absurd ((hcond1_3 ⟨n + 1, hn⟩).mp h) (by show ¬ (n + 1) % 16 = 15; omega)) (iblk1 V c 0 ⟨n + 1, hn⟩) (iblk1 V c 1 ⟨n + 1, hn⟩) (iblk1 V c 2 ⟨n + 1, hn⟩) (iblk1 V c 3 ⟨n + 1, hn⟩))
    else if a4 : (n + 1) % 4 = 0 then
      (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) ((hcond1_0 ⟨n + 1, hn⟩).mpr (by show (n + 1) % 4 = 0; omega)) (fun h => absurd ((hcond1_1 ⟨n + 1, hn⟩).mp h) (by show ¬ (n + 1) % 16 = 0; omega)) (fun h => absurd ((hcond1_2 ⟨n + 1, hn⟩).mp h) (by show ¬ (n + 1) % 4 = 3; omega)) (fun h => absurd ((hcond1_3 ⟨n + 1, hn⟩).mp h) (by show ¬ (n + 1) % 16 = 15; omega)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2,
       out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) ((hcond1_0 ⟨n + 1, hn⟩).mpr (by show (n + 1) % 4 = 0; omega)) (fun h => absurd ((hcond1_1 ⟨n + 1, hn⟩).mp h) (by show ¬ (n + 1) % 16 = 0; omega)) (fun h => absurd ((hcond1_2 ⟨n + 1, hn⟩).mp h) (by show ¬ (n + 1) % 4 = 3; omega)) (fun h => absurd ((hcond1_3 ⟨n + 1, hn⟩).mp h) (by show ¬ (n + 1) % 16 = 15; omega)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2,
       sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) ((hcond1_0 ⟨n + 1, hn⟩).mpr (by show (n + 1) % 4 = 0; omega)) (fun h => absurd ((hcond1_1 ⟨n + 1, hn⟩).mp h) (by show ¬ (n + 1) % 16 = 0; omega)) (fun h => absurd ((hcond1_2 ⟨n + 1, hn⟩).mp h) (by show ¬ (n + 1) % 4 = 3; omega)) (fun h => absurd ((hcond1_3 ⟨n + 1, hn⟩).mp h) (by show ¬ (n + 1) % 16 = 15; omega)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2,
       sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) ((hcond1_0 ⟨n + 1, hn⟩).mpr (by show (n + 1) % 4 = 0; omega)) (fun h => absurd ((hcond1_1 ⟨n + 1, hn⟩).mp h) (by show ¬ (n + 1) % 16 = 0; omega)) (fun h => absurd ((hcond1_2 ⟨n + 1, hn⟩).mp h) (by show ¬ (n + 1) % 4 = 3; omega)) (fun h => absurd ((hcond1_3 ⟨n + 1, hn⟩).mp h) (by show ¬ (n + 1) % 16 = 15; omega)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2)
    else if e15 : (n + 1) % 16 = 15 then
      (out1_E_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => absurd ((hcond1_0 ⟨n + 1, hn⟩).mp h) (by show ¬ (n + 1) % 4 = 0; omega)) (fun h => absurd ((hcond1_1 ⟨n + 1, hn⟩).mp h) (by show ¬ (n + 1) % 16 = 0; omega)) ((hcond1_2 ⟨n + 1, hn⟩).mpr (by show (n + 1) % 4 = 3; omega)) ((hcond1_3 ⟨n + 1, hn⟩).mpr (by show (n + 1) % 16 = 15; omega)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.1 (outsAt1 c n (Nat.lt_of_succ_lt hn)).2.2.2,
       out1_E_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => absurd ((hcond1_0 ⟨n + 1, hn⟩).mp h) (by show ¬ (n + 1) % 4 = 0; omega)) (fun h => absurd ((hcond1_1 ⟨n + 1, hn⟩).mp h) (by show ¬ (n + 1) % 16 = 0; omega)) ((hcond1_2 ⟨n + 1, hn⟩).mpr (by show (n + 1) % 4 = 3; omega)) ((hcond1_3 ⟨n + 1, hn⟩).mpr (by show (n + 1) % 16 = 15; omega)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.1 (outsAt1 c n (Nat.lt_of_succ_lt hn)).2.2.2,
       sout1_E_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => absurd ((hcond1_0 ⟨n + 1, hn⟩).mp h) (by show ¬ (n + 1) % 4 = 0; omega)) (fun h => absurd ((hcond1_1 ⟨n + 1, hn⟩).mp h) (by show ¬ (n + 1) % 16 = 0; omega)) ((hcond1_2 ⟨n + 1, hn⟩).mpr (by show (n + 1) % 4 = 3; omega)) ((hcond1_3 ⟨n + 1, hn⟩).mpr (by show (n + 1) % 16 = 15; omega)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.1 (outsAt1 c n (Nat.lt_of_succ_lt hn)).2.2.2,
       sout1_E_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => absurd ((hcond1_0 ⟨n + 1, hn⟩).mp h) (by show ¬ (n + 1) % 4 = 0; omega)) (fun h => absurd ((hcond1_1 ⟨n + 1, hn⟩).mp h) (by show ¬ (n + 1) % 16 = 0; omega)) ((hcond1_2 ⟨n + 1, hn⟩).mpr (by show (n + 1) % 4 = 3; omega)) ((hcond1_3 ⟨n + 1, hn⟩).mpr (by show (n + 1) % 16 = 15; omega)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.1 (outsAt1 c n (Nat.lt_of_succ_lt hn)).2.2.2)
    else if d3 : (n + 1) % 4 = 3 then
      (out1_D_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => absurd ((hcond1_0 ⟨n + 1, hn⟩).mp h) (by show ¬ (n + 1) % 4 = 0; omega)) (fun h => absurd ((hcond1_1 ⟨n + 1, hn⟩).mp h) (by show ¬ (n + 1) % 16 = 0; omega)) ((hcond1_2 ⟨n + 1, hn⟩).mpr (by show (n + 1) % 4 = 3; omega)) (fun h => absurd ((hcond1_3 ⟨n + 1, hn⟩).mp h) (by show ¬ (n + 1) % 16 = 15; omega)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.1 (outsAt1 c n (Nat.lt_of_succ_lt hn)).2.2.2,
       out1_D_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => absurd ((hcond1_0 ⟨n + 1, hn⟩).mp h) (by show ¬ (n + 1) % 4 = 0; omega)) (fun h => absurd ((hcond1_1 ⟨n + 1, hn⟩).mp h) (by show ¬ (n + 1) % 16 = 0; omega)) ((hcond1_2 ⟨n + 1, hn⟩).mpr (by show (n + 1) % 4 = 3; omega)) (fun h => absurd ((hcond1_3 ⟨n + 1, hn⟩).mp h) (by show ¬ (n + 1) % 16 = 15; omega)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.1 (outsAt1 c n (Nat.lt_of_succ_lt hn)).2.2.2,
       sout1_D_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => absurd ((hcond1_0 ⟨n + 1, hn⟩).mp h) (by show ¬ (n + 1) % 4 = 0; omega)) (fun h => absurd ((hcond1_1 ⟨n + 1, hn⟩).mp h) (by show ¬ (n + 1) % 16 = 0; omega)) ((hcond1_2 ⟨n + 1, hn⟩).mpr (by show (n + 1) % 4 = 3; omega)) (fun h => absurd ((hcond1_3 ⟨n + 1, hn⟩).mp h) (by show ¬ (n + 1) % 16 = 15; omega)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.1 (outsAt1 c n (Nat.lt_of_succ_lt hn)).2.2.2,
       sout1_D_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => absurd ((hcond1_0 ⟨n + 1, hn⟩).mp h) (by show ¬ (n + 1) % 4 = 0; omega)) (fun h => absurd ((hcond1_1 ⟨n + 1, hn⟩).mp h) (by show ¬ (n + 1) % 16 = 0; omega)) ((hcond1_2 ⟨n + 1, hn⟩).mpr (by show (n + 1) % 4 = 3; omega)) (fun h => absurd ((hcond1_3 ⟨n + 1, hn⟩).mp h) (by show ¬ (n + 1) % 16 = 15; omega)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.1 (outsAt1 c n (Nat.lt_of_succ_lt hn)).2.2.2)
    else
      (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => absurd ((hcond1_0 ⟨n + 1, hn⟩).mp h) (by show ¬ (n + 1) % 4 = 0; omega)) (fun h => absurd ((hcond1_1 ⟨n + 1, hn⟩).mp h) (by show ¬ (n + 1) % 16 = 0; omega)) (fun h => absurd ((hcond1_2 ⟨n + 1, hn⟩).mp h) (by show ¬ (n + 1) % 4 = 3; omega)) (fun h => absurd ((hcond1_3 ⟨n + 1, hn⟩).mp h) (by show ¬ (n + 1) % 16 = 15; omega)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.1 (outsAt1 c n (Nat.lt_of_succ_lt hn)).2.2.2,
       out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => absurd ((hcond1_0 ⟨n + 1, hn⟩).mp h) (by show ¬ (n + 1) % 4 = 0; omega)) (fun h => absurd ((hcond1_1 ⟨n + 1, hn⟩).mp h) (by show ¬ (n + 1) % 16 = 0; omega)) (fun h => absurd ((hcond1_2 ⟨n + 1, hn⟩).mp h) (by show ¬ (n + 1) % 4 = 3; omega)) (fun h => absurd ((hcond1_3 ⟨n + 1, hn⟩).mp h) (by show ¬ (n + 1) % 16 = 15; omega)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.1 (outsAt1 c n (Nat.lt_of_succ_lt hn)).2.2.2,
       sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => absurd ((hcond1_0 ⟨n + 1, hn⟩).mp h) (by show ¬ (n + 1) % 4 = 0; omega)) (fun h => absurd ((hcond1_1 ⟨n + 1, hn⟩).mp h) (by show ¬ (n + 1) % 16 = 0; omega)) (fun h => absurd ((hcond1_2 ⟨n + 1, hn⟩).mp h) (by show ¬ (n + 1) % 4 = 3; omega)) (fun h => absurd ((hcond1_3 ⟨n + 1, hn⟩).mp h) (by show ¬ (n + 1) % 16 = 15; omega)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.1 (outsAt1 c n (Nat.lt_of_succ_lt hn)).2.2.2,
       sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => absurd ((hcond1_0 ⟨n + 1, hn⟩).mp h) (by show ¬ (n + 1) % 4 = 0; omega)) (fun h => absurd ((hcond1_1 ⟨n + 1, hn⟩).mp h) (by show ¬ (n + 1) % 16 = 0; omega)) (fun h => absurd ((hcond1_2 ⟨n + 1, hn⟩).mp h) (by show ¬ (n + 1) % 4 = 3; omega)) (fun h => absurd ((hcond1_3 ⟨n + 1, hn⟩).mp h) (by show ¬ (n + 1) % 16 = 15; omega)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.1 (outsAt1 c n (Nat.lt_of_succ_lt hn)).2.2.2)

theorem outsAt1_A (c : Dev nD) (t : Fin cfg1.N) (hc0 : cond1_0 (grid1.coords t)) (hc1 : cond1_1 (grid1.coords t)) (hc2 : ¬cond1_2 (grid1.coords t)) (hc3 : ¬cond1_3 (grid1.coords t)) :
    outsAt1 V c t.val t.isLt =
      (out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 hc2 hc3 (iblk1 V c 0 t) (iblk1 V c 1 t) (iblk1 V c 2 t) (iblk1 V c 3 t),
       out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 hc2 hc3 (iblk1 V c 0 t) (iblk1 V c 1 t) (iblk1 V c 2 t) (iblk1 V c 3 t),
       sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 hc2 hc3 (iblk1 V c 0 t) (iblk1 V c 1 t) (iblk1 V c 2 t) (iblk1 V c 3 t),
       sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 hc2 hc3 (iblk1 V c 0 t) (iblk1 V c 1 t) (iblk1 V c 2 t) (iblk1 V c 3 t)) := by
  obtain ⟨n, hn⟩ := t
  cases n with
  | zero => exact rfl
  | succ n => exact (dif_pos ((hcond1_1 ⟨n + 1, hn⟩).mp hc1)).trans rfl

theorem outsAt1_B (c : Dev nD) (t : Fin cfg1.N) (hc0 : cond1_0 (grid1.coords t)) (hc1 : ¬cond1_1 (grid1.coords t)) (hc2 : ¬cond1_2 (grid1.coords t)) (hc3 : ¬cond1_3 (grid1.coords t)) :
    outsAt1 V c t.val t.isLt =
      (out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 hc2 hc3 (iblk1 V c 0 t) (iblk1 V c 1 t) (iblk1 V c 2 t) (iblk1 V c 3 t) (outsAt1 V c (t.val - 1) (Nat.lt_of_le_of_lt (Nat.sub_le _ _) t.isLt)).2.2.2,
       out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 hc2 hc3 (iblk1 V c 0 t) (iblk1 V c 1 t) (iblk1 V c 2 t) (iblk1 V c 3 t) (outsAt1 V c (t.val - 1) (Nat.lt_of_le_of_lt (Nat.sub_le _ _) t.isLt)).2.2.2,
       sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 hc2 hc3 (iblk1 V c 0 t) (iblk1 V c 1 t) (iblk1 V c 2 t) (iblk1 V c 3 t) (outsAt1 V c (t.val - 1) (Nat.lt_of_le_of_lt (Nat.sub_le _ _) t.isLt)).2.2.2,
       sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 hc2 hc3 (iblk1 V c 0 t) (iblk1 V c 1 t) (iblk1 V c 2 t) (iblk1 V c 3 t) (outsAt1 V c (t.val - 1) (Nat.lt_of_le_of_lt (Nat.sub_le _ _) t.isLt)).2.2.2) := by
  obtain ⟨n, hn⟩ := t
  cases n with
  | zero => exact absurd ((hcond1_1 ⟨0, hn⟩).mpr rfl) hc1
  | succ n => exact (dif_neg (fun h => hc1 ((hcond1_1 ⟨n + 1, hn⟩).mpr h))).trans ((dif_pos ((hcond1_0 ⟨n + 1, hn⟩).mp hc0)).trans rfl)

theorem outsAt1_C (c : Dev nD) (t : Fin cfg1.N) (hc0 : ¬cond1_0 (grid1.coords t)) (hc1 : ¬cond1_1 (grid1.coords t)) (hc2 : ¬cond1_2 (grid1.coords t)) (hc3 : ¬cond1_3 (grid1.coords t)) :
    outsAt1 V c t.val t.isLt =
      (out1_C_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 hc2 hc3 (iblk1 V c 0 t) (iblk1 V c 1 t) (iblk1 V c 2 t) (iblk1 V c 3 t) (outsAt1 V c (t.val - 1) (Nat.lt_of_le_of_lt (Nat.sub_le _ _) t.isLt)).2.2.1 (outsAt1 V c (t.val - 1) (Nat.lt_of_le_of_lt (Nat.sub_le _ _) t.isLt)).2.2.2,
       out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 hc2 hc3 (iblk1 V c 0 t) (iblk1 V c 1 t) (iblk1 V c 2 t) (iblk1 V c 3 t) (outsAt1 V c (t.val - 1) (Nat.lt_of_le_of_lt (Nat.sub_le _ _) t.isLt)).2.2.1 (outsAt1 V c (t.val - 1) (Nat.lt_of_le_of_lt (Nat.sub_le _ _) t.isLt)).2.2.2,
       sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 hc2 hc3 (iblk1 V c 0 t) (iblk1 V c 1 t) (iblk1 V c 2 t) (iblk1 V c 3 t) (outsAt1 V c (t.val - 1) (Nat.lt_of_le_of_lt (Nat.sub_le _ _) t.isLt)).2.2.1 (outsAt1 V c (t.val - 1) (Nat.lt_of_le_of_lt (Nat.sub_le _ _) t.isLt)).2.2.2,
       sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 hc2 hc3 (iblk1 V c 0 t) (iblk1 V c 1 t) (iblk1 V c 2 t) (iblk1 V c 3 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact absurd ((hcond1_0 ⟨0, hn⟩).mpr rfl) hc0
  | succ n => exact (dif_neg (fun h => hc1 ((hcond1_1 ⟨n + 1, hn⟩).mpr h))).trans ((dif_neg (fun h => hc0 ((hcond1_0 ⟨n + 1, hn⟩).mpr h))).trans ((dif_neg (fun h => hc3 ((hcond1_3 ⟨n + 1, hn⟩).mpr h))).trans ((dif_neg (fun h => hc2 ((hcond1_2 ⟨n + 1, hn⟩).mpr h))).trans rfl)))

theorem outsAt1_D (c : Dev nD) (t : Fin cfg1.N) (hc0 : ¬cond1_0 (grid1.coords t)) (hc1 : ¬cond1_1 (grid1.coords t)) (hc2 : cond1_2 (grid1.coords t)) (hc3 : ¬cond1_3 (grid1.coords t)) :
    outsAt1 V c t.val t.isLt =
      (out1_D_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 hc2 hc3 (iblk1 V c 0 t) (iblk1 V c 1 t) (iblk1 V c 2 t) (iblk1 V c 3 t) (outsAt1 V c (t.val - 1) (Nat.lt_of_le_of_lt (Nat.sub_le _ _) t.isLt)).2.2.1 (outsAt1 V c (t.val - 1) (Nat.lt_of_le_of_lt (Nat.sub_le _ _) t.isLt)).2.2.2,
       out1_D_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 hc2 hc3 (iblk1 V c 0 t) (iblk1 V c 1 t) (iblk1 V c 2 t) (iblk1 V c 3 t) (outsAt1 V c (t.val - 1) (Nat.lt_of_le_of_lt (Nat.sub_le _ _) t.isLt)).2.2.1 (outsAt1 V c (t.val - 1) (Nat.lt_of_le_of_lt (Nat.sub_le _ _) t.isLt)).2.2.2,
       sout1_D_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 hc2 hc3 (iblk1 V c 0 t) (iblk1 V c 1 t) (iblk1 V c 2 t) (iblk1 V c 3 t) (outsAt1 V c (t.val - 1) (Nat.lt_of_le_of_lt (Nat.sub_le _ _) t.isLt)).2.2.1 (outsAt1 V c (t.val - 1) (Nat.lt_of_le_of_lt (Nat.sub_le _ _) t.isLt)).2.2.2,
       sout1_D_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 hc2 hc3 (iblk1 V c 0 t) (iblk1 V c 1 t) (iblk1 V c 2 t) (iblk1 V c 3 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact absurd ((hcond1_0 ⟨0, hn⟩).mpr rfl) hc0
  | succ n => exact (dif_neg (fun h => hc1 ((hcond1_1 ⟨n + 1, hn⟩).mpr h))).trans ((dif_neg (fun h => hc0 ((hcond1_0 ⟨n + 1, hn⟩).mpr h))).trans ((dif_neg (fun h => hc3 ((hcond1_3 ⟨n + 1, hn⟩).mpr h))).trans ((dif_pos ((hcond1_2 ⟨n + 1, hn⟩).mp hc2)).trans rfl)))

theorem outsAt1_E (c : Dev nD) (t : Fin cfg1.N) (hc0 : ¬cond1_0 (grid1.coords t)) (hc1 : ¬cond1_1 (grid1.coords t)) (hc2 : cond1_2 (grid1.coords t)) (hc3 : cond1_3 (grid1.coords t)) :
    outsAt1 V c t.val t.isLt =
      (out1_E_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 hc2 hc3 (iblk1 V c 0 t) (iblk1 V c 1 t) (iblk1 V c 2 t) (iblk1 V c 3 t) (outsAt1 V c (t.val - 1) (Nat.lt_of_le_of_lt (Nat.sub_le _ _) t.isLt)).2.2.1 (outsAt1 V c (t.val - 1) (Nat.lt_of_le_of_lt (Nat.sub_le _ _) t.isLt)).2.2.2,
       out1_E_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 hc2 hc3 (iblk1 V c 0 t) (iblk1 V c 1 t) (iblk1 V c 2 t) (iblk1 V c 3 t) (outsAt1 V c (t.val - 1) (Nat.lt_of_le_of_lt (Nat.sub_le _ _) t.isLt)).2.2.1 (outsAt1 V c (t.val - 1) (Nat.lt_of_le_of_lt (Nat.sub_le _ _) t.isLt)).2.2.2,
       sout1_E_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 hc2 hc3 (iblk1 V c 0 t) (iblk1 V c 1 t) (iblk1 V c 2 t) (iblk1 V c 3 t) (outsAt1 V c (t.val - 1) (Nat.lt_of_le_of_lt (Nat.sub_le _ _) t.isLt)).2.2.1 (outsAt1 V c (t.val - 1) (Nat.lt_of_le_of_lt (Nat.sub_le _ _) t.isLt)).2.2.2,
       sout1_E_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 hc2 hc3 (iblk1 V c 0 t) (iblk1 V c 1 t) (iblk1 V c 2 t) (iblk1 V c 3 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact absurd ((hcond1_0 ⟨0, hn⟩).mpr rfl) hc0
  | succ n => exact (dif_neg (fun h => hc1 ((hcond1_1 ⟨n + 1, hn⟩).mpr h))).trans ((dif_neg (fun h => hc0 ((hcond1_0 ⟨n + 1, hn⟩).mpr h))).trans ((dif_pos ((hcond1_3 ⟨n + 1, hn⟩).mp hc3)).trans rfl))

/-! ## The invariant -/

/-- The class invariant hands out the two scratch buffers (at some contents) and takes them back at any contents: the
    other scoped buffers and the generator register stay inside the wand, unnamed. -/
theorem PhiA1_split (c : Dev nD) :
    (Pipeline.ΦA spec1 c : sProp 𝕄) ⊢ iprop((∃ d, owns (c : Thread nD τ) scM1_0 fullShare d) ∗ (∃ d, owns (c : Thread nD τ) scM1_1 fullShare d) ∗ (((∃ d, owns (c : Thread nD τ) scM1_0 fullShare d) ∗ (∃ d, owns (c : Thread nD τ) scM1_1 fullShare d)) -∗ Pipeline.ΦA spec1 c)) := by
  unfold Pipeline.ΦA; rw [scopedRest1_eq]; simp only [scM1_0, scM1_1, owns_whole]
  iintro ⟨⟨H1, H2, H3, H4, H5, H6, HS0, HS1⟩, Hg⟩
  isplitl [HS0]; · iexact HS0
  isplitl [HS1]; · iexact HS1
  iintro ⟨HS0', HS1'⟩
  isplitr [Hg]
  · isplitl [H1]; · iexact H1
    isplitl [H2]; · iexact H2
    isplitl [H3]; · iexact H3
    isplitl [H4]; · iexact H4
    isplitl [H5]; · iexact H5
    isplitl [H6]; · iexact H6
    isplitl [HS0']; · iexact HS0'
    iexact HS1'
  iexact Hg

/-- Before position `n`: at the start the class invariant; afterwards both running minima at what the point before
    left, beside the promise that giving them back (at anything) restores the class invariant. -/
def PhiS1 (c : Dev nD) : (n : ℕ) → n ≤ cfg1.N → sProp 𝕄
  | 0, _ => Pipeline.ΦA spec1 c
  | n + 1, hn => iprop(owns (c : Thread nD τ) scM1_0 fullShare ((outsAt1 V c n hn).2.2.1) ∗ owns (c : Thread nD τ) scM1_1 fullShare ((outsAt1 V c n hn).2.2.2) ∗ (((∃ d, owns (c : Thread nD τ) scM1_0 fullShare d) ∗ (∃ d, owns (c : Thread nD τ) scM1_1 fullShare d)) -∗ Pipeline.ΦA spec1 c))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) scM1_0 fullShare ((outsAt1 V c n hn).2.2.1) ∗ owns (c : Thread nD τ) scM1_1 fullShare ((outsAt1 V c n hn).2.2.2) ∗ (((∃ d, owns (c : Thread nD τ) scM1_0 fullShare d) ∗ (∃ d, owns (c : Thread nD τ) scM1_1 fullShare d)) -∗ Pipeline.ΦA spec1 c)) := rfl
theorem PhiS1_pos (c : Dev nD) (n : ℕ) (h : n ≤ cfg1.N) (hz : n ≠ 0) :
    PhiS1 V c n h = iprop(owns (c : Thread nD τ) scM1_0 fullShare ((outsAt1 V c (n - 1) (by omega)).2.2.1) ∗ owns (c : Thread nD τ) scM1_1 fullShare ((outsAt1 V c (n - 1) (by omega)).2.2.2) ∗ (((∃ d, owns (c : Thread nD τ) scM1_0 fullShare d) ∗ (∃ d, owns (c : Thread nD τ) scM1_1 fullShare d)) -∗ Pipeline.ΦA spec1 c)) := by
  cases n with
  | zero => exact absurd rfl hz
  | succ n => rfl

/-! ## The proof data -/

/-- Region 1's proof data on core `c`: the arrays as the region finds them; after the body each input's buffer at
    its block, each result's at its component of the recursion; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

end Cert.Kernel.Hand

end
-- ==== Proof.K.R1BodyA0.lean ====
/-
  Region 1, the body's obligation at a point of case A that is the grid's first point: the first tile of a batch row (nb = 0, mb = 0): both running minima are reset to +∞ before this tile's minima are folded in; neither result is stored.
-/
import proofs.«161420_j81003083203706_2_alg».proof.Proof.K.R1Outs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 9600000 in
theorem sound_body1_A0 (c : Dev nD) (t : Fin cfg1.N) (hc0 : cond1_0 (grid1.coords t)) (hc1 : cond1_1 (grid1.coords t)) (hc2 : ¬cond1_2 (grid1.coords t)) (hc3 : ¬cond1_3 (grid1.coords t)) (hz : t.val = 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [Dat.leavesExact_idle (dat1 V c) 4 t (idleAt1_4 t hc2) (noFlush1_4 t hc2)]
  rw [Dat.leavesExact_idle (dat1 V c) 5 t (idleAt1_5 t hc3) (noFlush1_5 t hc3)]
  rw [outsAt1_A V c t hc0 hc1 hc2 hc3]
  unfold sout1_A_0 sout1_A_1; (try dsimp only)
  rw [PhiS1_castSucc V c t, PhiS1_zero V c _ _ hz]
  iintro ⟨HΦ, Ho, ⟨%d0, H0⟩, ⟨%d1, H1⟩, ⟨%d2, H2⟩, ⟨%d3, H3⟩, ⟨%d4, H4⟩, ⟨%d5, H5⟩⟩
  ihave Hsp := PhiA1_split c $$ HΦ
  icases Hsp with ⟨HS0, HS1, Hw⟩
  iapply ((kernelRun1_A c (grid1.coords t) _ _ _ _ _ _ _ _ _ _ _ _ _ _ _ _ hc0 hc1 hc2 hc3 (iblk1 V c 0 t) (iblk1 V c 1 t) (iblk1 V c 2 t) (iblk1 V c 3 t)).2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iintro ⟨H0, H1, H2, H3, H4, H5, ⟨%es0, HS0⟩, ⟨%es1, HS1⟩⟩
  isplitl [HS0 HS1 Hw]
  · isplitl [HS0]
    · unfold owns; iexists _; isplitr
      swap; · iexact HS0
      ipureintro; exact View.read_writes_of_cover _ _ _ _ _ (scover1_A_0 c _ _ _ _ _ _ _ _ _ _ _ _ _ _ _ _ _ _ _ _ _ _ _ _ _)
    isplitl [HS1]
    · unfold owns; iexists _; isplitr
      swap; · iexact HS1
      ipureintro; exact View.read_writes_of_cover _ _ _ _ _ (scover1_A_1 c _ _ _ _ _ _ _ _ _ _ _ _ _ _ _ _ _ _ _ _ _ _ _ _ _)
    iexact Hw
  isplitl [Ho]; · iexact Ho
  isplitl [H0]; · iexact H0
  isplitl [H1]; · iexact H1
  isplitl [H2]; · iexact H2
  isplitl [H3]; · iexact H3
  isplitl [H4]; · iexists _; iexact H4
  iexists _; iexact H5

end Cert.Kernel.Hand

end
-- ==== Proof.K.R1BodyA.lean ====
/-
  Region 1, the body's obligation at a point of case A that is not the grid's first point: the first tile of a batch row (nb = 0, mb = 0): both running minima are reset to +∞ before this tile's minima are folded in; neither result is stored.
-/
import proofs.«161420_j81003083203706_2_alg».proof.Proof.K.R1Outs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 9600000 in
theorem sound_body1_A (c : Dev nD) (t : Fin cfg1.N) (hc0 : cond1_0 (grid1.coords t)) (hc1 : cond1_1 (grid1.coords t)) (hc2 : ¬cond1_2 (grid1.coords t)) (hc3 : ¬cond1_3 (grid1.coords t)) (hz : t.val ≠ 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [Dat.leavesExact_idle (dat1 V c) 4 t (idleAt1_4 t hc2) (noFlush1_4 t hc2)]
  rw [Dat.leavesExact_idle (dat1 V c) 5 t (idleAt1_5 t hc3) (noFlush1_5 t hc3)]
  rw [outsAt1_A V c t hc0 hc1 hc2 hc3]
  unfold sout1_A_0 sout1_A_1; (try dsimp only)
  rw [PhiS1_castSucc V c t, PhiS1_pos V c _ _ hz]
  iintro ⟨⟨HS0, HS1, Hw⟩, Ho, ⟨%d0, H0⟩, ⟨%d1, H1⟩, ⟨%d2, H2⟩, ⟨%d3, H3⟩, ⟨%d4, H4⟩, ⟨%d5, H5⟩⟩
  iapply ((kernelRun1_A c (grid1.coords t) _ _ _ _ _ _ _ _ _ _ _ _ _ _ _ _ hc0 hc1 hc2 hc3 (iblk1 V c 0 t) (iblk1 V c 1 t) (iblk1 V c 2 t) (iblk1 V c 3 t)).2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexists _; iexact HS0
  isplitl [HS1]; · iexists _; iexact HS1
  iintro ⟨H0, H1, H2, H3, H4, H5, ⟨%es0, HS0⟩, ⟨%es1, HS1⟩⟩
  isplitl [HS0 HS1 Hw]
  · isplitl [HS0]
    · unfold owns; iexists _; isplitr
      swap; · iexact HS0
      ipureintro; exact View.read_writes_of_cover _ _ _ _ _ (scover1_A_0 c _ _ _ _ _ _ _ _ _ _ _ _ _ _ _ _ _ _ _ _ _ _ _ _ _)
    isplitl [HS1]
    · unfold owns; iexists _; isplitr
      swap; · iexact HS1
      ipureintro; exact View.read_writes_of_cover _ _ _ _ _ (scover1_A_1 c _ _ _ _ _ _ _ _ _ _ _ _ _ _ _ _ _ _ _ _ _ _ _ _ _)
    iexact Hw
  isplitl [Ho]; · iexact Ho
  isplitl [H0]; · iexact H0
  isplitl [H1]; · iexact H1
  isplitl [H2]; · iexact H2
  isplitl [H3]; · iexact H3
  isplitl [H4]; · iexists _; iexact H4
  iexists _; iexact H5

end Cert.Kernel.Hand

end
-- ==== Proof.K.R1BodyB.lean ====
/-
  Region 1, the body's obligation at a point of case B: the first tile of a later row block (nb ≠ 0, mb = 0): the row minima are reset, the column minima carried; neither result is stored.
-/
import proofs.«161420_j81003083203706_2_alg».proof.Proof.K.R1Outs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 9600000 in
theorem sound_body1_B (c : Dev nD) (t : Fin cfg1.N) (hc0 : cond1_0 (grid1.coords t)) (hc1 : ¬cond1_1 (grid1.coords t)) (hc2 : ¬cond1_2 (grid1.coords t)) (hc3 : ¬cond1_3 (grid1.coords t)) (hz : t.val ≠ 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [Dat.leavesExact_idle (dat1 V c) 4 t (idleAt1_4 t hc2) (noFlush1_4 t hc2)]
  rw [Dat.leavesExact_idle (dat1 V c) 5 t (idleAt1_5 t hc3) (noFlush1_5 t hc3)]
  rw [outsAt1_B V c t hc0 hc1 hc2 hc3]
  unfold sout1_B_0 sout1_B_1; (try dsimp only)
  rw [PhiS1_castSucc V c t, PhiS1_pos V c _ _ hz]
  iintro ⟨⟨HS0, HS1, Hw⟩, Ho, ⟨%d0, H0⟩, ⟨%d1, H1⟩, ⟨%d2, H2⟩, ⟨%d3, H3⟩, ⟨%d4, H4⟩, ⟨%d5, H5⟩⟩
  iapply ((kernelRun1_B c (grid1.coords t) _ _ _ _ _ _ _ _ _ _ _ _ _ _ _ _ hc0 hc1 hc2 hc3 (iblk1 V c 0 t) (iblk1 V c 1 t) (iblk1 V c 2 t) (iblk1 V c 3 t) _).2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexists _; iexact HS0
  isplitl [HS1]; · iexact HS1
  iintro ⟨H0, H1, H2, H3, H4, H5, ⟨%es0, HS0⟩, HS1⟩
  isplitl [HS0 HS1 Hw]
  · isplitl [HS0]
    · unfold owns; iexists _; isplitr
      swap; · iexact HS0
      ipureintro; exact View.read_writes_of_cover _ _ _ _ _ (scover1_B_0 c _ _ _ _ _ _ _ _ _ _ _ _ _ _ _ _ _ _ _ _ _ _ _ _ _ _)
    isplitl [HS1]
    · unfold owns; iexists _; isplitr
      swap; · iexact HS1
      ipureintro; rfl
    iexact Hw
  isplitl [Ho]; · iexact Ho
  isplitl [H0]; · iexact H0
  isplitl [H1]; · iexact H1
  isplitl [H2]; · iexact H2
  isplitl [H3]; · iexact H3
  isplitl [H4]; · iexists _; iexact H4
  iexists _; iexact H5

end Cert.Kernel.Hand

end
-- ==== Proof.K.R1BodyC.lean ====
/-
  Region 1, the body's obligation at a point of case C: a tile in the middle of a sweep (mb = 1 or 2): both running minima carried; neither result is stored.
-/
import proofs.«161420_j81003083203706_2_alg».proof.Proof.K.R1Outs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 9600000 in
theorem sound_body1_C (c : Dev nD) (t : Fin cfg1.N) (hc0 : ¬cond1_0 (grid1.coords t)) (hc1 : ¬cond1_1 (grid1.coords t)) (hc2 : ¬cond1_2 (grid1.coords t)) (hc3 : ¬cond1_3 (grid1.coords t)) (hz : t.val ≠ 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [Dat.leavesExact_idle (dat1 V c) 4 t (idleAt1_4 t hc2) (noFlush1_4 t hc2)]
  rw [Dat.leavesExact_idle (dat1 V c) 5 t (idleAt1_5 t hc3) (noFlush1_5 t hc3)]
  rw [outsAt1_C V c t hc0 hc1 hc2 hc3]
  unfold sout1_C_0 sout1_C_1; (try dsimp only)
  rw [PhiS1_castSucc V c t, PhiS1_pos V c _ _ hz]
  iintro ⟨⟨HS0, HS1, Hw⟩, Ho, ⟨%d0, H0⟩, ⟨%d1, H1⟩, ⟨%d2, H2⟩, ⟨%d3, H3⟩, ⟨%d4, H4⟩, ⟨%d5, H5⟩⟩
  iapply ((kernelRun1_C c (grid1.coords t) _ _ _ _ _ _ _ _ _ _ _ _ _ _ _ _ hc0 hc1 hc2 hc3 (iblk1 V c 0 t) (iblk1 V c 1 t) (iblk1 V c 2 t) (iblk1 V c 3 t) _ _).2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iintro ⟨H0, H1, H2, H3, H4, H5, ⟨%es0, HS0⟩, HS1⟩
  isplitl [HS0 HS1 Hw]
  · isplitl [HS0]
    · unfold owns; iexists _; isplitr
      swap; · iexact HS0
      ipureintro; exact View.read_writes_of_cover _ _ _ _ _ (scover1_C_0 c _ _ _ _ _ _ _ _ _ _ _ _ _ _ _ _ _ _ _ _ _ _ _ _ _ _ _)
    isplitl [HS1]
    · unfold owns; iexists _; isplitr
      swap; · iexact HS1
      ipureintro; rfl
    iexact Hw
  isplitl [Ho]; · iexact Ho
  isplitl [H0]; · iexact H0
  isplitl [H1]; · iexact H1
  isplitl [H2]; · iexact H2
  isplitl [H3]; · iexact H3
  isplitl [H4]; · iexists _; iexact H4
  iexists _; iexact H5

end Cert.Kernel.Hand

end
-- ==== Proof.K.R1BodyD.lean ====
/-
  Region 1, the body's obligation at a point of case D: the last tile of a row block that is not the batch row's last (mb = 3, nb ≠ 3): the row minima, shifted back by the maximum, are stored to the first result.
-/
import proofs.«161420_j81003083203706_2_alg».proof.Proof.K.R1Outs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 9600000 in
theorem sound_body1_D (c : Dev nD) (t : Fin cfg1.N) (hc0 : ¬cond1_0 (grid1.coords t)) (hc1 : ¬cond1_1 (grid1.coords t)) (hc2 : cond1_2 (grid1.coords t)) (hc3 : ¬cond1_3 (grid1.coords t)) (hz : t.val ≠ 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t hc2], after1_4]
  rw [Dat.leavesExact_idle (dat1 V c) 5 t (idleAt1_5 t hc3) (noFlush1_5 t hc3)]
  rw [outsAt1_D V c t hc0 hc1 hc2 hc3]
  unfold out1_D_4 sout1_D_0 sout1_D_1; (try dsimp only)
  rw [PhiS1_castSucc V c t, PhiS1_pos V c _ _ hz]
  iintro ⟨⟨HS0, HS1, Hw⟩, Ho, ⟨%d0, H0⟩, ⟨%d1, H1⟩, ⟨%d2, H2⟩, ⟨%d3, H3⟩, ⟨%d4, H4⟩, ⟨%d5, H5⟩⟩
  iapply ((kernelRun1_D c (grid1.coords t) _ _ _ _ _ _ _ _ _ _ _ _ _ _ _ _ hc0 hc1 hc2 hc3 (iblk1 V c 0 t) (iblk1 V c 1 t) (iblk1 V c 2 t) (iblk1 V c 3 t) _ _).2.2.2.2 _ Set.univ _)
  isplitl [H0]; · iexact H0
  isplitl [H1]; · iexact H1
  isplitl [H2]; · iexact H2
  isplitl [H3]; · iexact H3
  isplitl [H4]; · iexists _; iexact H4
  isplitl [H5]; · iexact H5
  isplitl [HS0]; · iexact HS0
  isplitl [HS1]; · iexact HS1
  iintro ⟨H0, H1, H2, H3, ⟨%e4, H4⟩, H5, ⟨%es0, HS0⟩, HS1⟩
  isplitl [HS0 HS1 Hw]
  · isplitl [HS0]
    · unfold owns; iexists _; isplitr
      swap; · iexact HS0
      ipureintro; exact View.read_writes_of_cover _ _ _ _ _ (scover1_D_0 c _ _ _ _ _ _ _ _ _ _ _ _ _ _ _ _ _ _ _ _ _ _ _ _ _ _ _)
    isplitl [HS1]
    · unfold owns; iexists _; isplitr
      swap; · iexact HS1
      ipureintro; rfl
    iexact Hw
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover1_D_4 c _ _ _ _ _ _ _ _ _ _ _ _ _ _ _ _ _ _ _ _ _ _ _ _ _ _ _)
  iexists _; iexact H5

end Cert.Kernel.Hand

end
-- ==== Proof.K.R1BodyE.lean ====
/-
  Region 1, the body's obligation at a point of case E: the last tile of a batch row (nb = 3, mb = 3): both results are stored.
-/
import proofs.«161420_j81003083203706_2_alg».proof.Proof.K.R1Outs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 9600000 in
theorem sound_body1_E (c : Dev nD) (t : Fin cfg1.N) (hc0 : ¬cond1_0 (grid1.coords t)) (hc1 : ¬cond1_1 (grid1.coords t)) (hc2 : cond1_2 (grid1.coords t)) (hc3 : cond1_3 (grid1.coords t)) (hz : t.val ≠ 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t hc2], after1_4]
  rw [show (dat1 V c).leavesExact 5 t = owns (c : Thread nD τ) (ms1_5 t) fullShare ((dat1 V c).after 5 t) from by
    unfold Dat.leavesExact; rw [liveAt1_5 t hc3], after1_5]
  rw [outsAt1_E V c t hc0 hc1 hc2 hc3]
  unfold out1_E_4 out1_E_5 sout1_E_0 sout1_E_1; (try dsimp only)
  rw [PhiS1_castSucc V c t, PhiS1_pos V c _ _ hz]
  iintro ⟨⟨HS0, HS1, Hw⟩, Ho, ⟨%d0, H0⟩, ⟨%d1, H1⟩, ⟨%d2, H2⟩, ⟨%d3, H3⟩, ⟨%d4, H4⟩, ⟨%d5, H5⟩⟩
  iapply ((kernelRun1_E c (grid1.coords t) _ _ _ _ _ _ _ _ _ _ _ _ _ _ _ _ hc0 hc1 hc2 hc3 (iblk1 V c 0 t) (iblk1 V c 1 t) (iblk1 V c 2 t) (iblk1 V c 3 t) _ _).2.2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [HS0]; · iexact HS0
  isplitl [HS1]; · iexact HS1
  iintro ⟨H0, H1, H2, H3, ⟨%e4, H4⟩, ⟨%e5, H5⟩, ⟨%es0, HS0⟩, HS1⟩
  isplitl [HS0 HS1 Hw]
  · isplitl [HS0]
    · unfold owns; iexists _; isplitr
      swap; · iexact HS0
      ipureintro; exact View.read_writes_of_cover _ _ _ _ _ (scover1_E_0 c _ _ _ _ _ _ _ _ _ _ _ _ _ _ _ _ _ _ _ _ _ _ _ _ _ _ _)
    isplitl [HS1]
    · unfold owns; iexists _; isplitr
      swap; · iexact HS1
      ipureintro; rfl
    iexact Hw
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover1_E_4 c _ _ _ _ _ _ _ _ _ _ _ _ _ _ _ _ _ _ _ _ _ _ _ _ _ _ _)
  unfold owns; iexists _; isplitr
  swap; · iexact H5
  ipureintro; exact View.read_writes_of_cover _ _ _ _ _ (cover1_E_5 c _ _ _ _ _ _ _ _ _ _ _ _ _ _ _ _ _ _ _ _ _ _ _ _ _ _ _)

end Cert.Kernel.Hand

end
-- ==== Proof.K.R1Oblig.lean ====
/-
  Region 1, the body's obligation at every grid point: the point's residues mod 16 and mod 4 say which case of the
  sweep it is in, and each case is its own lemma; with it, what the launch hands the region is the invariant before
  the first point, and after the last point the invariant gives the class invariant back.
-/
import proofs.«161420_j81003083203706_2_alg».proof.Proof.K.R1BodyA0
import proofs.«161420_j81003083203706_2_alg».proof.Proof.K.R1BodyA
import proofs.«161420_j81003083203706_2_alg».proof.Proof.K.R1BodyB
import proofs.«161420_j81003083203706_2_alg».proof.Proof.K.R1BodyC
import proofs.«161420_j81003083203706_2_alg».proof.Proof.K.R1BodyD
import proofs.«161420_j81003083203706_2_alg».proof.Proof.K.R1BodyE

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem sound_body1 (c : Dev nD) (t : Fin cfg1.N) :
    bodyPre1 V c t ⊢ wp frame (wpE (defs₀ (F := F)) Variants.none c none) Set.univ (bodyAt1 t) (fun _ => bodyPost1 V c t) := by
  by_cases a16 : t.val % 16 = 0
  · have hc0 : cond1_0 (grid1.coords t) := (hcond1_0 t).mpr (by omega)
    have hc1 : cond1_1 (grid1.coords t) := (hcond1_1 t).mpr a16
    have hc2 : ¬cond1_2 (grid1.coords t) := fun h => by have := (hcond1_2 t).mp h; omega
    have hc3 : ¬cond1_3 (grid1.coords t) := fun h => by have := (hcond1_3 t).mp h; omega
    by_cases hz : t.val = 0
    · exact sound_body1_A0 V c t hc0 hc1 hc2 hc3 hz
    · exact sound_body1_A V c t hc0 hc1 hc2 hc3 hz
  · have hz : t.val ≠ 0 := fun e => a16 (by rw [e])
    have hc1 : ¬cond1_1 (grid1.coords t) := fun h => a16 ((hcond1_1 t).mp h)
    by_cases a4 : t.val % 4 = 0
    · have hc0 : cond1_0 (grid1.coords t) := (hcond1_0 t).mpr a4
      have hc2 : ¬cond1_2 (grid1.coords t) := fun h => by have := (hcond1_2 t).mp h; omega
      have hc3 : ¬cond1_3 (grid1.coords t) := fun h => by have := (hcond1_3 t).mp h; omega
      exact sound_body1_B V c t hc0 hc1 hc2 hc3 hz
    · have hc0 : ¬cond1_0 (grid1.coords t) := fun h => a4 ((hcond1_0 t).mp h)
      by_cases e15 : t.val % 16 = 15
      · have hc2 : cond1_2 (grid1.coords t) := (hcond1_2 t).mpr (by omega)
        have hc3 : cond1_3 (grid1.coords t) := (hcond1_3 t).mpr e15
        exact sound_body1_E V c t hc0 hc1 hc2 hc3 hz
      · have hc3 : ¬cond1_3 (grid1.coords t) := fun h => e15 ((hcond1_3 t).mp h)
        by_cases d3 : t.val % 4 = 3
        · have hc2 : cond1_2 (grid1.coords t) := (hcond1_2 t).mpr d3
          exact sound_body1_D V c t hc0 hc1 hc2 hc3 hz
        · have hc2 : ¬cond1_2 (grid1.coords t) := fun h => d3 ((hcond1_2 t).mp h)
          exact sound_body1_C V c t hc0 hc1 hc2 hc3 hz
set_option maxHeartbeats 4000000 in
/-- The library's body obligation, at every point. -/
theorem body_obligation1 (c : Dev nD) : BodyObligation (dat1 (F := F) V c) (defs₀ (F := F)) Variants.none () Set.univ := fun t => by
  rw [bigSep_W1, bigSep_W1]
  have h := sound_body1 V c t
  unfold bodyPre1 bodyPost1 bodyAt1 at h
  exact h

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but none the invariant gives the class invariant back: the running minima's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  iintro ⟨HS0, HS1, Hw⟩
  iapply Hw
  isplitl [HS0]; · iexists _; iexact HS0
  iexists _; iexact HS1

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Cert.Kernel.Hand

end
-- ==== Proof.K.RunMain.lean ====
/-
  The whole run. @main is four segments: region 0 (the maximum), one host operation (the mask given a unit middle
  axis), region 1 (the two families of minima), twelve host operations (the two results squeezed, summed and divided).
  The buffers' contents at each boundary are a fold from the launch memory: a region leaves its arrays at what its
  write-backs leave and every other buffer as it found it; a host stretch leaves what its operations compute. Every
  weakly fair execution terminates, and every final memory holds each unscoped buffer at the last fold.
-/
import proofs.«161420_j81003083203706_2_alg».proof.Proof.K.R0Frame
import proofs.«161420_j81003083203706_2_alg».proof.Proof.K.R1Oblig
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch (region 0's entry: nothing runs before it). -/
abbrev W0 : Dev nD → Valuation τ sig (Elt F) := fun c b => m (c, b)
abbrev E0 : (c : Dev nD) → (b : Ref sig .tc) → Buf (Elt F) ((c : Thread nD τ).loc b) := fun c b => W0 m c b
/-- At region 0's exit: the one-element result at what the last point wrote back, everything else as entered. -/
def W1 (c : Dev nD) : Valuation τ sig (Elt F) :=
  Pipeline.withArrays spec0 c (W0 m c) fun w => (dat0 (E0 m) c).arrAt w cfg0.N
theorem W1_arr (c : Dev nD) (w : Fin cfg0.W) :
    W1 m c (Proc.devRef .tc (Pipeline.arrRef spec0 w)) = (dat0 (E0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev E1 : (c : Dev nD) → (b : Ref sig .tc) → Buf (Elt F) ((c : Thread nD τ).loc b) := fun c b => W1 m c b
theorem hF0 (c : Dev nD) (w : Fin cfg0.W) : (dat0 (E0 m) c).arrAt w cfg0.N = E1 m c (Pipeline.arrRef spec0 w) :=
  (W1_arr m c w).symm
theorem hrest0 (c : Dev nD) : ∀ b, b ∉ Finset.univ.image (Pipeline.arrRef spec0) → E1 m c b = E0 m c b :=
  fun b hb => W1_of_ne m c b fun w e => hb (Finset.mem_image.mpr ⟨w, Finset.mem_univ _, e⟩)

/-- After the host operation between the regions (region 1's entry). -/
abbrev W2 : Dev nD → Valuation τ sig (Elt F) := fun c => StableHlo.after hostOps1 (W1 m c)
abbrev E2 : (c : Dev nD) → (b : Ref sig .tc) → Buf (Elt F) ((c : Thread nD τ).loc b) := fun c b => W2 m c b
/-- At region 1's exit: its two results at what their write-backs leave, everything else as entered. -/
def W3 (c : Dev nD) : Valuation τ sig (Elt F) :=
  Pipeline.withArrays spec1 c (W2 m c) fun w => (dat1 (E2 m) c).arrAt w cfg1.N
theorem W3_arr (c : Dev nD) (w : Fin cfg1.W) :
    W3 m c (Proc.devRef .tc (Pipeline.arrRef spec1 w)) = (dat1 (E2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev E3 : (c : Dev nD) → (b : Ref sig .tc) → Buf (Elt F) ((c : Thread nD τ).loc b) := fun c b => W3 m c b
theorem hF1 (c : Dev nD) (w : Fin cfg1.W) : (dat1 (E2 m) c).arrAt w cfg1.N = E3 m c (Pipeline.arrRef spec1 w) :=
  (W3_arr m c w).symm
theorem hrest1 (c : Dev nD) : ∀ b, b ∉ Finset.univ.image (Pipeline.arrRef spec1) → E3 m c b = E2 m c b :=
  fun b hb => W3_of_ne m c b fun w e => hb (Finset.mem_image.mpr ⟨w, Finset.mem_univ _, e⟩)
/-- After the host operations that follow region 1: the program's end. -/
abbrev W4 : Dev nD → Valuation τ sig (Elt F) := fun c => StableHlo.after hostOps2 (W3 m c)

/-! ## The proof data family and the thread state -/

abbrev admH : (p : Fin 2) → (pcfgs (F := F) p).Adm := fun p => (cfgs p).toPCfg_adm
/-- Every pipeline's proof data, each at its region's entry contents: a literal match on the pipeline's index. -/
def pdatsH : (p : Fin 2) → (c : Dev nD) → Dat τ (Elt F) Unit ℕ (UR sig nD τ) ℕ (Pipeline.pin (pcfgs (F := F)) admH p) c
  | ⟨0, _⟩ => fun c => dat0 (E0 m) c
  | ⟨1, _⟩ => fun c => dat1 (E2 m) c
abbrev VarH : Variants := Variants.none
abbrev LH : GSem nD τ sig → Finset Unit := fun _ => ∅
abbrev lvH : GSem nD τ sig → Unit → ℕ := fun _ _ => 0
/-- What rides beside the buffers through every segment: the generator register at some state, and nothing owed. -/
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ VarH LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem hostOps1_freshH : (hostOps1 : List (HloOp τ sig (Elt F))).Forall fun op => op.fresh = ∅ := by
  simp only [List.Forall]; repeat' constructor
theorem hostOps2_freshH : (hostOps2 : List (HloOp τ sig (Elt F))).Forall fun op => op.fresh = ∅ := by
  simp only [List.Forall]; repeat' constructor
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev TnH (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 over the thread state: entered from every unscoped buffer at `W0`, left at `W1`. Its arrays are
    split out of the unscoped buffers and put back at what the pipeline leaves in them; the generator register goes
    into the invariant and comes back; the kernel's scratch contents are forgotten at the exit; nothing is owed. -/
def reg0 : Pipeline.RegionSeg (pcfgs (F := F)) admH (pdatsH m) () defs₀ VarH LH lvH 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ LH lvH 0 fun _ _ => rfl
  pre c := iprop(StableHlo.held (c : Thread nD τ) (Pipeline.ucRefs τ sig) (W0 m c) ∗ RH c)
  post c := iprop(StableHlo.held (c : Thread nD τ) (Pipeline.ucRefs τ sig) (W1 m c) ∗ RH c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) admH (pdatsH m) launch0.win launch0.arr_whole c
      ((pdatsH m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = Pipeline.ΦA spec0 c from rfl]; unfold Pipeline.ΦA
    iintro ⟨Hp, -, Hr⟩
    isplitl [Hr]; · iexact Hr
    iexact Hp
  hout c := by
    refine (show (pdatsH m 0 c).Φ (Fin.last _) ⊢ Pipeline.ΦA spec0 c from hout0 (E0 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m) ((pdatsH m 0 c).share_full fun _ => rfl)
      (E0 m c) (E1 m c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its arrays are
    split out of the unscoped buffers and put back at what the pipeline leaves in them; the generator register goes
    into the invariant and comes back; the kernel's scratch contents are forgotten at the exit; nothing is owed. -/
def reg1 : Pipeline.RegionSeg (pcfgs (F := F)) admH (pdatsH m) () defs₀ VarH LH lvH 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ LH lvH 1 fun _ _ => rfl
  pre c := iprop(StableHlo.held (c : Thread nD τ) (Pipeline.ucRefs τ sig) (W2 m c) ∗ RH c)
  post c := iprop(StableHlo.held (c : Thread nD τ) (Pipeline.ucRefs τ sig) (W3 m c) ∗ RH c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) admH (pdatsH m) launch1.win launch1.arr_whole c
      ((pdatsH m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 1 c).Φ 0 = Pipeline.ΦA spec1 c from rfl]; unfold Pipeline.ΦA
    iintro ⟨Hp, -, Hr⟩
    isplitl [Hr]; · iexact Hr
    iexact Hp
  hout c := by
    refine (show (pdatsH m 1 c).Φ (Fin.last _) ⊢ Pipeline.ΦA spec1 c from hout1 (E2 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m) ((pdatsH m 1 c).share_full fun _ => rfl)
      (E2 m c) (E3 m c) ((pdatsH m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segsH : List (Pipeline.Seg (pcfgs (F := F)) admH (pdatsH m) () defs₀ VarH LH lvH) :=
  [ .region (reg0 m),
    .host (hsegH hostOps1 hostOps1_sub hostOps1_freshH (W1 m)),
    .region (reg1 m),
    .host (hsegH hostOps2 hostOps2_sub hostOps2_freshH (W3 m)) ]
theorem main_runH (c : Dev nD) : main (F := F) c = Pipeline.Seg.run (segsH m) := (main_chain c).trans (by chain_rfl)

set_option backward.isDefEq.respectTransparency.types false in
/-- THE RUN: from any memory with zero counters every weakly fair execution of @main terminates, nothing faulting, and
    every final memory holds each unscoped buffer at the last fold `W4`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) admH (pdatsH m) () cellOf_inj emb₁ defs₀ VarH LH lvH m ρ main (segsH m)
    (fun c Q => by rw [main_runH m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RH c)) (Tₙ := TnH m)
    (hch := ⟨fun _ => .rfl, fun _ => .rfl, fun _ => .rfl, fun _ => .rfl, fun c => show (iprop(StableHlo.held (c : Thread nD τ) (Pipeline.ucRefs τ sig) (W4 m c) ∗ RH c) : sProp 𝕄)
        ⊢ iprop(TnH m c ∗ ∃ W, owes (c : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.Kernel.Hand

end
-- ==== Proof.K.Frame.lean ====
/-
  The frame: no host operation writes an argument array, and a region either reads it through an input window (whose
  array the pipeline leaves as it found it) or does not touch it; so the fold of buffer contents through @main, read at
  an argument, walks back to the launch memory.
-/
import proofs.«161420_j81003083203706_2_alg».proof.Proof.K.RunMain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The source cloud: window 0 of region 0, window 1 of region 1. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg0) := (W3_arr m c 1).trans (((dat1 (E2 m) c).arrAt_in 1 rfl _).trans (A_eq1 (E2 m) c 1))
    _ = W1 m c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg0) := (W1_arr m c 0).trans (((dat0 (E0 m) c).arrAt_in 0 rfl _).trans (A_eq0 (E0 m) c 0))
    _ = m ((c : Thread nD τ).loc main_arg0) := rfl

/-- The target cloud: window 1 of region 0, window 2 of region 1. -/
theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg1) := (W3_arr m c 2).trans (((dat1 (E2 m) c).arrAt_in 2 rfl _).trans (A_eq1 (E2 m) c 2))
    _ = W1 m c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg1) := (W1_arr m c 1).trans (((dat0 (E0 m) c).arrAt_in 1 rfl _).trans (A_eq0 (E0 m) c 1))
    _ = m ((c : Thread nD τ).loc main_arg1) := rfl

/-- The mask: no region stages it (region 1 stages its copy with a unit middle axis). -/
theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg2) := W3_of_ne m c main_arg2 (by decide)
    _ = W1 m c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg2) := W1_of_ne m c main_arg2 (by decide)
    _ = m ((c : Thread nD τ).loc main_arg2) := rfl

/-- THE FRAME: every weakly fair execution terminates, nothing faulting, and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_ucH main_arg0 (by decide))).trans (W4_main_arg0 m c),
     (h c _ (mem_ucH main_arg1 (by decide))).trans (W4_main_arg1 m c),
     (h c _ (mem_ucH main_arg2 (by decide))).trans (W4_main_arg2 m c)⟩) (run_main m ρ)

end Cert.Kernel.Hand

end
-- ==== Proof.KI.R0Runs.lean ====
/-
  Region 0 (the running maximum of the L1 distances over all 8·4·4 grid points): the two branch conditions of the
  body as propositions over the grid coordinates, where over the 128 points each holds (the first point; the last
  point), at which points the result window is idle and not written back, and the staging and scratch memrefs the
  body is called with at a point.
-/
import proofs.«161420_j81003083203706_2_alg».proof.Proof.Gen.KernelIdeal.Launch
import proofs.«161420_j81003083203706_2_alg».proof.Proof.Gen.KernelIdeal.Skeleton
import proofs.«161420_j81003083203706_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- "This is the first grid point": the accumulator is reset to -∞ under it. -/
abbrev cond0_0 (i : grid0.Coords) : Prop :=
  (Scalar.cmpi .ne (Scalar.extui (Scalar.andi (Scalar.andi (Scalar.cmpi .eq (BitVec.ofNat 32 (i 0).val) 0#32) (Scalar.cmpi .eq (BitVec.ofNat 32 (i 1).val) 0#32)) (Scalar.cmpi .eq (BitVec.ofNat 32 (i 2).val) 0#32))) 0#32) = 1#1
/-- It holds at point 0 only. -/
theorem hcond0_0 : ∀ t : Fin cfg0.N, cond0_0 (grid0.coords t) ↔ t.val = 0 :=
  (by decide +kernel : ∀ t : Fin grid0.N, cond0_0 (grid0.coords t) ↔ t.val = 0)

/-- "This is the last grid point": the accumulator is copied to the result under it. -/
abbrev cond0_1 (i : grid0.Coords) : Prop := k0_cond2 i = 1#1
/-- It holds at point 127 only. -/
theorem hcond0_1 : ∀ t : Fin cfg0.N, cond0_1 (grid0.coords t) ↔ t.val = 127 :=
  (by decide +kernel : ∀ t : Fin grid0.N, cond0_1 (grid0.coords t) ↔ t.val = 127)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last point the result window is idle (nothing is stored into it) … -/
theorem idleAt0_2 : ∀ t : Fin cfg0.N, ¬cond0_1 (grid0.coords t) → cfg0.idle 2 (grid0.coords t) = true := by decide +kernel
/-- … and is not written back. -/
theorem noFlush0_2 : ∀ t : Fin cfg0.N, ¬cond0_1 (grid0.coords t) → (cfg0.win 2).flush t = false := by decide +kernel
/-- At the last point it is live. -/
theorem liveAt0_2 : ∀ t : Fin cfg0.N, cond0_1 (grid0.coords t) → cfg0.idle 2 (grid0.coords t) = false := by decide +kernel

/-! ## The memrefs the body is called with -/

abbrev ms0_0 (t : Fin cfg0.N) : Memref sig .tc .vmem S1x512x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
/-- The accumulator: a 1×1 scratch buffer of the kernel's own, carried from point to point. -/
abbrev scM0_0 : Memref sig .tc .vmem S1x1 .f32 := Memref.whole cc0_scratch0
abbrev VS0_0 : View sig .tc .vmem S1x1 .f32 := scM0_0.view
/-- One staging buffer of the result window, through which its contents are stated. -/
abbrev VO0_2 : View sig .tc .vmem S1x1 .f32 := (Memref.whole cc0_stg2_0 : Memref sig .tc .vmem S1x1 .f32).view

end Cert.KernelIdeal.Hand

end
-- ==== Proof.KI.R0RunA.lean ====
/-
  Region 0, the body at the FIRST grid point: the accumulator is first set to -∞, then to the maximum of that and the
  tile's largest distance; the result window is left untouched. The stores found by running the body are the witness.
-/
import proofs.«161420_j81003083203706_2_alg».proof.Proof.KI.R0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_A (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i)
    (x0 : Vec F S1x512x3 .f32) (x1 : Vec F S1x512x3 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__max_kernel i arg3 harg3 arg4 harg4 arg5 harg5 arg6 harg6) K } := by
  refine ⟨[], ?_, fun xi2 E K => ?run⟩
  case run =>
    simp only [cc0__max_kernel_eq_skeleton]; unfold cc0__max_kernel_skel
    simp only [k0_part1_eq_skeleton]
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Hand

end
-- ==== Proof.KI.R0RunB.lean ====
/-
  Region 0, the body at a grid point that is neither the first nor the last: the accumulator, holding what the point
  before left, is replaced by the maximum of itself and the tile's largest distance; the result window is untouched.
-/
import proofs.«161420_j81003083203706_2_alg».proof.Proof.KI.R0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_B (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i)
    (x0 : Vec F S1x512x3 .f32) (x1 : Vec F S1x512x3 .f32) (xs0 : Vec F S1x1 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__max_kernel i arg3 harg3 arg4 harg4 arg5 harg5 arg6 harg6) K } := by
  refine ⟨[], ?_, fun xi2 E K => ?run⟩
  case run =>
    simp only [cc0__max_kernel_eq_skeleton]; unfold cc0__max_kernel_skel
    simp only [k0_part1_eq_skeleton]
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Hand

end
-- ==== Proof.KI.R0RunC.lean ====
/-
  Region 0, the body at the LAST grid point: the accumulator is replaced by the maximum of itself and the tile's
  largest distance, and that value is stored into the result window.
-/
import proofs.«161420_j81003083203706_2_alg».proof.Proof.KI.R0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_C (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S1x512x3 .f32) (x1 : Vec F S1x512x3 .f32) (xs0 : Vec F S1x1 .f32) :
    Σ' (L2 : List (View.Piece (Elt F) S1x1 .f32)), { LS0 : List (View.Piece (Elt F) S1x1 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0__max_kernel i arg3 harg3 arg4 harg4 arg5 harg5 arg6 harg6) K } := by
  refine ⟨?_, ?_, fun E K => ?run⟩
  case run =>
    simp only [cc0__max_kernel_eq_skeleton]; unfold cc0__max_kernel_skel
    simp only [k0_part1_eq_skeleton]
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Hand

end
-- ==== Proof.KI.R0Frame.lean ====
/-
  Region 0 as a pipeline with proof data: what the result window's staging buffer and the accumulator hold after each
  grid point (by recursion on the point: the first point resets, every later one takes the maximum with what the
  point before left, the last one also copies the accumulator out), the invariant that carries the accumulator from
  point to point, and the body's obligation at every point, by cases on where the point lies.
  Everything is stated at a parameter `V`: the core's buffer contents when the region is entered.
-/
import proofs.«161420_j81003083203706_2_alg».proof.Proof.KI.R0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/

/-- The first point stores nothing into the result window: a placeholder nothing consults. -/
def out0_A_2 (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i) (x0 x1 : Vec F S1x512x3 .f32) : Vec F S1x1 .f32 :=
  VO0_2.read (Elt F) (VO0_2.writes (Elt F) VO0_2.junk (kernelRun0_A c i arg3 harg3 arg4 harg4 arg5 harg5 arg6 harg6 hc0 hc1 x0 x1).1)
theorem scover0_A_0 (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i) (x0 x1 : Vec F S1x512x3 .f32) (y : S1x1.Idx) :
    ∃ pc ∈ (kernelRun0_A c i arg3 harg3 arg4 harg4 arg5 harg5 arg6 harg6 hc0 hc1 x0 x1).2.1, y ∈ pc.1.set :=
  View.cover_of_tiledL (kernelRun0_A c i arg3 harg3 arg4 harg4 arg5 harg5 arg6 harg6 hc0 hc1 x0 x1).2.1 S1x1.size (by sl_kernel_rfl) y
/-- The accumulator after the first point. -/
def sout0_A_0 (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i) (x0 x1 : Vec F S1x512x3 .f32) : Vec F S1x1 .f32 :=
  VS0_0.read (Elt F) (VS0_0.writes (Elt F) VS0_0.junk (kernelRun0_A c i arg3 harg3 arg4 harg4 arg5 harg5 arg6 harg6 hc0 hc1 x0 x1).2.1)

def out0_B_2 (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i) (x0 x1 : Vec F S1x512x3 .f32) (xs0 : Vec F S1x1 .f32) : Vec F S1x1 .f32 :=
  VO0_2.read (Elt F) (VO0_2.writes (Elt F) VO0_2.junk (kernelRun0_B c i arg3 harg3 arg4 harg4 arg5 harg5 arg6 harg6 hc0 hc1 x0 x1 xs0).1)
theorem scover0_B_0 (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i) (x0 x1 : Vec F S1x512x3 .f32) (xs0 : Vec F S1x1 .f32) (y : S1x1.Idx) :
    ∃ pc ∈ (kernelRun0_B c i arg3 harg3 arg4 harg4 arg5 harg5 arg6 harg6 hc0 hc1 x0 x1 xs0).2.1, y ∈ pc.1.set :=
  View.cover_of_tiledL (kernelRun0_B c i arg3 harg3 arg4 harg4 arg5 harg5 arg6 harg6 hc0 hc1 x0 x1 xs0).2.1 S1x1.size (by sl_kernel_rfl) y
/-- The accumulator after a middle point. -/
def sout0_B_0 (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i) (x0 x1 : Vec F S1x512x3 .f32) (xs0 : Vec F S1x1 .f32) : Vec F S1x1 .f32 :=
  VS0_0.read (Elt F) (VS0_0.writes (Elt F) VS0_0.junk (kernelRun0_B c i arg3 harg3 arg4 harg4 arg5 harg5 arg6 harg6 hc0 hc1 x0 x1 xs0).2.1)

theorem cover0_C_2 (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i) (x0 x1 : Vec F S1x512x3 .f32) (xs0 : Vec F S1x1 .f32) (y : S1x1.Idx) :
    ∃ pc ∈ (kernelRun0_C c i arg3 harg3 arg4 harg4 arg5 harg5 arg6 harg6 hc0 hc1 x0 x1 xs0).1, y ∈ pc.1.set :=
  View.cover_of_tiledL (kernelRun0_C c i arg3 harg3 arg4 harg4 arg5 harg5 arg6 harg6 hc0 hc1 x0 x1 xs0).1 S1x1.size (by sl_kernel_rfl) y
/-- The result window after the last point. -/
def out0_C_2 (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i) (x0 x1 : Vec F S1x512x3 .f32) (xs0 : Vec F S1x1 .f32) : Vec F S1x1 .f32 :=
  VO0_2.read (Elt F) (VO0_2.writes (Elt F) VO0_2.junk (kernelRun0_C c i arg3 harg3 arg4 harg4 arg5 harg5 arg6 harg6 hc0 hc1 x0 x1 xs0).1)
theorem scover0_C_0 (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i) (x0 x1 : Vec F S1x512x3 .f32) (xs0 : Vec F S1x1 .f32) (y : S1x1.Idx) :
    ∃ pc ∈ (kernelRun0_C c i arg3 harg3 arg4 harg4 arg5 harg5 arg6 harg6 hc0 hc1 x0 x1 xs0).2.1, y ∈ pc.1.set :=
  View.cover_of_tiledL (kernelRun0_C c i arg3 harg3 arg4 harg4 arg5 harg5 arg6 harg6 hc0 hc1 x0 x1 xs0).2.1 S1x1.size (by sl_kernel_rfl) y
/-- The accumulator after the last point. -/
def sout0_C_0 (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i) (x0 x1 : Vec F S1x512x3 .f32) (xs0 : Vec F S1x1 .f32) : Vec F S1x1 .f32 :=
  VS0_0.read (Elt F) (VS0_0.writes (Elt F) VS0_0.junk (kernelRun0_C c i arg3 harg3 arg4 harg4 arg5 harg5 arg6 harg6 hc0 hc1 x0 x1 xs0).2.1)

/-! ## Point by point -/

/-- What the result window's staging buffer and the accumulator hold after the body at position `n`. -/
def outsAt0 (c : Dev nD) : (n : ℕ) → n < cfg0.N → Vec F S1x1 .f32 × Vec F S1x1 .f32
  | 0, hn =>
    have h0 := (hcond0_0 ⟨0, hn⟩).mpr rfl
    have h1 : ¬cond0_1 (grid0.coords ⟨0, hn⟩) := fun h => absurd ((hcond0_1 ⟨0, hn⟩).mp h) (show ¬ (0 : ℕ) = 127 by decide)
    (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) h0 h1 (iblk0 V c 0 ⟨0, hn⟩) (iblk0 V c 1 ⟨0, hn⟩),
     sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) h0 h1 (iblk0 V c 0 ⟨0, hn⟩) (iblk0 V c 1 ⟨0, hn⟩))
  | n + 1, hn =>
    have h0 : ¬cond0_0 (grid0.coords ⟨n + 1, hn⟩) := fun h => absurd ((hcond0_0 ⟨n + 1, hn⟩).mp h) (Nat.succ_ne_zero n)
    if h1 : n + 1 = 127 then
      (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) h0 ((hcond0_1 ⟨n + 1, hn⟩).mpr h1) (iblk0 V c 0 ⟨n + 1, hn⟩) (iblk0 V c 1 ⟨n + 1, hn⟩) (outsAt0 c n (Nat.lt_of_succ_lt hn)).2,
       sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) h0 ((hcond0_1 ⟨n + 1, hn⟩).mpr h1) (iblk0 V c 0 ⟨n + 1, hn⟩) (iblk0 V c 1 ⟨n + 1, hn⟩) (outsAt0 c n (Nat.lt_of_succ_lt hn)).2)
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) h0 (fun h => h1 ((hcond0_1 ⟨n + 1, hn⟩).mp h)) (iblk0 V c 0 ⟨n + 1, hn⟩) (iblk0 V c 1 ⟨n + 1, hn⟩) (outsAt0 c n (Nat.lt_of_succ_lt hn)).2,
       sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) h0 (fun h => h1 ((hcond0_1 ⟨n + 1, hn⟩).mp h)) (iblk0 V c 0 ⟨n + 1, hn⟩) (iblk0 V c 1 ⟨n + 1, hn⟩) (outsAt0 c n (Nat.lt_of_succ_lt hn)).2)

/-- At the first point: the first case's contents. -/
theorem outsAt0_A (c : Dev nD) (t : Fin cfg0.N) (hc0 : cond0_0 (grid0.coords t)) (hc1 : ¬cond0_1 (grid0.coords t)) :
    outsAt0 V c t.val t.isLt = (out0_A_2 c (grid0.coords t) (ms0_0 t) (hs0_0 t) (ms0_1 t) (hs0_1 t) (ms0_2 t) (hs0_2 t) scM0_0 (Memref.isWhole_whole _) hc0 hc1 (iblk0 V c 0 t) (iblk0 V c 1 t), sout0_A_0 c (grid0.coords t) (ms0_0 t) (hs0_0 t) (ms0_1 t) (hs0_1 t) (ms0_2 t) (hs0_2 t) scM0_0 (Memref.isWhole_whole _) hc0 hc1 (iblk0 V c 0 t) (iblk0 V c 1 t)) := by
  obtain ⟨n, hn⟩ := t
  cases n with
  | zero => rfl
  | succ n => exact absurd ((hcond0_0 ⟨n + 1, hn⟩).mp hc0) (Nat.succ_ne_zero n)

/-- At a middle point: the maximum with what the point before left. -/
theorem outsAt0_B (c : Dev nD) (t : Fin cfg0.N) (hc0 : ¬cond0_0 (grid0.coords t)) (hc1 : ¬cond0_1 (grid0.coords t)) :
    outsAt0 V c t.val t.isLt = (out0_B_2 c (grid0.coords t) (ms0_0 t) (hs0_0 t) (ms0_1 t) (hs0_1 t) (ms0_2 t) (hs0_2 t) scM0_0 (Memref.isWhole_whole _) hc0 hc1 (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) hc0 hc1 (iblk0 V c 0 t) (iblk0 V c 1 t) (outsAt0 V c (t.val - 1) (Nat.lt_of_le_of_lt (Nat.sub_le _ _) t.isLt)).2) := by
  obtain ⟨n, hn⟩ := t
  cases n with
  | zero => exact absurd ((hcond0_0 ⟨0, hn⟩).mpr rfl) hc0
  | succ n => exact (dif_neg (fun h => hc1 ((hcond0_1 ⟨n + 1, hn⟩).mpr h))).trans rfl

/-- At the last point: the same, and the accumulator copied out. -/
theorem outsAt0_C (c : Dev nD) (t : Fin cfg0.N) (hc0 : ¬cond0_0 (grid0.coords t)) (hc1 : cond0_1 (grid0.coords t)) :
    outsAt0 V c t.val t.isLt = (out0_C_2 c (grid0.coords t) (ms0_0 t) (hs0_0 t) (ms0_1 t) (hs0_1 t) (ms0_2 t) (hs0_2 t) scM0_0 (Memref.isWhole_whole _) hc0 hc1 (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) hc0 hc1 (iblk0 V c 0 t) (iblk0 V c 1 t) (outsAt0 V c (t.val - 1) (Nat.lt_of_le_of_lt (Nat.sub_le _ _) t.isLt)).2) := by
  obtain ⟨n, hn⟩ := t
  cases n with
  | zero => exact absurd ((hcond0_0 ⟨0, hn⟩).mpr rfl) hc0
  | succ n => exact (dif_pos ((hcond0_1 ⟨n + 1, hn⟩).mp hc1)).trans rfl

/-! ## The invariant -/

/-- The class invariant hands out the accumulator (at some contents) and takes it back at any contents: the other
    scoped buffers and the generator register stay inside the wand, unnamed. -/
theorem PhiA0_split (c : Dev nD) :
    (Pipeline.ΦA spec0 c : sProp 𝕄) ⊢ iprop((∃ d, owns (c : Thread nD τ) scM0_0 fullShare d) ∗ ((∃ d, owns (c : Thread nD τ) scM0_0 fullShare d) -∗ Pipeline.ΦA spec0 c)) := by
  unfold Pipeline.ΦA; rw [scopedRest0_eq]; simp only [scM0_0, owns_whole]
  iintro ⟨⟨HS, Hrest⟩, Hg⟩
  isplitl [HS]; · iexact HS
  iintro HS'
  isplitl [HS' Hrest]
  · isplitl [HS']; · iexact HS'
    iexact Hrest
  iexact Hg

/-- Before position `n`: at the start the class invariant; afterwards the accumulator at what the point before
    left, beside the promise that giving it back (at anything) restores the class invariant. -/
def PhiS0 (c : Dev nD) : (n : ℕ) → n ≤ cfg0.N → sProp 𝕄
  | 0, _ => Pipeline.ΦA spec0 c
  | n + 1, hn => iprop(owns (c : Thread nD τ) scM0_0 fullShare ((outsAt0 V c n hn).2) ∗ ((∃ d, owns (c : Thread nD τ) scM0_0 fullShare d) -∗ Pipeline.ΦA spec0 c))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(owns (c : Thread nD τ) scM0_0 fullShare ((outsAt0 V c n hn).2) ∗ ((∃ d, owns (c : Thread nD τ) scM0_0 fullShare d) -∗ Pipeline.ΦA spec0 c)) := rfl
theorem PhiS0_pos (c : Dev nD) (n : ℕ) (h : n ≤ cfg0.N) (hz : n ≠ 0) :
    PhiS0 V c n h = iprop(owns (c : Thread nD τ) scM0_0 fullShare ((outsAt0 V c (n - 1) (by omega)).2) ∗ ((∃ d, owns (c : Thread nD τ) scM0_0 fullShare d) -∗ Pipeline.ΦA spec0 c)) := by
  cases n with
  | zero => exact absurd rfl hz
  | succ n => rfl

/-! ## The proof data -/

/-- Region 0's proof data on core `c`: the arrays as the region finds them; after the body each input's buffer at
    its block, the result's at the recursion's first component; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' buffers hold their blocks; the point is the first, a middle one or the last;
    the invariant hands the body the accumulator (at anything at the first point, else at what the point before
    left) and takes it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 128 := lt_of_lt_of_eq t.isLt (show cfg0.N = 128 from N_0)
  by_cases h0 : t.val = 0
  · have hc0 : cond0_0 (grid0.coords t) := (hcond0_0 t).mpr h0
    have hc1 : ¬cond0_1 (grid0.coords t) := fun h => by have := (hcond0_1 t).mp h; omega
    rw [Dat.leavesExact_idle (dat0 V c) 2 t (idleAt0_2 t hc1) (noFlush0_2 t hc1)]
    rw [outsAt0_A V c t hc0 hc1]
    unfold sout0_A_0; (try dsimp only)
    rw [PhiS0_castSucc V c t, PhiS0_zero V c _ _ h0]
    iintro ⟨HΦ, Ho, ⟨%d0, H0⟩, ⟨%d1, H1⟩, ⟨%d2, H2⟩⟩
    ihave Hsp := PhiA0_split c $$ HΦ
    icases Hsp with ⟨HS0, Hw⟩
    iapply ((kernelRun0_A c (grid0.coords t) _ _ _ _ _ _ _ _ hc0 hc1 (iblk0 V c 0 t) (iblk0 V c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hw]
    · isplitl [HS0]
      · unfold owns; iexists _; isplitr
        swap; · iexact HS0
        ipureintro; exact View.read_writes_of_cover _ _ _ _ _ (scover0_A_0 c _ _ _ _ _ _ _ _ _ _ _ _ _)
      iexact Hw
    isplitl [Ho]; · iexact Ho
    isplitl [H0]; · iexact H0
    isplitl [H1]; · iexact H1
    iexists _; iexact H2
  · have hc0 : ¬cond0_0 (grid0.coords t) := fun h => h0 ((hcond0_0 t).mp h)
    by_cases h1 : t.val = 127
    · have hc1 : cond0_1 (grid0.coords t) := (hcond0_1 t).mpr h1
      rw [show (dat0 V c).leavesExact 2 t = owns (c : Thread nD τ) (ms0_2 t) fullShare ((dat0 V c).after 2 t) from by
        unfold Dat.leavesExact; rw [liveAt0_2 t hc1], after0_2]
      rw [outsAt0_C V c t hc0 hc1]
      unfold out0_C_2 sout0_C_0; (try dsimp only)
      rw [PhiS0_castSucc V c t, PhiS0_pos V c _ _ h0]
      iintro ⟨⟨HS0, Hw⟩, Ho, ⟨%d0, H0⟩, ⟨%d1, H1⟩, ⟨%d2, H2⟩⟩
      iapply ((kernelRun0_C c (grid0.coords t) _ _ _ _ _ _ _ _ hc0 hc1 (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hw]
      · isplitl [HS0]
        · unfold owns; iexists _; isplitr
          swap; · iexact HS0
          ipureintro; exact View.read_writes_of_cover _ _ _ _ _ (scover0_C_0 c _ _ _ _ _ _ _ _ _ _ _ _ _ _)
        iexact Hw
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · have hc1 : ¬cond0_1 (grid0.coords t) := fun h => h1 ((hcond0_1 t).mp h)
      rw [Dat.leavesExact_idle (dat0 V c) 2 t (idleAt0_2 t hc1) (noFlush0_2 t hc1)]
      rw [outsAt0_B V c t hc0 hc1]
      unfold sout0_B_0; (try dsimp only)
      rw [PhiS0_castSucc V c t, PhiS0_pos V c _ _ h0]
      iintro ⟨⟨HS0, Hw⟩, Ho, ⟨%d0, H0⟩, ⟨%d1, H1⟩, ⟨%d2, H2⟩⟩
      iapply ((kernelRun0_B c (grid0.coords t) _ _ _ _ _ _ _ _ hc0 hc1 (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hw]
      · isplitl [HS0]
        · unfold owns; iexists _; isplitr
          swap; · iexact HS0
          ipureintro; exact View.read_writes_of_cover _ _ _ _ _ (scover0_B_0 c _ _ _ _ _ _ _ _ _ _ _ _ _ _)
        iexact Hw
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class invariant back: the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 128 := N_0; omega)]
  iintro ⟨HS0, Hw⟩
  iapply Hw
  iexists _; iexact HS0

end Cert.KernelIdeal.Hand

end
-- ==== Proof.KI.R1Runs.lean ====
/-
  Region 1 (per batch row: for every source point the least masked-shifted distance to a target point, and for every
  target point the least distance to a source point, both as running minima over a 4×4 sweep of 512×512 tiles):
  the four branch conditions of the body over the grid coordinates (b, nb, mb), where over the 128 points each holds,
  at which points each result window is idle and not written back, and the memrefs the body is called with.
-/
import proofs.«161420_j81003083203706_2_alg».proof.Proof.Gen.KernelIdeal.Launch
import proofs.«161420_j81003083203706_2_alg».proof.Proof.Gen.KernelIdeal.Skeleton
import proofs.«161420_j81003083203706_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- "mb = 0": the row minima are reset to +∞ under it. -/
abbrev cond1_0 (i : grid1.Coords) : Prop :=
  (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "nb = 0 and mb = 0": the column minima are reset to +∞ under it. -/
abbrev cond1_1 (i : grid1.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
theorem hcond1_1 : ∀ t : Fin cfg1.N, cond1_1 (grid1.coords t) ↔ t.val % 16 = 0 :=
  (by decide +kernel : ∀ t : Fin grid1.N, cond1_1 (grid1.coords t) ↔ t.val % 16 = 0)

/-- "mb = 3": the row minima, shifted back by the maximum, are stored to the first result under it. -/
abbrev cond1_2 (i : grid1.Coords) : Prop := k1_cond3 i = 1#1
theorem hcond1_2 : ∀ t : Fin cfg1.N, cond1_2 (grid1.coords t) ↔ t.val % 4 = 3 :=
  (by decide +kernel : ∀ t : Fin grid1.N, cond1_2 (grid1.coords t) ↔ t.val % 4 = 3)

/-- "nb = 3 and mb = 3": the column minima are stored to the second result under it. -/
abbrev cond1_3 (i : grid1.Coords) : Prop := k1_cond4 i = 1#1
theorem hcond1_3 : ∀ t : Fin cfg1.N, cond1_3 (grid1.coords t) ↔ t.val % 16 = 15 :=
  (by decide +kernel : ∀ t : Fin grid1.N, cond1_3 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem idleAt1_4 : ∀ t : Fin cfg1.N, ¬cond1_2 (grid1.coords t) → cfg1.idle 4 (grid1.coords t) = true := by decide +kernel
theorem noFlush1_4 : ∀ t : Fin cfg1.N, ¬cond1_2 (grid1.coords t) → (cfg1.win 4).flush t = false := by decide +kernel
theorem liveAt1_4 : ∀ t : Fin cfg1.N, cond1_2 (grid1.coords t) → cfg1.idle 4 (grid1.coords t) = false := by decide +kernel
theorem idleAt1_5 : ∀ t : Fin cfg1.N, ¬cond1_3 (grid1.coords t) → cfg1.idle 5 (grid1.coords t) = true := by decide +kernel
theorem noFlush1_5 : ∀ t : Fin cfg1.N, ¬cond1_3 (grid1.coords t) → (cfg1.win 5).flush t = false := by decide +kernel
theorem liveAt1_5 : ∀ t : Fin cfg1.N, cond1_3 (grid1.coords t) → cfg1.idle 5 (grid1.coords t) = false := by decide +kernel

/-! ## The memrefs the body is called with -/

abbrev ms1_0 (t : Fin cfg1.N) : Memref sig .tc .vmem S1x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x3 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x3 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1x2048 .f32 := win1_5.stage (cfg1.slots t 5)
abbrev hs1_5 (t : Fin cfg1.N) : (ms1_5 t).IsWhole := hstage1_5 ((cfg1.slots t 5).cast nbuf1_5)
/-- The running row minima: a 1×512 scratch of the kernel's own, carried from point to point. -/
abbrev scM1_0 : Memref sig .tc .vmem S1x512 .f32 := Memref.whole cc1_scratch0
/-- The running column minima: a 1×2048 scratch, carried from point to point, one 512-wide slice updated per point. -/
abbrev scM1_1 : Memref sig .tc .vmem S1x2048 .f32 := Memref.whole cc1_scratch1
abbrev VS1_0 : View sig .tc .vmem S1x512 .f32 := scM1_0.view
abbrev VS1_1 : View sig .tc .vmem S1x2048 .f32 := scM1_1.view
abbrev VO1_4 : View sig .tc .vmem S1x1x512 .f32 := (Memref.whole cc1_stg4_0 : Memref sig .tc .vmem S1x1x512 .f32).view
abbrev VO1_5 : View sig .tc .vmem S1x1x2048 .f32 := (Memref.whole cc1_stg5_0 : Memref sig .tc .vmem S1x1x2048 .f32).view

end Cert.KernelIdeal.Hand

end
-- ==== Proof.KI.R1RunA.lean ====
/-
  Region 1, the body at the first tile of a batch row (nb = 0, mb = 0): both running minima are reset to +∞ before this tile's minima are folded in; neither result is stored. The stores found by running the body are the witness.
-/
import proofs.«161420_j81003083203706_2_alg».proof.Proof.KI.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def kernelRun1_A (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : cond1_0 i) (hc1 : cond1_1 i) (hc2 : ¬cond1_2 i) (hc3 : ¬cond1_3 i)
    (x0 : Vec F S1x1 .f32) (x1 : Vec F S1x512x3 .f32) (x2 : Vec F S1x512x3 .f32) (x3 : Vec F S1x1x512 .f32) :
    Σ' (L4 : List (View.Piece (Elt F) S1x1x512 .f32)) (L5 : List (View.Piece (Elt F) S1x1x2048 .f32)) (LS0 : List (View.Piece (Elt F) S1x512 .f32)), { LS1 : List (View.Piece (Elt F) S1x2048 .f32) //
      ∀ (xi4 : Vec F S1x1x512 .f32) (xi5 : Vec F S1x1x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5 ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__minmax_kernel i arg3 harg3 arg4 harg4 arg5 harg5 arg6 harg6 arg7 harg7 arg8 harg8 arg9 harg9 arg10 harg10) K } := by
  refine ⟨[], [], ?_, ?_, fun xi4 xi5 E K => ?run⟩
  case run =>
    simp only [cc1__minmax_kernel_eq_skeleton]; unfold cc1__minmax_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    iexists _; iexact HS1

end Cert.KernelIdeal.Hand

end
-- ==== Proof.KI.R1RunB.lean ====
/-
  Region 1, the body at the first tile of a later row block (nb ≠ 0, mb = 0): the row minima are reset, the column minima carried; neither result is stored. The stores found by running the body are the witness.
-/
import proofs.«161420_j81003083203706_2_alg».proof.Proof.KI.R1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def kernelRun1_B (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : cond1_0 i) (hc1 : ¬cond1_1 i) (hc2 : ¬cond1_2 i) (hc3 : ¬cond1_3 i)
    (x0 : Vec F S1x1 .f32) (x1 : Vec F S1x512x3 .f32) (x2 : Vec F S1x512x3 .f32) (x3 : Vec F S1x1x512 .f32) (xs1 : Vec F S1x2048 .f32) :
    Σ' (L4 : List (View.Piece (Elt F) S1x1x512 .f32)) (L5 : List (View.Piece (Elt F) S1x1x2048 .f32)) (LS0 : List (View.Piece (Elt F) S1x512 .f32)), { LS1 : List (View.Piece (Elt F) S1x2048 .f32) //
      ∀ (xi4 : Vec F S1x1x512 .f32) (xi5 : Vec F S1x1x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5 ∗ (∃ d, owns (c : Thread nD τ) arg9 fullShare d) ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5 ∗ (∃ f, arg9.view.loc (c : Thread nD τ) ↦[arg9.view.set]{fullShare} arg9.view.writes (Elt F) f LS0) ∗ (arg10.view.loc (c : Thread nD τ) ↦[arg10.view.set]{fullShare} arg10.view.writes (Elt F) (harg10.unread xs1) LS1)) -∗ K ⟨⟩))
          ⊢ wp frame (wpE (defs₀ (F := F)) Variants.none c none) E (cc1__minmax_kernel i arg3 harg3 arg4 harg4 arg5 harg5 arg6 harg6 arg7 harg7 arg8 harg8 arg9 harg9 arg10 harg10) K } := by
  refine ⟨[], [], ?_, ?_, fun xi4 xi5 E K => ?run⟩
  case run =>
    simp only [cc1__minmax_kernel_eq_skeleton]; unfold cc1__minmax_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hfs1
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    iexact HS1

end Cert.KernelIdeal.Hand

end
-- ==== Proof.KI.R1RunC.lean ====
/-
  Region 1, the body at a tile in the middle of a sweep (mb = 1 or 2): both running minima carried; neither result is stored. The stores found by running the body are the witness.
-/
import proofs.«161420_j81003083203706_2_alg».proof.Proof.KI.R1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def kernelRun1_C (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : ¬cond1_0 i) (hc1 : ¬cond1_1 i) (hc2 : ¬cond1_2 i) (hc3 : ¬cond1_3 i)
    (x0 : Vec F S1x1 .f32) (x1 : Vec F S1x512x3 .f32) (x2 : Vec F S1x512x3 .f32) (x3 : Vec F S1x1x512 .f32) (xs0 : Vec F S1x512 .f32) (xs1 : Vec F S1x2048 .f32) :
    Σ' (L4 : List (View.Piece (Elt F) S1x1x512 .f32)) (L5 : List (View.Piece (Elt F) S1x1x2048 .f32)) (LS0 : List (View.Piece (Elt F) S1x512 .f32)), { LS1 : List (View.Piece (Elt F) S1x2048 .f32) //
      ∀ (xi4 : Vec F S1x1x512 .f32) (xi5 : Vec F S1x1x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5 ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5 ∗ (∃ f, arg9.view.loc (c : Thread nD τ) ↦[arg9.view.set]{fullShare} arg9.view.writes (Elt F) f LS0) ∗ (arg10.view.loc (c : Thread nD τ) ↦[arg10.view.set]{fullShare} arg10.view.writes (Elt F) (harg10.unread xs1) LS1)) -∗ K ⟨⟩))
          ⊢ wp frame (wpE (defs₀ (F := F)) Variants.none c none) E (cc1__minmax_kernel i arg3 harg3 arg4 harg4 arg5 harg5 arg6 harg6 arg7 harg7 arg8 harg8 arg9 harg9 arg10 harg10) K } := by
  refine ⟨[], [], ?_, ?_, fun xi4 xi5 E K => ?run⟩
  case run =>
    simp only [cc1__minmax_kernel_eq_skeleton]; unfold cc1__minmax_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0; obtain rfl := harg10.eq_unread hfs1
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    iexact HS1

end Cert.KernelIdeal.Hand

end
-- ==== Proof.KI.R1RunD.lean ====
/-
  Region 1, the body at the last tile of a row block that is not the batch row's last (mb = 3, nb ≠ 3): the row minima, shifted back by the maximum, are stored to the first result. The stores found by running the body are the witness.
-/
import proofs.«161420_j81003083203706_2_alg».proof.Proof.KI.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def kernelRun1_D (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : ¬cond1_0 i) (hc1 : ¬cond1_1 i) (hc2 : cond1_2 i) (hc3 : ¬cond1_3 i)
    (x0 : Vec F S1x1 .f32) (x1 : Vec F S1x512x3 .f32) (x2 : Vec F S1x512x3 .f32) (x3 : Vec F S1x1x512 .f32) (xs0 : Vec F S1x512 .f32) (xs1 : Vec F S1x2048 .f32) :
    Σ' (L4 : List (View.Piece (Elt F) S1x1x512 .f32)) (L5 : List (View.Piece (Elt F) S1x1x2048 .f32)) (LS0 : List (View.Piece (Elt F) S1x512 .f32)), { LS1 : List (View.Piece (Elt F) S1x2048 .f32) //
      ∀ (xi5 : Vec F S1x1x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xi5 ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ owns (c : Thread nD τ) arg8 fullShare xi5 ∗ (∃ f, arg9.view.loc (c : Thread nD τ) ↦[arg9.view.set]{fullShare} arg9.view.writes (Elt F) f LS0) ∗ (arg10.view.loc (c : Thread nD τ) ↦[arg10.view.set]{fullShare} arg10.view.writes (Elt F) (harg10.unread xs1) LS1)) -∗ K ⟨⟩))
          ⊢ wp frame (wpE (defs₀ (F := F)) Variants.none c none) E (cc1__minmax_kernel i arg3 harg3 arg4 harg4 arg5 harg5 arg6 harg6 arg7 harg7 arg8 harg8 arg9 harg9 arg10 harg10) K } := by
  refine ⟨?_, [], ?_, ?_, fun xi5 E K => ?run⟩
  case run =>
    simp only [cc1__minmax_kernel_eq_skeleton]; unfold cc1__minmax_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg8.eq_unread hf5; obtain rfl := harg9.eq_unread hfs0; obtain rfl := harg10.eq_unread hfs1
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]
    · iexists _; isplitr; · ipureintro; exact harg8.read_unread _
      iexact H5
    isplitl [HS0]; · iexists _; iexact HS0
    iexact HS1

end Cert.KernelIdeal.Hand

end
-- ==== Proof.KI.R1RunE.lean ====
/-
  Region 1, the body at the last tile of a batch row (nb = 3, mb = 3): both results are stored. The stores found by running the body are the witness.
-/
import proofs.«161420_j81003083203706_2_alg».proof.Proof.KI.R1RunD

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def kernelRun1_E (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : ¬cond1_0 i) (hc1 : ¬cond1_1 i) (hc2 : cond1_2 i) (hc3 : cond1_3 i)
    (x0 : Vec F S1x1 .f32) (x1 : Vec F S1x512x3 .f32) (x2 : Vec F S1x512x3 .f32) (x3 : Vec F S1x1x512 .f32) (xs0 : Vec F S1x512 .f32) (xs1 : Vec F S1x2048 .f32) :
    Σ' (L4 : List (View.Piece (Elt F) S1x1x512 .f32)) (L5 : List (View.Piece (Elt F) S1x1x2048 .f32)) (LS0 : List (View.Piece (Elt F) S1x512 .f32)), { LS1 : List (View.Piece (Elt F) S1x2048 .f32) //
      ∀  (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0) ∗ (arg10.view.loc (c : Thread nD τ) ↦[arg10.view.set]{fullShare} arg10.view.writes (Elt F) (harg10.unread xs1) LS1)) -∗ K ⟨⟩))
          ⊢ wp frame (wpE (defs₀ (F := F)) Variants.none c none) E (cc1__minmax_kernel i arg3 harg3 arg4 harg4 arg5 harg5 arg6 harg6 arg7 harg7 arg8 harg8 arg9 harg9 arg10 harg10) K } := by
  refine ⟨?_, ?_, ?_, ?_, fun  E K => ?run⟩
  case run =>
    simp only [cc1__minmax_kernel_eq_skeleton]; unfold cc1__minmax_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg9.eq_unread hfs0; obtain rfl := harg10.eq_unread hfs1
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]; · iexists _; iexact H5
    isplitl [HS0]; · iexists _; iexact HS0
    iexact HS1

end Cert.KernelIdeal.Hand

end
-- ==== Proof.KI.R1Defs.lean ====
/-
  Region 1: the windows' blocks at a region-entry parameter, and per case of the sweep what the body leaves in the two
  result windows' staging buffers and in the two running minima, with the covers that make these independent of what
  the buffers held before (the column minima, where only one slice is stored, are stated over their prior contents).
-/
import proofs.«161420_j81003083203706_2_alg».proof.Proof.KI.R1RunE

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-! ### Case A: the first tile of a batch row (nb = 0, mb = 0): both running minima are reset to +∞ before this tile's minima are folded in; neither result is stored -/
def out1_A_4 (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : cond1_0 i) (hc1 : cond1_1 i) (hc2 : ¬cond1_2 i) (hc3 : ¬cond1_3 i) (x0 : Vec F S1x1 .f32) (x1 : Vec F S1x512x3 .f32) (x2 : Vec F S1x512x3 .f32) (x3 : Vec F S1x1x512 .f32) : Vec F S1x1x512 .f32 :=
  VO1_4.read (Elt F) (VO1_4.writes (Elt F) VO1_4.junk (kernelRun1_A c i arg3 harg3 arg4 harg4 arg5 harg5 arg6 harg6 arg7 harg7 arg8 harg8 arg9 harg9 arg10 harg10 hc0 hc1 hc2 hc3 x0 x1 x2 x3).1)
def out1_A_5 (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : cond1_0 i) (hc1 : cond1_1 i) (hc2 : ¬cond1_2 i) (hc3 : ¬cond1_3 i) (x0 : Vec F S1x1 .f32) (x1 : Vec F S1x512x3 .f32) (x2 : Vec F S1x512x3 .f32) (x3 : Vec F S1x1x512 .f32) : Vec F S1x1x2048 .f32 :=
  VO1_5.read (Elt F) (VO1_5.writes (Elt F) VO1_5.junk (kernelRun1_A c i arg3 harg3 arg4 harg4 arg5 harg5 arg6 harg6 arg7 harg7 arg8 harg8 arg9 harg9 arg10 harg10 hc0 hc1 hc2 hc3 x0 x1 x2 x3).2.1)
theorem scover1_A_0 (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : cond1_0 i) (hc1 : cond1_1 i) (hc2 : ¬cond1_2 i) (hc3 : ¬cond1_3 i) (x0 : Vec F S1x1 .f32) (x1 : Vec F S1x512x3 .f32) (x2 : Vec F S1x512x3 .f32) (x3 : Vec F S1x1x512 .f32) (y : S1x512.Idx) : ∃ pc ∈ (kernelRun1_A c i arg3 harg3 arg4 harg4 arg5 harg5 arg6 harg6 arg7 harg7 arg8 harg8 arg9 harg9 arg10 harg10 hc0 hc1 hc2 hc3 x0 x1 x2 x3).2.2.1, y ∈ pc.1.set :=
  View.cover_of_tiledL (kernelRun1_A c i arg3 harg3 arg4 harg4 arg5 harg5 arg6 harg6 arg7 harg7 arg8 harg8 arg9 harg9 arg10 harg10 hc0 hc1 hc2 hc3 x0 x1 x2 x3).2.2.1 S1x512.size (by sl_kernel_rfl) y
/-- The row minima after the point. -/
def sout1_A_0 (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : cond1_0 i) (hc1 : cond1_1 i) (hc2 : ¬cond1_2 i) (hc3 : ¬cond1_3 i) (x0 : Vec F S1x1 .f32) (x1 : Vec F S1x512x3 .f32) (x2 : Vec F S1x512x3 .f32) (x3 : Vec F S1x1x512 .f32) : Vec F S1x512 .f32 :=
  VS1_0.read (Elt F) (VS1_0.writes (Elt F) VS1_0.junk (kernelRun1_A c i arg3 harg3 arg4 harg4 arg5 harg5 arg6 harg6 arg7 harg7 arg8 harg8 arg9 harg9 arg10 harg10 hc0 hc1 hc2 hc3 x0 x1 x2 x3).2.2.1)
theorem scover1_A_1 (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : cond1_0 i) (hc1 : cond1_1 i) (hc2 : ¬cond1_2 i) (hc3 : ¬cond1_3 i) (x0 : Vec F S1x1 .f32) (x1 : Vec F S1x512x3 .f32) (x2 : Vec F S1x512x3 .f32) (x3 : Vec F S1x1x512 .f32) (y : S1x2048.Idx) : ∃ pc ∈ (kernelRun1_A c i arg3 harg3 arg4 harg4 arg5 harg5 arg6 harg6 arg7 harg7 arg8 harg8 arg9 harg9 arg10 harg10 hc0 hc1 hc2 hc3 x0 x1 x2 x3).2.2.2.1, y ∈ pc.1.set :=
  View.cover_of_tiledL (kernelRun1_A c i arg3 harg3 arg4 harg4 arg5 harg5 arg6 harg6 arg7 harg7 arg8 harg8 arg9 harg9 arg10 harg10 hc0 hc1 hc2 hc3 x0 x1 x2 x3).2.2.2.1 S1x2048.size (by sl_kernel_rfl) y
/-- The column minima after the point: reset, then the point's slice folded in. -/
def sout1_A_1 (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : cond1_0 i) (hc1 : cond1_1 i) (hc2 : ¬cond1_2 i) (hc3 : ¬cond1_3 i) (x0 : Vec F S1x1 .f32) (x1 : Vec F S1x512x3 .f32) (x2 : Vec F S1x512x3 .f32) (x3 : Vec F S1x1x512 .f32) : Vec F S1x2048 .f32 :=
  VS1_1.read (Elt F) (VS1_1.writes (Elt F) VS1_1.junk (kernelRun1_A c i arg3 harg3 arg4 harg4 arg5 harg5 arg6 harg6 arg7 harg7 arg8 harg8 arg9 harg9 arg10 harg10 hc0 hc1 hc2 hc3 x0 x1 x2 x3).2.2.2.1)

/-! ### Case B: the first tile of a later row block (nb ≠ 0, mb = 0): the row minima are reset, the column minima carried; neither result is stored -/
def out1_B_4 (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : cond1_0 i) (hc1 : ¬cond1_1 i) (hc2 : ¬cond1_2 i) (hc3 : ¬cond1_3 i) (x0 : Vec F S1x1 .f32) (x1 : Vec F S1x512x3 .f32) (x2 : Vec F S1x512x3 .f32) (x3 : Vec F S1x1x512 .f32) (xs1 : Vec F S1x2048 .f32) : Vec F S1x1x512 .f32 :=
  VO1_4.read (Elt F) (VO1_4.writes (Elt F) VO1_4.junk (kernelRun1_B c i arg3 harg3 arg4 harg4 arg5 harg5 arg6 harg6 arg7 harg7 arg8 harg8 arg9 harg9 arg10 harg10 hc0 hc1 hc2 hc3 x0 x1 x2 x3 xs1).1)
def out1_B_5 (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : cond1_0 i) (hc1 : ¬cond1_1 i) (hc2 : ¬cond1_2 i) (hc3 : ¬cond1_3 i) (x0 : Vec F S1x1 .f32) (x1 : Vec F S1x512x3 .f32) (x2 : Vec F S1x512x3 .f32) (x3 : Vec F S1x1x512 .f32) (xs1 : Vec F S1x2048 .f32) : Vec F S1x1x2048 .f32 :=
  VO1_5.read (Elt F) (VO1_5.writes (Elt F) VO1_5.junk (kernelRun1_B c i arg3 harg3 arg4 harg4 arg5 harg5 arg6 harg6 arg7 harg7 arg8 harg8 arg9 harg9 arg10 harg10 hc0 hc1 hc2 hc3 x0 x1 x2 x3 xs1).2.1)
theorem scover1_B_0 (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : cond1_0 i) (hc1 : ¬cond1_1 i) (hc2 : ¬cond1_2 i) (hc3 : ¬cond1_3 i) (x0 : Vec F S1x1 .f32) (x1 : Vec F S1x512x3 .f32) (x2 : Vec F S1x512x3 .f32) (x3 : Vec F S1x1x512 .f32) (xs1 : Vec F S1x2048 .f32) (y : S1x512.Idx) : ∃ pc ∈ (kernelRun1_B c i arg3 harg3 arg4 harg4 arg5 harg5 arg6 harg6 arg7 harg7 arg8 harg8 arg9 harg9 arg10 harg10 hc0 hc1 hc2 hc3 x0 x1 x2 x3 xs1).2.2.1, y ∈ pc.1.set :=
  View.cover_of_tiledL (kernelRun1_B c i arg3 harg3 arg4 harg4 arg5 harg5 arg6 harg6 arg7 harg7 arg8 harg8 arg9 harg9 arg10 harg10 hc0 hc1 hc2 hc3 x0 x1 x2 x3 xs1).2.2.1 S1x512.size (by sl_kernel_rfl) y
/-- The row minima after the point. -/
def sout1_B_0 (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : cond1_0 i) (hc1 : ¬cond1_1 i) (hc2 : ¬cond1_2 i) (hc3 : ¬cond1_3 i) (x0 : Vec F S1x1 .f32) (x1 : Vec F S1x512x3 .f32) (x2 : Vec F S1x512x3 .f32) (x3 : Vec F S1x1x512 .f32) (xs1 : Vec F S1x2048 .f32) : Vec F S1x512 .f32 :=
  VS1_0.read (Elt F) (VS1_0.writes (Elt F) VS1_0.junk (kernelRun1_B c i arg3 harg3 arg4 harg4 arg5 harg5 arg6 harg6 arg7 harg7 arg8 harg8 arg9 harg9 arg10 harg10 hc0 hc1 hc2 hc3 x0 x1 x2 x3 xs1).2.2.1)
/-- The column minima after the point: the point's slice written over what the point before left. -/
def sout1_B_1 (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : cond1_0 i) (hc1 : ¬cond1_1 i) (hc2 : ¬cond1_2 i) (hc3 : ¬cond1_3 i) (x0 : Vec F S1x1 .f32) (x1 : Vec F S1x512x3 .f32) (x2 : Vec F S1x512x3 .f32) (x3 : Vec F S1x1x512 .f32) (xs1 : Vec F S1x2048 .f32) : Vec F S1x2048 .f32 :=
  arg10.view.read (Elt F) (arg10.view.writes (Elt F) (harg10.unread xs1) (kernelRun1_B c i arg3 harg3 arg4 harg4 arg5 harg5 arg6 harg6 arg7 harg7 arg8 harg8 arg9 harg9 arg10 harg10 hc0 hc1 hc2 hc3 x0 x1 x2 x3 xs1).2.2.2.1)

/-! ### Case C: a tile in the middle of a sweep (mb = 1 or 2): both running minima carried; neither result is stored -/
def out1_C_4 (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : ¬cond1_0 i) (hc1 : ¬cond1_1 i) (hc2 : ¬cond1_2 i) (hc3 : ¬cond1_3 i) (x0 : Vec F S1x1 .f32) (x1 : Vec F S1x512x3 .f32) (x2 : Vec F S1x512x3 .f32) (x3 : Vec F S1x1x512 .f32) (xs0 : Vec F S1x512 .f32) (xs1 : Vec F S1x2048 .f32) : Vec F S1x1x512 .f32 :=
  VO1_4.read (Elt F) (VO1_4.writes (Elt F) VO1_4.junk (kernelRun1_C c i arg3 harg3 arg4 harg4 arg5 harg5 arg6 harg6 arg7 harg7 arg8 harg8 arg9 harg9 arg10 harg10 hc0 hc1 hc2 hc3 x0 x1 x2 x3 xs0 xs1).1)
def out1_C_5 (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : ¬cond1_0 i) (hc1 : ¬cond1_1 i) (hc2 : ¬cond1_2 i) (hc3 : ¬cond1_3 i) (x0 : Vec F S1x1 .f32) (x1 : Vec F S1x512x3 .f32) (x2 : Vec F S1x512x3 .f32) (x3 : Vec F S1x1x512 .f32) (xs0 : Vec F S1x512 .f32) (xs1 : Vec F S1x2048 .f32) : Vec F S1x1x2048 .f32 :=
  VO1_5.read (Elt F) (VO1_5.writes (Elt F) VO1_5.junk (kernelRun1_C c i arg3 harg3 arg4 harg4 arg5 harg5 arg6 harg6 arg7 harg7 arg8 harg8 arg9 harg9 arg10 harg10 hc0 hc1 hc2 hc3 x0 x1 x2 x3 xs0 xs1).2.1)
theorem scover1_C_0 (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : ¬cond1_0 i) (hc1 : ¬cond1_1 i) (hc2 : ¬cond1_2 i) (hc3 : ¬cond1_3 i) (x0 : Vec F S1x1 .f32) (x1 : Vec F S1x512x3 .f32) (x2 : Vec F S1x512x3 .f32) (x3 : Vec F S1x1x512 .f32) (xs0 : Vec F S1x512 .f32) (xs1 : Vec F S1x2048 .f32) (y : S1x512.Idx) : ∃ pc ∈ (kernelRun1_C c i arg3 harg3 arg4 harg4 arg5 harg5 arg6 harg6 arg7 harg7 arg8 harg8 arg9 harg9 arg10 harg10 hc0 hc1 hc2 hc3 x0 x1 x2 x3 xs0 xs1).2.2.1, y ∈ pc.1.set :=
  View.cover_of_tiledL (kernelRun1_C c i arg3 harg3 arg4 harg4 arg5 harg5 arg6 harg6 arg7 harg7 arg8 harg8 arg9 harg9 arg10 harg10 hc0 hc1 hc2 hc3 x0 x1 x2 x3 xs0 xs1).2.2.1 S1x512.size (by sl_kernel_rfl) y
/-- The row minima after the point. -/
def sout1_C_0 (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : ¬cond1_0 i) (hc1 : ¬cond1_1 i) (hc2 : ¬cond1_2 i) (hc3 : ¬cond1_3 i) (x0 : Vec F S1x1 .f32) (x1 : Vec F S1x512x3 .f32) (x2 : Vec F S1x512x3 .f32) (x3 : Vec F S1x1x512 .f32) (xs0 : Vec F S1x512 .f32) (xs1 : Vec F S1x2048 .f32) : Vec F S1x512 .f32 :=
  VS1_0.read (Elt F) (VS1_0.writes (Elt F) VS1_0.junk (kernelRun1_C c i arg3 harg3 arg4 harg4 arg5 harg5 arg6 harg6 arg7 harg7 arg8 harg8 arg9 harg9 arg10 harg10 hc0 hc1 hc2 hc3 x0 x1 x2 x3 xs0 xs1).2.2.1)
/-- The column minima after the point: the point's slice written over what the point before left. -/
def sout1_C_1 (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : ¬cond1_0 i) (hc1 : ¬cond1_1 i) (hc2 : ¬cond1_2 i) (hc3 : ¬cond1_3 i) (x0 : Vec F S1x1 .f32) (x1 : Vec F S1x512x3 .f32) (x2 : Vec F S1x512x3 .f32) (x3 : Vec F S1x1x512 .f32) (xs0 : Vec F S1x512 .f32) (xs1 : Vec F S1x2048 .f32) : Vec F S1x2048 .f32 :=
  arg10.view.read (Elt F) (arg10.view.writes (Elt F) (harg10.unread xs1) (kernelRun1_C c i arg3 harg3 arg4 harg4 arg5 harg5 arg6 harg6 arg7 harg7 arg8 harg8 arg9 harg9 arg10 harg10 hc0 hc1 hc2 hc3 x0 x1 x2 x3 xs0 xs1).2.2.2.1)

/-! ### Case D: the last tile of a row block that is not the batch row's last (mb = 3, nb ≠ 3): the row minima, shifted back by the maximum, are stored to the first result -/
theorem cover1_D_4 (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : ¬cond1_0 i) (hc1 : ¬cond1_1 i) (hc2 : cond1_2 i) (hc3 : ¬cond1_3 i) (x0 : Vec F S1x1 .f32) (x1 : Vec F S1x512x3 .f32) (x2 : Vec F S1x512x3 .f32) (x3 : Vec F S1x1x512 .f32) (xs0 : Vec F S1x512 .f32) (xs1 : Vec F S1x2048 .f32) (y : S1x1x512.Idx) : ∃ pc ∈ (kernelRun1_D c i arg3 harg3 arg4 harg4 arg5 harg5 arg6 harg6 arg7 harg7 arg8 harg8 arg9 harg9 arg10 harg10 hc0 hc1 hc2 hc3 x0 x1 x2 x3 xs0 xs1).1, y ∈ pc.1.set :=
  View.cover_of_tiledL (kernelRun1_D c i arg3 harg3 arg4 harg4 arg5 harg5 arg6 harg6 arg7 harg7 arg8 harg8 arg9 harg9 arg10 harg10 hc0 hc1 hc2 hc3 x0 x1 x2 x3 xs0 xs1).1 S1x1x512.size (by sl_kernel_rfl) y
def out1_D_4 (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : ¬cond1_0 i) (hc1 : ¬cond1_1 i) (hc2 : cond1_2 i) (hc3 : ¬cond1_3 i) (x0 : Vec F S1x1 .f32) (x1 : Vec F S1x512x3 .f32) (x2 : Vec F S1x512x3 .f32) (x3 : Vec F S1x1x512 .f32) (xs0 : Vec F S1x512 .f32) (xs1 : Vec F S1x2048 .f32) : Vec F S1x1x512 .f32 :=
  VO1_4.read (Elt F) (VO1_4.writes (Elt F) VO1_4.junk (kernelRun1_D c i arg3 harg3 arg4 harg4 arg5 harg5 arg6 harg6 arg7 harg7 arg8 harg8 arg9 harg9 arg10 harg10 hc0 hc1 hc2 hc3 x0 x1 x2 x3 xs0 xs1).1)
def out1_D_5 (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : ¬cond1_0 i) (hc1 : ¬cond1_1 i) (hc2 : cond1_2 i) (hc3 : ¬cond1_3 i) (x0 : Vec F S1x1 .f32) (x1 : Vec F S1x512x3 .f32) (x2 : Vec F S1x512x3 .f32) (x3 : Vec F S1x1x512 .f32) (xs0 : Vec F S1x512 .f32) (xs1 : Vec F S1x2048 .f32) : Vec F S1x1x2048 .f32 :=
  VO1_5.read (Elt F) (VO1_5.writes (Elt F) VO1_5.junk (kernelRun1_D c i arg3 harg3 arg4 harg4 arg5 harg5 arg6 harg6 arg7 harg7 arg8 harg8 arg9 harg9 arg10 harg10 hc0 hc1 hc2 hc3 x0 x1 x2 x3 xs0 xs1).2.1)
theorem scover1_D_0 (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : ¬cond1_0 i) (hc1 : ¬cond1_1 i) (hc2 : cond1_2 i) (hc3 : ¬cond1_3 i) (x0 : Vec F S1x1 .f32) (x1 : Vec F S1x512x3 .f32) (x2 : Vec F S1x512x3 .f32) (x3 : Vec F S1x1x512 .f32) (xs0 : Vec F S1x512 .f32) (xs1 : Vec F S1x2048 .f32) (y : S1x512.Idx) : ∃ pc ∈ (kernelRun1_D c i arg3 harg3 arg4 harg4 arg5 harg5 arg6 harg6 arg7 harg7 arg8 harg8 arg9 harg9 arg10 harg10 hc0 hc1 hc2 hc3 x0 x1 x2 x3 xs0 xs1).2.2.1, y ∈ pc.1.set :=
  View.cover_of_tiledL (kernelRun1_D c i arg3 harg3 arg4 harg4 arg5 harg5 arg6 harg6 arg7 harg7 arg8 harg8 arg9 harg9 arg10 harg10 hc0 hc1 hc2 hc3 x0 x1 x2 x3 xs0 xs1).2.2.1 S1x512.size (by sl_kernel_rfl) y
/-- The row minima after the point. -/
def sout1_D_0 (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : ¬cond1_0 i) (hc1 : ¬cond1_1 i) (hc2 : cond1_2 i) (hc3 : ¬cond1_3 i) (x0 : Vec F S1x1 .f32) (x1 : Vec F S1x512x3 .f32) (x2 : Vec F S1x512x3 .f32) (x3 : Vec F S1x1x512 .f32) (xs0 : Vec F S1x512 .f32) (xs1 : Vec F S1x2048 .f32) : Vec F S1x512 .f32 :=
  VS1_0.read (Elt F) (VS1_0.writes (Elt F) VS1_0.junk (kernelRun1_D c i arg3 harg3 arg4 harg4 arg5 harg5 arg6 harg6 arg7 harg7 arg8 harg8 arg9 harg9 arg10 harg10 hc0 hc1 hc2 hc3 x0 x1 x2 x3 xs0 xs1).2.2.1)
/-- The column minima after the point: the point's slice written over what the point before left. -/
def sout1_D_1 (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : ¬cond1_0 i) (hc1 : ¬cond1_1 i) (hc2 : cond1_2 i) (hc3 : ¬cond1_3 i) (x0 : Vec F S1x1 .f32) (x1 : Vec F S1x512x3 .f32) (x2 : Vec F S1x512x3 .f32) (x3 : Vec F S1x1x512 .f32) (xs0 : Vec F S1x512 .f32) (xs1 : Vec F S1x2048 .f32) : Vec F S1x2048 .f32 :=
  arg10.view.read (Elt F) (arg10.view.writes (Elt F) (harg10.unread xs1) (kernelRun1_D c i arg3 harg3 arg4 harg4 arg5 harg5 arg6 harg6 arg7 harg7 arg8 harg8 arg9 harg9 arg10 harg10 hc0 hc1 hc2 hc3 x0 x1 x2 x3 xs0 xs1).2.2.2.1)

/-! ### Case E: the last tile of a batch row (nb = 3, mb = 3): both results are stored -/
theorem cover1_E_4 (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : ¬cond1_0 i) (hc1 : ¬cond1_1 i) (hc2 : cond1_2 i) (hc3 : cond1_3 i) (x0 : Vec F S1x1 .f32) (x1 : Vec F S1x512x3 .f32) (x2 : Vec F S1x512x3 .f32) (x3 : Vec F S1x1x512 .f32) (xs0 : Vec F S1x512 .f32) (xs1 : Vec F S1x2048 .f32) (y : S1x1x512.Idx) : ∃ pc ∈ (kernelRun1_E c i arg3 harg3 arg4 harg4 arg5 harg5 arg6 harg6 arg7 harg7 arg8 harg8 arg9 harg9 arg10 harg10 hc0 hc1 hc2 hc3 x0 x1 x2 x3 xs0 xs1).1, y ∈ pc.1.set :=
  View.cover_of_tiledL (kernelRun1_E c i arg3 harg3 arg4 harg4 arg5 harg5 arg6 harg6 arg7 harg7 arg8 harg8 arg9 harg9 arg10 harg10 hc0 hc1 hc2 hc3 x0 x1 x2 x3 xs0 xs1).1 S1x1x512.size (by sl_kernel_rfl) y
def out1_E_4 (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : ¬cond1_0 i) (hc1 : ¬cond1_1 i) (hc2 : cond1_2 i) (hc3 : cond1_3 i) (x0 : Vec F S1x1 .f32) (x1 : Vec F S1x512x3 .f32) (x2 : Vec F S1x512x3 .f32) (x3 : Vec F S1x1x512 .f32) (xs0 : Vec F S1x512 .f32) (xs1 : Vec F S1x2048 .f32) : Vec F S1x1x512 .f32 :=
  VO1_4.read (Elt F) (VO1_4.writes (Elt F) VO1_4.junk (kernelRun1_E c i arg3 harg3 arg4 harg4 arg5 harg5 arg6 harg6 arg7 harg7 arg8 harg8 arg9 harg9 arg10 harg10 hc0 hc1 hc2 hc3 x0 x1 x2 x3 xs0 xs1).1)
theorem cover1_E_5 (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : ¬cond1_0 i) (hc1 : ¬cond1_1 i) (hc2 : cond1_2 i) (hc3 : cond1_3 i) (x0 : Vec F S1x1 .f32) (x1 : Vec F S1x512x3 .f32) (x2 : Vec F S1x512x3 .f32) (x3 : Vec F S1x1x512 .f32) (xs0 : Vec F S1x512 .f32) (xs1 : Vec F S1x2048 .f32) (y : S1x1x2048.Idx) : ∃ pc ∈ (kernelRun1_E c i arg3 harg3 arg4 harg4 arg5 harg5 arg6 harg6 arg7 harg7 arg8 harg8 arg9 harg9 arg10 harg10 hc0 hc1 hc2 hc3 x0 x1 x2 x3 xs0 xs1).2.1, y ∈ pc.1.set :=
  View.cover_of_tiledL (kernelRun1_E c i arg3 harg3 arg4 harg4 arg5 harg5 arg6 harg6 arg7 harg7 arg8 harg8 arg9 harg9 arg10 harg10 hc0 hc1 hc2 hc3 x0 x1 x2 x3 xs0 xs1).2.1 S1x1x2048.size (by sl_kernel_rfl) y
def out1_E_5 (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : ¬cond1_0 i) (hc1 : ¬cond1_1 i) (hc2 : cond1_2 i) (hc3 : cond1_3 i) (x0 : Vec F S1x1 .f32) (x1 : Vec F S1x512x3 .f32) (x2 : Vec F S1x512x3 .f32) (x3 : Vec F S1x1x512 .f32) (xs0 : Vec F S1x512 .f32) (xs1 : Vec F S1x2048 .f32) : Vec F S1x1x2048 .f32 :=
  VO1_5.read (Elt F) (VO1_5.writes (Elt F) VO1_5.junk (kernelRun1_E c i arg3 harg3 arg4 harg4 arg5 harg5 arg6 harg6 arg7 harg7 arg8 harg8 arg9 harg9 arg10 harg10 hc0 hc1 hc2 hc3 x0 x1 x2 x3 xs0 xs1).2.1)
theorem scover1_E_0 (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : ¬cond1_0 i) (hc1 : ¬cond1_1 i) (hc2 : cond1_2 i) (hc3 : cond1_3 i) (x0 : Vec F S1x1 .f32) (x1 : Vec F S1x512x3 .f32) (x2 : Vec F S1x512x3 .f32) (x3 : Vec F S1x1x512 .f32) (xs0 : Vec F S1x512 .f32) (xs1 : Vec F S1x2048 .f32) (y : S1x512.Idx) : ∃ pc ∈ (kernelRun1_E c i arg3 harg3 arg4 harg4 arg5 harg5 arg6 harg6 arg7 harg7 arg8 harg8 arg9 harg9 arg10 harg10 hc0 hc1 hc2 hc3 x0 x1 x2 x3 xs0 xs1).2.2.1, y ∈ pc.1.set :=
  View.cover_of_tiledL (kernelRun1_E c i arg3 harg3 arg4 harg4 arg5 harg5 arg6 harg6 arg7 harg7 arg8 harg8 arg9 harg9 arg10 harg10 hc0 hc1 hc2 hc3 x0 x1 x2 x3 xs0 xs1).2.2.1 S1x512.size (by sl_kernel_rfl) y
/-- The row minima after the point. -/
def sout1_E_0 (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : ¬cond1_0 i) (hc1 : ¬cond1_1 i) (hc2 : cond1_2 i) (hc3 : cond1_3 i) (x0 : Vec F S1x1 .f32) (x1 : Vec F S1x512x3 .f32) (x2 : Vec F S1x512x3 .f32) (x3 : Vec F S1x1x512 .f32) (xs0 : Vec F S1x512 .f32) (xs1 : Vec F S1x2048 .f32) : Vec F S1x512 .f32 :=
  VS1_0.read (Elt F) (VS1_0.writes (Elt F) VS1_0.junk (kernelRun1_E c i arg3 harg3 arg4 harg4 arg5 harg5 arg6 harg6 arg7 harg7 arg8 harg8 arg9 harg9 arg10 harg10 hc0 hc1 hc2 hc3 x0 x1 x2 x3 xs0 xs1).2.2.1)
/-- The column minima after the point: the point's slice written over what the point before left. -/
def sout1_E_1 (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : ¬cond1_0 i) (hc1 : ¬cond1_1 i) (hc2 : cond1_2 i) (hc3 : cond1_3 i) (x0 : Vec F S1x1 .f32) (x1 : Vec F S1x512x3 .f32) (x2 : Vec F S1x512x3 .f32) (x3 : Vec F S1x1x512 .f32) (xs0 : Vec F S1x512 .f32) (xs1 : Vec F S1x2048 .f32) : Vec F S1x2048 .f32 :=
  arg10.view.read (Elt F) (arg10.view.writes (Elt F) (harg10.unread xs1) (kernelRun1_E c i arg3 harg3 arg4 harg4 arg5 harg5 arg6 harg6 arg7 harg7 arg8 harg8 arg9 harg9 arg10 harg10 hc0 hc1 hc2 hc3 x0 x1 x2 x3 xs0 xs1).2.2.2.1)

end Cert.KernelIdeal.Hand

end
-- ==== Proof.KI.R1Outs.lean ====
/-
  Region 1 point by point: the recursion over grid points through the five cases of the sweep, its case equations,
  the invariant carrying both running minima, the proof data, and the statement of the body's obligation at a point.
-/
import proofs.«161420_j81003083203706_2_alg».proof.Proof.KI.R1Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Point by point -/

/-- What the two result windows' staging buffers, the row minima and the column minima hold after the body at
    position `n`: which case the position is in is read off its residues mod 16 and mod 4. -/
def outsAt1 (c : Dev nD) : (n : ℕ) → n < cfg1.N → Vec F S1x1x512 .f32 × Vec F S1x1x2048 .f32 × Vec F S1x512 .f32 × Vec F S1x2048 .f32
  | 0, hn =>
      (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) ((hcond1_0 ⟨0, hn⟩).mpr rfl) ((hcond1_1 ⟨0, hn⟩).mpr rfl) (fun h => absurd ((hcond1_2 ⟨0, hn⟩).mp h) (show ¬ (0 : ℕ) % 4 = 3 by decide)) (fun h => absurd ((hcond1_3 ⟨0, hn⟩).mp h) (show ¬ (0 : ℕ) % 16 = 15 by decide)) (iblk1 V c 0 ⟨0, hn⟩) (iblk1 V c 1 ⟨0, hn⟩) (iblk1 V c 2 ⟨0, hn⟩) (iblk1 V c 3 ⟨0, hn⟩),
       out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) ((hcond1_0 ⟨0, hn⟩).mpr rfl) ((hcond1_1 ⟨0, hn⟩).mpr rfl) (fun h => absurd ((hcond1_2 ⟨0, hn⟩).mp h) (show ¬ (0 : ℕ) % 4 = 3 by decide)) (fun h => absurd ((hcond1_3 ⟨0, hn⟩).mp h) (show ¬ (0 : ℕ) % 16 = 15 by decide)) (iblk1 V c 0 ⟨0, hn⟩) (iblk1 V c 1 ⟨0, hn⟩) (iblk1 V c 2 ⟨0, hn⟩) (iblk1 V c 3 ⟨0, hn⟩),
       sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) ((hcond1_0 ⟨0, hn⟩).mpr rfl) ((hcond1_1 ⟨0, hn⟩).mpr rfl) (fun h => absurd ((hcond1_2 ⟨0, hn⟩).mp h) (show ¬ (0 : ℕ) % 4 = 3 by decide)) (fun h => absurd ((hcond1_3 ⟨0, hn⟩).mp h) (show ¬ (0 : ℕ) % 16 = 15 by decide)) (iblk1 V c 0 ⟨0, hn⟩) (iblk1 V c 1 ⟨0, hn⟩) (iblk1 V c 2 ⟨0, hn⟩) (iblk1 V c 3 ⟨0, hn⟩),
       sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) ((hcond1_0 ⟨0, hn⟩).mpr rfl) ((hcond1_1 ⟨0, hn⟩).mpr rfl) (fun h => absurd ((hcond1_2 ⟨0, hn⟩).mp h) (show ¬ (0 : ℕ) % 4 = 3 by decide)) (fun h => absurd ((hcond1_3 ⟨0, hn⟩).mp h) (show ¬ (0 : ℕ) % 16 = 15 by decide)) (iblk1 V c 0 ⟨0, hn⟩) (iblk1 V c 1 ⟨0, hn⟩) (iblk1 V c 2 ⟨0, hn⟩) (iblk1 V c 3 ⟨0, hn⟩))
  | n + 1, hn =>
    if a16 : (n + 1) % 16 = 0 then
      (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) ((hcond1_0 ⟨n + 1, hn⟩).mpr (by show (n + 1) % 4 = 0; omega)) ((hcond1_1 ⟨n + 1, hn⟩).mpr (by show (n + 1) % 16 = 0; omega)) (fun h => absurd ((hcond1_2 ⟨n + 1, hn⟩).mp h) (by show ¬ (n + 1) % 4 = 3; omega)) (fun h => absurd ((hcond1_3 ⟨n + 1, hn⟩).mp h) (by show ¬ (n + 1) % 16 = 15; omega)) (iblk1 V c 0 ⟨n + 1, hn⟩) (iblk1 V c 1 ⟨n + 1, hn⟩) (iblk1 V c 2 ⟨n + 1, hn⟩) (iblk1 V c 3 ⟨n + 1, hn⟩),
       out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) ((hcond1_0 ⟨n + 1, hn⟩).mpr (by show (n + 1) % 4 = 0; omega)) ((hcond1_1 ⟨n + 1, hn⟩).mpr (by show (n + 1) % 16 = 0; omega)) (fun h => absurd ((hcond1_2 ⟨n + 1, hn⟩).mp h) (by show ¬ (n + 1) % 4 = 3; omega)) (fun h => absurd ((hcond1_3 ⟨n + 1, hn⟩).mp h) (by show ¬ (n + 1) % 16 = 15; omega)) (iblk1 V c 0 ⟨n + 1, hn⟩) (iblk1 V c 1 ⟨n + 1, hn⟩) (iblk1 V c 2 ⟨n + 1, hn⟩) (iblk1 V c 3 ⟨n + 1, hn⟩),
       sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) ((hcond1_0 ⟨n + 1, hn⟩).mpr (by show (n + 1) % 4 = 0; omega)) ((hcond1_1 ⟨n + 1, hn⟩).mpr (by show (n + 1) % 16 = 0; omega)) (fun h => absurd ((hcond1_2 ⟨n + 1, hn⟩).mp h) (by show ¬ (n + 1) % 4 = 3; omega)) (fun h => absurd ((hcond1_3 ⟨n + 1, hn⟩).mp h) (by show ¬ (n + 1) % 16 = 15; omega)) (iblk1 V c 0 ⟨n + 1, hn⟩) (iblk1 V c 1 ⟨n + 1, hn⟩) (iblk1 V c 2 ⟨n + 1, hn⟩) (iblk1 V c 3 ⟨n + 1, hn⟩),
       sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) ((hcond1_0 ⟨n + 1, hn⟩).mpr (by show (n + 1) % 4 = 0; omega)) ((hcond1_1 ⟨n + 1, hn⟩).mpr (by show (n + 1) % 16 = 0; omega)) (fun h => absurd ((hcond1_2 ⟨n + 1, hn⟩).mp h) (by show ¬ (n + 1) % 4 = 3; omega)) (fun h => absurd ((hcond1_3 ⟨n + 1, hn⟩).mp h) (by show ¬ (n + 1) % 16 = 15; omega)) (iblk1 V c 0 ⟨n + 1, hn⟩) (iblk1 V c 1 ⟨n + 1, hn⟩) (iblk1 V c 2 ⟨n + 1, hn⟩) (iblk1 V c 3 ⟨n + 1, hn⟩))
    else if a4 : (n + 1) % 4 = 0 then
      (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) ((hcond1_0 ⟨n + 1, hn⟩).mpr (by show (n + 1) % 4 = 0; omega)) (fun h => absurd ((hcond1_1 ⟨n + 1, hn⟩).mp h) (by show ¬ (n + 1) % 16 = 0; omega)) (fun h => absurd ((hcond1_2 ⟨n + 1, hn⟩).mp h) (by show ¬ (n + 1) % 4 = 3; omega)) (fun h => absurd ((hcond1_3 ⟨n + 1, hn⟩).mp h) (by show ¬ (n + 1) % 16 = 15; omega)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2,
       out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) ((hcond1_0 ⟨n + 1, hn⟩).mpr (by show (n + 1) % 4 = 0; omega)) (fun h => absurd ((hcond1_1 ⟨n + 1, hn⟩).mp h) (by show ¬ (n + 1) % 16 = 0; omega)) (fun h => absurd ((hcond1_2 ⟨n + 1, hn⟩).mp h) (by show ¬ (n + 1) % 4 = 3; omega)) (fun h => absurd ((hcond1_3 ⟨n + 1, hn⟩).mp h) (by show ¬ (n + 1) % 16 = 15; omega)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2,
       sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) ((hcond1_0 ⟨n + 1, hn⟩).mpr (by show (n + 1) % 4 = 0; omega)) (fun h => absurd ((hcond1_1 ⟨n + 1, hn⟩).mp h) (by show ¬ (n + 1) % 16 = 0; omega)) (fun h => absurd ((hcond1_2 ⟨n + 1, hn⟩).mp h) (by show ¬ (n + 1) % 4 = 3; omega)) (fun h => absurd ((hcond1_3 ⟨n + 1, hn⟩).mp h) (by show ¬ (n + 1) % 16 = 15; omega)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2,
       sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) ((hcond1_0 ⟨n + 1, hn⟩).mpr (by show (n + 1) % 4 = 0; omega)) (fun h => absurd ((hcond1_1 ⟨n + 1, hn⟩).mp h) (by show ¬ (n + 1) % 16 = 0; omega)) (fun h => absurd ((hcond1_2 ⟨n + 1, hn⟩).mp h) (by show ¬ (n + 1) % 4 = 3; omega)) (fun h => absurd ((hcond1_3 ⟨n + 1, hn⟩).mp h) (by show ¬ (n + 1) % 16 = 15; omega)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2)
    else if e15 : (n + 1) % 16 = 15 then
      (out1_E_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => absurd ((hcond1_0 ⟨n + 1, hn⟩).mp h) (by show ¬ (n + 1) % 4 = 0; omega)) (fun h => absurd ((hcond1_1 ⟨n + 1, hn⟩).mp h) (by show ¬ (n + 1) % 16 = 0; omega)) ((hcond1_2 ⟨n + 1, hn⟩).mpr (by show (n + 1) % 4 = 3; omega)) ((hcond1_3 ⟨n + 1, hn⟩).mpr (by show (n + 1) % 16 = 15; omega)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.1 (outsAt1 c n (Nat.lt_of_succ_lt hn)).2.2.2,
       out1_E_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => absurd ((hcond1_0 ⟨n + 1, hn⟩).mp h) (by show ¬ (n + 1) % 4 = 0; omega)) (fun h => absurd ((hcond1_1 ⟨n + 1, hn⟩).mp h) (by show ¬ (n + 1) % 16 = 0; omega)) ((hcond1_2 ⟨n + 1, hn⟩).mpr (by show (n + 1) % 4 = 3; omega)) ((hcond1_3 ⟨n + 1, hn⟩).mpr (by show (n + 1) % 16 = 15; omega)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.1 (outsAt1 c n (Nat.lt_of_succ_lt hn)).2.2.2,
       sout1_E_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => absurd ((hcond1_0 ⟨n + 1, hn⟩).mp h) (by show ¬ (n + 1) % 4 = 0; omega)) (fun h => absurd ((hcond1_1 ⟨n + 1, hn⟩).mp h) (by show ¬ (n + 1) % 16 = 0; omega)) ((hcond1_2 ⟨n + 1, hn⟩).mpr (by show (n + 1) % 4 = 3; omega)) ((hcond1_3 ⟨n + 1, hn⟩).mpr (by show (n + 1) % 16 = 15; omega)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.1 (outsAt1 c n (Nat.lt_of_succ_lt hn)).2.2.2,
       sout1_E_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => absurd ((hcond1_0 ⟨n + 1, hn⟩).mp h) (by show ¬ (n + 1) % 4 = 0; omega)) (fun h => absurd ((hcond1_1 ⟨n + 1, hn⟩).mp h) (by show ¬ (n + 1) % 16 = 0; omega)) ((hcond1_2 ⟨n + 1, hn⟩).mpr (by show (n + 1) % 4 = 3; omega)) ((hcond1_3 ⟨n + 1, hn⟩).mpr (by show (n + 1) % 16 = 15; omega)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.1 (outsAt1 c n (Nat.lt_of_succ_lt hn)).2.2.2)
    else if d3 : (n + 1) % 4 = 3 then
      (out1_D_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => absurd ((hcond1_0 ⟨n + 1, hn⟩).mp h) (by show ¬ (n + 1) % 4 = 0; omega)) (fun h => absurd ((hcond1_1 ⟨n + 1, hn⟩).mp h) (by show ¬ (n + 1) % 16 = 0; omega)) ((hcond1_2 ⟨n + 1, hn⟩).mpr (by show (n + 1) % 4 = 3; omega)) (fun h => absurd ((hcond1_3 ⟨n + 1, hn⟩).mp h) (by show ¬ (n + 1) % 16 = 15; omega)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.1 (outsAt1 c n (Nat.lt_of_succ_lt hn)).2.2.2,
       out1_D_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => absurd ((hcond1_0 ⟨n + 1, hn⟩).mp h) (by show ¬ (n + 1) % 4 = 0; omega)) (fun h => absurd ((hcond1_1 ⟨n + 1, hn⟩).mp h) (by show ¬ (n + 1) % 16 = 0; omega)) ((hcond1_2 ⟨n + 1, hn⟩).mpr (by show (n + 1) % 4 = 3; omega)) (fun h => absurd ((hcond1_3 ⟨n + 1, hn⟩).mp h) (by show ¬ (n + 1) % 16 = 15; omega)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.1 (outsAt1 c n (Nat.lt_of_succ_lt hn)).2.2.2,
       sout1_D_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => absurd ((hcond1_0 ⟨n + 1, hn⟩).mp h) (by show ¬ (n + 1) % 4 = 0; omega)) (fun h => absurd ((hcond1_1 ⟨n + 1, hn⟩).mp h) (by show ¬ (n + 1) % 16 = 0; omega)) ((hcond1_2 ⟨n + 1, hn⟩).mpr (by show (n + 1) % 4 = 3; omega)) (fun h => absurd ((hcond1_3 ⟨n + 1, hn⟩).mp h) (by show ¬ (n + 1) % 16 = 15; omega)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.1 (outsAt1 c n (Nat.lt_of_succ_lt hn)).2.2.2,
       sout1_D_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => absurd ((hcond1_0 ⟨n + 1, hn⟩).mp h) (by show ¬ (n + 1) % 4 = 0; omega)) (fun h => absurd ((hcond1_1 ⟨n + 1, hn⟩).mp h) (by show ¬ (n + 1) % 16 = 0; omega)) ((hcond1_2 ⟨n + 1, hn⟩).mpr (by show (n + 1) % 4 = 3; omega)) (fun h => absurd ((hcond1_3 ⟨n + 1, hn⟩).mp h) (by show ¬ (n + 1) % 16 = 15; omega)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.1 (outsAt1 c n (Nat.lt_of_succ_lt hn)).2.2.2)
    else
      (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => absurd ((hcond1_0 ⟨n + 1, hn⟩).mp h) (by show ¬ (n + 1) % 4 = 0; omega)) (fun h => absurd ((hcond1_1 ⟨n + 1, hn⟩).mp h) (by show ¬ (n + 1) % 16 = 0; omega)) (fun h => absurd ((hcond1_2 ⟨n + 1, hn⟩).mp h) (by show ¬ (n + 1) % 4 = 3; omega)) (fun h => absurd ((hcond1_3 ⟨n + 1, hn⟩).mp h) (by show ¬ (n + 1) % 16 = 15; omega)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.1 (outsAt1 c n (Nat.lt_of_succ_lt hn)).2.2.2,
       out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => absurd ((hcond1_0 ⟨n + 1, hn⟩).mp h) (by show ¬ (n + 1) % 4 = 0; omega)) (fun h => absurd ((hcond1_1 ⟨n + 1, hn⟩).mp h) (by show ¬ (n + 1) % 16 = 0; omega)) (fun h => absurd ((hcond1_2 ⟨n + 1, hn⟩).mp h) (by show ¬ (n + 1) % 4 = 3; omega)) (fun h => absurd ((hcond1_3 ⟨n + 1, hn⟩).mp h) (by show ¬ (n + 1) % 16 = 15; omega)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.1 (outsAt1 c n (Nat.lt_of_succ_lt hn)).2.2.2,
       sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => absurd ((hcond1_0 ⟨n + 1, hn⟩).mp h) (by show ¬ (n + 1) % 4 = 0; omega)) (fun h => absurd ((hcond1_1 ⟨n + 1, hn⟩).mp h) (by show ¬ (n + 1) % 16 = 0; omega)) (fun h => absurd ((hcond1_2 ⟨n + 1, hn⟩).mp h) (by show ¬ (n + 1) % 4 = 3; omega)) (fun h => absurd ((hcond1_3 ⟨n + 1, hn⟩).mp h) (by show ¬ (n + 1) % 16 = 15; omega)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.1 (outsAt1 c n (Nat.lt_of_succ_lt hn)).2.2.2,
       sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => absurd ((hcond1_0 ⟨n + 1, hn⟩).mp h) (by show ¬ (n + 1) % 4 = 0; omega)) (fun h => absurd ((hcond1_1 ⟨n + 1, hn⟩).mp h) (by show ¬ (n + 1) % 16 = 0; omega)) (fun h => absurd ((hcond1_2 ⟨n + 1, hn⟩).mp h) (by show ¬ (n + 1) % 4 = 3; omega)) (fun h => absurd ((hcond1_3 ⟨n + 1, hn⟩).mp h) (by show ¬ (n + 1) % 16 = 15; omega)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.1 (outsAt1 c n (Nat.lt_of_succ_lt hn)).2.2.2)

theorem outsAt1_A (c : Dev nD) (t : Fin cfg1.N) (hc0 : cond1_0 (grid1.coords t)) (hc1 : cond1_1 (grid1.coords t)) (hc2 : ¬cond1_2 (grid1.coords t)) (hc3 : ¬cond1_3 (grid1.coords t)) :
    outsAt1 V c t.val t.isLt =
      (out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 hc2 hc3 (iblk1 V c 0 t) (iblk1 V c 1 t) (iblk1 V c 2 t) (iblk1 V c 3 t),
       out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 hc2 hc3 (iblk1 V c 0 t) (iblk1 V c 1 t) (iblk1 V c 2 t) (iblk1 V c 3 t),
       sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 hc2 hc3 (iblk1 V c 0 t) (iblk1 V c 1 t) (iblk1 V c 2 t) (iblk1 V c 3 t),
       sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 hc2 hc3 (iblk1 V c 0 t) (iblk1 V c 1 t) (iblk1 V c 2 t) (iblk1 V c 3 t)) := by
  obtain ⟨n, hn⟩ := t
  cases n with
  | zero => exact rfl
  | succ n => exact (dif_pos ((hcond1_1 ⟨n + 1, hn⟩).mp hc1)).trans rfl

theorem outsAt1_B (c : Dev nD) (t : Fin cfg1.N) (hc0 : cond1_0 (grid1.coords t)) (hc1 : ¬cond1_1 (grid1.coords t)) (hc2 : ¬cond1_2 (grid1.coords t)) (hc3 : ¬cond1_3 (grid1.coords t)) :
    outsAt1 V c t.val t.isLt =
      (out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 hc2 hc3 (iblk1 V c 0 t) (iblk1 V c 1 t) (iblk1 V c 2 t) (iblk1 V c 3 t) (outsAt1 V c (t.val - 1) (Nat.lt_of_le_of_lt (Nat.sub_le _ _) t.isLt)).2.2.2,
       out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 hc2 hc3 (iblk1 V c 0 t) (iblk1 V c 1 t) (iblk1 V c 2 t) (iblk1 V c 3 t) (outsAt1 V c (t.val - 1) (Nat.lt_of_le_of_lt (Nat.sub_le _ _) t.isLt)).2.2.2,
       sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 hc2 hc3 (iblk1 V c 0 t) (iblk1 V c 1 t) (iblk1 V c 2 t) (iblk1 V c 3 t) (outsAt1 V c (t.val - 1) (Nat.lt_of_le_of_lt (Nat.sub_le _ _) t.isLt)).2.2.2,
       sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 hc2 hc3 (iblk1 V c 0 t) (iblk1 V c 1 t) (iblk1 V c 2 t) (iblk1 V c 3 t) (outsAt1 V c (t.val - 1) (Nat.lt_of_le_of_lt (Nat.sub_le _ _) t.isLt)).2.2.2) := by
  obtain ⟨n, hn⟩ := t
  cases n with
  | zero => exact absurd ((hcond1_1 ⟨0, hn⟩).mpr rfl) hc1
  | succ n => exact (dif_neg (fun h => hc1 ((hcond1_1 ⟨n + 1, hn⟩).mpr h))).trans ((dif_pos ((hcond1_0 ⟨n + 1, hn⟩).mp hc0)).trans rfl)

theorem outsAt1_C (c : Dev nD) (t : Fin cfg1.N) (hc0 : ¬cond1_0 (grid1.coords t)) (hc1 : ¬cond1_1 (grid1.coords t)) (hc2 : ¬cond1_2 (grid1.coords t)) (hc3 : ¬cond1_3 (grid1.coords t)) :
    outsAt1 V c t.val t.isLt =
      (out1_C_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 hc2 hc3 (iblk1 V c 0 t) (iblk1 V c 1 t) (iblk1 V c 2 t) (iblk1 V c 3 t) (outsAt1 V c (t.val - 1) (Nat.lt_of_le_of_lt (Nat.sub_le _ _) t.isLt)).2.2.1 (outsAt1 V c (t.val - 1) (Nat.lt_of_le_of_lt (Nat.sub_le _ _) t.isLt)).2.2.2,
       out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 hc2 hc3 (iblk1 V c 0 t) (iblk1 V c 1 t) (iblk1 V c 2 t) (iblk1 V c 3 t) (outsAt1 V c (t.val - 1) (Nat.lt_of_le_of_lt (Nat.sub_le _ _) t.isLt)).2.2.1 (outsAt1 V c (t.val - 1) (Nat.lt_of_le_of_lt (Nat.sub_le _ _) t.isLt)).2.2.2,
       sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 hc2 hc3 (iblk1 V c 0 t) (iblk1 V c 1 t) (iblk1 V c 2 t) (iblk1 V c 3 t) (outsAt1 V c (t.val - 1) (Nat.lt_of_le_of_lt (Nat.sub_le _ _) t.isLt)).2.2.1 (outsAt1 V c (t.val - 1) (Nat.lt_of_le_of_lt (Nat.sub_le _ _) t.isLt)).2.2.2,
       sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 hc2 hc3 (iblk1 V c 0 t) (iblk1 V c 1 t) (iblk1 V c 2 t) (iblk1 V c 3 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact absurd ((hcond1_0 ⟨0, hn⟩).mpr rfl) hc0
  | succ n => exact (dif_neg (fun h => hc1 ((hcond1_1 ⟨n + 1, hn⟩).mpr h))).trans ((dif_neg (fun h => hc0 ((hcond1_0 ⟨n + 1, hn⟩).mpr h))).trans ((dif_neg (fun h => hc3 ((hcond1_3 ⟨n + 1, hn⟩).mpr h))).trans ((dif_neg (fun h => hc2 ((hcond1_2 ⟨n + 1, hn⟩).mpr h))).trans rfl)))

theorem outsAt1_D (c : Dev nD) (t : Fin cfg1.N) (hc0 : ¬cond1_0 (grid1.coords t)) (hc1 : ¬cond1_1 (grid1.coords t)) (hc2 : cond1_2 (grid1.coords t)) (hc3 : ¬cond1_3 (grid1.coords t)) :
    outsAt1 V c t.val t.isLt =
      (out1_D_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 hc2 hc3 (iblk1 V c 0 t) (iblk1 V c 1 t) (iblk1 V c 2 t) (iblk1 V c 3 t) (outsAt1 V c (t.val - 1) (Nat.lt_of_le_of_lt (Nat.sub_le _ _) t.isLt)).2.2.1 (outsAt1 V c (t.val - 1) (Nat.lt_of_le_of_lt (Nat.sub_le _ _) t.isLt)).2.2.2,
       out1_D_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 hc2 hc3 (iblk1 V c 0 t) (iblk1 V c 1 t) (iblk1 V c 2 t) (iblk1 V c 3 t) (outsAt1 V c (t.val - 1) (Nat.lt_of_le_of_lt (Nat.sub_le _ _) t.isLt)).2.2.1 (outsAt1 V c (t.val - 1) (Nat.lt_of_le_of_lt (Nat.sub_le _ _) t.isLt)).2.2.2,
       sout1_D_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 hc2 hc3 (iblk1 V c 0 t) (iblk1 V c 1 t) (iblk1 V c 2 t) (iblk1 V c 3 t) (outsAt1 V c (t.val - 1) (Nat.lt_of_le_of_lt (Nat.sub_le _ _) t.isLt)).2.2.1 (outsAt1 V c (t.val - 1) (Nat.lt_of_le_of_lt (Nat.sub_le _ _) t.isLt)).2.2.2,
       sout1_D_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 hc2 hc3 (iblk1 V c 0 t) (iblk1 V c 1 t) (iblk1 V c 2 t) (iblk1 V c 3 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact absurd ((hcond1_0 ⟨0, hn⟩).mpr rfl) hc0
  | succ n => exact (dif_neg (fun h => hc1 ((hcond1_1 ⟨n + 1, hn⟩).mpr h))).trans ((dif_neg (fun h => hc0 ((hcond1_0 ⟨n + 1, hn⟩).mpr h))).trans ((dif_neg (fun h => hc3 ((hcond1_3 ⟨n + 1, hn⟩).mpr h))).trans ((dif_pos ((hcond1_2 ⟨n + 1, hn⟩).mp hc2)).trans rfl)))

theorem outsAt1_E (c : Dev nD) (t : Fin cfg1.N) (hc0 : ¬cond1_0 (grid1.coords t)) (hc1 : ¬cond1_1 (grid1.coords t)) (hc2 : cond1_2 (grid1.coords t)) (hc3 : cond1_3 (grid1.coords t)) :
    outsAt1 V c t.val t.isLt =
      (out1_E_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 hc2 hc3 (iblk1 V c 0 t) (iblk1 V c 1 t) (iblk1 V c 2 t) (iblk1 V c 3 t) (outsAt1 V c (t.val - 1) (Nat.lt_of_le_of_lt (Nat.sub_le _ _) t.isLt)).2.2.1 (outsAt1 V c (t.val - 1) (Nat.lt_of_le_of_lt (Nat.sub_le _ _) t.isLt)).2.2.2,
       out1_E_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 hc2 hc3 (iblk1 V c 0 t) (iblk1 V c 1 t) (iblk1 V c 2 t) (iblk1 V c 3 t) (outsAt1 V c (t.val - 1) (Nat.lt_of_le_of_lt (Nat.sub_le _ _) t.isLt)).2.2.1 (outsAt1 V c (t.val - 1) (Nat.lt_of_le_of_lt (Nat.sub_le _ _) t.isLt)).2.2.2,
       sout1_E_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 hc2 hc3 (iblk1 V c 0 t) (iblk1 V c 1 t) (iblk1 V c 2 t) (iblk1 V c 3 t) (outsAt1 V c (t.val - 1) (Nat.lt_of_le_of_lt (Nat.sub_le _ _) t.isLt)).2.2.1 (outsAt1 V c (t.val - 1) (Nat.lt_of_le_of_lt (Nat.sub_le _ _) t.isLt)).2.2.2,
       sout1_E_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 hc2 hc3 (iblk1 V c 0 t) (iblk1 V c 1 t) (iblk1 V c 2 t) (iblk1 V c 3 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact absurd ((hcond1_0 ⟨0, hn⟩).mpr rfl) hc0
  | succ n => exact (dif_neg (fun h => hc1 ((hcond1_1 ⟨n + 1, hn⟩).mpr h))).trans ((dif_neg (fun h => hc0 ((hcond1_0 ⟨n + 1, hn⟩).mpr h))).trans ((dif_pos ((hcond1_3 ⟨n + 1, hn⟩).mp hc3)).trans rfl))

/-! ## The invariant -/

/-- The class invariant hands out the two scratch buffers (at some contents) and takes them back at any contents: the
    other scoped buffers and the generator register stay inside the wand, unnamed. -/
theorem PhiA1_split (c : Dev nD) :
    (Pipeline.ΦA spec1 c : sProp 𝕄) ⊢ iprop((∃ d, owns (c : Thread nD τ) scM1_0 fullShare d) ∗ (∃ d, owns (c : Thread nD τ) scM1_1 fullShare d) ∗ (((∃ d, owns (c : Thread nD τ) scM1_0 fullShare d) ∗ (∃ d, owns (c : Thread nD τ) scM1_1 fullShare d)) -∗ Pipeline.ΦA spec1 c)) := by
  unfold Pipeline.ΦA; rw [scopedRest1_eq]; simp only [scM1_0, scM1_1, owns_whole]
  iintro ⟨⟨H1, H2, H3, H4, H5, H6, HS0, HS1⟩, Hg⟩
  isplitl [HS0]; · iexact HS0
  isplitl [HS1]; · iexact HS1
  iintro ⟨HS0', HS1'⟩
  isplitr [Hg]
  · isplitl [H1]; · iexact H1
    isplitl [H2]; · iexact H2
    isplitl [H3]; · iexact H3
    isplitl [H4]; · iexact H4
    isplitl [H5]; · iexact H5
    isplitl [H6]; · iexact H6
    isplitl [HS0']; · iexact HS0'
    iexact HS1'
  iexact Hg

/-- Before position `n`: at the start the class invariant; afterwards both running minima at what the point before
    left, beside the promise that giving them back (at anything) restores the class invariant. -/
def PhiS1 (c : Dev nD) : (n : ℕ) → n ≤ cfg1.N → sProp 𝕄
  | 0, _ => Pipeline.ΦA spec1 c
  | n + 1, hn => iprop(owns (c : Thread nD τ) scM1_0 fullShare ((outsAt1 V c n hn).2.2.1) ∗ owns (c : Thread nD τ) scM1_1 fullShare ((outsAt1 V c n hn).2.2.2) ∗ (((∃ d, owns (c : Thread nD τ) scM1_0 fullShare d) ∗ (∃ d, owns (c : Thread nD τ) scM1_1 fullShare d)) -∗ Pipeline.ΦA spec1 c))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) scM1_0 fullShare ((outsAt1 V c n hn).2.2.1) ∗ owns (c : Thread nD τ) scM1_1 fullShare ((outsAt1 V c n hn).2.2.2) ∗ (((∃ d, owns (c : Thread nD τ) scM1_0 fullShare d) ∗ (∃ d, owns (c : Thread nD τ) scM1_1 fullShare d)) -∗ Pipeline.ΦA spec1 c)) := rfl
theorem PhiS1_pos (c : Dev nD) (n : ℕ) (h : n ≤ cfg1.N) (hz : n ≠ 0) :
    PhiS1 V c n h = iprop(owns (c : Thread nD τ) scM1_0 fullShare ((outsAt1 V c (n - 1) (by omega)).2.2.1) ∗ owns (c : Thread nD τ) scM1_1 fullShare ((outsAt1 V c (n - 1) (by omega)).2.2.2) ∗ (((∃ d, owns (c : Thread nD τ) scM1_0 fullShare d) ∗ (∃ d, owns (c : Thread nD τ) scM1_1 fullShare d)) -∗ Pipeline.ΦA spec1 c)) := by
  cases n with
  | zero => exact absurd rfl hz
  | succ n => rfl

/-! ## The proof data -/

/-- Region 1's proof data on core `c`: the arrays as the region finds them; after the body each input's buffer at
    its block, each result's at its component of the recursion; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

end Cert.KernelIdeal.Hand

end
-- ==== Proof.KI.R1BodyA0.lean ====
/-
  Region 1, the body's obligation at a point of case A that is the grid's first point: the first tile of a batch row (nb = 0, mb = 0): both running minima are reset to +∞ before this tile's minima are folded in; neither result is stored.
-/
import proofs.«161420_j81003083203706_2_alg».proof.Proof.KI.R1Outs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 9600000 in
theorem sound_body1_A0 (c : Dev nD) (t : Fin cfg1.N) (hc0 : cond1_0 (grid1.coords t)) (hc1 : cond1_1 (grid1.coords t)) (hc2 : ¬cond1_2 (grid1.coords t)) (hc3 : ¬cond1_3 (grid1.coords t)) (hz : t.val = 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [Dat.leavesExact_idle (dat1 V c) 4 t (idleAt1_4 t hc2) (noFlush1_4 t hc2)]
  rw [Dat.leavesExact_idle (dat1 V c) 5 t (idleAt1_5 t hc3) (noFlush1_5 t hc3)]
  rw [outsAt1_A V c t hc0 hc1 hc2 hc3]
  unfold sout1_A_0 sout1_A_1; (try dsimp only)
  rw [PhiS1_castSucc V c t, PhiS1_zero V c _ _ hz]
  iintro ⟨HΦ, Ho, ⟨%d0, H0⟩, ⟨%d1, H1⟩, ⟨%d2, H2⟩, ⟨%d3, H3⟩, ⟨%d4, H4⟩, ⟨%d5, H5⟩⟩
  ihave Hsp := PhiA1_split c $$ HΦ
  icases Hsp with ⟨HS0, HS1, Hw⟩
  iapply ((kernelRun1_A c (grid1.coords t) _ _ _ _ _ _ _ _ _ _ _ _ _ _ _ _ hc0 hc1 hc2 hc3 (iblk1 V c 0 t) (iblk1 V c 1 t) (iblk1 V c 2 t) (iblk1 V c 3 t)).2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iintro ⟨H0, H1, H2, H3, H4, H5, ⟨%es0, HS0⟩, ⟨%es1, HS1⟩⟩
  isplitl [HS0 HS1 Hw]
  · isplitl [HS0]
    · unfold owns; iexists _; isplitr
      swap; · iexact HS0
      ipureintro; exact View.read_writes_of_cover _ _ _ _ _ (scover1_A_0 c _ _ _ _ _ _ _ _ _ _ _ _ _ _ _ _ _ _ _ _ _ _ _ _ _)
    isplitl [HS1]
    · unfold owns; iexists _; isplitr
      swap; · iexact HS1
      ipureintro; exact View.read_writes_of_cover _ _ _ _ _ (scover1_A_1 c _ _ _ _ _ _ _ _ _ _ _ _ _ _ _ _ _ _ _ _ _ _ _ _ _)
    iexact Hw
  isplitl [Ho]; · iexact Ho
  isplitl [H0]; · iexact H0
  isplitl [H1]; · iexact H1
  isplitl [H2]; · iexact H2
  isplitl [H3]; · iexact H3
  isplitl [H4]; · iexists _; iexact H4
  iexists _; iexact H5

end Cert.KernelIdeal.Hand

end
-- ==== Proof.KI.R1BodyA.lean ====
/-
  Region 1, the body's obligation at a point of case A that is not the grid's first point: the first tile of a batch row (nb = 0, mb = 0): both running minima are reset to +∞ before this tile's minima are folded in; neither result is stored.
-/
import proofs.«161420_j81003083203706_2_alg».proof.Proof.KI.R1Outs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 9600000 in
theorem sound_body1_A (c : Dev nD) (t : Fin cfg1.N) (hc0 : cond1_0 (grid1.coords t)) (hc1 : cond1_1 (grid1.coords t)) (hc2 : ¬cond1_2 (grid1.coords t)) (hc3 : ¬cond1_3 (grid1.coords t)) (hz : t.val ≠ 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [Dat.leavesExact_idle (dat1 V c) 4 t (idleAt1_4 t hc2) (noFlush1_4 t hc2)]
  rw [Dat.leavesExact_idle (dat1 V c) 5 t (idleAt1_5 t hc3) (noFlush1_5 t hc3)]
  rw [outsAt1_A V c t hc0 hc1 hc2 hc3]
  unfold sout1_A_0 sout1_A_1; (try dsimp only)
  rw [PhiS1_castSucc V c t, PhiS1_pos V c _ _ hz]
  iintro ⟨⟨HS0, HS1, Hw⟩, Ho, ⟨%d0, H0⟩, ⟨%d1, H1⟩, ⟨%d2, H2⟩, ⟨%d3, H3⟩, ⟨%d4, H4⟩, ⟨%d5, H5⟩⟩
  iapply ((kernelRun1_A c (grid1.coords t) _ _ _ _ _ _ _ _ _ _ _ _ _ _ _ _ hc0 hc1 hc2 hc3 (iblk1 V c 0 t) (iblk1 V c 1 t) (iblk1 V c 2 t) (iblk1 V c 3 t)).2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexists _; iexact HS0
  isplitl [HS1]; · iexists _; iexact HS1
  iintro ⟨H0, H1, H2, H3, H4, H5, ⟨%es0, HS0⟩, ⟨%es1, HS1⟩⟩
  isplitl [HS0 HS1 Hw]
  · isplitl [HS0]
    · unfold owns; iexists _; isplitr
      swap; · iexact HS0
      ipureintro; exact View.read_writes_of_cover _ _ _ _ _ (scover1_A_0 c _ _ _ _ _ _ _ _ _ _ _ _ _ _ _ _ _ _ _ _ _ _ _ _ _)
    isplitl [HS1]
    · unfold owns; iexists _; isplitr
      swap; · iexact HS1
      ipureintro; exact View.read_writes_of_cover _ _ _ _ _ (scover1_A_1 c _ _ _ _ _ _ _ _ _ _ _ _ _ _ _ _ _ _ _ _ _ _ _ _ _)
    iexact Hw
  isplitl [Ho]; · iexact Ho
  isplitl [H0]; · iexact H0
  isplitl [H1]; · iexact H1
  isplitl [H2]; · iexact H2
  isplitl [H3]; · iexact H3
  isplitl [H4]; · iexists _; iexact H4
  iexists _; iexact H5

end Cert.KernelIdeal.Hand

end
-- ==== Proof.KI.R1BodyB.lean ====
/-
  Region 1, the body's obligation at a point of case B: the first tile of a later row block (nb ≠ 0, mb = 0): the row minima are reset, the column minima carried; neither result is stored.
-/
import proofs.«161420_j81003083203706_2_alg».proof.Proof.KI.R1Outs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 9600000 in
theorem sound_body1_B (c : Dev nD) (t : Fin cfg1.N) (hc0 : cond1_0 (grid1.coords t)) (hc1 : ¬cond1_1 (grid1.coords t)) (hc2 : ¬cond1_2 (grid1.coords t)) (hc3 : ¬cond1_3 (grid1.coords t)) (hz : t.val ≠ 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [Dat.leavesExact_idle (dat1 V c) 4 t (idleAt1_4 t hc2) (noFlush1_4 t hc2)]
  rw [Dat.leavesExact_idle (dat1 V c) 5 t (idleAt1_5 t hc3) (noFlush1_5 t hc3)]
  rw [outsAt1_B V c t hc0 hc1 hc2 hc3]
  unfold sout1_B_0 sout1_B_1; (try dsimp only)
  rw [PhiS1_castSucc V c t, PhiS1_pos V c _ _ hz]
  iintro ⟨⟨HS0, HS1, Hw⟩, Ho, ⟨%d0, H0⟩, ⟨%d1, H1⟩, ⟨%d2, H2⟩, ⟨%d3, H3⟩, ⟨%d4, H4⟩, ⟨%d5, H5⟩⟩
  iapply ((kernelRun1_B c (grid1.coords t) _ _ _ _ _ _ _ _ _ _ _ _ _ _ _ _ hc0 hc1 hc2 hc3 (iblk1 V c 0 t) (iblk1 V c 1 t) (iblk1 V c 2 t) (iblk1 V c 3 t) _).2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexists _; iexact HS0
  isplitl [HS1]; · iexact HS1
  iintro ⟨H0, H1, H2, H3, H4, H5, ⟨%es0, HS0⟩, HS1⟩
  isplitl [HS0 HS1 Hw]
  · isplitl [HS0]
    · unfold owns; iexists _; isplitr
      swap; · iexact HS0
      ipureintro; exact View.read_writes_of_cover _ _ _ _ _ (scover1_B_0 c _ _ _ _ _ _ _ _ _ _ _ _ _ _ _ _ _ _ _ _ _ _ _ _ _ _)
    isplitl [HS1]
    · unfold owns; iexists _; isplitr
      swap; · iexact HS1
      ipureintro; rfl
    iexact Hw
  isplitl [Ho]; · iexact Ho
  isplitl [H0]; · iexact H0
  isplitl [H1]; · iexact H1
  isplitl [H2]; · iexact H2
  isplitl [H3]; · iexact H3
  isplitl [H4]; · iexists _; iexact H4
  iexists _; iexact H5

end Cert.KernelIdeal.Hand

end
-- ==== Proof.KI.R1BodyC.lean ====
/-
  Region 1, the body's obligation at a point of case C: a tile in the middle of a sweep (mb = 1 or 2): both running minima carried; neither result is stored.
-/
import proofs.«161420_j81003083203706_2_alg».proof.Proof.KI.R1Outs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 9600000 in
theorem sound_body1_C (c : Dev nD) (t : Fin cfg1.N) (hc0 : ¬cond1_0 (grid1.coords t)) (hc1 : ¬cond1_1 (grid1.coords t)) (hc2 : ¬cond1_2 (grid1.coords t)) (hc3 : ¬cond1_3 (grid1.coords t)) (hz : t.val ≠ 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [Dat.leavesExact_idle (dat1 V c) 4 t (idleAt1_4 t hc2) (noFlush1_4 t hc2)]
  rw [Dat.leavesExact_idle (dat1 V c) 5 t (idleAt1_5 t hc3) (noFlush1_5 t hc3)]
  rw [outsAt1_C V c t hc0 hc1 hc2 hc3]
  unfold sout1_C_0 sout1_C_1; (try dsimp only)
  rw [PhiS1_castSucc V c t, PhiS1_pos V c _ _ hz]
  iintro ⟨⟨HS0, HS1, Hw⟩, Ho, ⟨%d0, H0⟩, ⟨%d1, H1⟩, ⟨%d2, H2⟩, ⟨%d3, H3⟩, ⟨%d4, H4⟩, ⟨%d5, H5⟩⟩
  iapply ((kernelRun1_C c (grid1.coords t) _ _ _ _ _ _ _ _ _ _ _ _ _ _ _ _ hc0 hc1 hc2 hc3 (iblk1 V c 0 t) (iblk1 V c 1 t) (iblk1 V c 2 t) (iblk1 V c 3 t) _ _).2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iintro ⟨H0, H1, H2, H3, H4, H5, ⟨%es0, HS0⟩, HS1⟩
  isplitl [HS0 HS1 Hw]
  · isplitl [HS0]
    · unfold owns; iexists _; isplitr
      swap; · iexact HS0
      ipureintro; exact View.read_writes_of_cover _ _ _ _ _ (scover1_C_0 c _ _ _ _ _ _ _ _ _ _ _ _ _ _ _ _ _ _ _ _ _ _ _ _ _ _ _)
    isplitl [HS1]
    · unfold owns; iexists _; isplitr
      swap; · iexact HS1
      ipureintro; rfl
    iexact Hw
  isplitl [Ho]; · iexact Ho
  isplitl [H0]; · iexact H0
  isplitl [H1]; · iexact H1
  isplitl [H2]; · iexact H2
  isplitl [H3]; · iexact H3
  isplitl [H4]; · iexists _; iexact H4
  iexists _; iexact H5

end Cert.KernelIdeal.Hand

end
-- ==== Proof.KI.R1BodyD.lean ====
/-
  Region 1, the body's obligation at a point of case D: the last tile of a row block that is not the batch row's last (mb = 3, nb ≠ 3): the row minima, shifted back by the maximum, are stored to the first result.
-/
import proofs.«161420_j81003083203706_2_alg».proof.Proof.KI.R1Outs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 9600000 in
theorem sound_body1_D (c : Dev nD) (t : Fin cfg1.N) (hc0 : ¬cond1_0 (grid1.coords t)) (hc1 : ¬cond1_1 (grid1.coords t)) (hc2 : cond1_2 (grid1.coords t)) (hc3 : ¬cond1_3 (grid1.coords t)) (hz : t.val ≠ 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t hc2], after1_4]
  rw [Dat.leavesExact_idle (dat1 V c) 5 t (idleAt1_5 t hc3) (noFlush1_5 t hc3)]
  rw [outsAt1_D V c t hc0 hc1 hc2 hc3]
  unfold out1_D_4 sout1_D_0 sout1_D_1; (try dsimp only)
  rw [PhiS1_castSucc V c t, PhiS1_pos V c _ _ hz]
  iintro ⟨⟨HS0, HS1, Hw⟩, Ho, ⟨%d0, H0⟩, ⟨%d1, H1⟩, ⟨%d2, H2⟩, ⟨%d3, H3⟩, ⟨%d4, H4⟩, ⟨%d5, H5⟩⟩
  iapply ((kernelRun1_D c (grid1.coords t) _ _ _ _ _ _ _ _ _ _ _ _ _ _ _ _ hc0 hc1 hc2 hc3 (iblk1 V c 0 t) (iblk1 V c 1 t) (iblk1 V c 2 t) (iblk1 V c 3 t) _ _).2.2.2.2 _ Set.univ _)
  isplitl [H0]; · iexact H0
  isplitl [H1]; · iexact H1
  isplitl [H2]; · iexact H2
  isplitl [H3]; · iexact H3
  isplitl [H4]; · iexists _; iexact H4
  isplitl [H5]; · iexact H5
  isplitl [HS0]; · iexact HS0
  isplitl [HS1]; · iexact HS1
  iintro ⟨H0, H1, H2, H3, ⟨%e4, H4⟩, H5, ⟨%es0, HS0⟩, HS1⟩
  isplitl [HS0 HS1 Hw]
  · isplitl [HS0]
    · unfold owns; iexists _; isplitr
      swap; · iexact HS0
      ipureintro; exact View.read_writes_of_cover _ _ _ _ _ (scover1_D_0 c _ _ _ _ _ _ _ _ _ _ _ _ _ _ _ _ _ _ _ _ _ _ _ _ _ _ _)
    isplitl [HS1]
    · unfold owns; iexists _; isplitr
      swap; · iexact HS1
      ipureintro; rfl
    iexact Hw
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover1_D_4 c _ _ _ _ _ _ _ _ _ _ _ _ _ _ _ _ _ _ _ _ _ _ _ _ _ _ _)
  iexists _; iexact H5

end Cert.KernelIdeal.Hand

end
-- ==== Proof.KI.R1BodyE.lean ====
/-
  Region 1, the body's obligation at a point of case E: the last tile of a batch row (nb = 3, mb = 3): both results are stored.
-/
import proofs.«161420_j81003083203706_2_alg».proof.Proof.KI.R1Outs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 9600000 in
theorem sound_body1_E (c : Dev nD) (t : Fin cfg1.N) (hc0 : ¬cond1_0 (grid1.coords t)) (hc1 : ¬cond1_1 (grid1.coords t)) (hc2 : cond1_2 (grid1.coords t)) (hc3 : cond1_3 (grid1.coords t)) (hz : t.val ≠ 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t hc2], after1_4]
  rw [show (dat1 V c).leavesExact 5 t = owns (c : Thread nD τ) (ms1_5 t) fullShare ((dat1 V c).after 5 t) from by
    unfold Dat.leavesExact; rw [liveAt1_5 t hc3], after1_5]
  rw [outsAt1_E V c t hc0 hc1 hc2 hc3]
  unfold out1_E_4 out1_E_5 sout1_E_0 sout1_E_1; (try dsimp only)
  rw [PhiS1_castSucc V c t, PhiS1_pos V c _ _ hz]
  iintro ⟨⟨HS0, HS1, Hw⟩, Ho, ⟨%d0, H0⟩, ⟨%d1, H1⟩, ⟨%d2, H2⟩, ⟨%d3, H3⟩, ⟨%d4, H4⟩, ⟨%d5, H5⟩⟩
  iapply ((kernelRun1_E c (grid1.coords t) _ _ _ _ _ _ _ _ _ _ _ _ _ _ _ _ hc0 hc1 hc2 hc3 (iblk1 V c 0 t) (iblk1 V c 1 t) (iblk1 V c 2 t) (iblk1 V c 3 t) _ _).2.2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [HS0]; · iexact HS0
  isplitl [HS1]; · iexact HS1
  iintro ⟨H0, H1, H2, H3, ⟨%e4, H4⟩, ⟨%e5, H5⟩, ⟨%es0, HS0⟩, HS1⟩
  isplitl [HS0 HS1 Hw]
  · isplitl [HS0]
    · unfold owns; iexists _; isplitr
      swap; · iexact HS0
      ipureintro; exact View.read_writes_of_cover _ _ _ _ _ (scover1_E_0 c _ _ _ _ _ _ _ _ _ _ _ _ _ _ _ _ _ _ _ _ _ _ _ _ _ _ _)
    isplitl [HS1]
    · unfold owns; iexists _; isplitr
      swap; · iexact HS1
      ipureintro; rfl
    iexact Hw
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover1_E_4 c _ _ _ _ _ _ _ _ _ _ _ _ _ _ _ _ _ _ _ _ _ _ _ _ _ _ _)
  unfold owns; iexists _; isplitr
  swap; · iexact H5
  ipureintro; exact View.read_writes_of_cover _ _ _ _ _ (cover1_E_5 c _ _ _ _ _ _ _ _ _ _ _ _ _ _ _ _ _ _ _ _ _ _ _ _ _ _ _)

end Cert.KernelIdeal.Hand

end
-- ==== Proof.KI.R1Oblig.lean ====
/-
  Region 1, the body's obligation at every grid point: the point's residues mod 16 and mod 4 say which case of the
  sweep it is in, and each case is its own lemma; with it, what the launch hands the region is the invariant before
  the first point, and after the last point the invariant gives the class invariant back.
-/
import proofs.«161420_j81003083203706_2_alg».proof.Proof.KI.R1BodyA0
import proofs.«161420_j81003083203706_2_alg».proof.Proof.KI.R1BodyA
import proofs.«161420_j81003083203706_2_alg».proof.Proof.KI.R1BodyB
import proofs.«161420_j81003083203706_2_alg».proof.Proof.KI.R1BodyC
import proofs.«161420_j81003083203706_2_alg».proof.Proof.KI.R1BodyD
import proofs.«161420_j81003083203706_2_alg».proof.Proof.KI.R1BodyE

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem sound_body1 (c : Dev nD) (t : Fin cfg1.N) :
    bodyPre1 V c t ⊢ wp frame (wpE (defs₀ (F := F)) Variants.none c none) Set.univ (bodyAt1 t) (fun _ => bodyPost1 V c t) := by
  by_cases a16 : t.val % 16 = 0
  · have hc0 : cond1_0 (grid1.coords t) := (hcond1_0 t).mpr (by omega)
    have hc1 : cond1_1 (grid1.coords t) := (hcond1_1 t).mpr a16
    have hc2 : ¬cond1_2 (grid1.coords t) := fun h => by have := (hcond1_2 t).mp h; omega
    have hc3 : ¬cond1_3 (grid1.coords t) := fun h => by have := (hcond1_3 t).mp h; omega
    by_cases hz : t.val = 0
    · exact sound_body1_A0 V c t hc0 hc1 hc2 hc3 hz
    · exact sound_body1_A V c t hc0 hc1 hc2 hc3 hz
  · have hz : t.val ≠ 0 := fun e => a16 (by rw [e])
    have hc1 : ¬cond1_1 (grid1.coords t) := fun h => a16 ((hcond1_1 t).mp h)
    by_cases a4 : t.val % 4 = 0
    · have hc0 : cond1_0 (grid1.coords t) := (hcond1_0 t).mpr a4
      have hc2 : ¬cond1_2 (grid1.coords t) := fun h => by have := (hcond1_2 t).mp h; omega
      have hc3 : ¬cond1_3 (grid1.coords t) := fun h => by have := (hcond1_3 t).mp h; omega
      exact sound_body1_B V c t hc0 hc1 hc2 hc3 hz
    · have hc0 : ¬cond1_0 (grid1.coords t) := fun h => a4 ((hcond1_0 t).mp h)
      by_cases e15 : t.val % 16 = 15
      · have hc2 : cond1_2 (grid1.coords t) := (hcond1_2 t).mpr (by omega)
        have hc3 : cond1_3 (grid1.coords t) := (hcond1_3 t).mpr e15
        exact sound_body1_E V c t hc0 hc1 hc2 hc3 hz
      · have hc3 : ¬cond1_3 (grid1.coords t) := fun h => e15 ((hcond1_3 t).mp h)
        by_cases d3 : t.val % 4 = 3
        · have hc2 : cond1_2 (grid1.coords t) := (hcond1_2 t).mpr d3
          exact sound_body1_D V c t hc0 hc1 hc2 hc3 hz
        · have hc2 : ¬cond1_2 (grid1.coords t) := fun h => d3 ((hcond1_2 t).mp h)
          exact sound_body1_C V c t hc0 hc1 hc2 hc3 hz
set_option maxHeartbeats 4000000 in
/-- The library's body obligation, at every point. -/
theorem body_obligation1 (c : Dev nD) : BodyObligation (dat1 (F := F) V c) (defs₀ (F := F)) Variants.none () Set.univ := fun t => by
  rw [bigSep_W1, bigSep_W1]
  have h := sound_body1 V c t
  unfold bodyPre1 bodyPost1 bodyAt1 at h
  exact h

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but none the invariant gives the class invariant back: the running minima's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  iintro ⟨HS0, HS1, Hw⟩
  iapply Hw
  isplitl [HS0]; · iexists _; iexact HS0
  iexists _; iexact HS1

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Cert.KernelIdeal.Hand

end
-- ==== Proof.KI.RunMain.lean ====
/-
  The whole run. @main is four segments: region 0 (the maximum), one host operation (the mask given a unit middle
  axis), region 1 (the two families of minima), twelve host operations (the two results squeezed, summed and divided).
  The buffers' contents at each boundary are a fold from the launch memory: a region leaves its arrays at what its
  write-backs leave and every other buffer as it found it; a host stretch leaves what its operations compute. Every
  weakly fair execution terminates, and every final memory holds each unscoped buffer at the last fold.
-/
import proofs.«161420_j81003083203706_2_alg».proof.Proof.KI.R0Frame
import proofs.«161420_j81003083203706_2_alg».proof.Proof.KI.R1Oblig
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch (region 0's entry: nothing runs before it). -/
abbrev W0 : Dev nD → Valuation τ sig (Elt F) := fun c b => m (c, b)
abbrev E0 : (c : Dev nD) → (b : Ref sig .tc) → Buf (Elt F) ((c : Thread nD τ).loc b) := fun c b => W0 m c b
/-- At region 0's exit: the one-element result at what the last point wrote back, everything else as entered. -/
def W1 (c : Dev nD) : Valuation τ sig (Elt F) :=
  Pipeline.withArrays spec0 c (W0 m c) fun w => (dat0 (E0 m) c).arrAt w cfg0.N
theorem W1_arr (c : Dev nD) (w : Fin cfg0.W) :
    W1 m c (Proc.devRef .tc (Pipeline.arrRef spec0 w)) = (dat0 (E0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev E1 : (c : Dev nD) → (b : Ref sig .tc) → Buf (Elt F) ((c : Thread nD τ).loc b) := fun c b => W1 m c b
theorem hF0 (c : Dev nD) (w : Fin cfg0.W) : (dat0 (E0 m) c).arrAt w cfg0.N = E1 m c (Pipeline.arrRef spec0 w) :=
  (W1_arr m c w).symm
theorem hrest0 (c : Dev nD) : ∀ b, b ∉ Finset.univ.image (Pipeline.arrRef spec0) → E1 m c b = E0 m c b :=
  fun b hb => W1_of_ne m c b fun w e => hb (Finset.mem_image.mpr ⟨w, Finset.mem_univ _, e⟩)

/-- After the host operation between the regions (region 1's entry). -/
abbrev W2 : Dev nD → Valuation τ sig (Elt F) := fun c => StableHlo.after hostOps1 (W1 m c)
abbrev E2 : (c : Dev nD) → (b : Ref sig .tc) → Buf (Elt F) ((c : Thread nD τ).loc b) := fun c b => W2 m c b
/-- At region 1's exit: its two results at what their write-backs leave, everything else as entered. -/
def W3 (c : Dev nD) : Valuation τ sig (Elt F) :=
  Pipeline.withArrays spec1 c (W2 m c) fun w => (dat1 (E2 m) c).arrAt w cfg1.N
theorem W3_arr (c : Dev nD) (w : Fin cfg1.W) :
    W3 m c (Proc.devRef .tc (Pipeline.arrRef spec1 w)) = (dat1 (E2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev E3 : (c : Dev nD) → (b : Ref sig .tc) → Buf (Elt F) ((c : Thread nD τ).loc b) := fun c b => W3 m c b
theorem hF1 (c : Dev nD) (w : Fin cfg1.W) : (dat1 (E2 m) c).arrAt w cfg1.N = E3 m c (Pipeline.arrRef spec1 w) :=
  (W3_arr m c w).symm
theorem hrest1 (c : Dev nD) : ∀ b, b ∉ Finset.univ.image (Pipeline.arrRef spec1) → E3 m c b = E2 m c b :=
  fun b hb => W3_of_ne m c b fun w e => hb (Finset.mem_image.mpr ⟨w, Finset.mem_univ _, e⟩)
/-- After the host operations that follow region 1: the program's end. -/
abbrev W4 : Dev nD → Valuation τ sig (Elt F) := fun c => StableHlo.after hostOps2 (W3 m c)

/-! ## The proof data family and the thread state -/

abbrev admH : (p : Fin 2) → (pcfgs (F := F) p).Adm := fun p => (cfgs p).toPCfg_adm
/-- Every pipeline's proof data, each at its region's entry contents: a literal match on the pipeline's index. -/
def pdatsH : (p : Fin 2) → (c : Dev nD) → Dat τ (Elt F) Unit ℕ (UR sig nD τ) ℕ (Pipeline.pin (pcfgs (F := F)) admH p) c
  | ⟨0, _⟩ => fun c => dat0 (E0 m) c
  | ⟨1, _⟩ => fun c => dat1 (E2 m) c
abbrev VarH : Variants := Variants.none
abbrev LH : GSem nD τ sig → Finset Unit := fun _ => ∅
abbrev lvH : GSem nD τ sig → Unit → ℕ := fun _ _ => 0
/-- What rides beside the buffers through every segment: the generator register at some state, and nothing owed. -/
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ VarH LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem hostOps1_freshH : (hostOps1 : List (HloOp τ sig (Elt F))).Forall fun op => op.fresh = ∅ := by
  simp only [List.Forall]; repeat' constructor
theorem hostOps2_freshH : (hostOps2 : List (HloOp τ sig (Elt F))).Forall fun op => op.fresh = ∅ := by
  simp only [List.Forall]; repeat' constructor
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev TnH (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 over the thread state: entered from every unscoped buffer at `W0`, left at `W1`. Its arrays are
    split out of the unscoped buffers and put back at what the pipeline leaves in them; the generator register goes
    into the invariant and comes back; the kernel's scratch contents are forgotten at the exit; nothing is owed. -/
def reg0 : Pipeline.RegionSeg (pcfgs (F := F)) admH (pdatsH m) () defs₀ VarH LH lvH 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ LH lvH 0 fun _ _ => rfl
  pre c := iprop(StableHlo.held (c : Thread nD τ) (Pipeline.ucRefs τ sig) (W0 m c) ∗ RH c)
  post c := iprop(StableHlo.held (c : Thread nD τ) (Pipeline.ucRefs τ sig) (W1 m c) ∗ RH c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) admH (pdatsH m) launch0.win launch0.arr_whole c
      ((pdatsH m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = Pipeline.ΦA spec0 c from rfl]; unfold Pipeline.ΦA
    iintro ⟨Hp, -, Hr⟩
    isplitl [Hr]; · iexact Hr
    iexact Hp
  hout c := by
    refine (show (pdatsH m 0 c).Φ (Fin.last _) ⊢ Pipeline.ΦA spec0 c from hout0 (E0 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m) ((pdatsH m 0 c).share_full fun _ => rfl)
      (E0 m c) (E1 m c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its arrays are
    split out of the unscoped buffers and put back at what the pipeline leaves in them; the generator register goes
    into the invariant and comes back; the kernel's scratch contents are forgotten at the exit; nothing is owed. -/
def reg1 : Pipeline.RegionSeg (pcfgs (F := F)) admH (pdatsH m) () defs₀ VarH LH lvH 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ LH lvH 1 fun _ _ => rfl
  pre c := iprop(StableHlo.held (c : Thread nD τ) (Pipeline.ucRefs τ sig) (W2 m c) ∗ RH c)
  post c := iprop(StableHlo.held (c : Thread nD τ) (Pipeline.ucRefs τ sig) (W3 m c) ∗ RH c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) admH (pdatsH m) launch1.win launch1.arr_whole c
      ((pdatsH m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 1 c).Φ 0 = Pipeline.ΦA spec1 c from rfl]; unfold Pipeline.ΦA
    iintro ⟨Hp, -, Hr⟩
    isplitl [Hr]; · iexact Hr
    iexact Hp
  hout c := by
    refine (show (pdatsH m 1 c).Φ (Fin.last _) ⊢ Pipeline.ΦA spec1 c from hout1 (E2 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m) ((pdatsH m 1 c).share_full fun _ => rfl)
      (E2 m c) (E3 m c) ((pdatsH m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segsH : List (Pipeline.Seg (pcfgs (F := F)) admH (pdatsH m) () defs₀ VarH LH lvH) :=
  [ .region (reg0 m),
    .host (hsegH hostOps1 hostOps1_sub hostOps1_freshH (W1 m)),
    .region (reg1 m),
    .host (hsegH hostOps2 hostOps2_sub hostOps2_freshH (W3 m)) ]
theorem main_runH (c : Dev nD) : main (F := F) c = Pipeline.Seg.run (segsH m) := (main_chain c).trans (by chain_rfl)

set_option backward.isDefEq.respectTransparency.types false in
/-- THE RUN: from any memory with zero counters every weakly fair execution of @main terminates, nothing faulting, and
    every final memory holds each unscoped buffer at the last fold `W4`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) admH (pdatsH m) () cellOf_inj emb₁ defs₀ VarH LH lvH m ρ main (segsH m)
    (fun c Q => by rw [main_runH m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RH c)) (Tₙ := TnH m)
    (hch := ⟨fun _ => .rfl, fun _ => .rfl, fun _ => .rfl, fun _ => .rfl, fun c => show (iprop(StableHlo.held (c : Thread nD τ) (Pipeline.ucRefs τ sig) (W4 m c) ∗ RH c) : sProp 𝕄)
        ⊢ iprop(TnH m c ∗ ∃ W, owes (c : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.KernelIdeal.Hand

end
-- ==== Proof.KI.Frame.lean ====
/-
  The frame: no host operation writes an argument array, and a region either reads it through an input window (whose
  array the pipeline leaves as it found it) or does not touch it; so the fold of buffer contents through @main, read at
  an argument, walks back to the launch memory.
-/
import proofs.«161420_j81003083203706_2_alg».proof.Proof.KI.RunMain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The source cloud: window 0 of region 0, window 1 of region 1. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg0) := (W3_arr m c 1).trans (((dat1 (E2 m) c).arrAt_in 1 rfl _).trans (A_eq1 (E2 m) c 1))
    _ = W1 m c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg0) := (W1_arr m c 0).trans (((dat0 (E0 m) c).arrAt_in 0 rfl _).trans (A_eq0 (E0 m) c 0))
    _ = m ((c : Thread nD τ).loc main_arg0) := rfl

/-- The target cloud: window 1 of region 0, window 2 of region 1. -/
theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg1) := (W3_arr m c 2).trans (((dat1 (E2 m) c).arrAt_in 2 rfl _).trans (A_eq1 (E2 m) c 2))
    _ = W1 m c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg1) := (W1_arr m c 1).trans (((dat0 (E0 m) c).arrAt_in 1 rfl _).trans (A_eq0 (E0 m) c 1))
    _ = m ((c : Thread nD τ).loc main_arg1) := rfl

/-- The mask: no region stages it (region 1 stages its copy with a unit middle axis). -/
theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg2) := W3_of_ne m c main_arg2 (by decide)
    _ = W1 m c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg2) := W1_of_ne m c main_arg2 (by decide)
    _ = m ((c : Thread nD τ).loc main_arg2) := rfl

/-- THE FRAME: every weakly fair execution terminates, nothing faulting, and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_ucH main_arg0 (by decide))).trans (W4_main_arg0 m c),
     (h c _ (mem_ucH main_arg1 (by decide))).trans (W4_main_arg1 m c),
     (h c _ (mem_ucH main_arg2 (by decide))).trans (W4_main_arg2 m c)⟩) (run_main m ρ)

end Cert.KernelIdeal.Hand

end
-- ==== Proof.Spec.lean ====
/-
  The specification: what both programs compute, as plain functions of the three argument arrays over the extended
  reals. `s` and `t` are the source and target point clouds (8 batch rows × 2048 points × 3 coordinates), `k` the
  mask over target points (8 × 2048).
  * `dist s t b n m`: the L1 distance between source point `n` and target point `m` of row `b`.
  * `maxd s t`: the largest distance over all rows and all pairs.
  * `src2dst s t k b n`: the least over target points `m` of `dist − k(b,m)·maxd`, shifted back by `maxd`.
  * `dst2src s t b m`: the least over source points `n` of `dist`.
  Suprema and infima are the complete lattice's: over an empty or infinite-valued family they are ±∞ as they should be,
  and regrouping them (by tiles, by sweeps) needs no finiteness.
-/
import Idealize.ShloMosaic.PureOps.Ideal
import Idealize.ShloMosaic.Lib.ValueIdx

noncomputable section

namespace Cert.Spec

open Idealize.ShloMosaic Idealize.ShloMosaic.ValueIdx

abbrev SA : Shape := ⟨3, ![8, 2048, 3]⟩
abbrev SM : Shape := ⟨2, ![8, 2048]⟩

/-- |x| on the extended reals. -/
def eabs (x : EReal) : EReal := max x (-x)

def dist (s t : SA.Idx → EReal) (b : Fin 8) (n m : Fin 2048) : EReal :=
  eabs (s (ix3 b n 0) - t (ix3 b m 0)) + eabs (s (ix3 b n 1) - t (ix3 b m 1)) + eabs (s (ix3 b n 2) - t (ix3 b m 2))

def maxd (s t : SA.Idx → EReal) : EReal := ⨆ (b : Fin 8) (n : Fin 2048) (m : Fin 2048), dist s t b n m

def src2dst (s t : SA.Idx → EReal) (k : SM.Idx → EReal) (b : Fin 8) (n : Fin 2048) : EReal :=
  (⨅ m : Fin 2048, (dist s t b n m - k (ix2 b m) * maxd s t)) + maxd s t

def dst2src (s t : SA.Idx → EReal) (b : Fin 8) (m : Fin 2048) : EReal := ⨅ n : Fin 2048, dist s t b n m

end Cert.Spec

end
-- ==== Proof.PayLayout.lean ====
/-
  Small facts for reading the two kernel bodies' values at an index, at the ideal instance (a float is an extended
  real):
  • the two infinite f32 patterns denote the top and the bottom of the extended reals;
  • the absolute value of a vector, read at an index, is |x| = max x (-x) of the element;
  • a column `[a, 1]` viewed as the vector `[a]` reads, at `i`, the column's entry of row `i` (the row-major position of
    `(i, 0)` in `[a, 1]` is `i · 1 + 0 = i`);
  • the element of a `[1, 1]` vector at position `(0, 0)`.
-/
import proofs.«161420_j81003083203706_2_alg».proof.Proof.Spec
import Idealize.ShloMosaic.Lib.ValueIdx
import Idealize.ShloMosaic.Lib.Pipeline.Value

noncomputable section

namespace Cert.KernelIdeal.Pay

open Idealize.ShloMosaic Idealize.ShloMosaic.ValueIdx

variable {α : Type}

/-- The f32 pattern of `-∞` denotes the least extended real. -/
theorem ofBits_negInf : Ideal.ofBits .f32 0xFF800000#32 = ⊥ := by simp [Ideal.ofBits, Ideal.ieee]

/-- The f32 pattern of `+∞` denotes the greatest extended real. -/
theorem ofBits_posInf : Ideal.ofBits .f32 0x7F800000#32 = ⊤ := by simp [Ideal.ofBits, Ideal.ieee]

/-- The same two facts for a scalar constant as a kernel body writes it. -/
theorem scalar_negInf : (Scalar.ofBits (F := Ideal) .f32 0xFF800000#32 : Ideal .f32) = ⊥ := ofBits_negInf
theorem scalar_posInf : (Scalar.ofBits (F := Ideal) .f32 0x7F800000#32 : Ideal .f32) = ⊤ := ofBits_posInf

/-- The absolute value of a vector at an index is `|x|` of the element there. -/
theorem absf_apply {s : Shape} {φ : FTy} (x : FVec Ideal s φ) (i : s.Idx) : absf x i = Cert.Spec.eabs (x i) := rfl

/-- A column `[a, 1]` cast to the vector `[a]` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- The one element of a `[1, 1]` vector, extracted at position `(0, 0)`. -/
theorem extractAt_11 (x : (⟨2, ![1, 1]⟩ : Shape).Idx → α) (h : ∀ a, (![0, 0] : Fin 2 → Nat) a < (⟨2, ![1, 1]⟩ : Shape).size a) :
    extractAt ![0, 0] x h = x (ix2 (0 : Fin 1) (0 : Fin 1)) :=
  congrArg x (funext fun a => match a with | ⟨0, _⟩ => Fin.ext rfl | ⟨1, _⟩ => Fin.ext rfl)

end Cert.KernelIdeal.Pay

end
-- ==== Proof.LibColumn.lean ====
/-
  Two layout operations read at an index written by coordinates, for the COLUMN shape `[a, 1]`: the shape a
  reduction along the last axis of an `[a, b]` matrix passes through when its result is set back beside the matrix
  (a row statistic kept as a column and repeated along the row).
  • a vector `[a]` viewed as the column `[a, 1]` reads, at `(i, u)`, the vector at `i`;
  • a column `[a, 1]` repeated along its unit axis to `[a, b]` reads, at `(i, j)`, the column at `(i, 0)`.
  Both are the general "read at an index" lemmas of a shape cast and of a broadcast with the row-major position,
  respectively the per-axis coordinates, worked out at these two ranks.
-/
import Idealize.ShloMosaic.Lib.Pipeline.Value
import Idealize.ShloMosaic.Lib.ValueIdx

namespace Cert.Column

open Idealize.ShloMosaic Idealize.ShloMosaic.ValueIdx

variable {α : Type}

/-- An `[a]` vector cast to the column `[a, 1]` reads, at `(i, u)`, the vector at `i`, whatever the unit
    coordinate `u`: the row-major position of `(i, u)` in `[a, 1]` is `i · 1 + u = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` repeated along its unit axis to `[a, b]` reads, at `(i, j)`, the column's entry of row `i`:
    on the first axis the coordinate is kept (or is `0` anyway when `a = 1`), on the unit axis it is `0`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Cert.Column
-- ==== Proof.PayDist.lean ====
/-
  The tile of distances. Both kernel bodies build, from a block of 512 source points and a block of 512 target points
  (each `[1, 512, 3]`), the `512 × 512` tile whose entry `(p, q)` is the L1 distance between source point `p` and target
  point `q`: per coordinate `c`, the source column `c` is repeated along the rows' direction, the target column `c` is
  laid out as a row and repeated down the columns, the two are subtracted and the absolute value taken; the three
  tiles are added. Read at `(p, q)` every layout step names one element of a block, and the arithmetic is pointwise.
-/
import proofs.«161420_j81003083203706_2_alg».proof.Proof.Gen.KernelIdeal.Skeleton
import proofs.«161420_j81003083203706_2_alg».proof.Proof.PayLayout
import proofs.«161420_j81003083203706_2_alg».proof.Proof.LibColumn
import Idealize.ShloMosaic.Lib.ValueLayout

noncomputable section

namespace Cert.KernelIdeal.Pay

open Cert.KernelIdeal Cert.KernelIdeal.Gen Idealize.ShloMosaic Idealize.ShloMosaic.ValueIdx

variable {α : Type}

/-- Column 0 of a `[512, 3]` matrix, kept as a `[512, 1]` column: at `(i, 0)`, the matrix at `(i, 0)`. -/
theorem slice_col0 (X : (⟨2, ![512, 3]⟩ : Shape).Idx → α) (h : (⟨2, ![512, 3]⟩ : Shape).Slices ![0, 0] ⟨2, ![512, 1]⟩)
    (i : Fin 512) : extractStridedSlice ⟨2, ![512, 1]⟩ ![0, 0] X h (ix2 i (0 : Fin 1)) = X (ix2 i (0 : Fin 3)) :=
  slice2_axis1_apply 0 X h i 0 0 rfl

/-- Column 1 likewise: at `(i, 0)`, the matrix at `(i, 1)`. -/
theorem slice_col1 (X : (⟨2, ![512, 3]⟩ : Shape).Idx → α) (h : (⟨2, ![512, 3]⟩ : Shape).Slices ![0, 1] ⟨2, ![512, 1]⟩)
    (i : Fin 512) : extractStridedSlice ⟨2, ![512, 1]⟩ ![0, 1] X h (ix2 i (0 : Fin 1)) = X (ix2 i (1 : Fin 3)) :=
  slice2_axis1_apply 1 X h i 0 1 rfl

/-- Column 2 likewise: at `(i, 0)`, the matrix at `(i, 2)`. -/
theorem slice_col2 (X : (⟨2, ![512, 3]⟩ : Shape).Idx → α) (h : (⟨2, ![512, 3]⟩ : Shape).Slices ![0, 2] ⟨2, ![512, 1]⟩)
    (i : Fin 512) : extractStridedSlice ⟨2, ![512, 1]⟩ ![0, 2] X h (ix2 i (0 : Fin 1)) = X (ix2 i (2 : Fin 3)) :=
  slice2_axis1_apply 2 X h i 0 2 rfl

/-- Region 0's tile: entry `(p, q)` is the L1 distance between source point `p` and target point `q` of the blocks. -/
theorem k0_pay3_apply (x0 x1 : Vec Ideal S1x512x3 .f32) (p q : Fin 512) :
    k0_pay3 (F := Ideal) x0 x1 (ix2 p q)
      = Cert.Spec.eabs (x0 (ix3 0 p 0) - x1 (ix3 0 q 0)) + Cert.Spec.eabs (x0 (ix3 0 p 1) - x1 (ix3 0 q 1))
        + Cert.Spec.eabs (x0 (ix3 0 p 2) - x1 (ix3 0 q 2)) := by
  unfold k0_pay3
  simp only [addf_apply, subf_apply, absf_apply, Cert.Column.broadcastTo_a1_ab_apply, broadcastTo_1b_ab_apply,
    shapeCast_a_1a_apply, shapeCast_a1_a_apply, slice_col0, slice_col1, slice_col2, shapeCast_1ab_ab_apply]

/-- Region 1's tile is the same function of its two blocks. -/
theorem k1_pay7_apply (x0 x1 : Vec Ideal S1x512x3 .f32) (p q : Fin 512) :
    k1_pay7 (F := Ideal) x0 x1 (ix2 p q)
      = Cert.Spec.eabs (x0 (ix3 0 p 0) - x1 (ix3 0 q 0)) + Cert.Spec.eabs (x0 (ix3 0 p 1) - x1 (ix3 0 q 1))
        + Cert.Spec.eabs (x0 (ix3 0 p 2) - x1 (ix3 0 q 2)) := by
  unfold k1_pay7
  simp only [addf_apply, subf_apply, absf_apply, Cert.Column.broadcastTo_a1_ab_apply, broadcastTo_1b_ab_apply,
    shapeCast_a_1a_apply, shapeCast_a1_a_apply, slice_col0, slice_col1, slice_col2, shapeCast_1ab_ab_apply]

end Cert.KernelIdeal.Pay

end
-- ==== Proof.Pay1Small.lean ====
/-
  Region 1's remaining values read at an index: the scalar `maxd` taken out of its `[1, 1]` block; the row minima
  shifted back by `maxd` and laid out as the `[1, 1, 512]` output block; the column minima laid out as the `[1, 1, 2048]`
  output block; and the two running minima's first value, `+∞`.
-/
import proofs.«161420_j81003083203706_2_alg».proof.Proof.Gen.KernelIdeal.Skeleton
import proofs.«161420_j81003083203706_2_alg».proof.Proof.PayLayout
import Idealize.ShloMosaic.Lib.ValueLayout

noncomputable section

namespace Cert.KernelIdeal.Pay

open Cert.KernelIdeal Cert.KernelIdeal.Gen Idealize.ShloMosaic Idealize.ShloMosaic.ValueIdx

/-- The scalar read out of the `[1, 1]` block. -/
theorem k1_pay8_apply (v38 : Vec Ideal S1x1 .f32) : k1_pay8 (F := Ideal) v38 = v38 (ix2 0 0) := by
  unfold k1_pay8
  exact extractAt_11 v38 _

/-- The first output block: the row minima plus the scalar. -/
theorem k1_pay3_apply (v39 : Ideal .f32) (v73 : Vec Ideal S1x512 .f32) (p : Fin 512) :
    k1_pay3 (F := Ideal) v39 v73 (ix3 0 0 p) = v73 (ix2 0 p) + v39 := by
  unfold k1_pay3
  simp only [shapeCast_ab_1ab_apply, addf_apply, broadcast_apply]

/-- The second output block: the column minima as they are. -/
theorem k1_pay4_apply (v73 : Vec Ideal S1x2048 .f32) (q : Fin 2048) :
    k1_pay4 (F := Ideal) v73 (ix3 0 0 q) = v73 (ix2 0 q) := by
  unfold k1_pay4
  simp only [shapeCast_ab_1ab_apply]

/-- The running row minima start at `+∞`. -/
theorem k1_pay5_apply (p : Fin 512) : k1_pay5 (F := Ideal) (ix2 0 p) = ⊤ := by
  unfold k1_pay5
  simp only [shapeCast_self, broadcast_apply]
  exact scalar_posInf

/-- The running column minima start at `+∞`. -/
theorem k1_pay6_apply (q : Fin 2048) : k1_pay6 (F := Ideal) (ix2 0 q) = ⊤ := by
  unfold k1_pay6
  simp only [shapeCast_self, broadcast_apply]
  exact scalar_posInf

end Cert.KernelIdeal.Pay

end
-- ==== Proof.KI.R1Blocks.lean ====
/-
  Region 1's blocks, read as the arrays. A grid point `t` is (b, nb, mb) = (t / 16, t / 4 mod 4, t mod 4). Its source
  block is rows nb·512 … nb·512+511 of batch row b, its target block rows mb·512 … of the same batch row, its mask block
  entries mb·512 … of the mask's row b, and the maximum's one-element block is the whole array at every point. So the
  tile's entry (p, q) is the distance between source point nb·512 + p and target point mb·512 + q of row b.
-/
import proofs.«161420_j81003083203706_2_alg».proof.Proof.KI.R1Outs
import proofs.«161420_j81003083203706_2_alg».proof.Proof.PayDist
import proofs.«161420_j81003083203706_2_alg».proof.Proof.Pay1Small
import proofs.«161420_j81003083203706_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.KernelIdeal.Pay

variable (V : (c : Dev nD) → (b : Ref sig .tc) → Buf (Elt Ideal) ((c : Thread nD τ).loc b))

/-- Batch row, source row and target row of entry (p, q) of point `t`'s tile. -/
def bOf1 (t : ℕ) : Fin 8 := ⟨t / 16 % 8, Nat.mod_lt _ (by decide)⟩
def nOf1 (t : ℕ) (p : Fin 512) : Fin 2048 := ⟨t / 4 % 4 * 512 + p.val, by have := p.isLt; omega⟩
def mOf1 (t : ℕ) (q : Fin 512) : Fin 2048 := ⟨t % 4 * 512 + q.val, by have := q.isLt; omega⟩

/-! ## The printed index maps over the grid -/

/-- The maximum's block is the whole one-element array; the source block is (b, nb), the target block (b, mb); the
    mask's block, with its unit middle axis, is (b, 0, mb). -/
theorem idx1 : ∀ t : Fin cfg1.N,
    win1_0.index t (0 : Fin 2) = 0 ∧ win1_0.index t (1 : Fin 2) = 0
    ∧ win1_1.index t (0 : Fin 3) = t.val / 16 ∧ win1_1.index t (1 : Fin 3) = t.val / 4 % 4 ∧ win1_1.index t (2 : Fin 3) = 0
    ∧ win1_2.index t (0 : Fin 3) = t.val / 16 ∧ win1_2.index t (1 : Fin 3) = t.val % 4 ∧ win1_2.index t (2 : Fin 3) = 0
    ∧ win1_3.index t (0 : Fin 3) = t.val / 16 ∧ win1_3.index t (1 : Fin 3) = 0 ∧ win1_3.index t (2 : Fin 3) = t.val % 4 :=
  (by decide +kernel : ∀ t : Fin grid1.N, _)

/-- The first result's block is (b, 0, nb); the second's is the whole row (b, 0, 0). -/
theorem idx1_out : ∀ t : Fin cfg1.N,
    win1_4.index t (0 : Fin 3) = t.val / 16 ∧ win1_4.index t (1 : Fin 3) = 0 ∧ win1_4.index t (2 : Fin 3) = t.val / 4 % 4
    ∧ win1_5.index t (0 : Fin 3) = t.val / 16 ∧ win1_5.index t (1 : Fin 3) = 0 ∧ win1_5.index t (2 : Fin 3) = 0 :=
  (by decide +kernel : ∀ t : Fin grid1.N, _)

/-! ## The blocks, read as the arrays -/

theorem iblk1_0_apply (c : Dev nD) (t : Fin cfg1.N) :
    iblk1 V c 0 t (ix2 0 0) = V c main_v0 (ix2 0 0) := by
  obtain ⟨e0, e1, -⟩ := idx1 t
  show V c main_v0 (((cfg1.win 0).blk t).view.emb (ix2 0 0)) = _
  refine congrArg _ ?_
  funext a; apply Fin.ext
  match a with
  | ⟨0, _⟩ => show win1_0.index t (0 : Fin 2) * 1 + 1 * 0 = 0; omega
  | ⟨1, _⟩ => show win1_0.index t (1 : Fin 2) * 1 + 1 * 0 = 0; omega

theorem iblk1_1_apply (c : Dev nD) (t : Fin cfg1.N) (p : Fin 512) (k : Fin 3) :
    iblk1 V c 1 t (ix3 0 p k) = V c main_arg0 (ix3 (bOf1 t.val) (nOf1 t.val p) k) := by
  have hN : t.val < 128 := lt_of_lt_of_eq t.isLt (show cfg1.N = 128 from N_1)
  obtain ⟨-, -, e0, e1, e2, -⟩ := idx1 t
  show V c main_arg0 (((cfg1.win 1).blk t).view.emb (ix3 0 p k)) = _
  refine congrArg _ ?_
  funext a; apply Fin.ext
  match a with
  | ⟨0, _⟩ => show win1_1.index t (0 : Fin 3) * 1 + 1 * 0 = t.val / 16 % 8; omega
  | ⟨1, _⟩ => show win1_1.index t (1 : Fin 3) * 512 + 1 * p.val = t.val / 4 % 4 * 512 + p.val; omega
  | ⟨2, _⟩ => show win1_1.index t (2 : Fin 3) * 3 + 1 * k.val = k.val; omega

theorem iblk1_2_apply (c : Dev nD) (t : Fin cfg1.N) (q : Fin 512) (k : Fin 3) :
    iblk1 V c 2 t (ix3 0 q k) = V c main_arg1 (ix3 (bOf1 t.val) (mOf1 t.val q) k) := by
  have hN : t.val < 128 := lt_of_lt_of_eq t.isLt (show cfg1.N = 128 from N_1)
  obtain ⟨-, -, -, -, -, e0, e1, e2, -⟩ := idx1 t
  show V c main_arg1 (((cfg1.win 2).blk t).view.emb (ix3 0 q k)) = _
  refine congrArg _ ?_
  funext a; apply Fin.ext
  match a with
  | ⟨0, _⟩ => show win1_2.index t (0 : Fin 3) * 1 + 1 * 0 = t.val / 16 % 8; omega
  | ⟨1, _⟩ => show win1_2.index t (1 : Fin 3) * 512 + 1 * q.val = t.val % 4 * 512 + q.val; omega
  | ⟨2, _⟩ => show win1_2.index t (2 : Fin 3) * 3 + 1 * k.val = k.val; omega

theorem iblk1_3_apply (c : Dev nD) (t : Fin cfg1.N) (q : Fin 512) :
    iblk1 V c 3 t (ix3 0 0 q) = V c main_v1 (ix3 (bOf1 t.val) 0 (mOf1 t.val q)) := by
  have hN : t.val < 128 := lt_of_lt_of_eq t.isLt (show cfg1.N = 128 from N_1)
  obtain ⟨-, -, -, -, -, -, -, -, e0, e1, e2⟩ := idx1 t
  show V c main_v1 (((cfg1.win 3).blk t).view.emb (ix3 0 0 q)) = _
  refine congrArg _ ?_
  funext a; apply Fin.ext
  match a with
  | ⟨0, _⟩ => show win1_3.index t (0 : Fin 3) * 1 + 1 * 0 = t.val / 16 % 8; omega
  | ⟨1, _⟩ => show win1_3.index t (1 : Fin 3) * 1 + 1 * 0 = 0; omega
  | ⟨2, _⟩ => show win1_3.index t (2 : Fin 3) * 512 + 1 * q.val = t.val % 4 * 512 + q.val; omega

/-! ## The tile -/

/-- Entry (p, q) of point `t`'s tile is the distance between source point nb·512 + p and target point mb·512 + q of
    batch row b. -/
theorem tile1_apply (c : Dev nD) (t : Fin cfg1.N) (p q : Fin 512) :
    k1_pay7 (F := Ideal) (iblk1 V c 1 t) (iblk1 V c 2 t) (ix2 p q) = Cert.Spec.dist (V c main_arg0) (V c main_arg1) (bOf1 t.val) (nOf1 t.val p) (mOf1 t.val q) := by
  rw [k1_pay7_apply]
  simp only [iblk1_1_apply, iblk1_2_apply]
  rfl

end Cert.KernelIdeal.Hand

end
-- ==== Proof.KI.R1Pieces.lean ====
/-
  Region 1: what each case of the sweep leaves, named through the payloads. With D the tile of distances and M the
  maximum read from the first window: the row minima become `min (prior or +∞) (row minima of D − mask·M)`; the
  first result, where stored, is those plus M; the column minima have ONE 512-wide slice (the point's target block)
  replaced by `min (that slice before) (column minima of D)`, every other entry kept; the second result, where stored,
  is the column minima.
-/
import proofs.«161420_j81003083203706_2_alg».proof.Proof.KI.R1Outs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2' : (![0, 0] : Fin 2 → Nat) = fun _ => 0 := by funext a; fin_cases a <;> rfl
theorem hz3' : (![0, 0, 0] : Fin 3 → Nat) = fun _ => 0 := by funext a; fin_cases a <;> rfl

/-- The slice of the column minima a point updates: 512 columns from the point's target block offset. -/
abbrev colRect (i : grid1.Coords) : Rect S1x2048 := Rect.unit (s := S1x2048) (k1_off1 i) S1x512.size (k1_off1_inb i)

/-- The column minima after a point, from the tile `D` and what they were before: the point's slice replaced. -/
def colUpd (i : grid1.Coords) (D : FVec F S512x512 .f32) (prev : Vec F S1x2048 .f32) : Vec F S1x2048 .f32 :=
  scM1_1.view.read (Elt F) (scM1_1.view.writes (Elt F) ((Memref.isWhole_whole cc1_scratch1 : scM1_1.IsWhole).unread prev)
    [⟨colRect i, k1_pay2 D (View.ld prev (colRect i))⟩])

/-! ### Case A -/
theorem sout1_A_0_eq (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : cond1_0 i) (hc1 : cond1_1 i) (hc2 : ¬cond1_2 i) (hc3 : ¬cond1_3 i) (x0 : Vec F S1x1 .f32) (x1 : Vec F S1x512x3 .f32) (x2 : Vec F S1x512x3 .f32) (x3 : Vec F S1x1x512 .f32) :
    sout1_A_0 c i arg3 harg3 arg4 harg4 arg5 harg5 arg6 harg6 arg7 harg7 arg8 harg8 arg9 harg9 arg10 harg10 hc0 hc1 hc2 hc3 x0 x1 x2 x3 = k1_pay1 (k1_pay7 x1 x2) (k1_pay8 x0) x3 (k1_pay5 (F := F)) := by
  unfold sout1_A_0
  rw [View.read_writes_eq_canon _ _ _ (scover1_A_0 c i arg3 harg3 arg4 harg4 arg5 harg5 arg6 harg6 arg7 harg7 arg8 harg8 arg9 harg9 arg10 harg10 hc0 hc1 hc2 hc3 x0 x1 x2 x3)]
  unfold kernelRun1_A
  dsimp only
  sl_unfold_words
  rw [View.canon_cons_unit_zero hz2']
  simp only [View.readAt_eq_ld, harg3.read_unread, harg4.read_unread, harg5.read_unread, harg6.read_unread, harg9.read_unread, View.ld_unit_zero (S := S1x512x3) hz3', View.ld_unit_zero (S := S1x1) hz2', View.ld_unit_zero (S := S1x1x512) hz3', View.ld_unit_zero (S := S1x512) hz2', View.readCov_cons_toLoadRect]

/-! ### Case B -/
theorem sout1_B_0_eq (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : cond1_0 i) (hc1 : ¬cond1_1 i) (hc2 : ¬cond1_2 i) (hc3 : ¬cond1_3 i) (x0 : Vec F S1x1 .f32) (x1 : Vec F S1x512x3 .f32) (x2 : Vec F S1x512x3 .f32) (x3 : Vec F S1x1x512 .f32) (xs1 : Vec F S1x2048 .f32) :
    sout1_B_0 c i arg3 harg3 arg4 harg4 arg5 harg5 arg6 harg6 arg7 harg7 arg8 harg8 arg9 harg9 arg10 harg10 hc0 hc1 hc2 hc3 x0 x1 x2 x3 xs1 = k1_pay1 (k1_pay7 x1 x2) (k1_pay8 x0) x3 (k1_pay5 (F := F)) := by
  unfold sout1_B_0
  rw [View.read_writes_eq_canon _ _ _ (scover1_B_0 c i arg3 harg3 arg4 harg4 arg5 harg5 arg6 harg6 arg7 harg7 arg8 harg8 arg9 harg9 arg10 harg10 hc0 hc1 hc2 hc3 x0 x1 x2 x3 xs1)]
  unfold kernelRun1_B
  dsimp only
  sl_unfold_words
  rw [View.canon_cons_unit_zero hz2']
  simp only [View.readAt_eq_ld, harg3.read_unread, harg4.read_unread, harg5.read_unread, harg6.read_unread, harg9.read_unread, View.ld_unit_zero (S := S1x512x3) hz3', View.ld_unit_zero (S := S1x1) hz2', View.ld_unit_zero (S := S1x1x512) hz3', View.ld_unit_zero (S := S1x512) hz2', View.readCov_cons_toLoadRect]

theorem sout1_B_1_eq (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (hc0 : cond1_0 i) (hc1 : ¬cond1_1 i) (hc2 : ¬cond1_2 i) (hc3 : ¬cond1_3 i) (x0 : Vec F S1x1 .f32) (x1 : Vec F S1x512x3 .f32) (x2 : Vec F S1x512x3 .f32) (x3 : Vec F S1x1x512 .f32) (xs1 : Vec F S1x2048 .f32) :
    sout1_B_1 c i arg3 harg3 arg4 harg4 arg5 harg5 arg6 harg6 arg7 harg7 arg8 harg8 arg9 harg9 scM1_1 (Memref.isWhole_whole _) hc0 hc1 hc2 hc3 x0 x1 x2 x3 xs1 = colUpd i (k1_pay7 x1 x2) xs1 := by
  unfold sout1_B_1 colUpd
  unfold kernelRun1_B
  dsimp only
  sl_unfold_words
  simp only [View.readAt_eq_ld, harg4.read_unread, harg5.read_unread, (Memref.isWhole_whole cc1_scratch1 : scM1_1.IsWhole).read_unread, View.ld_unit_zero (S := S1x512x3) hz3']
  rfl

/-! ### Case C -/
theorem sout1_C_0_eq (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : ¬cond1_0 i) (hc1 : ¬cond1_1 i) (hc2 : ¬cond1_2 i) (hc3 : ¬cond1_3 i) (x0 : Vec F S1x1 .f32) (x1 : Vec F S1x512x3 .f32) (x2 : Vec F S1x512x3 .f32) (x3 : Vec F S1x1x512 .f32) (xs0 : Vec F S1x512 .f32) (xs1 : Vec F S1x2048 .f32) :
    sout1_C_0 c i arg3 harg3 arg4 harg4 arg5 harg5 arg6 harg6 arg7 harg7 arg8 harg8 arg9 harg9 arg10 harg10 hc0 hc1 hc2 hc3 x0 x1 x2 x3 xs0 xs1 = k1_pay1 (k1_pay7 x1 x2) (k1_pay8 x0) x3 xs0 := by
  unfold sout1_C_0
  rw [View.read_writes_eq_canon _ _ _ (scover1_C_0 c i arg3 harg3 arg4 harg4 arg5 harg5 arg6 harg6 arg7 harg7 arg8 harg8 arg9 harg9 arg10 harg10 hc0 hc1 hc2 hc3 x0 x1 x2 x3 xs0 xs1)]
  unfold kernelRun1_C
  dsimp only
  sl_unfold_words
  rw [View.canon_cons_unit_zero hz2']
  simp only [View.readAt_eq_ld, harg3.read_unread, harg4.read_unread, harg5.read_unread, harg6.read_unread, harg9.read_unread, View.ld_unit_zero (S := S1x512x3) hz3', View.ld_unit_zero (S := S1x1) hz2', View.ld_unit_zero (S := S1x1x512) hz3', View.ld_unit_zero (S := S1x512) hz2', View.readCov_cons_toLoadRect]

theorem sout1_C_1_eq (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (hc0 : ¬cond1_0 i) (hc1 : ¬cond1_1 i) (hc2 : ¬cond1_2 i) (hc3 : ¬cond1_3 i) (x0 : Vec F S1x1 .f32) (x1 : Vec F S1x512x3 .f32) (x2 : Vec F S1x512x3 .f32) (x3 : Vec F S1x1x512 .f32) (xs0 : Vec F S1x512 .f32) (xs1 : Vec F S1x2048 .f32) :
    sout1_C_1 c i arg3 harg3 arg4 harg4 arg5 harg5 arg6 harg6 arg7 harg7 arg8 harg8 arg9 harg9 scM1_1 (Memref.isWhole_whole _) hc0 hc1 hc2 hc3 x0 x1 x2 x3 xs0 xs1 = colUpd i (k1_pay7 x1 x2) xs1 := by
  unfold sout1_C_1 colUpd
  unfold kernelRun1_C
  dsimp only
  sl_unfold_words
  simp only [View.readAt_eq_ld, harg4.read_unread, harg5.read_unread, (Memref.isWhole_whole cc1_scratch1 : scM1_1.IsWhole).read_unread, View.ld_unit_zero (S := S1x512x3) hz3']
  rfl

/-! ### Case D -/
theorem sout1_D_0_eq (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : ¬cond1_0 i) (hc1 : ¬cond1_1 i) (hc2 : cond1_2 i) (hc3 : ¬cond1_3 i) (x0 : Vec F S1x1 .f32) (x1 : Vec F S1x512x3 .f32) (x2 : Vec F S1x512x3 .f32) (x3 : Vec F S1x1x512 .f32) (xs0 : Vec F S1x512 .f32) (xs1 : Vec F S1x2048 .f32) :
    sout1_D_0 c i arg3 harg3 arg4 harg4 arg5 harg5 arg6 harg6 arg7 harg7 arg8 harg8 arg9 harg9 arg10 harg10 hc0 hc1 hc2 hc3 x0 x1 x2 x3 xs0 xs1 = k1_pay1 (k1_pay7 x1 x2) (k1_pay8 x0) x3 xs0 := by
  unfold sout1_D_0
  rw [View.read_writes_eq_canon _ _ _ (scover1_D_0 c i arg3 harg3 arg4 harg4 arg5 harg5 arg6 harg6 arg7 harg7 arg8 harg8 arg9 harg9 arg10 harg10 hc0 hc1 hc2 hc3 x0 x1 x2 x3 xs0 xs1)]
  unfold kernelRun1_D
  dsimp only
  sl_unfold_words
  rw [View.canon_cons_unit_zero hz2']
  simp only [View.readAt_eq_ld, harg3.read_unread, harg4.read_unread, harg5.read_unread, harg6.read_unread, harg9.read_unread, View.ld_unit_zero (S := S1x512x3) hz3', View.ld_unit_zero (S := S1x1) hz2', View.ld_unit_zero (S := S1x1x512) hz3', View.ld_unit_zero (S := S1x512) hz2', View.readCov_cons_toLoadRect]

theorem out1_D_4_eq (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : ¬cond1_0 i) (hc1 : ¬cond1_1 i) (hc2 : cond1_2 i) (hc3 : ¬cond1_3 i) (x0 : Vec F S1x1 .f32) (x1 : Vec F S1x512x3 .f32) (x2 : Vec F S1x512x3 .f32) (x3 : Vec F S1x1x512 .f32) (xs0 : Vec F S1x512 .f32) (xs1 : Vec F S1x2048 .f32) :
    out1_D_4 c i arg3 harg3 arg4 harg4 arg5 harg5 arg6 harg6 arg7 harg7 arg8 harg8 arg9 harg9 arg10 harg10 hc0 hc1 hc2 hc3 x0 x1 x2 x3 xs0 xs1 = k1_pay3 (k1_pay8 x0) (k1_pay1 (k1_pay7 x1 x2) (k1_pay8 x0) x3 xs0) := by
  unfold out1_D_4
  rw [View.read_writes_eq_canon _ _ _ (cover1_D_4 c i arg3 harg3 arg4 harg4 arg5 harg5 arg6 harg6 arg7 harg7 arg8 harg8 arg9 harg9 arg10 harg10 hc0 hc1 hc2 hc3 x0 x1 x2 x3 xs0 xs1)]
  unfold kernelRun1_D
  dsimp only
  sl_unfold_words
  rw [View.canon_cons_unit_zero hz3']
  simp only [View.readAt_eq_ld, harg3.read_unread, harg4.read_unread, harg5.read_unread, harg6.read_unread, harg9.read_unread, View.ld_unit_zero (S := S1x512x3) hz3', View.ld_unit_zero (S := S1x1) hz2', View.ld_unit_zero (S := S1x1x512) hz3', View.ld_unit_zero (S := S1x512) hz2', View.readCov_cons_toLoadRect]

theorem sout1_D_1_eq (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (hc0 : ¬cond1_0 i) (hc1 : ¬cond1_1 i) (hc2 : cond1_2 i) (hc3 : ¬cond1_3 i) (x0 : Vec F S1x1 .f32) (x1 : Vec F S1x512x3 .f32) (x2 : Vec F S1x512x3 .f32) (x3 : Vec F S1x1x512 .f32) (xs0 : Vec F S1x512 .f32) (xs1 : Vec F S1x2048 .f32) :
    sout1_D_1 c i arg3 harg3 arg4 harg4 arg5 harg5 arg6 harg6 arg7 harg7 arg8 harg8 arg9 harg9 scM1_1 (Memref.isWhole_whole _) hc0 hc1 hc2 hc3 x0 x1 x2 x3 xs0 xs1 = colUpd i (k1_pay7 x1 x2) xs1 := by
  unfold sout1_D_1 colUpd
  unfold kernelRun1_D
  dsimp only
  sl_unfold_words
  simp only [View.readAt_eq_ld, harg4.read_unread, harg5.read_unread, (Memref.isWhole_whole cc1_scratch1 : scM1_1.IsWhole).read_unread, View.ld_unit_zero (S := S1x512x3) hz3']
  rfl

/-! ### Case E -/
theorem sout1_E_0_eq (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : ¬cond1_0 i) (hc1 : ¬cond1_1 i) (hc2 : cond1_2 i) (hc3 : cond1_3 i) (x0 : Vec F S1x1 .f32) (x1 : Vec F S1x512x3 .f32) (x2 : Vec F S1x512x3 .f32) (x3 : Vec F S1x1x512 .f32) (xs0 : Vec F S1x512 .f32) (xs1 : Vec F S1x2048 .f32) :
    sout1_E_0 c i arg3 harg3 arg4 harg4 arg5 harg5 arg6 harg6 arg7 harg7 arg8 harg8 arg9 harg9 arg10 harg10 hc0 hc1 hc2 hc3 x0 x1 x2 x3 xs0 xs1 = k1_pay1 (k1_pay7 x1 x2) (k1_pay8 x0) x3 xs0 := by
  unfold sout1_E_0
  rw [View.read_writes_eq_canon _ _ _ (scover1_E_0 c i arg3 harg3 arg4 harg4 arg5 harg5 arg6 harg6 arg7 harg7 arg8 harg8 arg9 harg9 arg10 harg10 hc0 hc1 hc2 hc3 x0 x1 x2 x3 xs0 xs1)]
  unfold kernelRun1_E
  dsimp only
  sl_unfold_words
  rw [View.canon_cons_unit_zero hz2']
  simp only [View.readAt_eq_ld, harg3.read_unread, harg4.read_unread, harg5.read_unread, harg6.read_unread, harg9.read_unread, View.ld_unit_zero (S := S1x512x3) hz3', View.ld_unit_zero (S := S1x1) hz2', View.ld_unit_zero (S := S1x1x512) hz3', View.ld_unit_zero (S := S1x512) hz2', View.readCov_cons_toLoadRect]

theorem out1_E_4_eq (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (arg10 : Memref sig .tc .vmem S1x2048 .f32) (harg10 : arg10.IsWhole) (hc0 : ¬cond1_0 i) (hc1 : ¬cond1_1 i) (hc2 : cond1_2 i) (hc3 : cond1_3 i) (x0 : Vec F S1x1 .f32) (x1 : Vec F S1x512x3 .f32) (x2 : Vec F S1x512x3 .f32) (x3 : Vec F S1x1x512 .f32) (xs0 : Vec F S1x512 .f32) (xs1 : Vec F S1x2048 .f32) :
    out1_E_4 c i arg3 harg3 arg4 harg4 arg5 harg5 arg6 harg6 arg7 harg7 arg8 harg8 arg9 harg9 arg10 harg10 hc0 hc1 hc2 hc3 x0 x1 x2 x3 xs0 xs1 = k1_pay3 (k1_pay8 x0) (k1_pay1 (k1_pay7 x1 x2) (k1_pay8 x0) x3 xs0) := by
  unfold out1_E_4
  rw [View.read_writes_eq_canon _ _ _ (cover1_E_4 c i arg3 harg3 arg4 harg4 arg5 harg5 arg6 harg6 arg7 harg7 arg8 harg8 arg9 harg9 arg10 harg10 hc0 hc1 hc2 hc3 x0 x1 x2 x3 xs0 xs1)]
  unfold kernelRun1_E
  dsimp only
  sl_unfold_words
  rw [View.canon_cons_unit_zero hz3']
  simp only [View.readAt_eq_ld, harg3.read_unread, harg4.read_unread, harg5.read_unread, harg6.read_unread, harg9.read_unread, View.ld_unit_zero (S := S1x512x3) hz3', View.ld_unit_zero (S := S1x1) hz2', View.ld_unit_zero (S := S1x1x512) hz3', View.ld_unit_zero (S := S1x512) hz2', View.readCov_cons_toLoadRect]

theorem sout1_E_1_eq (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (hc0 : ¬cond1_0 i) (hc1 : ¬cond1_1 i) (hc2 : cond1_2 i) (hc3 : cond1_3 i) (x0 : Vec F S1x1 .f32) (x1 : Vec F S1x512x3 .f32) (x2 : Vec F S1x512x3 .f32) (x3 : Vec F S1x1x512 .f32) (xs0 : Vec F S1x512 .f32) (xs1 : Vec F S1x2048 .f32) :
    sout1_E_1 c i arg3 harg3 arg4 harg4 arg5 harg5 arg6 harg6 arg7 harg7 arg8 harg8 arg9 harg9 scM1_1 (Memref.isWhole_whole _) hc0 hc1 hc2 hc3 x0 x1 x2 x3 xs0 xs1 = colUpd i (k1_pay7 x1 x2) xs1 := by
  unfold sout1_E_1 colUpd
  unfold kernelRun1_E
  dsimp only
  sl_unfold_words
  simp only [View.readAt_eq_ld, harg4.read_unread, harg5.read_unread, (Memref.isWhole_whole cc1_scratch1 : scM1_1.IsWhole).read_unread, View.ld_unit_zero (S := S1x512x3) hz3']
  rfl

theorem out1_E_5_eq (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (hc0 : ¬cond1_0 i) (hc1 : ¬cond1_1 i) (hc2 : cond1_2 i) (hc3 : cond1_3 i) (x0 : Vec F S1x1 .f32) (x1 : Vec F S1x512x3 .f32) (x2 : Vec F S1x512x3 .f32) (x3 : Vec F S1x1x512 .f32) (xs0 : Vec F S1x512 .f32) (xs1 : Vec F S1x2048 .f32) :
    out1_E_5 c i arg3 harg3 arg4 harg4 arg5 harg5 arg6 harg6 arg7 harg7 arg8 harg8 arg9 harg9 scM1_1 (Memref.isWhole_whole _) hc0 hc1 hc2 hc3 x0 x1 x2 x3 xs0 xs1 = k1_pay4 (colUpd i (k1_pay7 x1 x2) xs1) := by
  unfold out1_E_5 colUpd
  rw [View.read_writes_eq_canon _ _ _ (cover1_E_5 c i arg3 harg3 arg4 harg4 arg5 harg5 arg6 harg6 arg7 harg7 arg8 harg8 arg9 harg9 scM1_1 (Memref.isWhole_whole _) hc0 hc1 hc2 hc3 x0 x1 x2 x3 xs0 xs1)]
  unfold kernelRun1_E
  dsimp only
  sl_unfold_words
  rw [View.canon_cons_unit_zero hz3']
  simp only [View.readAt_eq_ld, harg4.read_unread, harg5.read_unread, (Memref.isWhole_whole cc1_scratch1 : scM1_1.IsWhole).read_unread, View.ld_unit_zero (S := S1x512x3) hz3', View.ld_unit_zero (S := S1x2048) hz2']
  rfl

end Cert.KernelIdeal.Hand

end
-- ==== Proof.PayReduce.lean ====
/-
  The lane reductions of the two kernel bodies read at an index, at the ideal instance. A maximum (minimum) reduction
  along one axis is, at each kept index, the fold of `max` (`min`) from the accumulator's value over that axis's
  coordinates; from `-∞` (`+∞`) that fold is the supremum (infimum) of the family — both bounds by the fold's
  universal property, so no finiteness is involved. The four lemmas at the tile's literal shapes take the fact "the
  accumulator's pattern is the reduction's neutral pattern" in the form the kernel bodies carry it: an equation between the
  pattern and itself (the neutral pattern of a maximum is the pattern of `-∞`, of a minimum that of `+∞`, by computation).
-/
import proofs.«161420_j81003083203706_2_alg».proof.Proof.Gen.KernelIdeal
import proofs.«161420_j81003083203706_2_alg».proof.Proof.PayLayout
import Idealize.ShloMosaic.PureOps.Ideal.Laws

noncomputable section

namespace Cert.KernelIdeal.Pay

open Cert.KernelIdeal Cert.KernelIdeal.Gen Idealize.ShloMosaic Idealize.ShloMosaic.ValueIdx

/-- The fold of `max` from the bottom over a whole finite index type is the supremum. -/
theorem fold_max_bot {n : ℕ} (f : Fin n → EReal) : (Finset.univ : Finset (Fin n)).fold max ⊥ f = ⨆ k, f k :=
  le_antisymm ((Finset.fold_max_le _).2 ⟨bot_le, fun k _ => le_iSup f k⟩)
    (iSup_le fun k => ((Finset.fold_max_le _).1 le_rfl).2 k (Finset.mem_univ k))

/-- The fold of `min` from the top over a whole finite index type is the infimum. -/
theorem fold_min_top {n : ℕ} (f : Fin n → EReal) : (Finset.univ : Finset (Fin n)).fold min ⊤ f = ⨅ k, f k :=
  le_antisymm (le_iInf fun k => ((Finset.le_fold_min _).1 le_rfl).2 k (Finset.mem_univ k))
    ((Finset.le_fold_min _).2 ⟨le_top, fun k _ => iInf_le f k⟩)

/-- A minimum reduction over one axis, at the ideal instance: the fold of `min` from the accumulator's value over that
    axis's coordinates (the library states the maximum's; this is the same statement for the minimum). -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- Over a kept row index `p`, the source index with `q` inserted on the column axis is `(p, q)`. -/
theorem lift_row (p q : Fin 512) : reduces_S512x512_S512.lift (ix1 p) q = ix2 p q :=
  funext fun a => match a with | ⟨0, _⟩ => Fin.ext rfl | ⟨1, _⟩ => Fin.ext rfl

/-- Over a kept column index `q`, the source index with `p` inserted on the row axis is `(p, q)`. -/
theorem lift_col (p q : Fin 512) : reduces_S512x512_S512_2.lift (ix1 q) p = ix2 p q :=
  funext fun a => match a with | ⟨0, _⟩ => Fin.ext rfl | ⟨1, _⟩ => Fin.ext rfl

/-- Over the one kept index of a column's reduction, the source index with `p` inserted on the row axis is `(p, 0)`. -/
theorem lift_col1 (u : Fin 1) (p : Fin 512) : reduces_S512x1_S1.lift (ix1 u) p = ix2 p (0 : Fin 1) :=
  funext fun a => match a with | ⟨0, _⟩ => Fin.ext rfl | ⟨1, _⟩ => Fin.ext (by show u.val = 0; omega)

/-- The maximum along each row of a tile, from `-∞`: at row `p`, the supremum over the columns. -/
theorem rowMax_apply (src : FVec Ideal S512x512 .f32) (hφ : FKind.Formats .f32)
    (hacc : (0xFF800000#32 : BitVec 32) = 0xFF800000#32) (p : Fin 512) :
    multiReduction .maximumf [1] S512 src 0xFF800000#32 reduces_S512x512_S512 hφ hacc (ix1 p)
      = ⨆ q : Fin 512, src (ix2 p q) := by
  refine (Ideal.multiReduction_maximumf_single src _ reduces_S512x512_S512 hφ hacc (ix1 p)).trans ?_
  have e : (src ∘ reduces_S512x512_S512.lift (ix1 p)) = fun q : Fin 512 => src (ix2 p q) :=
    funext fun q => congrArg src (lift_row p q)
  rw [e]
  exact (congrArg (fun b => (Finset.univ : Finset (Fin 512)).fold max b fun q : Fin 512 => src (ix2 p q)) ofBits_negInf).trans
    (fold_max_bot _)

/-- The maximum down a column `[512, 1]`, from `-∞`: the supremum over the rows. -/
theorem colMax1_apply (src : FVec Ideal S512x1 .f32) (hφ : FKind.Formats .f32)
    (hacc : (0xFF800000#32 : BitVec 32) = 0xFF800000#32) (u : Fin 1) :
    multiReduction .maximumf [0] S1 src 0xFF800000#32 reduces_S512x1_S1 hφ hacc (ix1 u)
      = ⨆ p : Fin 512, src (ix2 p (0 : Fin 1)) := by
  refine (Ideal.multiReduction_maximumf_single src _ reduces_S512x1_S1 hφ hacc (ix1 u)).trans ?_
  have e : (src ∘ reduces_S512x1_S1.lift (ix1 u)) = fun p : Fin 512 => src (ix2 p (0 : Fin 1)) :=
    funext fun p => congrArg src (lift_col1 u p)
  rw [e]
  exact (congrArg (fun b => (Finset.univ : Finset (Fin 512)).fold max b fun p : Fin 512 => src (ix2 p (0 : Fin 1))) ofBits_negInf).trans
    (fold_max_bot _)

/-- The minimum along each row of a tile, from `+∞`: at row `p`, the infimum over the columns. -/
theorem rowMin_apply (src : FVec Ideal S512x512 .f32) (hφ : FKind.Formats .f32)
    (hacc : (0x7F800000#32 : BitVec 32) = 0x7F800000#32) (p : Fin 512) :
    multiReduction .minimumf [1] S512 src 0x7F800000#32 reduces_S512x512_S512 hφ hacc (ix1 p)
      = ⨅ q : Fin 512, src (ix2 p q) := by
  refine (multiReduction_minimumf_single src _ reduces_S512x512_S512 hφ hacc (ix1 p)).trans ?_
  have e : (src ∘ reduces_S512x512_S512.lift (ix1 p)) = fun q : Fin 512 => src (ix2 p q) :=
    funext fun q => congrArg src (lift_row p q)
  rw [e]
  exact (congrArg (fun b => (Finset.univ : Finset (Fin 512)).fold min b fun q : Fin 512 => src (ix2 p q)) ofBits_posInf).trans
    (fold_min_top _)

/-- The minimum down each column of a tile, from `+∞`: at column `q`, the infimum over the rows. -/
theorem colMin_apply (src : FVec Ideal S512x512 .f32) (hφ : FKind.Formats .f32)
    (hacc : (0x7F800000#32 : BitVec 32) = 0x7F800000#32) (q : Fin 512) :
    multiReduction .minimumf [0] S512 src 0x7F800000#32 reduces_S512x512_S512_2 hφ hacc (ix1 q)
      = ⨅ p : Fin 512, src (ix2 p q) := by
  refine (multiReduction_minimumf_single src _ reduces_S512x512_S512_2 hφ hacc (ix1 q)).trans ?_
  have e : (src ∘ reduces_S512x512_S512_2.lift (ix1 q)) = fun p : Fin 512 => src (ix2 p q) :=
    funext fun p => congrArg src (lift_col p q)
  rw [e]
  exact (congrArg (fun b => (Finset.univ : Finset (Fin 512)).fold min b fun p : Fin 512 => src (ix2 p q)) ofBits_posInf).trans
    (fold_min_top _)

end Cert.KernelIdeal.Pay

end
-- ==== Proof.Pay1.lean ====
/-
  Region 1's two running minima read at an index.
  • Along the rows: the mask block times the scalar `maxd` is laid out as a row, repeated down the columns and
    subtracted from the tile; the minimum along each row, kept as a column and transposed to a row, is joined with the
    running row minima. At `(0, p)`: the smaller of the running value and the infimum over `q` of
    `tile(p, q) − mask(q) · maxd`.
  • Down the columns: the minimum down each column of the tile, laid out as a row, joined with the running column
    minima. At `(0, q)`: the smaller of the running value and the infimum over `p` of `tile(p, q)`.
-/
import proofs.«161420_j81003083203706_2_alg».proof.Proof.Gen.KernelIdeal.Skeleton
import proofs.«161420_j81003083203706_2_alg».proof.Proof.PayReduce
import proofs.«161420_j81003083203706_2_alg».proof.Proof.LibColumn
import Idealize.ShloMosaic.Lib.ValueLayout

noncomputable section

namespace Cert.KernelIdeal.Pay

open Cert.KernelIdeal Cert.KernelIdeal.Gen Idealize.ShloMosaic Idealize.ShloMosaic.ValueIdx

/-- The new running row minima. -/
theorem k1_pay1_apply (v37 : FVec Ideal S512x512 .f32) (v39 : Ideal .f32) (v40 : Vec Ideal S1x1x512 .f32)
    (v49 : Vec Ideal S1x512 .f32) (p : Fin 512) :
    k1_pay1 (F := Ideal) v37 v39 v40 v49 (ix2 0 p)
      = min (v49 (ix2 0 p)) (⨅ q : Fin 512, (v37 (ix2 p q) - v40 (ix3 0 0 q) * v39)) := by
  unfold k1_pay1
  simp only [shapeCast_self, minimumf_apply]
  rw [transpose_ix2_apply, Cert.Column.shapeCast_a_a1_apply, rowMin_apply]
  refine congrArg (min (v49 (ix2 0 p))) (iInf_congr fun q => ?_)
  simp only [subf_apply, broadcastTo_1b_ab_apply, mulf_apply, shapeCast_1ab_ab_apply, broadcast_apply]

/-- The new running column minima. -/
theorem k1_pay2_apply (v37 : FVec Ideal S512x512 .f32) (v59 : Vec Ideal S1x512 .f32) (q : Fin 512) :
    k1_pay2 (F := Ideal) v37 v59 (ix2 0 q) = min (v59 (ix2 0 q)) (⨅ p : Fin 512, v37 (ix2 p q)) := by
  unfold k1_pay2
  simp only [shapeCast_self, minimumf_apply, shapeCast_a_1a_apply]
  rw [colMin_apply]

end Cert.KernelIdeal.Pay

end
-- ==== Proof.KI.R1Row.lean ====
/-
  Region 1's running row minima. With M the maximum read from the first window, the term a point `t` = (b, nb, mb)
  folds into row p of the running minima is the least, over the 512 target points q of the point's target block, of
  `dist(b, nb·512+p, mb·512+q) − mask(b, mb·512+q) · M`. A sweep starts (mb = 0) from +∞ and carries through
  mb = 1, 2, 3, so after the j-th point of a sweep the running minimum is the least of the first j+1 terms; at the
  sweep's last point the first result's block receives it, shifted back by M.
-/
import proofs.«161420_j81003083203706_2_alg».proof.Proof.KI.R1Blocks
import proofs.«161420_j81003083203706_2_alg».proof.Proof.KI.R1Pieces
import proofs.«161420_j81003083203706_2_alg».proof.Proof.Pay1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.KernelIdeal.Pay

variable (V : (c : Dev nD) → (b : Ref sig .tc) → Buf (Elt Ideal) ((c : Thread nD τ).loc b))

/-- The maximum M: the one element of the first window's array. -/
def maxK (c : Dev nD) : EReal := V c main_v0 (ix2 0 0)

/-- The mask at row b, target point m (the array has a unit middle axis). -/
def maskK (c : Dev nD) (b : Fin 8) (m : Fin 2048) : EReal := V c main_v1 (ix3 b 0 m)

/-- What point `s` folds into row `p` of the running row minima. -/
def rowTerm (c : Dev nD) (s : ℕ) (p : Fin 512) : EReal :=
  ⨅ q : Fin 512, (Cert.Spec.dist (V c main_arg0) (V c main_arg1) (bOf1 s) (nOf1 s p) (mOf1 s q)
    - maskK V c (bOf1 s) (mOf1 s q) * maxK V c)

/-- The row-minimum payload at a point, on any prior running minima: the smaller of the prior value and the point's term. -/
theorem pay1_at (c : Dev nD) (t : Fin cfg1.N) (prev : Vec Ideal S1x512 .f32) (p : Fin 512) :
    k1_pay1 (F := Ideal) (k1_pay7 (iblk1 V c 1 t) (iblk1 V c 2 t)) (k1_pay8 (iblk1 V c 0 t)) (iblk1 V c 3 t) prev (ix2 0 p)
      = min (prev (ix2 0 p)) (rowTerm V c t.val p) := by
  rw [k1_pay1_apply, k1_pay8_apply, iblk1_0_apply]
  simp only [tile1_apply, iblk1_3_apply]
  rfl

set_option maxHeartbeats 4000000 in
/-- At a sweep's first point the running row minima are reset: the payload is applied to +∞. -/
theorem row_reset (c : Dev nD) (t : Fin cfg1.N) (h0 : t.val % 4 = 0) :
    (outsAt1 V c t.val t.isLt).2.2.1
      = k1_pay1 (k1_pay7 (iblk1 V c 1 t) (iblk1 V c 2 t)) (k1_pay8 (iblk1 V c 0 t)) (iblk1 V c 3 t) (k1_pay5 (F := Ideal)) := by
  have hc0 : cond1_0 (grid1.coords t) := (hcond1_0 t).mpr h0
  have hc2 : ¬cond1_2 (grid1.coords t) := fun h => by have := (hcond1_2 t).mp h; omega
  have hc3 : ¬cond1_3 (grid1.coords t) := fun h => by have := (hcond1_3 t).mp h; omega
  by_cases h16 : t.val % 16 = 0
  · have hc1 : cond1_1 (grid1.coords t) := (hcond1_1 t).mpr h16
    exact (congrArg (fun x => x.2.2.1) (outsAt1_A V c t hc0 hc1 hc2 hc3)).trans
      (sout1_A_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 hc2 hc3 (iblk1 V c 0 t) (iblk1 V c 1 t) (iblk1 V c 2 t) (iblk1 V c 3 t))
  · have hc1 : ¬cond1_1 (grid1.coords t) := fun h => h16 ((hcond1_1 t).mp h)
    exact (congrArg (fun x => x.2.2.1) (outsAt1_B V c t hc0 hc1 hc2 hc3)).trans
      (sout1_B_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 hc2 hc3 (iblk1 V c 0 t) (iblk1 V c 1 t) (iblk1 V c 2 t) (iblk1 V c 3 t) (outsAt1 V c (t.val - 1) (Nat.lt_of_le_of_lt (Nat.sub_le _ _) t.isLt)).2.2.2)

set_option maxHeartbeats 4000000 in
/-- At every later point of a sweep the payload is applied to what the point before left. -/
theorem row_carry (c : Dev nD) (t : Fin cfg1.N) (h0 : t.val % 4 ≠ 0) :
    (outsAt1 V c t.val t.isLt).2.2.1
      = k1_pay1 (k1_pay7 (iblk1 V c 1 t) (iblk1 V c 2 t)) (k1_pay8 (iblk1 V c 0 t)) (iblk1 V c 3 t)
          (outsAt1 V c (t.val - 1) (Nat.lt_of_le_of_lt (Nat.sub_le _ _) t.isLt)).2.2.1 := by
  have hc0 : ¬cond1_0 (grid1.coords t) := fun h => h0 ((hcond1_0 t).mp h)
  have hc1 : ¬cond1_1 (grid1.coords t) := fun h => by have := (hcond1_1 t).mp h; omega
  by_cases h15 : t.val % 16 = 15
  · have hc2 : cond1_2 (grid1.coords t) := (hcond1_2 t).mpr (by omega)
    have hc3 : cond1_3 (grid1.coords t) := (hcond1_3 t).mpr h15
    exact (congrArg (fun x => x.2.2.1) (outsAt1_E V c t hc0 hc1 hc2 hc3)).trans
      (sout1_E_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 hc2 hc3 (iblk1 V c 0 t) (iblk1 V c 1 t) (iblk1 V c 2 t) (iblk1 V c 3 t) (outsAt1 V c (t.val - 1) (Nat.lt_of_le_of_lt (Nat.sub_le _ _) t.isLt)).2.2.1 (outsAt1 V c (t.val - 1) (Nat.lt_of_le_of_lt (Nat.sub_le _ _) t.isLt)).2.2.2)
  · have hc3 : ¬cond1_3 (grid1.coords t) := fun h => h15 ((hcond1_3 t).mp h)
    by_cases h3 : t.val % 4 = 3
    · have hc2 : cond1_2 (grid1.coords t) := (hcond1_2 t).mpr h3
      exact (congrArg (fun x => x.2.2.1) (outsAt1_D V c t hc0 hc1 hc2 hc3)).trans
        (sout1_D_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 hc2 hc3 (iblk1 V c 0 t) (iblk1 V c 1 t) (iblk1 V c 2 t) (iblk1 V c 3 t) (outsAt1 V c (t.val - 1) (Nat.lt_of_le_of_lt (Nat.sub_le _ _) t.isLt)).2.2.1 (outsAt1 V c (t.val - 1) (Nat.lt_of_le_of_lt (Nat.sub_le _ _) t.isLt)).2.2.2)
    · have hc2 : ¬cond1_2 (grid1.coords t) := fun h => h3 ((hcond1_2 t).mp h)
      exact (congrArg (fun x => x.2.2.1) (outsAt1_C V c t hc0 hc1 hc2 hc3)).trans
        (sout1_C_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 hc2 hc3 (iblk1 V c 0 t) (iblk1 V c 1 t) (iblk1 V c 2 t) (iblk1 V c 3 t) (outsAt1 V c (t.val - 1) (Nat.lt_of_le_of_lt (Nat.sub_le _ _) t.isLt)).2.2.1 (outsAt1 V c (t.val - 1) (Nat.lt_of_le_of_lt (Nat.sub_le _ _) t.isLt)).2.2.2)

set_option maxHeartbeats 4000000 in
/-- At a sweep's last point the first result's block receives the running row minima, shifted back by the maximum. -/
theorem out_flush (c : Dev nD) (t : Fin cfg1.N) (h3 : t.val % 4 = 3) :
    (outsAt1 V c t.val t.isLt).1 = k1_pay3 (k1_pay8 (iblk1 V c 0 t)) (outsAt1 V c t.val t.isLt).2.2.1 := by
  have hc0 : ¬cond1_0 (grid1.coords t) := fun h => by have := (hcond1_0 t).mp h; omega
  have hc1 : ¬cond1_1 (grid1.coords t) := fun h => by have := (hcond1_1 t).mp h; omega
  have hc2 : cond1_2 (grid1.coords t) := (hcond1_2 t).mpr h3
  by_cases h15 : t.val % 16 = 15
  · have hc3 : cond1_3 (grid1.coords t) := (hcond1_3 t).mpr h15
    rw [outsAt1_E V c t hc0 hc1 hc2 hc3]
    dsimp only
    exact (out1_E_4_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 hc2 hc3 (iblk1 V c 0 t) (iblk1 V c 1 t) (iblk1 V c 2 t) (iblk1 V c 3 t) (outsAt1 V c (t.val - 1) (Nat.lt_of_le_of_lt (Nat.sub_le _ _) t.isLt)).2.2.1 (outsAt1 V c (t.val - 1) (Nat.lt_of_le_of_lt (Nat.sub_le _ _) t.isLt)).2.2.2).trans
      (congrArg (k1_pay3 (F := Ideal) (k1_pay8 (iblk1 V c 0 t))) (sout1_E_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 hc2 hc3 (iblk1 V c 0 t) (iblk1 V c 1 t) (iblk1 V c 2 t) (iblk1 V c 3 t) (outsAt1 V c (t.val - 1) (Nat.lt_of_le_of_lt (Nat.sub_le _ _) t.isLt)).2.2.1 (outsAt1 V c (t.val - 1) (Nat.lt_of_le_of_lt (Nat.sub_le _ _) t.isLt)).2.2.2).symm)
  · have hc3 : ¬cond1_3 (grid1.coords t) := fun h => h15 ((hcond1_3 t).mp h)
    rw [outsAt1_D V c t hc0 hc1 hc2 hc3]
    dsimp only
    exact (out1_D_4_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 hc2 hc3 (iblk1 V c 0 t) (iblk1 V c 1 t) (iblk1 V c 2 t) (iblk1 V c 3 t) (outsAt1 V c (t.val - 1) (Nat.lt_of_le_of_lt (Nat.sub_le _ _) t.isLt)).2.2.1 (outsAt1 V c (t.val - 1) (Nat.lt_of_le_of_lt (Nat.sub_le _ _) t.isLt)).2.2.2).trans
      (congrArg (k1_pay3 (F := Ideal) (k1_pay8 (iblk1 V c 0 t))) (sout1_D_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 hc2 hc3 (iblk1 V c 0 t) (iblk1 V c 1 t) (iblk1 V c 2 t) (iblk1 V c 3 t) (outsAt1 V c (t.val - 1) (Nat.lt_of_le_of_lt (Nat.sub_le _ _) t.isLt)).2.2.1 (outsAt1 V c (t.val - 1) (Nat.lt_of_le_of_lt (Nat.sub_le _ _) t.isLt)).2.2.2).symm)

/-- The running row minima after the j-th point of the sweep that starts at `s`: the least of the first j+1 terms. -/
theorem row_sweep (c : Dev nD) (s : ℕ) (hs : s % 4 = 0) : ∀ (j : ℕ) (hj : j < 4) (hn : s + j < cfg1.N) (p : Fin 512),
    (outsAt1 V c (s + j) hn).2.2.1 (ix2 0 p) = (Finset.range (j + 1)).inf fun j' => rowTerm V c (s + j') p
  | 0, _, hn, p => by
    rw [show (outsAt1 V c (s + 0) hn).2.2.1 = _ from row_reset V c ⟨s, hn⟩ hs, pay1_at, k1_pay5_apply,
      Finset.range_one, Finset.inf_singleton, min_eq_right le_top]
    rfl
  | j + 1, hj, hn, p => by
    rw [show (outsAt1 V c (s + (j + 1)) hn).2.2.1 = _ from row_carry V c ⟨s + (j + 1), hn⟩ (by show (s + (j + 1)) % 4 ≠ 0; omega), pay1_at]
    rw [show (outsAt1 V c ((⟨s + (j + 1), hn⟩ : Fin cfg1.N).val - 1) _).2.2.1 (ix2 0 p) = _ from row_sweep c s hs j (by omega) (by omega) p]
    rw [Finset.range_add_one (n := j + 1), Finset.inf_insert, inf_comm]

end Cert.KernelIdeal.Hand

end
-- ==== Proof.KI.R1Res0.lean ====
/-
  Region 1's first result. The four points of a sweep (mb = 0 … 3) fold the four 512-wide target blocks into the
  running row minima, so after the sweep's last point row p holds the least over ALL 2048 target points; that value,
  shifted back by the maximum, is written to block (b, 0, nb) of the first result, and the 32 sweeps' blocks tile it.
-/
import proofs.«161420_j81003083203706_2_alg».proof.Proof.KI.R1Row
import proofs.«161420_j81003083203706_2_alg».proof.Proof.Pay1Small
import proofs.«161420_j81003083203706_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.KernelIdeal.Pay

variable (V : (c : Dev nD) → (b : Ref sig .tc) → Buf (Elt Ideal) ((c : Thread nD τ).loc b))

/-- Entry (b, 0, n) of the first result: the least over target points of distance minus mask times the maximum,
    shifted back by the maximum. -/
def res1_4 (c : Dev nD) (b : Fin 8) (n : Fin 2048) : EReal :=
  (⨅ m : Fin 2048, (Cert.Spec.dist (V c main_arg0) (V c main_arg1) b n m - maskK V c b m * maxK V c)) + maxK V c

theorem outsAt1_congr (c : Dev nD) {n n' : ℕ} (h : n = n') (hn : n < cfg1.N) (hn' : n' < cfg1.N) :
    outsAt1 V c n hn = outsAt1 V c n' hn' := by subst h; rfl

/-- The least of a sweep's four terms is the least over all 2048 target points. -/
theorem inf_sweep (c : Dev nD) (s : ℕ) (hs : s % 4 = 0) (p : Fin 512) :
    (Finset.range 4).inf (fun j' => rowTerm V c (s + j') p)
      = ⨅ m : Fin 2048, (Cert.Spec.dist (V c main_arg0) (V c main_arg1) (bOf1 s) (nOf1 s p) m - maskK V c (bOf1 s) m * maxK V c) := by
  apply le_antisymm
  · refine le_iInf fun m => ?_
    have hm := m.isLt
    refine le_trans (Finset.inf_le (Finset.mem_range.mpr (by omega : m.val / 512 < 4))) ?_
    refine le_trans (iInf_le _ ⟨m.val % 512, Nat.mod_lt _ (by decide)⟩) (le_of_eq ?_)
    have e0 : bOf1 (s + m.val / 512) = bOf1 s := Fin.ext (by show (s + m.val / 512) / 16 % 8 = s / 16 % 8; omega)
    have e1 : nOf1 (s + m.val / 512) p = nOf1 s p := Fin.ext (by show (s + m.val / 512) / 4 % 4 * 512 + p.val = s / 4 % 4 * 512 + p.val; omega)
    have e2 : mOf1 (s + m.val / 512) ⟨m.val % 512, Nat.mod_lt _ (by decide)⟩ = m := Fin.ext (by show (s + m.val / 512) % 4 * 512 + m.val % 512 = m.val; omega)
    rw [e0, e1, e2]
  · refine Finset.le_inf fun j' hj' => le_iInf fun q => ?_
    have hj4 : j' < 4 := Finset.mem_range.mp hj'
    have e0 : bOf1 (s + j') = bOf1 s := Fin.ext (by show (s + j') / 16 % 8 = s / 16 % 8; omega)
    have e1 : nOf1 (s + j') p = nOf1 s p := Fin.ext (by show (s + j') / 4 % 4 * 512 + p.val = s / 4 % 4 * 512 + p.val; omega)
    rw [e0, e1]
    exact iInf_le _ (mOf1 (s + j') q)

/-- THE FIRST RESULT of region 1. -/
theorem final1_4 (c : Dev nD) :
    (dat1 V c).arrAt 4 cfg1.N = fun i => res1_4 V c ⟨(i 0).val, (i 0).isLt⟩ ⟨(i 2).val, (i 2).isLt⟩ := by
  refine (dat1 V c).arrAt_eq_of_cover 4 _ (fun t hf => ?_) (fun i => ?_)
  · have hN : t.val < 128 := lt_of_lt_of_eq t.isLt (show cfg1.N = 128 from N_1)
    have h3 : t.val % 4 = 3 := (flush1_4 t).mp hf
    obtain ⟨i0, i1, i2, -, -, -⟩ := idx1_out t
    show (cfg1.win 4).cut (grid1.coords t) ((dat1 V c).after 4 t) = _
    rw [after1_4, out_flush V c t h3]
    funext y
    have hy0 : (y 0).val < 1 := (y 0).isLt
    have hy1 : (y 1).val < 1 := (y 1).isLt
    have hy2 : (y 2).val < 512 := (y 2).isLt
    have hy : y = ix3 0 0 ⟨(y 2).val, hy2⟩ := by
      funext a; apply Fin.ext
      match a with
      | ⟨0, _⟩ => show (y 0).val = 0; omega
      | ⟨1, _⟩ => show (y 1).val = 0; omega
      | ⟨2, _⟩ => rfl
    show k1_pay3 (F := Ideal) (k1_pay8 (iblk1 V c 0 t)) (outsAt1 V c t.val t.isLt).2.2.1 y = res1_4 V c _ _
    have hlt : t.val - 3 + 3 < cfg1.N := by rw [show cfg1.N = 128 from N_1]; omega
    rw [hy, k1_pay3_apply, k1_pay8_apply, iblk1_0_apply,
      outsAt1_congr V c (by omega : t.val = t.val - 3 + 3) t.isLt hlt,
      row_sweep V c (t.val - 3) (by omega) 3 (by decide) hlt ⟨(y 2).val, hy2⟩, inf_sweep V c (t.val - 3) (by omega)]
    unfold res1_4
    have e0 : bOf1 (t.val - 3) = ⟨win1_4.index t (0 : Fin 3) * 1 + 1 * 0, by omega⟩ := Fin.ext (by show (t.val - 3) / 16 % 8 = win1_4.index t (0 : Fin 3) * 1 + 1 * 0; omega)
    have e1 : nOf1 (t.val - 3) ⟨(y 2).val, hy2⟩ = ⟨win1_4.index t (2 : Fin 3) * 512 + 1 * (y 2).val, by omega⟩ := Fin.ext (by show (t.val - 3) / 4 % 4 * 512 + (y 2).val = win1_4.index t (2 : Fin 3) * 512 + 1 * (y 2).val; omega)
    rw [e0, e1]
    rfl
  · have hi0 : (i 0).val < 8 := (i 0).isLt
    have hi1 : (i 1).val < 1 := (i 1).isLt
    have hi2 : (i 2).val < 2048 := (i 2).isLt
    have hlt : (i 0).val * 16 + (i 2).val / 512 * 4 + 3 < cfg1.N := by rw [show cfg1.N = 128 from N_1]; omega
    obtain ⟨i0, i1, i2, -, -, -⟩ := idx1_out ⟨(i 0).val * 16 + (i 2).val / 512 * 4 + 3, hlt⟩
    dsimp only at i0 i1 i2
    refine ⟨⟨(i 0).val * 16 + (i 2).val / 512 * 4 + 3, hlt⟩, (flush1_4 _).mpr (by show ((i 0).val * 16 + (i 2).val / 512 * 4 + 3) % 4 = 3; omega), ?_⟩
    show i ∈ ((View.whole main_v2_0).slice (win1_4.rect ⟨(i 0).val * 16 + (i 2).val / 512 * 4 + 3, hlt⟩)).set
    rw [View.set_slice_whole, Rect.mem_set_unit]
    intro a
    match a with
    | ⟨0, _⟩ => show win1_4.index ⟨(i 0).val * 16 + (i 2).val / 512 * 4 + 3, hlt⟩ (0 : Fin 3) * 1 ≤ (i 0).val ∧ (i 0).val < win1_4.index ⟨(i 0).val * 16 + (i 2).val / 512 * 4 + 3, hlt⟩ (0 : Fin 3) * 1 + 1; omega
    | ⟨1, _⟩ => show win1_4.index ⟨(i 0).val * 16 + (i 2).val / 512 * 4 + 3, hlt⟩ (1 : Fin 3) * 1 ≤ (i 1).val ∧ (i 1).val < win1_4.index ⟨(i 0).val * 16 + (i 2).val / 512 * 4 + 3, hlt⟩ (1 : Fin 3) * 1 + 1; omega
    | ⟨2, _⟩ => show win1_4.index ⟨(i 0).val * 16 + (i 2).val / 512 * 4 + 3, hlt⟩ (2 : Fin 3) * 512 ≤ (i 2).val ∧ (i 2).val < win1_4.index ⟨(i 0).val * 16 + (i 2).val / 512 * 4 + 3, hlt⟩ (2 : Fin 3) * 512 + 512; omega

end Cert.KernelIdeal.Hand

end
-- ==== Proof.KI.R0Pieces.lean ====
/-
  Region 0: what each case leaves, named. After the first point the accumulator holds the larger of -∞ and the
  tile's largest distance; after any later point the larger of what the point before left and the tile's largest
  distance; and at the last point the result window receives exactly that value.
-/
import proofs.«161420_j81003083203706_2_alg».proof.Proof.KI.R0Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := by funext a; fin_cases a <;> rfl
theorem hz3 : (![0, 0, 0] : Fin 3 → Nat) = fun _ => 0 := by funext a; fin_cases a <;> rfl

theorem sout0_A_0_eq (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i) (x0 x1 : Vec F S1x512x3 .f32) :
    sout0_A_0 c i arg3 harg3 arg4 harg4 arg5 harg5 arg6 harg6 hc0 hc1 x0 x1 = k0_pay1 (k0_pay3 x0 x1) (k0_pay2 (F := F)) := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero hz2]
  simp only [View.readAt_eq_ld, harg3.read_unread, harg4.read_unread, harg6.read_unread, View.ld_unit_zero (S := S1x512x3) hz3, View.ld_unit_zero (S := S1x1) hz2, View.readCov_cons_toLoadRect]

theorem sout0_B_0_eq (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i) (x0 x1 : Vec F S1x512x3 .f32) (xs0 : Vec F S1x1 .f32) :
    sout0_B_0 c i arg3 harg3 arg4 harg4 arg5 harg5 arg6 harg6 hc0 hc1 x0 x1 xs0 = k0_pay1 (k0_pay3 x0 x1) xs0 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  rw [View.canon_cons_unit_zero hz2]
  simp only [View.readAt_eq_ld, harg3.read_unread, harg4.read_unread, harg6.read_unread, View.ld_unit_zero (S := S1x512x3) hz3, View.ld_unit_zero (S := S1x1) hz2, View.readCov_cons_toLoadRect]

theorem sout0_C_0_eq (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i) (x0 x1 : Vec F S1x512x3 .f32) (xs0 : Vec F S1x1 .f32) :
    sout0_C_0 c i arg3 harg3 arg4 harg4 arg5 harg5 arg6 harg6 hc0 hc1 x0 x1 xs0 = k0_pay1 (k0_pay3 x0 x1) xs0 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_cons_unit_zero hz2]
  simp only [View.readAt_eq_ld, harg3.read_unread, harg4.read_unread, harg6.read_unread, View.ld_unit_zero (S := S1x512x3) hz3, View.ld_unit_zero (S := S1x1) hz2, View.readCov_cons_toLoadRect]

theorem out0_C_2_eq (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i) (x0 x1 : Vec F S1x512x3 .f32) (xs0 : Vec F S1x1 .f32) :
    out0_C_2 c i arg3 harg3 arg4 harg4 arg5 harg5 arg6 harg6 hc0 hc1 x0 x1 xs0 = k0_pay1 (k0_pay3 x0 x1) xs0 := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_cons_unit_zero hz2]
  simp only [View.readAt_eq_ld, harg3.read_unread, harg4.read_unread, harg6.read_unread, View.ld_unit_zero (S := S1x512x3) hz3, View.ld_unit_zero (S := S1x1) hz2, View.readCov_cons_toLoadRect]

end Cert.KernelIdeal.Hand

end
-- ==== Proof.KI.R0Acc.lean ====
/-
  Region 0, the accumulator's recursion, named through the payloads: at the first point it is the larger of -∞ and
  the tile's largest distance; at every later point the larger of what the point before left and the tile's largest
  distance; and the value the last point stores into the result is the accumulator's.
-/
import proofs.«161420_j81003083203706_2_alg».proof.Proof.KI.R0Pieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem acc0_zero (c : Dev nD) (t : Fin cfg0.N) (h0 : t.val = 0) :
    (outsAt0 V c t.val t.isLt).2 = k0_pay1 (k0_pay3 (iblk0 V c 0 t) (iblk0 V c 1 t)) (k0_pay2 (F := F)) := by
  have hN : t.val < 128 := lt_of_lt_of_eq t.isLt (show cfg0.N = 128 from N_0)
  have hc0 : cond0_0 (grid0.coords t) := (hcond0_0 t).mpr h0
  have hc1 : ¬cond0_1 (grid0.coords t) := fun h => by have := (hcond0_1 t).mp h; omega
  rw [outsAt0_A V c t hc0 hc1]
  exact sout0_A_0_eq (F := F) c (grid0.coords t) (ms0_0 t) (hs0_0 t) (ms0_1 t) (hs0_1 t) (ms0_2 t) (hs0_2 t) scM0_0 (Memref.isWhole_whole _) hc0 hc1 _ _

theorem acc0_succ (c : Dev nD) (t : Fin cfg0.N) (h0 : t.val ≠ 0) :
    (outsAt0 V c t.val t.isLt).2 = k0_pay1 (k0_pay3 (iblk0 V c 0 t) (iblk0 V c 1 t)) (outsAt0 V c (t.val - 1) (Nat.lt_of_le_of_lt (Nat.sub_le _ _) t.isLt)).2 := by
  have hc0 : ¬cond0_0 (grid0.coords t) := fun h => h0 ((hcond0_0 t).mp h)
  by_cases h1 : t.val = 127
  · have hc1 : cond0_1 (grid0.coords t) := (hcond0_1 t).mpr h1
    rw [outsAt0_C V c t hc0 hc1]
    exact sout0_C_0_eq (F := F) c (grid0.coords t) (ms0_0 t) (hs0_0 t) (ms0_1 t) (hs0_1 t) (ms0_2 t) (hs0_2 t) scM0_0 (Memref.isWhole_whole _) hc0 hc1 _ _ _
  · have hc1 : ¬cond0_1 (grid0.coords t) := fun h => h1 ((hcond0_1 t).mp h)
    rw [outsAt0_B V c t hc0 hc1]
    exact sout0_B_0_eq (F := F) c (grid0.coords t) (ms0_0 t) (hs0_0 t) (ms0_1 t) (hs0_1 t) (ms0_2 t) (hs0_2 t) scM0_0 (Memref.isWhole_whole _) hc0 hc1 _ _ _

/-- At the last point the result window receives the accumulator's new value. -/
theorem out0_last (c : Dev nD) (t : Fin cfg0.N) (h1 : t.val = 127) :
    (outsAt0 V c t.val t.isLt).1 = (outsAt0 V c t.val t.isLt).2 := by
  have hc0 : ¬cond0_0 (grid0.coords t) := fun h => by have := (hcond0_0 t).mp h; omega
  have hc1 : cond0_1 (grid0.coords t) := (hcond0_1 t).mpr h1
  rw [outsAt0_C V c t hc0 hc1]
  exact (out0_C_2_eq (F := F) c (grid0.coords t) (ms0_0 t) (hs0_0 t) (ms0_1 t) (hs0_1 t) (ms0_2 t) (hs0_2 t) scM0_0 (Memref.isWhole_whole _) hc0 hc1 _ _ _).trans (sout0_C_0_eq (F := F) c (grid0.coords t) (ms0_0 t) (hs0_0 t) (ms0_1 t) (hs0_1 t) (ms0_2 t) (hs0_2 t) scM0_0 (Memref.isWhole_whole _) hc0 hc1 _ _ _).symm

end Cert.KernelIdeal.Hand

end
-- ==== Proof.Pay0.lean ====
/-
  Region 0 (the running maximum) read at its one index. The body takes the maximum along each row of the tile, keeps it
  as a column, takes the maximum down that column, and joins the result with the accumulator: at `(0, 0)` that is the
  larger of the accumulator and the supremum of the whole tile. The accumulator's first value is `-∞`.
-/
import proofs.«161420_j81003083203706_2_alg».proof.Proof.Gen.KernelIdeal.Skeleton
import proofs.«161420_j81003083203706_2_alg».proof.Proof.PayReduce
import proofs.«161420_j81003083203706_2_alg».proof.Proof.LibColumn
import Idealize.ShloMosaic.Lib.ValueLayout

noncomputable section

namespace Cert.KernelIdeal.Pay

open Cert.KernelIdeal Cert.KernelIdeal.Gen Idealize.ShloMosaic Idealize.ShloMosaic.ValueIdx

/-- The new accumulator: the old one joined with the supremum of the tile. -/
theorem k0_pay1_apply (v41 : FVec Ideal S512x512 .f32) (v46 : Vec Ideal S1x1 .f32) :
    k0_pay1 (F := Ideal) v41 v46 (ix2 0 0) = max (v46 (ix2 0 0)) (⨆ (p : Fin 512) (q : Fin 512), v41 (ix2 p q)) := by
  unfold k0_pay1
  simp only [shapeCast_self, maximumf_apply, shapeCast_a_1a_apply]
  rw [colMax1_apply]
  refine congrArg (max (v46 (ix2 0 0))) (iSup_congr fun p => ?_)
  rw [Cert.Column.shapeCast_a_a1_apply, rowMax_apply]

/-- The accumulator's first value is `-∞`. -/
theorem k0_pay2_apply : k0_pay2 (F := Ideal) (ix2 0 0) = ⊥ := by
  unfold k0_pay2
  simp only [shapeCast_self, broadcast_apply]
  exact scalar_negInf

end Cert.KernelIdeal.Pay

end
-- ==== Proof.KI.R0Value.lean ====
/-
  Region 0's value, at the extended reals. A grid point `t` is (b, nb, mb) = (t / 16, t / 4 mod 4, t mod 4); its
  source block is rows nb·512 … nb·512+511 of batch row b, its target block rows mb·512 … of the same batch row. So
  the tile's largest distance is the supremum of `dist` over that 512×512 square, the accumulator after point `n` is
  the supremum over the squares of the points 0 … n, and the one-element result, written back at the last point
  only, is the supremum over all 128 squares.
-/
import proofs.«161420_j81003083203706_2_alg».proof.Proof.KI.R0Acc
import proofs.«161420_j81003083203706_2_alg».proof.Proof.Pay0
import proofs.«161420_j81003083203706_2_alg».proof.Proof.PayDist
import proofs.«161420_j81003083203706_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.KernelIdeal.Pay

variable (V : (c : Dev nD) → (b : Ref sig .tc) → Buf (Elt Ideal) ((c : Thread nD τ).loc b))

/-! ## The blocks, read as the arrays -/

/-- The printed index maps over the grid: the source block is (b, nb), the target block (b, mb). -/
theorem idx0 : ∀ t : Fin cfg0.N,
    win0_0.index t (0 : Fin 3) = t.val / 16 ∧ win0_0.index t (1 : Fin 3) = t.val / 4 % 4 ∧ win0_0.index t (2 : Fin 3) = 0
    ∧ win0_1.index t (0 : Fin 3) = t.val / 16 ∧ win0_1.index t (1 : Fin 3) = t.val % 4 ∧ win0_1.index t (2 : Fin 3) = 0 :=
  (by decide +kernel : ∀ t : Fin grid0.N, _)

/-- Batch row, source row and target row of entry (p, q) of point `t`'s tile. -/
def bOf (t : ℕ) : Fin 8 := ⟨t / 16 % 8, Nat.mod_lt _ (by decide)⟩
def nOf (t : ℕ) (p : Fin 512) : Fin 2048 := ⟨t / 4 % 4 * 512 + p.val, by have := p.isLt; omega⟩
def mOf (t : ℕ) (q : Fin 512) : Fin 2048 := ⟨t % 4 * 512 + q.val, by have := q.isLt; omega⟩

theorem iblk0_0_apply (c : Dev nD) (t : Fin cfg0.N) (p : Fin 512) (k : Fin 3) :
    iblk0 V c 0 t (ix3 0 p k) = V c main_arg0 (ix3 (bOf t.val) (nOf t.val p) k) := by
  have hN : t.val < 128 := lt_of_lt_of_eq t.isLt (show cfg0.N = 128 from N_0)
  obtain ⟨e0, e1, e2, -, -, -⟩ := idx0 t
  show V c main_arg0 (((cfg0.win 0).blk t).view.emb (ix3 0 p k)) = _
  refine congrArg _ ?_
  funext a; apply Fin.ext
  match a with
  | ⟨0, _⟩ => show win0_0.index t (0 : Fin 3) * 1 + 1 * 0 = t.val / 16 % 8; omega
  | ⟨1, _⟩ => show win0_0.index t (1 : Fin 3) * 512 + 1 * p.val = t.val / 4 % 4 * 512 + p.val; omega
  | ⟨2, _⟩ => show win0_0.index t (2 : Fin 3) * 3 + 1 * k.val = k.val; omega

theorem iblk0_1_apply (c : Dev nD) (t : Fin cfg0.N) (q : Fin 512) (k : Fin 3) :
    iblk0 V c 1 t (ix3 0 q k) = V c main_arg1 (ix3 (bOf t.val) (mOf t.val q) k) := by
  have hN : t.val < 128 := lt_of_lt_of_eq t.isLt (show cfg0.N = 128 from N_0)
  obtain ⟨-, -, -, e0, e1, e2⟩ := idx0 t
  show V c main_arg1 (((cfg0.win 1).blk t).view.emb (ix3 0 q k)) = _
  refine congrArg _ ?_
  funext a; apply Fin.ext
  match a with
  | ⟨0, _⟩ => show win0_1.index t (0 : Fin 3) * 1 + 1 * 0 = t.val / 16 % 8; omega
  | ⟨1, _⟩ => show win0_1.index t (1 : Fin 3) * 512 + 1 * q.val = t.val % 4 * 512 + q.val; omega
  | ⟨2, _⟩ => show win0_1.index t (2 : Fin 3) * 3 + 1 * k.val = k.val; omega

/-! ## The tile and the accumulator -/

/-- The largest distance within point `t`'s 512×512 square. -/
def tileMax (s u : Cert.Spec.SA.Idx → EReal) (t : ℕ) : EReal :=
  ⨆ (p : Fin 512) (q : Fin 512), Cert.Spec.dist s u (bOf t) (nOf t p) (mOf t q)

theorem tile0_apply (c : Dev nD) (t : Fin cfg0.N) (p q : Fin 512) :
    k0_pay3 (F := Ideal) (iblk0 V c 0 t) (iblk0 V c 1 t) (ix2 p q) = Cert.Spec.dist (V c main_arg0) (V c main_arg1) (bOf t.val) (nOf t.val p) (mOf t.val q) := by
  rw [k0_pay3_apply]
  simp only [iblk0_0_apply, iblk0_1_apply]
  rfl

/-- The accumulator after position `n`: the supremum over the squares visited so far. -/
theorem acc0_eq (c : Dev nD) : ∀ (n : ℕ) (hn : n < cfg0.N),
    (outsAt0 V c n hn).2 (ix2 0 0) = (Finset.range (n + 1)).sup (tileMax (V c main_arg0) (V c main_arg1))
  | 0, hn => by
    rw [show (outsAt0 V c 0 hn).2 = _ from acc0_zero V c ⟨0, hn⟩ rfl, k0_pay1_apply, k0_pay2_apply]
    simp only [tile0_apply, max_eq_right bot_le]
    show _ = (Finset.range 1).sup _
    rw [Finset.range_one, Finset.sup_singleton]
    rfl
  | n + 1, hn => by
    rw [show (outsAt0 V c (n + 1) hn).2 = _ from acc0_succ V c ⟨n + 1, hn⟩ (Nat.succ_ne_zero n), k0_pay1_apply]
    rw [show (outsAt0 V c ((⟨n + 1, hn⟩ : Fin cfg0.N).val - 1) _).2 (ix2 0 0) = _ from acc0_eq c n (Nat.lt_of_succ_lt hn)]
    simp only [tile0_apply]
    rw [Finset.range_add_one (n := n + 1), Finset.sup_insert, sup_comm]
    rfl

/-! ## The result array -/

theorem idx0_2 : ∀ t : Fin cfg0.N, win0_2.index t (0 : Fin 2) = 0 ∧ win0_2.index t (1 : Fin 2) = 0 :=
  (by decide +kernel : ∀ t : Fin grid0.N, _)

/-- The supremum over the 128 squares is the supremum over all rows and pairs: every square lies inside, and every
    (b, n, m) lies in the square of the point (b, n / 512, m / 512). -/
theorem sup_tiles (s u : Cert.Spec.SA.Idx → EReal) : (Finset.range 128).sup (tileMax s u) = Cert.Spec.maxd s u := by
  apply le_antisymm
  · refine Finset.sup_le fun t _ => ?_
    exact iSup_le fun p => iSup_le fun q => le_iSup_of_le (bOf t) (le_iSup_of_le (nOf t p) (le_iSup_of_le (mOf t q) le_rfl))
  · refine iSup_le fun b => iSup_le fun n => iSup_le fun m => ?_
    have hb := b.isLt; have hn := n.isLt; have hm := m.isLt
    have ht : b.val * 16 + n.val / 512 * 4 + m.val / 512 ∈ Finset.range 128 := Finset.mem_range.mpr (by omega)
    refine le_trans ?_ (Finset.le_sup ht)
    refine le_iSup_of_le ⟨n.val % 512, Nat.mod_lt _ (by decide)⟩ (le_iSup_of_le ⟨m.val % 512, Nat.mod_lt _ (by decide)⟩ ?_)
    have e0 : bOf (b.val * 16 + n.val / 512 * 4 + m.val / 512) = b := Fin.ext (by show (b.val * 16 + n.val / 512 * 4 + m.val / 512) / 16 % 8 = b.val; omega)
    have e1 : nOf (b.val * 16 + n.val / 512 * 4 + m.val / 512) ⟨n.val % 512, Nat.mod_lt _ (by decide)⟩ = n := Fin.ext (by show (b.val * 16 + n.val / 512 * 4 + m.val / 512) / 4 % 4 * 512 + n.val % 512 = n.val; omega)
    have e2 : mOf (b.val * 16 + n.val / 512 * 4 + m.val / 512) ⟨m.val % 512, Nat.mod_lt _ (by decide)⟩ = m := Fin.ext (by show (b.val * 16 + n.val / 512 * 4 + m.val / 512) % 4 * 512 + m.val % 512 = m.val; omega)
    rw [e0, e1, e2]

/-- THE RESULT of region 0: its one element is the largest distance over all rows and pairs. -/
theorem final0 (c : Dev nD) :
    (dat0 V c).arrAt 2 cfg0.N = fun _ => Cert.Spec.maxd (V c main_arg0) (V c main_arg1) := by
  refine (dat0 V c).arrAt_eq_of_cover 2 _ (fun t hf => ?_) (fun i => ?_)
  · have hN : t.val < 128 := lt_of_lt_of_eq t.isLt (show cfg0.N = 128 from N_0)
    have h127 : t.val = 127 := by have := (flush0_2 t).mp hf; omega
    show (cfg0.win 2).cut (grid0.coords t) ((dat0 V c).after 2 t) = _
    rw [after0_2, out0_last V c t h127]
    funext j
    have hj : j = ix2 0 0 := by
      funext a; apply Fin.ext
      match a with
      | ⟨0, _⟩ => show (j 0).val = 0; have h0 : (j 0).val < 1 := (j 0).isLt; omega
      | ⟨1, _⟩ => show (j 1).val = 0; have h1 : (j 1).val < 1 := (j 1).isLt; omega
    show (outsAt0 V c t.val t.isLt).2 j = Cert.Spec.maxd (V c main_arg0) (V c main_arg1)
    rw [hj, acc0_eq V c t.val t.isLt, ← sup_tiles]
    congr 2
    omega
  · have h128 : (127 : ℕ) < cfg0.N := by rw [show cfg0.N = 128 from N_0]; decide
    refine ⟨⟨127, h128⟩, (flush0_2 _).mpr rfl, ?_⟩
    obtain ⟨e0, e1⟩ := idx0_2 ⟨127, h128⟩
    show i ∈ ((View.whole main_v0).slice (win0_2.rect ⟨127, h128⟩)).set
    rw [View.set_slice_whole, Rect.mem_set_unit]
    intro a
    match a with
    | ⟨0, _⟩ => show win0_2.index ⟨127, h128⟩ (0 : Fin 2) * 1 ≤ (i 0).val ∧ (i 0).val < win0_2.index ⟨127, h128⟩ (0 : Fin 2) * 1 + 1; have h0 : (i 0).val < 1 := (i 0).isLt; omega
    | ⟨1, _⟩ => show win0_2.index ⟨127, h128⟩ (1 : Fin 2) * 1 ≤ (i 1).val ∧ (i 1).val < win0_2.index ⟨127, h128⟩ (1 : Fin 2) * 1 + 1; have h1 : (i 1).val < 1 := (i 1).isLt; omega

end Cert.KernelIdeal.Hand

end
-- ==== Proof.PayHost.lean ====
/-
  Two layout steps of the surrounding host program read at an index written by coordinates.
  • An `[8, 1, 2048]` array viewed as `[8, 2048]` reads, at `(b, n)`, the array at `(b, 0, n)`: the two indices have
    the same row-major position, `(b · 1 + 0) · 2048 + n = b · 2048 + n`.
  • An `[8, 2048]` array placed on axes 0 and 2 of `[8, 1, 2048]` reads, at `(b, 0, n)`, the array at `(b, n)`:
    neither source axis has extent one, so each source coordinate is the coordinate of the axis it is placed on.
-/
import proofs.«161420_j81003083203706_2_alg».proof.KernelIdeal
import Idealize.ShloMosaic.Lib.ValueIdx
import Idealize.ShloMosaic.Lib.Pipeline.Value

namespace Cert.KernelIdeal.Pay

open Cert.KernelIdeal Idealize.ShloMosaic Idealize.ShloMosaic.ValueIdx

variable {α : Type}

/-- The `[8, 1, 2048]` → `[8, 2048]` view at `(b, n)`. -/
theorem reshape_8x1x2048_apply (X : S8x1x2048.Idx → α) (h : S8x1x2048.ShapeCasts S8x2048) (b : Fin 8) (n : Fin 2048) :
    shapeCast S8x2048 X h (ix2 b n) = X (ix3 b (0 : Fin 1) n) :=
  shapeCast_apply X h _ _ (by
    rw [Shape.rowMajor_val_three, Shape.rowMajor_val_two]
    show (b.val * 1 + 0) * 2048 + n.val = b.val * 2048 + n.val
    rw [Nat.mul_one, Nat.add_zero])

/-- The `[8, 2048]` array placed on axes 0 and 2 of `[8, 1, 2048]`, at `(b, 0, n)`. -/
theorem bcast_mask_apply (x : S8x2048.Idx → α)
    (h : S8x2048.BroadcastsInDim S8x1x2048 (![0, 2] : Fin 2 → Fin S8x1x2048.rank)) (b : Fin 8) (n : Fin 2048) :
    broadcastInDim S8x1x2048 ![0, 2] h x (ix3 b (0 : Fin 1) n) = x (ix2 b n) :=
  broadcastInDim_apply _ h x (ix3 b (0 : Fin 1) n) (ix2 b n) (fun a => match a with
    | ⟨0, _⟩ => by show b.val = if (8 : Nat) = 1 then 0 else b.val; rw [if_neg (by decide)]
    | ⟨1, _⟩ => by show n.val = if (2048 : Nat) = 1 then 0 else n.val; rw [if_neg (by decide)])

end Cert.KernelIdeal.Pay
-- ==== Proof.KI.HostSide.lean ====
/-
  The host operations around the two regions, read through the fold of buffer contents.
  • Between the regions one operation runs: the mask given a unit middle axis. It writes neither argument cloud nor
    region 0's result, so at region 1's entry the two clouds are as launched, region 0's one-element result is the
    largest distance `maxd`, and the mask's copy at `(b, 0, n)` is the mask at `(b, n)`.
  • After region 1 the two results `[8, 1, 2048]` are viewed as `[8, 2048]`; the first is summed and divided by the
    constant, the second is multiplied by the mask, summed, and divided by the mask's sum. The mask itself is touched
    by no region and no operation.
-/
import proofs.«161420_j81003083203706_2_alg».proof.Proof.KI.RunMain
import proofs.«161420_j81003083203706_2_alg».proof.Proof.KI.R0Value
import proofs.«161420_j81003083203706_2_alg».proof.Proof.PayHost
import proofs.«161420_j81003083203706_2_alg».proof.Proof.Spec
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.KernelIdeal.Pay

variable (m : (ℓ : Loc nD τ sig) → Buf (Elt Ideal) ℓ)

/-! ## At region 1's entry -/

/-- The source cloud at region 1's entry is the launch memory's. -/
theorem E2_main_arg0 (c : Dev nD) : E2 m c main_arg0 = m ((c : Thread nD τ).loc main_arg0) :=
  calc E2 m c main_arg0
    _ = W1 m c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg0) := (W1_arr m c 0).trans (((dat0 (E0 m) c).arrAt_in 0 rfl _).trans (A_eq0 (E0 m) c 0))
    _ = m ((c : Thread nD τ).loc main_arg0) := rfl

/-- The target cloud at region 1's entry is the launch memory's. -/
theorem E2_main_arg1 (c : Dev nD) : E2 m c main_arg1 = m ((c : Thread nD τ).loc main_arg1) :=
  calc E2 m c main_arg1
    _ = W1 m c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg1) := (W1_arr m c 1).trans (((dat0 (E0 m) c).arrAt_in 1 rfl _).trans (A_eq0 (E0 m) c 1))
    _ = m ((c : Thread nD τ).loc main_arg1) := rfl

/-- Region 0's result at region 1's entry: the largest distance over all rows and pairs. -/
theorem E2_main_v0 (c : Dev nD) :
    E2 m c main_v0 = fun _ => Cert.Spec.maxd (m ((c : Thread nD τ).loc main_arg0)) (m ((c : Thread nD τ).loc main_arg1)) :=
  calc E2 m c main_v0
    _ = W1 m c (Proc.devRef .tc main_v0) := StableHlo.after_of_forall_not_mem (b := Proc.devRef .tc main_v0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (E0 m) c).arrAt 2 cfg0.N := W1_arr m c 2
    _ = fun _ => Cert.Spec.maxd (m ((c : Thread nD τ).loc main_arg0)) (m ((c : Thread nD τ).loc main_arg1)) := final0 (E0 m) c

/-- The mask's copy with a unit middle axis, at region 1's entry. -/
theorem E2_main_v1 (c : Dev nD) (b : Fin 8) (n : Fin 2048) :
    E2 m c main_v1 (ix3 b 0 n) = m ((c : Thread nD τ).loc main_arg2) (ix2 b n) := by
  show StableHlo.after hostOps1 (W1 m c) (Proc.devRef .tc main_v1) (ix3 b 0 n) = _
  after_results
  refine (bcast_mask_apply _ _ b n).trans ?_
  exact congrFun (W1_of_ne m c main_arg2 (by decide)) (ix2 b n)

/-! ## After region 1 -/

/-- The mask after region 1 is the launch memory's. -/
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg2) := W1_of_ne m c main_arg2 (by decide)
    _ = m ((c : Thread nD τ).loc main_arg2) := rfl

/-- An `[8, 1, 2048]` array viewed as `[8, 2048]`, as a function of the index's two coordinates. -/
theorem squeeze_eq (Y : S8x1x2048.Idx → EReal) (h : S8x1x2048.ShapeCasts S8x2048) :
    shapeCast S8x2048 Y h = fun j : S8x2048.Idx => Y (ix3 ⟨(j 0).val, (j 0).isLt⟩ 0 ⟨(j 1).val, (j 1).isLt⟩) := by
  funext j
  have hj : j = ix2 (⟨(j 0).val, (j 0).isLt⟩ : Fin 8) (⟨(j 1).val, (j 1).isLt⟩ : Fin 2048) := by
    funext a; match a with | ⟨0, _⟩ => rfl | ⟨1, _⟩ => rfl
  exact (congrArg (shapeCast S8x2048 Y h) hj).trans (reshape_8x1x2048_apply Y h _ _)

/-- The first result: the mean of region 1's first output over its `8 · 2048` entries. -/
theorem W4_main_v6 (c : Dev nD) :
    (W4 m c (Proc.devRef .tc main_v6) : FVec Ideal S_ .f32)
      = Host.divf (F := Ideal) (Host.reduceAdd (F := Ideal)
          (fun j : S8x2048.Idx => E3 m c main_v2_0 (ix3 ⟨(j 0).val, (j 0).isLt⟩ 0 ⟨(j 1).val, (j 1).isLt⟩))
          (constant (F := Ideal) S_ .f32 0x00000000#32) reducesTo_S8x2048_S_d0_1 h_S_) (constant (F := Ideal) S_ .f32 0x46800000#32) := by
  show StableHlo.after hostOps2 (W3 m c) (Proc.devRef .tc main_v6) = _
  after_results
  refine congrArg (fun X : FVec Ideal S8x2048 .f32 => Host.divf (F := Ideal) (Host.reduceAdd (F := Ideal) X
    (constant (F := Ideal) S_ .f32 0x00000000#32) reducesTo_S8x2048_S_d0_1 h_S_) (constant (F := Ideal) S_ .f32 0x46800000#32)) ?_
  exact squeeze_eq (E3 m c main_v2_0) shapeCasts_S8x1x2048_S8x2048

/-- The second result: region 1's second output weighted by the mask, summed, over the mask's sum. -/
theorem W4_main_v10 (c : Dev nD) :
    (W4 m c (Proc.devRef .tc main_v10) : FVec Ideal S_ .f32)
      = Host.divf (F := Ideal) (Host.reduceAdd (F := Ideal)
          (mulf (F := Ideal) (fun j : S8x2048.Idx => E3 m c main_v2_1 (ix3 ⟨(j 0).val, (j 0).isLt⟩ 0 ⟨(j 1).val, (j 1).isLt⟩))
            (m ((c : Thread nD τ).loc main_arg2)))
          (constant (F := Ideal) S_ .f32 0x00000000#32) reducesTo_S8x2048_S_d0_1 h_S_)
        (Host.reduceAdd (F := Ideal) (m ((c : Thread nD τ).loc main_arg2)) (constant (F := Ideal) S_ .f32 0x00000000#32)
          reducesTo_S8x2048_S_d0_1 h_S_) := by
  show StableHlo.after hostOps2 (W3 m c) (Proc.devRef .tc main_v10) = _
  after_results
  rw [W3_main_arg2 m c]
  refine congrArg (fun X : FVec Ideal S8x2048 .f32 => Host.divf (F := Ideal) (Host.reduceAdd (F := Ideal)
    (mulf (F := Ideal) X (m ((c : Thread nD τ).loc main_arg2)))
    (constant (F := Ideal) S_ .f32 0x00000000#32) reducesTo_S8x2048_S_d0_1 h_S_)
    (Host.reduceAdd (F := Ideal) (m ((c : Thread nD τ).loc main_arg2)) (constant (F := Ideal) S_ .f32 0x00000000#32)
      reducesTo_S8x2048_S_d0_1 h_S_)) ?_
  exact squeeze_eq (E3 m c main_v2_1) shapeCasts_S8x1x2048_S8x2048

end Cert.KernelIdeal.Hand

end
-- ==== Proof.RefSideDefs.lean ====
/-
  The reference program's two per-point arrays, named. Its first result is the mean of `T15` (the shifted masked
  minimum over target points, one entry per batch row and source point); its second is the mask-weighted mean of `T16`
  (the minimum over source points, one entry per batch row and target point). Both are stages of the generated reading
  of the program, so the program's two result terms are, definitionally, the final host reductions applied to them.
-/
import proofs.«161420_j81003083203706_2_alg».proof.Proof.Gen.ReferenceIdeal.Read
import proofs.«161420_j81003083203706_2_alg».proof.Proof.Spec

noncomputable section

namespace Cert.RefSide

open Cert.ReferenceIdeal Cert.ReferenceIdeal.Gen Cert.ReferenceIdeal.Read Idealize.ShloMosaic Idealize.ShloMosaic.ValueIdx

/-- The array whose mean is the first result: per row and source point, the least masked-shifted distance, shifted back. -/
def T15 (a0 a1 : FVec Ideal S8x2048x3 .f32) (a2 : FVec Ideal S8x2048 .f32) : FVec Ideal S8x2048 .f32 :=
  val_main_v15 (F := Ideal) a0 a1 a2

/-- The array whose masked mean is the second result: per row and target point, the least distance over source points. -/
def T16 (a0 a1 : FVec Ideal S8x2048x3 .f32) : FVec Ideal S8x2048 .f32 :=
  val_main_v16 (F := Ideal) a0 a1

/-- The program's first result term is the sum of `T15` from zero, divided by the literal 16384. -/
theorem run_v18_eq (a0 a1 : FVec Ideal S8x2048x3 .f32) (a2 : FVec Ideal S8x2048 .f32) :
    Host.divf (F := Ideal) (Host.reduceAdd (addf (Host.reduce FloatOps.minimumf (subf (Host.reduceAdd (Host.absf (subf (broadcastInDim S8x2048x2048x3 ![0, 1, 2, 3] bcast_S8x2048x1x3_S8x2048x2048x3_0_1_2_3 (broadcastInDim S8x2048x1x3 ![0, 1, 3] bcast_S8x2048x3_S8x2048x1x3_0_1_3 a0)) (broadcastInDim S8x2048x2048x3 ![0, 1, 2, 3] bcast_S8x1x2048x3_S8x2048x2048x3_0_1_2_3 (broadcastInDim S8x1x2048x3 ![0, 2, 3] bcast_S8x2048x3_S8x1x2048x3_0_2_3 a1)))) (constant S_ .f32 0x00000000#32) reducesTo_S8x2048x2048x3_S8x2048x2048_d3 h_S_) (broadcastInDim S8x2048x2048 ![0, 1, 2] bcast_S8x1x2048_S8x2048x2048_0_1_2 (mulf (broadcastInDim S8x1x2048 ![0, 2] bcast_S8x2048_S8x1x2048_0_2 a2) (broadcastInDim S8x1x2048 ![] bcast_S_S8x1x2048 (Host.reduce FloatOps.maximumf (Host.reduceAdd (Host.absf (subf (broadcastInDim S8x2048x2048x3 ![0, 1, 2, 3] bcast_S8x2048x1x3_S8x2048x2048x3_0_1_2_3 (broadcastInDim S8x2048x1x3 ![0, 1, 3] bcast_S8x2048x3_S8x2048x1x3_0_1_3 a0)) (broadcastInDim S8x2048x2048x3 ![0, 1, 2, 3] bcast_S8x1x2048x3_S8x2048x2048x3_0_1_2_3 (broadcastInDim S8x1x2048x3 ![0, 2, 3] bcast_S8x2048x3_S8x1x2048x3_0_2_3 a1)))) (constant S_ .f32 0x00000000#32) reducesTo_S8x2048x2048x3_S8x2048x2048_d3 h_S_) (constant S_ .f32 0xFF800000#32) reducesTo_S8x2048x2048_S_d0_1_2 h_S_))))) (constant S_ .f32 0x7F800000#32) reducesTo_S8x2048x2048_S8x2048_d2 h_S_) (broadcastInDim S8x2048 ![] bcast_S_S8x2048 (Host.reduce FloatOps.maximumf (Host.reduceAdd (Host.absf (subf (broadcastInDim S8x2048x2048x3 ![0, 1, 2, 3] bcast_S8x2048x1x3_S8x2048x2048x3_0_1_2_3 (broadcastInDim S8x2048x1x3 ![0, 1, 3] bcast_S8x2048x3_S8x2048x1x3_0_1_3 a0)) (broadcastInDim S8x2048x2048x3 ![0, 1, 2, 3] bcast_S8x1x2048x3_S8x2048x2048x3_0_1_2_3 (broadcastInDim S8x1x2048x3 ![0, 2, 3] bcast_S8x2048x3_S8x1x2048x3_0_2_3 a1)))) (constant S_ .f32 0x00000000#32) reducesTo_S8x2048x2048x3_S8x2048x2048_d3 h_S_) (constant S_ .f32 0xFF800000#32) reducesTo_S8x2048x2048_S_d0_1_2 h_S_))) (constant S_ .f32 0x00000000#32) reducesTo_S8x2048_S_d0_1 h_S_) (constant S_ .f32 0x46800000#32)
      = Host.divf (Host.reduceAdd (T15 a0 a1 a2) (constant S_ .f32 0x00000000#32) reducesTo_S8x2048_S_d0_1 h_S_) (constant S_ .f32 0x46800000#32) := rfl

/-- The program's second result term is the sum of `T16` times the mask, divided by the sum of the mask. -/
theorem run_v22_eq (a0 a1 : FVec Ideal S8x2048x3 .f32) (a2 : FVec Ideal S8x2048 .f32) :
    Host.divf (F := Ideal) (Host.reduceAdd (mulf (Host.reduce FloatOps.minimumf (Host.reduceAdd (Host.absf (subf (broadcastInDim S8x2048x2048x3 ![0, 1, 2, 3] bcast_S8x2048x1x3_S8x2048x2048x3_0_1_2_3 (broadcastInDim S8x2048x1x3 ![0, 1, 3] bcast_S8x2048x3_S8x2048x1x3_0_1_3 a0)) (broadcastInDim S8x2048x2048x3 ![0, 1, 2, 3] bcast_S8x1x2048x3_S8x2048x2048x3_0_1_2_3 (broadcastInDim S8x1x2048x3 ![0, 2, 3] bcast_S8x2048x3_S8x1x2048x3_0_2_3 a1)))) (constant S_ .f32 0x00000000#32) reducesTo_S8x2048x2048x3_S8x2048x2048_d3 h_S_) (constant S_ .f32 0x7F800000#32) reducesTo_S8x2048x2048_S8x2048_d1 h_S_) a2) (constant S_ .f32 0x00000000#32) reducesTo_S8x2048_S_d0_1 h_S_) (Host.reduceAdd a2 (constant S_ .f32 0x00000000#32) reducesTo_S8x2048_S_d0_1 h_S_)
      = Host.divf (Host.reduceAdd (mulf (T16 a0 a1) a2) (constant S_ .f32 0x00000000#32) reducesTo_S8x2048_S_d0_1 h_S_) (Host.reduceAdd a2 (constant S_ .f32 0x00000000#32) reducesTo_S8x2048_S_d0_1 h_S_) := rfl

end Cert.RefSide

end
-- ==== Proof.RefSideDist.lean ====
/-
  The reference's distance array, read at an index. The program broadcasts the two point clouds against each other,
  subtracts, takes absolute values, and sums the three coordinates from zero; at (b, n, m) that is the L1 distance
  of source point n and target point m of row b, the specification's `dist`.
-/
import proofs.«161420_j81003083203706_2_alg».proof.Proof.RefSideDefs

noncomputable section

namespace Cert.RefSide

open Cert.ReferenceIdeal Cert.ReferenceIdeal.Gen Cert.ReferenceIdeal.Read Idealize.ShloMosaic Idealize.ShloMosaic.ValueIdx

/-- Through the two broadcasts, coordinate k of the pair (n, m) of row b reads the source cloud at (b, n, k). -/
theorem idx_src (b : Fin 8) (n m : Fin 2048) (k : Fin 3) :
    idx_main_v0 (idx_main_v2 (idx_main_v6 (ix3 b n m) k)) = ix3 b n k := by
  funext a; match a with | ⟨0, _⟩ => rfl | ⟨1, _⟩ => rfl | ⟨2, _⟩ => rfl

/-- Through the two broadcasts, coordinate k of the pair (n, m) of row b reads the target cloud at (b, m, k). -/
theorem idx_tgt (b : Fin 8) (n m : Fin 2048) (k : Fin 3) :
    idx_main_v1 (idx_main_v3 (idx_main_v6 (ix3 b n m) k)) = ix3 b m k := by
  funext a; match a with | ⟨0, _⟩ => rfl | ⟨1, _⟩ => rfl | ⟨2, _⟩ => rfl

/-- The reference's distance array at (b, n, m) is the specification's L1 distance: zero plus the three absolute
    coordinate differences, in the specification's order. -/
theorem ref_dist (a0 a1 : FVec Ideal S8x2048x3 .f32) (b : Fin 8) (n m : Fin 2048) :
    val_main_v6 (F := Ideal) a0 a1 (ix3 b n m) = Cert.Spec.dist a0 a1 b n m := by
  rw [val_main_v6_apply, Fin.sum_univ_three]
  simp only [val_main_v5_apply, val_main_v4_apply, val_main_v2_apply, val_main_v3_apply, val_main_v0_apply,
    val_main_v1_apply, val_main_cst_apply, idx_src, idx_tgt]
  rw [Ideal.ofBits_def, Ideal.ofBits_zero_f32, zero_add]
  rfl

end Cert.RefSide

end
-- ==== Proof.RefSideFold.lean ====
/-
  Maximum and minimum reductions over the extended reals as suprema and infima. A fold of `max` from the bottom
  element over a finite index set is the supremum of the family, a fold of `min` from the top element its infimum
  (antisymmetry, from the fold's universal property); so a host reduction by maximum from −∞ to a scalar is the
  supremum over every index of the operand, and one by minimum from +∞ along one axis is the infimum over that
  axis's coordinates. The two infinities are the literals' values.
-/
import Idealize.ShloMosaic.PureOps.Ideal.Laws
import Idealize.ShloMosaic.Lib.ValueIdx

noncomputable section

namespace Cert.RefSide

open Idealize.ShloMosaic Idealize.ShloMosaic.ValueIdx

/-- The f32 pattern of +∞ is the top element. -/
theorem ofBits_posInf : Ideal.ofBits .f32 0x7F800000#32 = ⊤ := by simp [Ideal.ofBits, Ideal.ieee]

/-- The f32 pattern of −∞ is the bottom element. -/
theorem ofBits_negInf : Ideal.ofBits .f32 0xFF800000#32 = ⊥ := by simp [Ideal.ofBits, Ideal.ieee]

/-- A fold of `min` from ⊤ over a whole finite type is the infimum of the family. -/
theorem fold_min_top {ι : Type} [Fintype ι] (f : ι → EReal) :
    (Finset.univ : Finset ι).fold min ⊤ f = ⨅ k, f k :=
  le_antisymm (le_iInf fun k => (Finset.fold_min_le _).2 (Or.inr ⟨k, Finset.mem_univ k, le_rfl⟩))
    ((Finset.le_fold_min _).2 ⟨le_top, fun k _ => iInf_le f k⟩)

/-- A fold of `max` from ⊥ over a whole finite type is the supremum of the family. -/
theorem fold_max_bot {ι : Type} [Fintype ι] (f : ι → EReal) :
    (Finset.univ : Finset ι).fold max ⊥ f = ⨆ k, f k :=
  le_antisymm ((Finset.fold_max_le _).2 ⟨bot_le, fun k _ => le_iSup f k⟩)
    (iSup_le fun k => (Finset.le_fold_max _).2 (Or.inr ⟨k, Finset.mem_univ k, le_rfl⟩))

/-- A host reduction by minimum along one axis, from an initial value that is +∞, is at each result index the
    infimum over that axis's coordinates of the operand. -/
theorem reduce_min_single {s t u : Shape} {a : Fin s.rank} (x : s.Idx → Ideal .f32) (init : u.Idx → Ideal .f32)
    (h' : s.ReducesTo [a] t) (h : s.Reduces [a] t) (hu : 0 < u.numel) (hi : init (Shape.Idx.first hu) = ⊤) (j : t.Idx) :
    Host.reduce (FloatOps.minimumf (F := Ideal) (φ := .f32)) x init h' hu j = ⨅ k : Fin (s.size a), x (h.lift j k) := by
  rw [Host.reduce_eq_fold_single FloatOps.minimumf x init h' h hu j, hi]
  exact fold_min_top (x ∘ h.lift j)

/-- A host reduction by maximum over every axis, into the scalar shape, from an initial value that is −∞, is the
    supremum over every index of the operand. -/
theorem reduce_max_total {s u : Shape} {axes : List (Fin s.rank)} (x : s.Idx → Ideal .f32) (init : u.Idx → Ideal .f32)
    (h' : s.ReducesTo axes ⟨0, ![]⟩) (hu : 0 < u.numel) (hi : init (Shape.Idx.first hu) = ⊥) (j : (⟨0, ![]⟩ : Shape).Idx) :
    Host.reduce (FloatOps.maximumf (F := Ideal) (φ := .f32)) x init h' hu j = ⨆ i : s.Idx, x i := by
  rw [Host.reduce_eq_fold FloatOps.maximumf x init h' hu j, hi,
    Finset.filter_true_of_mem (fun i _ => funext fun c => c.elim0)]
  exact fold_max_bot x

/-- A supremum over the indices of a rank-3 array is the triple supremum over its coordinates. -/
theorem iSup_idx3 {n0 n1 n2 : Nat} (f : (⟨3, ![n0, n1, n2]⟩ : Shape).Idx → EReal) :
    ⨆ i, f i = ⨆ (a : Fin n0) (b : Fin n1) (c : Fin n2), f (ix3 a b c) :=
  le_antisymm
    (iSup_le fun i => by
      rw [eq_ix3 i]
      exact le_iSup_of_le (i 0) (le_iSup_of_le (i 1) (le_iSup_of_le (i 2) le_rfl)))
    (iSup_le fun a => iSup_le fun b => iSup_le fun c => le_iSup f (ix3 a b c))

end Cert.RefSide

end
-- ==== Proof.RefSideMin.lean ====
/-
  The reference's minimum over source points. The program reduces the distance array by minimum along the
  source-point axis from +∞; at (b, m) that is the infimum over source points n of the distance to target point m,
  the specification's `dst2src`.
-/
import proofs.«161420_j81003083203706_2_alg».proof.Proof.RefSideDist
import proofs.«161420_j81003083203706_2_alg».proof.Proof.RefSideFold

noncomputable section

namespace Cert.RefSide

open Cert.ReferenceIdeal Cert.ReferenceIdeal.Gen Cert.ReferenceIdeal.Read Idealize.ShloMosaic Idealize.ShloMosaic.ValueIdx

/-- Dropping the source-point axis of the pair array leaves the (row, target point) array. -/
theorem red1 : S8x2048x2048.Reduces [1] S8x2048 := by decide

/-- Inserting source point k into (b, m) on the source-point axis gives the pair index (b, k, m). -/
theorem lift1 (b : Fin 8) (m k : Fin 2048) : red1.lift (ix2 b m) k = ix3 b k m := by
  funext c; apply Fin.ext
  match c with | ⟨0, _⟩ => rfl | ⟨1, _⟩ => rfl | ⟨2, _⟩ => rfl

/-- The reference's second per-point array at (b, m) is the least distance from any source point to target point m. -/
theorem ref_dst2src (a0 a1 : FVec Ideal Cert.ReferenceIdeal.S8x2048x3 .f32) (b : Fin 8) (m : Fin 2048) :
    (T16 a0 a1) (ValueIdx.ix2 b m) = Cert.Spec.dst2src a0 a1 b m := by
  unfold T16 val_main_v16
  rw [reduce_min_single _ _ reducesTo_S8x2048x2048_S8x2048_d1 red1 h_S_
    (by rw [val_main_cst_2_apply, Ideal.ofBits_def, ofBits_posInf])]
  unfold Cert.Spec.dst2src
  exact iInf_congr fun k => (congrArg (val_main_v6 (F := Ideal) a0 a1) (lift1 b m k)).trans (ref_dist a0 a1 b k m)

end Cert.RefSide

end
-- ==== Proof.RefSideMax.lean ====
/-
  The reference's largest distance. The program reduces the distance array by maximum over all three axes from −∞
  into a scalar; that is the supremum over rows and pairs of the distance, the specification's `maxd`.
-/
import proofs.«161420_j81003083203706_2_alg».proof.Proof.RefSideDist
import proofs.«161420_j81003083203706_2_alg».proof.Proof.RefSideFold

noncomputable section

namespace Cert.RefSide

open Cert.ReferenceIdeal Cert.ReferenceIdeal.Gen Cert.ReferenceIdeal.Read Idealize.ShloMosaic Idealize.ShloMosaic.ValueIdx

/-- The reference's scalar maximum is the supremum of the L1 distance over every row and every pair of points. -/
theorem ref_maxd (a0 a1 : FVec Ideal S8x2048x3 .f32) (j : S_.Idx) :
    val_main_v7 (F := Ideal) a0 a1 j = Cert.Spec.maxd a0 a1 := by
  unfold val_main_v7
  rw [reduce_max_total _ _ reducesTo_S8x2048x2048_S_d0_1_2 h_S_
    (by rw [val_main_cst_0_apply, Ideal.ofBits_def, ofBits_negInf]), iSup_idx3]
  unfold Cert.Spec.maxd
  exact iSup_congr fun b => iSup_congr fun n => iSup_congr fun m => ref_dist a0 a1 b n m

end Cert.RefSide

end
-- ==== Proof.RefSide.lean ====
/-
  The reference's shifted masked minimum over target points. The program multiplies the mask, broadcast along source
  points, by the largest distance, subtracts that from the distance array, reduces by minimum along the target-point
  axis from +∞, and adds the largest distance back; at (b, n) that is the specification's `src2dst`.
-/
import proofs.«161420_j81003083203706_2_alg».proof.Proof.RefSideMin
import proofs.«161420_j81003083203706_2_alg».proof.Proof.RefSideMax

noncomputable section

namespace Cert.RefSide

open Cert.ReferenceIdeal Cert.ReferenceIdeal.Gen Cert.ReferenceIdeal.Read Idealize.ShloMosaic Idealize.ShloMosaic.ValueIdx

/-- Dropping the target-point axis of the pair array leaves the (row, source point) array. -/
theorem red2 : S8x2048x2048.Reduces [2] S8x2048 := by decide

/-- Inserting target point k into (b, n) on the target-point axis gives the pair index (b, n, k). -/
theorem lift2 (b : Fin 8) (n k : Fin 2048) : red2.lift (ix2 b n) k = ix3 b n k := by
  funext c; apply Fin.ext
  match c with | ⟨0, _⟩ => rfl | ⟨1, _⟩ => rfl | ⟨2, _⟩ => rfl

/-- Through the two broadcasts, the pair (n, m) of row b reads the mask at (b, m). -/
theorem idx_mask (b : Fin 8) (n m : Fin 2048) : idx_main_v8 (idx_main_v11 (ix3 b n m)) = ix2 b m := by
  funext a; match a with | ⟨0, _⟩ => rfl | ⟨1, _⟩ => rfl

/-- The array the minimum is taken of: at (b, n, m), the distance less the mask at (b, m) times the largest distance. -/
theorem ref_masked (a0 a1 : FVec Ideal S8x2048x3 .f32) (a2 : FVec Ideal S8x2048 .f32) (b : Fin 8) (n m : Fin 2048) :
    val_main_v12 (F := Ideal) a0 a1 a2 (ix3 b n m)
      = Cert.Spec.dist a0 a1 b n m - a2 (ix2 b m) * Cert.Spec.maxd a0 a1 := by
  rw [val_main_v12_apply, val_main_v11_apply, val_main_v10_apply, val_main_v8_apply, val_main_v9_apply, ref_maxd,
    ref_dist, idx_mask]
  rfl

/-- The reference's first per-point array at (b, n) is the least masked-shifted distance over target points, shifted
    back by the largest distance. -/
theorem ref_src2dst (a0 a1 : FVec Ideal Cert.ReferenceIdeal.S8x2048x3 .f32) (a2 : FVec Ideal Cert.ReferenceIdeal.S8x2048 .f32)
    (b : Fin 8) (n : Fin 2048) :
    (T15 a0 a1 a2) (ValueIdx.ix2 b n) = Cert.Spec.src2dst a0 a1 a2 b n := by
  unfold T15
  rw [val_main_v15_apply, val_main_v14_apply, ref_maxd]
  unfold val_main_v13
  rw [reduce_min_single _ _ reducesTo_S8x2048x2048_S8x2048_d2 red2 h_S_
    (by rw [val_main_cst_1_apply, Ideal.ofBits_def, ofBits_posInf])]
  unfold Cert.Spec.src2dst
  refine congrArg (· + Cert.Spec.maxd a0 a1) (iInf_congr fun k => ?_)
  exact (congrArg (val_main_v12 (F := Ideal) a0 a1 a2) (lift2 b n k)).trans (ref_masked a0 a1 a2 b n k)

end Cert.RefSide

end
-- ==== Proof.KI.Bridge6.lean ====
/-
  The first result against the reference's: the kernel's 8×2048 vector (region 1's first result with its unit middle
  axis squeezed out) is, index by index, the least over target points of distance minus mask times the largest
  distance, shifted back by the largest distance — the largest distance being region 0's result, handed through the
  one host operation between the regions untouched, and the mask's copy with a unit middle axis reading back as the
  mask — which is what the reference computes.
-/
import proofs.«161420_j81003083203706_2_alg».proof.Proof.KI.R1Res0
import proofs.«161420_j81003083203706_2_alg».proof.Proof.KI.HostSide
import proofs.«161420_j81003083203706_2_alg».proof.Proof.RefSide

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ)

theorem vec6_eq (c : Dev nD) :
    (fun j : S8x2048.Idx => E3 m c main_v2_0 (ix3 ⟨(j 0).val, (j 0).isLt⟩ 0 ⟨(j 1).val, (j 1).isLt⟩))
      = Cert.RefSide.T15 (m ((c : Thread nD τ).loc main_arg0)) (m ((c : Thread nD τ).loc main_arg1)) (m ((c : Thread nD τ).loc main_arg2)) := by
  funext j
  have hj : j = ix2 ⟨(j 0).val, (j 0).isLt⟩ ⟨(j 1).val, (j 1).isLt⟩ := eq_ix2 j
  rw [show Cert.RefSide.T15 (m ((c : Thread nD τ).loc main_arg0)) (m ((c : Thread nD τ).loc main_arg1)) (m ((c : Thread nD τ).loc main_arg2)) j
      = Cert.RefSide.T15 (m ((c : Thread nD τ).loc main_arg0)) (m ((c : Thread nD τ).loc main_arg1)) (m ((c : Thread nD τ).loc main_arg2)) (ix2 ⟨(j 0).val, (j 0).isLt⟩ ⟨(j 1).val, (j 1).isLt⟩) from congrArg _ hj,
    Cert.RefSide.ref_src2dst]
  show W3 m c (Proc.devRef .tc (Pipeline.arrRef spec1 4)) _ = _
  rw [W3_arr m c 4, final1_4 (E2 m) c]
  show res1_4 (E2 m) c _ _ = _
  unfold res1_4 maxK maskK Cert.Spec.src2dst
  rw [E2_main_arg0, E2_main_arg1, E2_main_v0]
  congr 1
  refine iInf_congr fun mm => ?_
  rw [E2_main_v1]
  rfl

end Cert.KernelIdeal.Hand

end
-- ==== Proof.KI.R1PiecesA.lean ====
/-
  Region 1, the first tile of a batch row: the column minima are reset to +∞ and then the tile's column minima are
  folded into the point's slice — the same "one slice replaced" form as at every other point, over the +∞ reset:
  the reset covers the whole buffer, so after it the buffer is the one that reads +∞ everywhere.
-/
import proofs.«161420_j81003083203706_2_alg».proof.Proof.KI.R1Pieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem sout1_A_1_eq (c : Dev nD) (i : grid1.Coords) (arg3 : Memref sig .tc .vmem S1x1 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x2048 .f32) (harg8 : arg8.IsWhole) (arg9 : Memref sig .tc .vmem S1x512 .f32) (harg9 : arg9.IsWhole) (hc0 : cond1_0 i) (hc1 : cond1_1 i) (hc2 : ¬cond1_2 i) (hc3 : ¬cond1_3 i) (x0 : Vec F S1x1 .f32) (x1 : Vec F S1x512x3 .f32) (x2 : Vec F S1x512x3 .f32) (x3 : Vec F S1x1x512 .f32) :
    sout1_A_1 c i arg3 harg3 arg4 harg4 arg5 harg5 arg6 harg6 arg7 harg7 arg8 harg8 arg9 harg9 scM1_1 (Memref.isWhole_whole _) hc0 hc1 hc2 hc3 x0 x1 x2 x3 = colUpd i (k1_pay7 x1 x2) (k1_pay6 (F := F)) := by
  unfold sout1_A_1 colUpd
  unfold kernelRun1_A
  dsimp only
  sl_unfold_words
  simp only [View.readAt_eq_ld, harg4.read_unread, harg5.read_unread, View.ld_unit_zero (S := S1x512x3) hz3', View.writes_cons, View.writes_nil]
  generalize hg : View.write (Elt F) (VS1_1.slice (Rect.unit (s := S1x2048) ![0, 0] S1x2048.size Facts₀.inb_S1x2048_S1x2048_0_0)) VS1_1.junk (k1_pay6 (F := F)) Finset.univ = g
  have hq : VS1_1.read (Elt F) g = k1_pay6 := by
    rw [← hg]
    exact (View.read_writes_eq_canon VS1_1 VS1_1.junk [(⟨Rect.unit (s := S1x2048) ![0, 0] S1x2048.size Facts₀.inb_S1x2048_S1x2048_0_0, k1_pay6 (F := F)⟩ : View.Piece (Elt F) S1x2048 .f32)]
      (fun y => ⟨_, List.mem_singleton_self _, View.mem_set_unit_zero hz2' Facts₀.inb_S1x2048_S1x2048_0_0 y⟩)).trans (View.canon_unit_zero hz2' Facts₀.inb_S1x2048_S1x2048_0_0 _)
  have hf : g = (Memref.isWhole_whole cc1_scratch1 : scM1_1.IsWhole).unread k1_pay6 := (Memref.isWhole_whole cc1_scratch1 : scM1_1.IsWhole).eq_unread hq
  subst hf
  have hr : View.read (Elt F) (View.whole cc1_scratch1) ((Memref.isWhole_whole cc1_scratch1 : scM1_1.IsWhole).unread (k1_pay6 (F := F))) = k1_pay6 :=
    (Memref.isWhole_whole cc1_scratch1 : scM1_1.IsWhole).read_unread _
  rw [hr]
  rfl

end Cert.KernelIdeal.Hand

end
-- ==== Proof.KI.R1ColStep.lean ====
/-
  Region 1, the column minima step by step. The slice a point updates is columns mb·512 … mb·512+511 (mb = t mod 4):
  inside it an entry becomes the smaller of what it was and the least distance down its tile column; outside it
  nothing changes. At the first tile of a batch row the prior contents are the +∞ reset; otherwise what the point
  before left. At the last tile of a batch row the second result receives the column minima.
-/
import proofs.«161420_j81003083203706_2_alg».proof.Proof.KI.R1PiecesA
import proofs.«161420_j81003083203706_2_alg».proof.Proof.KI.R1Blocks
import proofs.«161420_j81003083203706_2_alg».proof.Proof.Pay1
import proofs.«161420_j81003083203706_2_alg».proof.Proof.Pay1Small

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.KernelIdeal.Pay

variable (V : (c : Dev nD) → (b : Ref sig .tc) → Buf (Elt Ideal) ((c : Thread nD τ).loc b))

/-- The slice's offset over the grid. -/
theorem off1 : ∀ t : Fin cfg1.N, k1_off1 (grid1.coords t) (0 : Fin 2) = 0 ∧ k1_off1 (grid1.coords t) (1 : Fin 2) = t.val % 4 * 512 :=
  (by decide +kernel : ∀ t : Fin grid1.N, _)

theorem colUpd_in (t : Fin cfg1.N) (D : FVec Ideal S512x512 .f32) (prev : Vec Ideal S1x2048 .f32) (q : Fin 512) (j : Fin 2048)
    (hj : j.val = t.val % 4 * 512 + q.val) :
    colUpd (F := Ideal) (grid1.coords t) D prev (ix2 0 j) = min (prev (ix2 0 j)) (⨅ p : Fin 512, D (ix2 p q)) := by
  obtain ⟨o0, o1⟩ := off1 t
  have he : (colRect (grid1.coords t)).emb (ix2 0 q) = ix2 0 j := by
    funext a; apply Fin.ext
    match a with
    | ⟨0, _⟩ => show k1_off1 (grid1.coords t) (0 : Fin 2) + 1 * 0 = 0; omega
    | ⟨1, _⟩ => show k1_off1 (grid1.coords t) (1 : Fin 2) + 1 * q.val = j.val; omega
  unfold colUpd
  rw [← he, View.read_writes_cons_emb, k1_pay2_apply]
  rfl

theorem colUpd_out (t : Fin cfg1.N) (D : FVec Ideal S512x512 .f32) (prev : Vec Ideal S1x2048 .f32) (j : Fin 2048)
    (hj : j.val / 512 ≠ t.val % 4) :
    colUpd (F := Ideal) (grid1.coords t) D prev (ix2 0 j) = prev (ix2 0 j) := by
  obtain ⟨o0, o1⟩ := off1 t
  unfold colUpd
  rw [View.read_writes_apply_of_forall_not_mem _ _ _ _ (fun p hp => by
    rw [List.mem_singleton.mp hp]
    show ix2 0 j ∉ (colRect (grid1.coords t)).set
    rw [Rect.mem_set_unit]
    intro h
    have h1 : k1_off1 (grid1.coords t) (1 : Fin 2) ≤ j.val ∧ j.val < k1_off1 (grid1.coords t) (1 : Fin 2) + 512 := h 1
    omega)]
  exact congrFun ((Memref.isWhole_whole cc1_scratch1 : scM1_1.IsWhole).read_unread _) _

/-! ## The recursion -/

set_option maxHeartbeats 2000000 in
theorem col_zero (c : Dev nD) (t : Fin cfg1.N) (h : t.val % 16 = 0) :
    (outsAt1 V c t.val t.isLt).2.2.2 = colUpd (grid1.coords t) (k1_pay7 (iblk1 V c 1 t) (iblk1 V c 2 t)) (k1_pay6 (F := Ideal)) := by
  have hc0 : cond1_0 (grid1.coords t) := (hcond1_0 t).mpr (by omega)
  have hc1 : cond1_1 (grid1.coords t) := (hcond1_1 t).mpr h
  have hc2 : ¬cond1_2 (grid1.coords t) := fun h' => by have := (hcond1_2 t).mp h'; omega
  have hc3 : ¬cond1_3 (grid1.coords t) := fun h' => by have := (hcond1_3 t).mp h'; omega
  rw [outsAt1_A V c t hc0 hc1 hc2 hc3]
  dsimp only
  exact sout1_A_1_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) hc0 hc1 hc2 hc3 (iblk1 V c 0 t) (iblk1 V c 1 t) (iblk1 V c 2 t) (iblk1 V c 3 t)

set_option maxHeartbeats 4000000 in
theorem col_succ (c : Dev nD) (t : Fin cfg1.N) (h : t.val % 16 ≠ 0) :
    (outsAt1 V c t.val t.isLt).2.2.2 = colUpd (grid1.coords t) (k1_pay7 (iblk1 V c 1 t) (iblk1 V c 2 t)) (outsAt1 V c (t.val - 1) (Nat.lt_of_le_of_lt (Nat.sub_le _ _) t.isLt)).2.2.2 := by
  have hc1 : ¬cond1_1 (grid1.coords t) := fun h' => h ((hcond1_1 t).mp h')
  by_cases a4 : t.val % 4 = 0
  · have hc0 : cond1_0 (grid1.coords t) := (hcond1_0 t).mpr a4
    have hc2 : ¬cond1_2 (grid1.coords t) := fun h' => by have := (hcond1_2 t).mp h'; omega
    have hc3 : ¬cond1_3 (grid1.coords t) := fun h' => by have := (hcond1_3 t).mp h'; omega
    rw [outsAt1_B V c t hc0 hc1 hc2 hc3]
    dsimp only
    exact sout1_B_1_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) hc0 hc1 hc2 hc3 (iblk1 V c 0 t) (iblk1 V c 1 t) (iblk1 V c 2 t) (iblk1 V c 3 t) (outsAt1 V c (t.val - 1) (Nat.lt_of_le_of_lt (Nat.sub_le _ _) t.isLt)).2.2.2
  · have hc0 : ¬cond1_0 (grid1.coords t) := fun h' => a4 ((hcond1_0 t).mp h')
    by_cases e15 : t.val % 16 = 15
    · have hc2 : cond1_2 (grid1.coords t) := (hcond1_2 t).mpr (by omega)
      have hc3 : cond1_3 (grid1.coords t) := (hcond1_3 t).mpr e15
      rw [outsAt1_E V c t hc0 hc1 hc2 hc3]
      dsimp only
      exact sout1_E_1_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) hc0 hc1 hc2 hc3 (iblk1 V c 0 t) (iblk1 V c 1 t) (iblk1 V c 2 t) (iblk1 V c 3 t) (outsAt1 V c (t.val - 1) (Nat.lt_of_le_of_lt (Nat.sub_le _ _) t.isLt)).2.2.1 (outsAt1 V c (t.val - 1) (Nat.lt_of_le_of_lt (Nat.sub_le _ _) t.isLt)).2.2.2
    · have hc3 : ¬cond1_3 (grid1.coords t) := fun h' => e15 ((hcond1_3 t).mp h')
      by_cases d3 : t.val % 4 = 3
      · have hc2 : cond1_2 (grid1.coords t) := (hcond1_2 t).mpr d3
        rw [outsAt1_D V c t hc0 hc1 hc2 hc3]
        dsimp only
        exact sout1_D_1_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) hc0 hc1 hc2 hc3 (iblk1 V c 0 t) (iblk1 V c 1 t) (iblk1 V c 2 t) (iblk1 V c 3 t) (outsAt1 V c (t.val - 1) (Nat.lt_of_le_of_lt (Nat.sub_le _ _) t.isLt)).2.2.1 (outsAt1 V c (t.val - 1) (Nat.lt_of_le_of_lt (Nat.sub_le _ _) t.isLt)).2.2.2
      · have hc2 : ¬cond1_2 (grid1.coords t) := fun h' => d3 ((hcond1_2 t).mp h')
        rw [outsAt1_C V c t hc0 hc1 hc2 hc3]
        dsimp only
        exact sout1_C_1_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) hc0 hc1 hc2 hc3 (iblk1 V c 0 t) (iblk1 V c 1 t) (iblk1 V c 2 t) (iblk1 V c 3 t) (outsAt1 V c (t.val - 1) (Nat.lt_of_le_of_lt (Nat.sub_le _ _) t.isLt)).2.2.1 (outsAt1 V c (t.val - 1) (Nat.lt_of_le_of_lt (Nat.sub_le _ _) t.isLt)).2.2.2

set_option maxHeartbeats 2000000 in
/-- At the last tile of a batch row the second result receives the column minima. -/
theorem out5_last (c : Dev nD) (t : Fin cfg1.N) (h : t.val % 16 = 15) :
    (outsAt1 V c t.val t.isLt).2.1 = k1_pay4 (outsAt1 V c t.val t.isLt).2.2.2 := by
  have hc0 : ¬cond1_0 (grid1.coords t) := fun h' => by have := (hcond1_0 t).mp h'; omega
  have hc1 : ¬cond1_1 (grid1.coords t) := fun h' => by have := (hcond1_1 t).mp h'; omega
  have hc2 : cond1_2 (grid1.coords t) := (hcond1_2 t).mpr (by omega)
  have hc3 : cond1_3 (grid1.coords t) := (hcond1_3 t).mpr h
  rw [outsAt1_E V c t hc0 hc1 hc2 hc3]
  dsimp only
  exact (out1_E_5_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) hc0 hc1 hc2 hc3 (iblk1 V c 0 t) (iblk1 V c 1 t) (iblk1 V c 2 t) (iblk1 V c 3 t) (outsAt1 V c (t.val - 1) (Nat.lt_of_le_of_lt (Nat.sub_le _ _) t.isLt)).2.2.1 (outsAt1 V c (t.val - 1) (Nat.lt_of_le_of_lt (Nat.sub_le _ _) t.isLt)).2.2.2).trans
    (congrArg (k1_pay4 (F := Ideal)) (sout1_E_1_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) hc0 hc1 hc2 hc3 (iblk1 V c 0 t) (iblk1 V c 1 t) (iblk1 V c 2 t) (iblk1 V c 3 t) (outsAt1 V c (t.val - 1) (Nat.lt_of_le_of_lt (Nat.sub_le _ _) t.isLt)).2.2.1 (outsAt1 V c (t.val - 1) (Nat.lt_of_le_of_lt (Nat.sub_le _ _) t.isLt)).2.2.2).symm)

end Cert.KernelIdeal.Hand

end
-- ==== Proof.KI.R1Col.lean ====
/-
  Region 1, the column minima in closed form and the second result. Within the sweep of a batch row (16 points
  u = nb·4 + mb from a start s ≡ 0 mod 16), the slice of target block mb′ has been updated once per row block seen:
  `cnt u mb′ = u/4 + [mb′ ≤ u mod 4]` times, always by the next row block. So an entry holds the least distance to
  the source points of the first `cnt` row blocks — nothing yet (+∞) when the count is 0 — and at u = 15 all four:
  the least distance over every source point of the batch row, which is what the second result receives.
-/
import proofs.«161420_j81003083203706_2_alg».proof.Proof.KI.R1ColStep
import proofs.«161420_j81003083203706_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.KernelIdeal.Pay

variable (V : (c : Dev nD) → (b : Ref sig .tc) → Buf (Elt Ideal) ((c : Thread nD τ).loc b))

/-- How many row blocks the slice of target block `mb` has seen after step `u` of a sweep. -/
def cnt (u mb : ℕ) : ℕ := u / 4 + if mb ≤ u % 4 then 1 else 0
theorem cnt_step_in : ∀ u < 15, ∀ mb < 4, mb = (u + 1) % 4 → cnt (u + 1) mb = cnt u mb + 1 ∧ (u + 1) / 4 = cnt u mb := by decide
theorem cnt_step_out : ∀ u < 15, ∀ mb < 4, mb ≠ (u + 1) % 4 → cnt (u + 1) mb = cnt u mb := by decide
theorem cnt_last : ∀ mb < 4, cnt 15 mb = 4 := by decide
theorem cnt_zero : ∀ mb < 4, cnt 0 mb = if mb = 0 then 1 else 0 := by decide

/-- The least distance from the 512 source points of row block `nb` (of the batch row of point `s`) to target point `j`. -/
def colTerm (a0 a1 : Cert.Spec.SA.Idx → EReal) (s nb : ℕ) (j : Fin 2048) : EReal :=
  ⨅ p : Fin 512, Cert.Spec.dist a0 a1 (bOf1 s) ⟨nb % 4 * 512 + p.val, by have := p.isLt; omega⟩ j

theorem col_eq (c : Dev nD) (s : ℕ) (hs : s % 16 = 0) : ∀ (u : ℕ) (hu : u < 16) (t : Fin cfg1.N) (ht : t.val = s + u) (j : Fin 2048),
    (outsAt1 V c t.val t.isLt).2.2.2 (ix2 0 j) = (Finset.range (cnt u (j.val / 512))).inf fun nb => colTerm (V c main_arg0) (V c main_arg1) s nb j
  | 0, hu, t, ht, j => by
    have hj4 : j.val / 512 < 4 := by have := j.isLt; omega
    rw [col_zero V c t (by omega)]
    by_cases hj : j.val / 512 = 0
    · have hjl : j.val < 512 := by omega
      rw [colUpd_in t _ _ ⟨j.val, hjl⟩ j (by show j.val = t.val % 4 * 512 + j.val; omega), k1_pay6_apply]
      simp only [tile1_apply]
      rw [cnt_zero _ hj4, if_pos hj, Finset.range_one, Finset.inf_singleton, min_eq_right le_top]
      unfold colTerm
      refine iInf_congr fun p => ?_
      have e0 : bOf1 t.val = bOf1 s := Fin.ext (by show t.val / 16 % 8 = s / 16 % 8; omega)
      have e1 : nOf1 t.val p = ⟨0 % 4 * 512 + p.val, by have := p.isLt; omega⟩ := Fin.ext (by show t.val / 4 % 4 * 512 + p.val = 0 % 4 * 512 + p.val; omega)
      have e2 : mOf1 t.val ⟨j.val, hjl⟩ = j := Fin.ext (by show t.val % 4 * 512 + j.val = j.val; omega)
      rw [e0, e1, e2]
    · rw [colUpd_out t _ _ j (by omega), k1_pay6_apply, cnt_zero _ hj4, if_neg hj, Finset.range_zero, Finset.inf_empty]
  | u + 1, hu, t, ht, j => by
    have hN : t.val < 128 := lt_of_lt_of_eq t.isLt (show cfg1.N = 128 from N_1)
    have hj4 : j.val / 512 < 4 := by have := j.isLt; omega
    have ih := col_eq c s hs u (by omega) ⟨t.val - 1, Nat.lt_of_le_of_lt (Nat.sub_le _ _) t.isLt⟩ (by show t.val - 1 = s + u; omega) j
    rw [col_succ V c t (by omega)]
    by_cases hj : j.val / 512 = (u + 1) % 4
    · obtain ⟨h1, h2⟩ := cnt_step_in u (by omega) (j.val / 512) hj4 hj
      rw [colUpd_in t _ _ ⟨j.val % 512, Nat.mod_lt _ (by decide)⟩ j (by show j.val = t.val % 4 * 512 + j.val % 512; omega)]
      simp only [tile1_apply]
      rw [show (outsAt1 V c (t.val - 1) _).2.2.2 (ix2 0 j) = _ from ih, h1, Finset.range_add_one, Finset.inf_insert, inf_comm]
      congr 1
      unfold colTerm
      refine iInf_congr fun p => ?_
      have e0 : bOf1 t.val = bOf1 s := Fin.ext (by show t.val / 16 % 8 = s / 16 % 8; omega)
      have e1 : nOf1 t.val p = ⟨cnt u (j.val / 512) % 4 * 512 + p.val, by have := p.isLt; omega⟩ := Fin.ext (by show t.val / 4 % 4 * 512 + p.val = cnt u (j.val / 512) % 4 * 512 + p.val; omega)
      have e2 : mOf1 t.val ⟨j.val % 512, Nat.mod_lt _ (by decide)⟩ = j := Fin.ext (by show t.val % 4 * 512 + j.val % 512 = j.val; omega)
      rw [e0, e1, e2]
    · rw [colUpd_out t _ _ j (by omega), cnt_step_out u (by omega) _ hj4 hj]
      exact ih

/-- The least over the four row blocks is the least over all 2048 source points. -/
theorem inf_blocks (a0 a1 : Cert.Spec.SA.Idx → EReal) (s : ℕ) (j : Fin 2048) :
    (Finset.range 4).inf (fun nb => colTerm a0 a1 s nb j) = ⨅ n : Fin 2048, Cert.Spec.dist a0 a1 (bOf1 s) n j := by
  apply le_antisymm
  · refine le_iInf fun n => ?_
    have hn := n.isLt
    refine le_trans (Finset.inf_le (Finset.mem_range.mpr (by omega : n.val / 512 < 4))) ?_
    refine le_trans (iInf_le _ ⟨n.val % 512, Nat.mod_lt _ (by decide)⟩) (le_of_eq ?_)
    congr 1
    exact Fin.ext (by show n.val / 512 % 4 * 512 + n.val % 512 = n.val; omega)
  · exact Finset.le_inf fun nb _ => le_iInf fun p => iInf_le _ _

/-- THE SECOND RESULT of region 1: entry (b, 0, m) is the least distance from a source point of row b to target m. -/
theorem final1_5 (c : Dev nD) :
    (dat1 V c).arrAt 5 cfg1.N = fun i => Cert.Spec.dst2src (V c main_arg0) (V c main_arg1) ⟨(i 0).val, (i 0).isLt⟩ ⟨(i 2).val, (i 2).isLt⟩ := by
  refine (dat1 V c).arrAt_eq_of_cover 5 _ (fun t hf => ?_) (fun i => ?_)
  · have hN : t.val < 128 := lt_of_lt_of_eq t.isLt (show cfg1.N = 128 from N_1)
    have h15 : t.val % 16 = 15 := (flush1_5 t).mp hf
    obtain ⟨-, -, -, i0, i1, i2⟩ := idx1_out t
    show (cfg1.win 5).cut (grid1.coords t) ((dat1 V c).after 5 t) = _
    rw [after1_5, out5_last V c t h15]
    funext y
    have hy0 : (y 0).val < 1 := (y 0).isLt
    have hy1 : (y 1).val < 1 := (y 1).isLt
    have hy2 : (y 2).val < 2048 := (y 2).isLt
    have hy : y = ix3 0 0 ⟨(y 2).val, hy2⟩ := by
      funext a; apply Fin.ext
      match a with
      | ⟨0, _⟩ => show (y 0).val = 0; omega
      | ⟨1, _⟩ => show (y 1).val = 0; omega
      | ⟨2, _⟩ => rfl
    show k1_pay4 (F := Ideal) (outsAt1 V c t.val t.isLt).2.2.2 y = Cert.Spec.dst2src (V c main_arg0) (V c main_arg1) _ _
    rw [hy, k1_pay4_apply, col_eq V c (t.val - 15) (by omega) 15 (by decide) t (by omega) ⟨(y 2).val, hy2⟩,
      cnt_last _ (by show (y 2).val / 512 < 4; omega), inf_blocks]
    unfold Cert.Spec.dst2src
    refine iInf_congr fun n => ?_
    congr 1
    · exact Fin.ext (by show (t.val - 15) / 16 % 8 = win1_5.index t (0 : Fin 3) * 1 + 1 * 0; omega)
    · exact Fin.ext (by show (y 2).val = win1_5.index t (2 : Fin 3) * 2048 + 1 * (y 2).val; omega)
  · have hi0 : (i 0).val < 8 := (i 0).isLt
    have hi1 : (i 1).val < 1 := (i 1).isLt
    have hi2 : (i 2).val < 2048 := (i 2).isLt
    have hlt : (i 0).val * 16 + 15 < cfg1.N := by rw [show cfg1.N = 128 from N_1]; omega
    obtain ⟨-, -, -, i0, i1, i2⟩ := idx1_out ⟨(i 0).val * 16 + 15, hlt⟩
    dsimp only at i0 i1 i2
    refine ⟨⟨(i 0).val * 16 + 15, hlt⟩, (flush1_5 _).mpr (by show ((i 0).val * 16 + 15) % 16 = 15; omega), ?_⟩
    show i ∈ ((View.whole main_v2_1).slice (win1_5.rect ⟨(i 0).val * 16 + 15, hlt⟩)).set
    rw [View.set_slice_whole, Rect.mem_set_unit]
    intro a
    match a with
    | ⟨0, _⟩ => show win1_5.index ⟨(i 0).val * 16 + 15, hlt⟩ (0 : Fin 3) * 1 ≤ (i 0).val ∧ (i 0).val < win1_5.index ⟨(i 0).val * 16 + 15, hlt⟩ (0 : Fin 3) * 1 + 1; omega
    | ⟨1, _⟩ => show win1_5.index ⟨(i 0).val * 16 + 15, hlt⟩ (1 : Fin 3) * 1 ≤ (i 1).val ∧ (i 1).val < win1_5.index ⟨(i 0).val * 16 + 15, hlt⟩ (1 : Fin 3) * 1 + 1; omega
    | ⟨2, _⟩ => show win1_5.index ⟨(i 0).val * 16 + 15, hlt⟩ (2 : Fin 3) * 2048 ≤ (i 2).val ∧ (i 2).val < win1_5.index ⟨(i 0).val * 16 + 15, hlt⟩ (2 : Fin 3) * 2048 + 2048; omega

end Cert.KernelIdeal.Hand

end
-- ==== Proof.KI.Bridge10.lean ====
/-
  The second result against the reference's: the kernel's 8×2048 vector of column minima (region 1's second result
  with its unit middle axis squeezed out) is, index by index, the least distance from a source point to that target
  point, which is what the reference's `min` over the source axis computes; the host operations after it are the
  same on both sides.
-/
import proofs.«161420_j81003083203706_2_alg».proof.Proof.KI.R1Col
import proofs.«161420_j81003083203706_2_alg».proof.Proof.KI.HostSide
import proofs.«161420_j81003083203706_2_alg».proof.Proof.RefSide

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ)

/-- Region 1's second result, squeezed, is the reference's vector of column minima. -/
theorem vec10_eq (c : Dev nD) :
    (fun j : S8x2048.Idx => E3 m c main_v2_1 (ix3 ⟨(j 0).val, (j 0).isLt⟩ 0 ⟨(j 1).val, (j 1).isLt⟩))
      = Cert.RefSide.T16 (m ((c : Thread nD τ).loc main_arg0)) (m ((c : Thread nD τ).loc main_arg1)) := by
  funext j
  have hj : j = ix2 ⟨(j 0).val, (j 0).isLt⟩ ⟨(j 1).val, (j 1).isLt⟩ := eq_ix2 j
  rw [show Cert.RefSide.T16 (m ((c : Thread nD τ).loc main_arg0)) (m ((c : Thread nD τ).loc main_arg1)) j
      = Cert.RefSide.T16 (m ((c : Thread nD τ).loc main_arg0)) (m ((c : Thread nD τ).loc main_arg1)) (ix2 ⟨(j 0).val, (j 0).isLt⟩ ⟨(j 1).val, (j 1).isLt⟩) from congrArg _ hj,
    Cert.RefSide.ref_dst2src]
  show W3 m c (Proc.devRef .tc (Pipeline.arrRef spec1 5)) _ = _
  rw [W3_arr m c 5, final1_5 (E2 m) c, E2_main_arg0, E2_main_arg1]
  rfl

end Cert.KernelIdeal.Hand

end
-- ==== Proof.KI.Results.lean ====
/-
  The two results of the idealized kernel, as the reference spells them: the mean of the row results and the
  mask-weighted mean of the column results are the same host operations on both sides, applied to vectors that agree
  index by index.
-/
import proofs.«161420_j81003083203706_2_alg».proof.Proof.KI.Bridge6
import proofs.«161420_j81003083203706_2_alg».proof.Proof.KI.Bridge10

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ)

theorem v6_eq (c : Dev nD) :
    (W4 m c (Proc.devRef .tc main_v6) : FVec Ideal S_ .f32)
      = Host.divf (F := Ideal) (Host.reduceAdd (F := Ideal) (Cert.RefSide.T15 (m ((c : Thread nD τ).loc main_arg0)) (m ((c : Thread nD τ).loc main_arg1)) (m ((c : Thread nD τ).loc main_arg2))) (constant (F := Ideal) S_ .f32 0x00000000#32) reducesTo_S8x2048_S_d0_1 h_S_) (constant (F := Ideal) S_ .f32 0x46800000#32) := by
  rw [W4_main_v6, vec6_eq]

theorem v10_eq (c : Dev nD) :
    (W4 m c (Proc.devRef .tc main_v10) : FVec Ideal S_ .f32)
      = Host.divf (F := Ideal) (Host.reduceAdd (F := Ideal) (mulf (F := Ideal) (Cert.RefSide.T16 (m ((c : Thread nD τ).loc main_arg0)) (m ((c : Thread nD τ).loc main_arg1))) (m ((c : Thread nD τ).loc main_arg2))) (constant (F := Ideal) S_ .f32 0x00000000#32) reducesTo_S8x2048_S_d0_1 h_S_) (Host.reduceAdd (F := Ideal) (m ((c : Thread nD τ).loc main_arg2)) (constant (F := Ideal) S_ .f32 0x00000000#32) reducesTo_S8x2048_S_d0_1 h_S_) := by
  rw [W4_main_v10, vec10_eq]

end Cert.KernelIdeal.Hand

end
-- ==== Proof.lean ====
/-
  The certificate of a masked Chamfer distance kernel against its plain reference.

  Both programs take a source and a target cloud (8 batch rows of 2048 points with 3 coordinates) and a mask over
  target points, and return two scalars: the mean over source points of the least masked distance to a target point,
  and the mask-weighted mean over target points of the least distance to a source point, the distance being the L1
  distance and the masking done by subtracting the mask times the largest distance before taking the least.
  The reference materialises the 8×2048×2048 distances; the kernel never does: one region sweeps the 4×4 tiles of
  every batch row keeping a running maximum, a second sweeps them again keeping running row and column minima, and a
  few host operations reduce the two results.

  * The three frames: each kernel region is a pipeline whose proof data names, point by point, what its result windows
    and its carried scratch buffers hold (K/, KI/: the runs of the body per case of the sweep, the invariant carrying
    the scratch, the body's obligation, the regions as segments of @main); the reference's is its run.
  * The idealization rewrote nothing: `preserves` is trivial.
  * The values, over the extended reals: the running maximum over the tiles is the supremum over all pairs
    (KI/R0Value), the running row minima over a sweep are the infimum over all target points (KI/R1Row), the running
    column minima over a batch row are the infimum over all source points (KI/R1Col) — suprema and infima regroup
    freely, no finiteness is used —, and the reference's reductions are the same suprema and infima (RefSide*).
-/
import proofs.«161420_j81003083203706_2_alg».proof.Defs
import proofs.«161420_j81003083203706_2_alg».proof.Proof.Gen.Kernel
import proofs.«161420_j81003083203706_2_alg».proof.Proof.Gen.KernelIdeal
import proofs.«161420_j81003083203706_2_alg».proof.Proof.Gen.ReferenceIdeal
import proofs.«161420_j81003083203706_2_alg».proof.Proof.Gen.Pre_finite_inputs
import proofs.«161420_j81003083203706_2_alg».proof.Proof.Gen.ReferenceIdeal.Run
import proofs.«161420_j81003083203706_2_alg».proof.Proof.Gen.ReferenceIdeal.Read
import proofs.«161420_j81003083203706_2_alg».proof.Proof.K.Frame
import proofs.«161420_j81003083203706_2_alg».proof.Proof.KI.Frame
import proofs.«161420_j81003083203706_2_alg».proof.Proof.KI.Results
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
/-- The reference has no kernel: its frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- At the extended reals both programs end with the same two scalars: the kernel's are read off the last fold of its
    run, the reference's off its run, and the two agree by the results' bridge once the arguments are identified. -/
theorem algebraic : Cert.algebraic_KernelIdeal_ReferenceIdeal := by
  intro m ρ m' ρ' _ hagree
  refine ⟨fun c => Cert.KernelIdeal.Hand.W4 m c (Proc.devRef .tc Cert.KernelIdeal.main_v6),
    fun c => Cert.KernelIdeal.Hand.W4 m c (Proc.devRef .tc Cert.KernelIdeal.main_v10), ?_, ?_⟩
  · exact (θ_run Cert.KernelIdeal.defs _ _).mono (fun r h c =>
      ⟨h c _ (Cert.KernelIdeal.Hand.mem_ucH Cert.KernelIdeal.main_v6 (by decide)),
       h c _ (Cert.KernelIdeal.Hand.mem_ucH Cert.KernelIdeal.main_v10 (by decide)),
       (h c _ (Cert.KernelIdeal.Hand.mem_ucH Cert.KernelIdeal.main_arg0 (by decide))).trans (Cert.KernelIdeal.Hand.W4_main_arg0 m c),
       (h c _ (Cert.KernelIdeal.Hand.mem_ucH Cert.KernelIdeal.main_arg1 (by decide))).trans (Cert.KernelIdeal.Hand.W4_main_arg1 m c),
       (h c _ (Cert.KernelIdeal.Hand.mem_ucH Cert.KernelIdeal.main_arg2 (by decide))).trans (Cert.KernelIdeal.Hand.W4_main_arg2 m c)⟩)
      (Cert.KernelIdeal.Hand.run_main m ρ)
  · refine (θ_run Cert.ReferenceIdeal.defs _ _).mono (fun r h c => ⟨(h c).1.trans ?_, (h c).2.1.trans ?_, (h c).2.2⟩)
      (Cert.ReferenceIdeal.Value.run (F := Ideal) m' ρ')
    · rw [(hagree c).1, (hagree c).2.1, (hagree c).2.2]
      exact (Cert.RefSide.run_v18_eq _ _ _).trans (Cert.KernelIdeal.Hand.v6_eq m c).symm
    · rw [(hagree c).1, (hagree c).2.1, (hagree c).2.2]
      exact (Cert.RefSide.run_v22_eq _ _ _).trans (Cert.KernelIdeal.Hand.v10_eq m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
